-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S640000 : Shape := ⟨1, ![640000]⟩
abbrev S40000x1 : Shape := ⟨2, ![40000, 1]⟩
abbrev S640000x1 : Shape := ⟨2, ![640000, 1]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S40000x1 : S_.BroadcastsInDim S40000x1 (![] : Fin 0 → Fin S40000x1.rank)
  reducesTo_S40000x1_S_d0_1 : S40000x1.ReducesTo [0, 1] S_
  bcast_S_S640000x1 : S_.BroadcastsInDim S640000x1 (![] : Fin 0 → Fin S640000x1.rank)
  reducesTo_S640000x1_S_d0_1 : S640000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128x128 .f32) (main_arg11 : FVec F S128 .f32) (main_arg12 : FVec F S128 .f32) (main_arg13 : FVec F S128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128x128 .f32) (main_arg7 : FVec F S128x128 .f32) (main_arg8 : FVec F S128x128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_v13 : IVec S_ 1) (main_v16 : IVec S640000x1 1) : IVec S_ 1 :=
  let main_c_5 : IVec S_ 1 := constantI S_ 1 1#1
  let main_v17 : IVec S_ 1 := (fun x v => Host.reduce IntOp.andi x v reducesTo_S640000x1_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S40000x128 .f32) (main_arg1 : FVec F S640000x128 .f32) (main_arg2 : IVec S640000 32) (main_arg3 : IVec S640000 32) (main_arg4 : FVec F S40000x1 .f32) (main_arg5 : FVec F S640000x1 .f32) (main_arg6 : FVec F S128x128 .f32) (main_arg7 : FVec F S128x128 .f32) (main_arg8 : FVec F S128x128 .f32) (main_arg9 : FVec F S128x128 .f32) (main_arg10 : FVec F S128x128 .f32) (main_arg11 : FVec F S128 .f32) (main_arg12 : FVec F S128 .f32) (main_arg13 : FVec F S128 .f32) (main_arg14 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S40000x1 .f32 := Host.absf main_arg4
  let main_cst_2 : FVec F S_ .f32 := constant S_ .f32 0x7F800000#32
  let main_v10 : FVec F S40000x1 .f32 := broadcastInDim S40000x1 ![] bcast_S_S40000x1 main_cst_2
  let main_v11 : IVec S40000x1 1 := cmpf .olt main_v9 main_v10
  let main_c_3 : IVec S_ 1 := constantI S_ 1 1#1
  let main_v12 : IVec S_ 1 := (fun x v => Host.reduce IntOp.andi x v reducesTo_S40000x1_S_d0_1 h_S_) main_v11 main_c_3
  let main_v13 : IVec S_ 1 := andi main_v8 main_v12
  let main_v14 : FVec F S640000x1 .f32 := Host.absf main_arg5
  let main_cst_4 : FVec F S_ .f32 := constant S_ .f32 0x7F800000#32
  let main_v15 : FVec F S640000x1 .f32 := broadcastInDim S640000x1 ![] bcast_S_S640000x1 main_cst_4
  let main_v16 : IVec S640000x1 1 := cmpf .olt main_v14 main_v15
  fn_part1 (F := F) main_arg6 main_arg7 main_arg8 main_arg9 main_arg10 main_arg11 main_arg12 main_arg13 main_arg14 main_v13 main_v16
-- ==== Kernel.lean ====
abbrev S40000x128 : Shape := ⟨2, ![40000, 128]⟩
abbrev S640000x128 : Shape := ⟨2, ![640000, 128]⟩
abbrev S640000 : Shape := ⟨1, ![640000]⟩
abbrev S40000x1 : Shape := ⟨2, ![40000, 1]⟩
abbrev S640000x1 : Shape := ⟨2, ![640000, 1]⟩
abbrev S128x128 : Shape := ⟨2, ![128, 128]⟩
abbrev S128 : Shape := ⟨1, ![128]⟩
abbrev S128x512 : Shape := ⟨2, ![128, 512]⟩
abbrev S40000x512 : Shape := ⟨2, ![40000, 512]⟩
abbrev S2000x128 : Shape := ⟨2, ![2000, 128]⟩
abbrev S2000x512 : Shape := ⟨2, ![2000, 512]⟩
abbrev S40000x256 : Shape := ⟨2, ![40000, 256]⟩
abbrev S_ : Shape := ⟨0, ![]⟩
abbrev S640000x256 : Shape := ⟨2, ![640000, 256]⟩
abbrev S160x1x128 : Shape := ⟨3, ![160, 1, 128]⟩
abbrev S4000x128 : Shape := ⟨2, ![4000, 128]⟩
abbrev S4000x1 : Shape := ⟨2, ![4000, 1]⟩
abbrev S1x1x128 : Shape := ⟨3, ![1, 1, 128]⟩
abbrev S1x128 : Shape := ⟨2, ![1, 128]⟩
abbrev S8x1x128 : Shape := ⟨3, ![8, 1, 128]⟩
abbrev S5000x128 : Shape := ⟨2, ![5000, 128]⟩
abbrev S5000x1 : Shape := ⟨2, ![5000, 1]⟩
abbrev S8000x128 : Shape := ⟨2, ![8000, 128]⟩

abbrev nBuf : Space → Nat
  | .hbm => 101
  | .vmem => 56
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S40000x1, .f32⟩
  | .hbm, ⟨5, _⟩ => ⟨S640000x1, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x512, .f32⟩
  | .hbm, ⟨16, _⟩ => ⟨S40000x512, .f32⟩
  | .hbm, ⟨17, _⟩ => ⟨S40000x128, .f32⟩
  | .hbm, ⟨18, _⟩ => ⟨S40000x128, .f32⟩
  | .hbm, ⟨19, _⟩ => ⟨S40000x128, .f32⟩
  | .hbm, ⟨20, _⟩ => ⟨S40000x128, .f32⟩
  | .hbm, ⟨21, _⟩ => ⟨S40000x128, .bf16⟩
  | .hbm, ⟨22, _⟩ => ⟨S40000x128, .bf16⟩
  | .hbm, ⟨23, _⟩ => ⟨S40000x128, .bf16⟩
  | .hbm, ⟨24, _⟩ => ⟨S40000x256, .bf16⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x256, .bf16⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .bf16⟩
  | .hbm, ⟨43, _⟩ => ⟨S640000x128, .bf16⟩
  | .hbm, ⟨44, _⟩ => ⟨S640000x128, .bf16⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S160x1x128, .f32⟩
  | .hbm, ⟨49, _⟩ => ⟨S160x1x128, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S_, .f32⟩
  | .hbm, ⟨57, _⟩ => ⟨S40000x128, .f32⟩
  | .hbm, ⟨58, _⟩ => ⟨S640000x1, .i32⟩
  | .hbm, ⟨59, _⟩ => ⟨S40000x128, .f32⟩
  | .hbm, ⟨60, _⟩ => ⟨S_, .f32⟩
  | .hbm, ⟨61, _⟩ => ⟨S40000x128, .f32⟩
  | .hbm, ⟨62, _⟩ => ⟨S640000x1, .i32⟩
  | .hbm, ⟨63, _⟩ => ⟨S40000x128, .f32⟩
  | .hbm, ⟨64, _⟩ => ⟨S40000x128, .f32⟩
  | .hbm, ⟨65, _⟩ => ⟨S8x1x128, .f32⟩
  | .hbm, ⟨66, _⟩ => ⟨S8x1x128, .f32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S_, .f32⟩
  | .hbm, ⟨85, _⟩ => ⟨S1x128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S40000x128, .f32⟩
  | .hbm, ⟨100, _⟩ => ⟨S640000x128, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S2000x512, .f32⟩
  | .local _ .vmem, ⟨4, _⟩ => ⟨S2000x512, .f32⟩
  | .local _ .vmem, ⟨5, _⟩ => ⟨S4000x128, .f32⟩
  | .local _ .vmem, ⟨6, _⟩ => ⟨S4000x128, .f32⟩
  | .local _ .vmem, ⟨7, _⟩ => ⟨S128x128, .f32⟩
  | .local _ .vmem, ⟨8, _⟩ => ⟨S4000x128, .bf16⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .bf16⟩
  | .local _ .vmem, ⟨14, _⟩ => ⟨S4000x1, .f32⟩
  | .local _ .vmem, ⟨15, _⟩ => ⟨S4000x1, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S5000x128, .f32⟩
  | .local _ .vmem, ⟨35, _⟩ => ⟨S5000x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S8000x128, .f32⟩
  | .local _ .vmem, ⟨41, _⟩ => ⟨S8000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S8000x128, .f32⟩
  | .local _ .vmem, ⟨47, _⟩ => ⟨S8000x128, .f32⟩
  | .local _ .vmem, ⟨48, _⟩ => ⟨S8000x128, .f32⟩
  | .local _ .vmem, ⟨49, _⟩ => ⟨S8000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S8000x128, .f32⟩
  | .local _ .vmem, ⟨55, _⟩ => ⟨S8000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_v26_3 : Ref sig .tc := ⟨.hbm, 48, rfl⟩
abbrev main_v26_4 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37_0 : Ref sig .tc := ⟨.hbm, 64, rfl⟩
abbrev main_v37_1 : Ref sig .tc := ⟨.hbm, 65, rfl⟩
abbrev main_v37_2 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_v49 : Ref sig .tc := ⟨.hbm, 83, rfl⟩
abbrev main_cst_11 : Ref sig .tc := ⟨.hbm, 84, rfl⟩
abbrev main_v50 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_13 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem6_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem5_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  concatenates_S128x128_S128x128_S128x128_S128x128_S128x512_d1 : Shape.Concatenates [S128x128, S128x128, S128x128, S128x128] S128x512 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x512_S2000x512_0_0 : ∀ a, (![0, 0] : Fin 2 → Nat) a + S2000x512.size a ≤ S2000x512.size a
  h_S2000x512 : 0 < S2000x512.numel
  slices_S40000x512_S40000x128_0_0 : S40000x512.Slices ![0, 0] S40000x128
  slices_S40000x512_S40000x128_0_128 : S40000x512.Slices ![0, 128] S40000x128
  slices_S40000x512_S40000x128_0_256 : S40000x512.Slices ![0, 256] S40000x128
  slices_S40000x512_S40000x128_0_384 : S40000x512.Slices ![0, 384] S40000x128
  concatenates_S40000x128_S40000x128_S40000x256_d1 : Shape.Concatenates [S40000x128, S40000x128] S40000x256 1
  bcast_S_S640000 : S_.BroadcastsInDim S640000 (![] : Fin 0 → Fin S640000.rank)
  bcast_S640000_S640000x1_0 : S640000.BroadcastsInDim S640000x1 (![0] : Fin 1 → Fin S640000x1.rank)
  slices_S640000x256_S640000x128_0_0 : S640000x256.Slices ![0, 0] S640000x128
  slices_S640000x256_S640000x128_0_128 : S640000x256.Slices ![0, 128] S640000x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  reduces_S4000x128_S128 : S4000x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S160x1x128_S128_d0_1 : S160x1x128.ReducesTo [0, 1] S128
  h_S_ : 0 < S_.numel
  bcast_S_S40000x128 : S_.BroadcastsInDim S40000x128 (![] : Fin 0 → Fin S40000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reduces_S5000x128_S128 : S5000x128.Reduces [0] S128
  reducesTo_S8x1x128_S128_d0_1 : S8x1x128.ReducesTo [0, 1] S128
  bcast_S_S1x128 : S_.BroadcastsInDim S1x128 (![] : Fin 0 → Fin S1x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  dot_S2000x128_S128x512_S2000x512_1_0_0_1_n_n_wf : DotDims.WF S2000x128 S128x512 S2000x512 [1] [0] [0] [1] [] []
  gather_S40000x256_S640000x1_S640000x256_1_0_n_n_0_1_1256_wf : GatherDims.WF S40000x256 S640000x1 S640000x256 [1] [0] [] [0] [] 1 ![1, 256]
  gather_S40000x128_S640000x1_S640000x128_1_0_n_n_0_1_1128_wf : GatherDims.WF S40000x128 S640000x1 S640000x128 [1] [0] [] [0] [] 1 ![1, 128]
  dot_S4000x128_S128x128_S4000x128_1_0_0_1_n_n_wf : DotDims.WF S4000x128 S128x128 S4000x128 [1] [0] [0] [1] [] []
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S40000x512.size a
  hwx0_2 : ∀ i : grid0.Coords, EltTy.bits .f32 = 32 ∨ (Rect.block (s := S40000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S640000x128.size a
  hwx1_2 : ∀ i : grid1.Coords, EltTy.bits .bf16 = 32 ∨ (Rect.block (s := S640000x128) S4000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S640000x128.size a
  hwx1_3 : ∀ i : grid1.Coords, EltTy.bits .bf16 = 32 ∨ (Rect.block (s := S640000x128) S4000x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S640000x128.size a
  hwx1_4 : ∀ i : grid1.Coords, EltTy.bits .bf16 = 32 ∨ (Rect.block (s := S640000x128) S4000x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S640000x1.size a
  hwx1_5 : ∀ i : grid1.Coords, EltTy.bits .f32 = 32 ∨ (Rect.block (s := S640000x1) S4000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S640000x128.size a
  hwx1_6 : ∀ i : grid1.Coords, EltTy.bits .f32 = 32 ∨ (Rect.block (s := S640000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S640000x128.size a
  hwx1_7 : ∀ i : grid1.Coords, EltTy.bits .f32 = 32 ∨ (Rect.block (s := S640000x128) S4000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S640000x128.size a
  hwx1_8 : ∀ i : grid1.Coords, EltTy.bits .f32 = 32 ∨ (Rect.block (s := S640000x128) S4000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x128.size a ≤ S160x1x128.size a
  hwx1_9 : ∀ i : grid1.Coords, EltTy.bits .f32 = 32 ∨ (Rect.block (s := S160x1x128) S1x1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x128.size a ≤ S160x1x128.size a
  hwx1_10 : ∀ i : grid1.Coords, EltTy.bits .f32 = 32 ∨ (Rect.block (s := S160x1x128) S1x1x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S40000x128.size a
  hwx2_2 : ∀ i : grid2.Coords, EltTy.bits .f32 = 32 ∨ (Rect.block (s := S40000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S40000x1.size a
  hwx2_3 : ∀ i : grid2.Coords, EltTy.bits .f32 = 32 ∨ (Rect.block (s := S40000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S40000x128.size a
  hwx2_4 : ∀ i : grid2.Coords, EltTy.bits .f32 = 32 ∨ (Rect.block (s := S40000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S8x1x128.size a
  hwx2_5 : ∀ i : grid2.Coords, EltTy.bits .f32 = 32 ∨ (Rect.block (s := S8x1x128) S1x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S8x1x128.size a
  hwx2_6 : ∀ i : grid2.Coords, EltTy.bits .f32 = 32 ∨ (Rect.block (s := S8x1x128) S1x1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S40000x128.size a
  hwx3_0 : ∀ i : grid3.Coords, EltTy.bits .f32 = 32 ∨ (Rect.block (s := S40000x128) S8000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x128.size a ≤ S40000x128.size a
  hwx3_5 : ∀ i : grid3.Coords, EltTy.bits .f32 = 32 ∨ (Rect.block (s := S40000x128) S8000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S640000x128.size a
  hwx4_0 : ∀ i : grid4.Coords, EltTy.bits .f32 = 32 ∨ (Rect.block (s := S640000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x128.size a ≤ S640000x128.size a
  hwx4_5 : ∀ i : grid4.Coords, EltTy.bits .f32 = 32 ∨ (Rect.block (s := S640000x128) S8000x128.size (cc4_transform_5 i) (hinb4_5 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S4000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_1) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v26_2) S4000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v26_3) S1x1x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v26_4) S1x1x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v2) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37_1) S1x1x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v37_2) S1x1x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v37_0) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S8000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v26_0) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S8000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S640000 : Shape := ⟨1, ![640000]⟩
abbrev S40000x1 : Shape := ⟨2, ![40000, 1]⟩
abbrev S640000x1 : Shape := ⟨2, ![640000, 1]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 142
  | .vmem => 0
  | .smem => 0
  | _ => 0

abbrev hbmTy0_0 (i : Nat) : BufTy := match i % 128 with
  | 0 => ⟨S40000x128, .f32⟩
  | 1 => ⟨S640000x128, .f32⟩
  | 2 => ⟨S640000, .i32⟩
  | 3 => ⟨S640000, .i32⟩
  | 4 => ⟨S40000x1, .f32⟩
  | 5 => ⟨S640000x1, .f32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128, .f32⟩
  | 12 => ⟨S128, .f32⟩
  | 13 => ⟨S128, .f32⟩
  | 14 => ⟨S128, .f32⟩
  | 15 => ⟨S40000x128, .f32⟩
  | 16 => ⟨S40000x128, .f32⟩
  | 17 => ⟨S40000x128, .f32⟩
  | 18 => ⟨S40000x128, .f32⟩
  | 19 => ⟨S640000x128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S640000x128, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x128, .f32⟩
  | 39 => ⟨S640000x128, .f32⟩
  | 40 => ⟨S_, .f32⟩
  | 41 => ⟨S640000x128, .f32⟩
  | 42 => ⟨S640000x128, .f32⟩
  | 43 => ⟨S640000x128, .f32⟩
  | 44 => ⟨S640000x128, .f32⟩
  | 45 => ⟨S_, .f32⟩
  | 46 => ⟨S640000x128, .f32⟩
  | 47 => ⟨S640000x128, .f32⟩
  | 48 => ⟨S_, .f32⟩
  | 49 => ⟨S640000x128, .f32⟩
  | 50 => ⟨S640000x128, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x128, .f32⟩
  | 61 => ⟨S_, .f32⟩
  | 62 => ⟨S40000x128, .f32⟩
  | 63 => ⟨S640000x1, .i32⟩
  | 64 => ⟨S40000x128, .f32⟩
  | 65 => ⟨S_, .f32⟩
  | 66 => ⟨S40000x128, .f32⟩
  | 67 => ⟨S640000x1, .i32⟩
  | 68 => ⟨S40000x128, .f32⟩
  | 69 => ⟨S_, .f32⟩
  | 70 => ⟨S40000x128, .f32⟩
  | 71 => ⟨S40000x128, .f32⟩
  | 72 => ⟨S40000x128, .f32⟩
  | 73 => ⟨S40000x128, .f32⟩
  | 74 => ⟨S40000x128, .f32⟩
  | 75 => ⟨S40000x128, .f32⟩
  | 76 => ⟨S640000x128, .f32⟩
  | 77 => ⟨S640000x128, .f32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S40000x128, .f32⟩
  | 85 => ⟨S40000x128, .f32⟩
  | 86 => ⟨S40000x128, .f32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S40000x128, .f32⟩
  | 94 => ⟨S40000x128, .f32⟩
  | 95 => ⟨S_, .f32⟩
  | 96 => ⟨S1x128, .f32⟩
  | 97 => ⟨S1x128, .f32⟩
  | 98 => ⟨S1x128, .f32⟩
  | 99 => ⟨S40000x128, .f32⟩
  | 100 => ⟨S40000x128, .f32⟩
  | 101 => ⟨S1x128, .f32⟩
  | 102 => ⟨S40000x128, .f32⟩
  | 103 => ⟨S40000x128, .f32⟩
  | 104 => ⟨S1x128, .f32⟩
  | 105 => ⟨S40000x128, .f32⟩
  | 106 => ⟨S40000x128, .f32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S640000x128, .f32⟩
  | 114 => ⟨S640000x128, .f32⟩
  | 115 => ⟨S640000x128, .f32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S640000x128, .f32⟩
  | 123 => ⟨S640000x128, .f32⟩
  | 124 => ⟨S_, .f32⟩
  | 125 => ⟨S1x128, .f32⟩
  | 126 => ⟨S1x128, .f32⟩
  | 127 => ⟨S1x128, .f32⟩
  | _ => ⟨S40000x128, .f32⟩

abbrev hbmTy0_1 (i : Nat) : BufTy := match i % 128 with
  | 0 => ⟨S640000x128, .f32⟩
  | 1 => ⟨S640000x128, .f32⟩
  | 2 => ⟨S1x128, .f32⟩
  | 3 => ⟨S640000x128, .f32⟩
  | 4 => ⟨S640000x128, .f32⟩
  | 5 => ⟨S1x128, .f32⟩
  | 6 => ⟨S640000x128, .f32⟩
  | 7 => ⟨S640000x128, .f32⟩
  | 8 => ⟨S_, .f32⟩
  | 9 => ⟨S40000x128, .f32⟩
  | 10 => ⟨S40000x128, .f32⟩
  | 11 => ⟨S_, .f32⟩
  | 12 => ⟨S640000x128, .f32⟩
  | 13 => ⟨S640000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call0_cst : Ref sig .tc := ⟨.hbm, 40, rfl⟩
abbrev main_call0_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_call1_cst : Ref sig .tc := ⟨.hbm, 136, rfl⟩
abbrev main_call1_v0 : Ref sig .tc := ⟨.hbm, 137, rfl⟩
abbrev main_v98 : Ref sig .tc := ⟨.hbm, 138, rfl⟩
abbrev main_call2_cst : Ref sig .tc := ⟨.hbm, 139, rfl⟩
abbrev main_call2_v0 : Ref sig .tc := ⟨.hbm, 140, rfl⟩
abbrev main_v99 : Ref sig .tc := ⟨.hbm, 141, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  bcast_S640000x1_S640000x128_0_1 : S640000x1.BroadcastsInDim S640000x128 (![0, 1] : Fin 2 → Fin S640000x128.rank)
  reducesTo_S40000x128_S128_d0 : S40000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S40000x128_0_1 : S1x128.BroadcastsInDim S40000x128 (![0, 1] : Fin 2 → Fin S40000x128.rank)
  reducesTo_S640000x128_S128_d0 : S640000x128.ReducesTo [0] S128
  bcast_S1x128_S640000x128_0_1 : S1x128.BroadcastsInDim S640000x128 (![0, 1] : Fin 2 → Fin S640000x128.rank)
  dot_S40000x128_S128x128_S40000x128_1_0_0_1_n_n_wf : DotDims.WF S40000x128 S128x128 S40000x128 [1] [0] [0] [1] [] []
  dot_S640000x128_S128x128_S640000x128_1_0_0_1_n_n_wf : DotDims.WF S640000x128 S128x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.Kernel.Stage0.lean ====
/-
  The node projection stage, one grid point at a time. The grid has twenty points; point t works on rows
  2000·t … 2000·t + 1999 of the node features. At every point the body reads a 2000×128 block of node
  features and the whole 128×512 matrix of the four projection weights laid side by side, and overwrites
  its 2000×512 output block with their matrix product. Nothing is carried from one point to the next, so
  what the output block holds after a point is a function of the two input blocks alone.

  Everything here is stated for an arbitrary reading of floats and for arbitrary contents `V` of the
  buffers at the moment the stage starts.
-/
import proofs.«102085_j69784628625690_2_alg».proof.Proof.Gen.Kernel.Launch
import proofs.«102085_j69784628625690_2_alg».proof.Proof.Gen.Kernel.Skeleton
import proofs.«102085_j69784628625690_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Read operand 0's window holds its block whenever the body starts — brought in at that point, or still there
    from an earlier point because the block did not move — for any bookkeeping of the stage that takes the array
    from `V` and says the body leaves the block alone. -/
theorem in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Read operand 1's window holds its block whenever the body starts — brought in at that point, or still there
    from an earlier point because the block did not move — for any bookkeeping of the stage that takes the array
    from `V` and says the body leaves the block alone. -/
theorem in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Each window is read or written as one whole box. -/
abbrev box0_0 : Rect S2000x128 := Rect.unit (s := S2000x128) ![0, 0] S2000x128.size inb_S2000x128_S2000x128_0_0
abbrev box0_1 : Rect S128x512 := Rect.unit (s := S128x512) ![0, 0] S128x512.size inb_S128x512_S128x512_0_0
abbrev box0_2 : Rect S2000x512 := Rect.unit (s := S2000x512) ![0, 0] S2000x512.size inb_S2000x512_S2000x512_0_0

/-- What written operand 2's window holds after the body, as a function of the blocks read: one store over the whole box. -/
def res0_2 (x0 : Vec F S2000x128 .f32) (x1 : Vec F S128x512 .f32) : Vec F S2000x512 .f32 :=
  View.canon [⟨box0_2, k0_pay1 (View.ld x0 box0_0) (View.ld x1 box0_1)⟩]
/-- That one store reaches every entry of the window. -/
theorem res0_2_reaches (p : Vec F S2000x512 .f32) (y : S2000x512.Idx) :
    ∃ pc ∈ ([⟨box0_2, p⟩] : List (View.Piece (Elt F) S2000x512 .f32)), y ∈ pc.1.set :=
  View.cover_of_tiled [⟨box0_2, p⟩] S2000x512.size (by rfl) y

set_option maxHeartbeats 4000000 in
/-- The body on whole buffers: started with the read blocks in the read windows and anything in the written ones, it
    ends with the read windows untouched and each written window at its function of the read blocks. -/
theorem body0 (c : Dev nD) (E : Set ℕ) (i : grid0.Coords) (a0 : Memref sig .tc .vmem S2000x128 .f32) (h0 : a0.IsWhole) (a1 : Memref sig .tc .vmem S128x512 .f32) (h1 : a1.IsWhole) (a2 : Memref sig .tc .vmem S2000x512 .f32) (h2 : a2.IsWhole)
    (x0 : Vec F S2000x128 .f32) (x1 : Vec F S128x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res0_2 x0 x1)) -∗ K ⟨⟩))
      ⊢ wp frame (wpE (defs₀ (F := F)) Variants.none c none) E (cc0__node_matmul_kernel i a0 h0 a1 h1 a2 h2) K := by
  simp only [cc0__node_matmul_kernel_eq_skeleton]; unfold cc0__node_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res0_2_reaches _)

/-- The stage's bookkeeping on core `c`: the arrays are `V`'s; after point `t` each read window still holds its block
    and each written window holds its function of the read blocks; nothing else is kept and nothing is owed. -/
def book0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0_2 (blk0 V c 0 t) (blk0 V c 1 t)
  Φ _ := Pipeline.ΦA spec0 c
  q _ := fullShare
  owed _ := 0

theorem book0_A (c : Dev nD) (w : Fin cfg0.W) : (book0 V c).A w = V c (Pipeline.arrRef spec0 w) := by
  dsimp only [book0]
theorem book0_after0 (c : Dev nD) (t : Fin cfg0.N) : (book0 V c).after 0 t = blk0 V c 0 t := by dsimp only [book0]
theorem book0_after1 (c : Dev nD) (t : Fin cfg0.N) : (book0 V c).after 1 t = blk0 V c 1 t := by dsimp only [book0]
theorem book0_after2 (c : Dev nD) (t : Fin cfg0.N) : (book0 V c).after 2 t = res0_2 (blk0 V c 0 t) (blk0 V c 1 t) := by dsimp only [book0]
theorem book0_before0 (c : Dev nD) (t : Fin cfg0.N) (d) : (book0 V c).before 0 t d = blk0 V c 0 t :=
  in0_0_of V (book0 V c) (book0_A V c 0) (book0_after0 V c) t d
theorem book0_before1 (c : Dev nD) (t : Fin cfg0.N) (d) : (book0 V c).before 1 t d = blk0 V c 1 t :=
  in0_1_of V (book0 V c) (book0_A V c 1) (book0_after1 V c) t d

/-- What the body is handed at point `t`, window by window, -/
def given0 (c : Dev nD) (t : Fin cfg0.N) : sProp 𝕄 :=
  iprop((book0 V c).Φ t.castSucc ∗ (book0 V c).owesAt () t.castSucc
    ∗ (∃ d, owns (c : Thread nD τ) (st0_0 t) fullShare ((book0 V c).before 0 t d))
    ∗ (∃ d, owns (c : Thread nD τ) (st0_1 t) fullShare ((book0 V c).before 1 t d))
    ∗ (∃ d, owns (c : Thread nD τ) (st0_2 t) fullShare ((book0 V c).before 2 t d)))

/-- and what it hands back. -/
def left0 (c : Dev nD) (t : Fin cfg0.N) : sProp 𝕄 :=
  iprop((book0 V c).Φ t.succ ∗ (book0 V c).owesAt () t.succ
    ∗ owns (c : Thread nD τ) (st0_0 t) fullShare ((book0 V c).after 0 t)
    ∗ owns (c : Thread nD τ) (st0_1 t) fullShare ((book0 V c).after 1 t)
    ∗ owns (c : Thread nD τ) (st0_2 t) fullShare ((book0 V c).after 2 t))

theorem point0 (c : Dev nD) (t : Fin cfg0.N) :
    given0 V c t ⊢ wp frame (wpE (defs₀ (F := F)) Variants.none c none) Set.univ (bodyAt0 t) (fun _ => left0 V c t) := by
  unfold given0 left0 bodyAt0
  simp only [book0_before0, book0_before1]
  rw [show (book0 V c).Φ t.succ = (book0 V c).Φ t.castSucc from rfl,
    show (book0 V c).owesAt () t.succ = (book0 V c).owesAt () t.castSucc from rfl,
    book0_after0, book0_after1, book0_after2]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body does at every point what the bookkeeping says. -/
theorem duty0 (c : Dev nD) : BodyObligation (book0 (F := F) V c) (defs₀ (F := F)) Variants.none () Set.univ := fun t => by
  rw [bigSep_W0, bigSep_W0]
  exact point0 V c t

end Cert.Kernel.Stage

end
-- ==== Proof.Kernel.Stage1.lean ====
/-
  The edge gate stage, one grid point at a time. The grid has 160 points; point t works on edges
  4000·t … 4000·t + 3999. At every point the body reads a block of edge features, the 128×128 edge weight
  matrix, the three blocks of node projections gathered along the edges (by source, by destination, by source),
  and a column of per-edge scale factors. It writes five blocks: the gated edge feature
  max(e·W + d + g, 0) scaled by the factor, the gate 1/(1+exp(−max(e·W + d + g, 0))), the gate times the
  third gathered block, and, in two 1×1×128 rows, the column sums over the block's 4000 rows of the first
  output and of its square. Nothing is carried from one point to the next.

  Everything here is stated for an arbitrary reading of floats and for arbitrary contents `V` of the
  buffers at the moment the stage starts.
-/
import proofs.«102085_j69784628625690_2_alg».proof.Proof.Gen.Kernel.Launch
import proofs.«102085_j69784628625690_2_alg».proof.Proof.Gen.Kernel.Skeleton
import proofs.«102085_j69784628625690_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Read operand 0's window holds its block whenever the body starts — brought in at that point, or still there
    from an earlier point because the block did not move — for any bookkeeping of the stage that takes the array
    from `V` and says the body leaves the block alone. -/
theorem in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Read operand 1's window holds its block whenever the body starts — brought in at that point, or still there
    from an earlier point because the block did not move — for any bookkeeping of the stage that takes the array
    from `V` and says the body leaves the block alone. -/
theorem in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Read operand 2's window holds its block whenever the body starts — brought in at that point, or still there
    from an earlier point because the block did not move — for any bookkeeping of the stage that takes the array
    from `V` and says the body leaves the block alone. -/
theorem in1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Read operand 3's window holds its block whenever the body starts — brought in at that point, or still there
    from an earlier point because the block did not move — for any bookkeeping of the stage that takes the array
    from `V` and says the body leaves the block alone. -/
theorem in1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Read operand 4's window holds its block whenever the body starts — brought in at that point, or still there
    from an earlier point because the block did not move — for any bookkeeping of the stage that takes the array
    from `V` and says the body leaves the block alone. -/
theorem in1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Read operand 5's window holds its block whenever the body starts — brought in at that point, or still there
    from an earlier point because the block did not move — for any bookkeeping of the stage that takes the array
    from `V` and says the body leaves the block alone. -/
theorem in1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Each window is read or written as one whole box. -/
abbrev box1_0 : Rect S4000x128 := Rect.unit (s := S4000x128) ![0, 0] S4000x128.size inb_S4000x128_S4000x128_0_0
abbrev box1_1 : Rect S128x128 := Rect.unit (s := S128x128) ![0, 0] S128x128.size inb_S128x128_S128x128_0_0
abbrev box1_2 : Rect S4000x128 := Rect.unit (s := S4000x128) ![0, 0] S4000x128.size inb_S4000x128_S4000x128_0_0
abbrev box1_3 : Rect S4000x128 := Rect.unit (s := S4000x128) ![0, 0] S4000x128.size inb_S4000x128_S4000x128_0_0
abbrev box1_4 : Rect S4000x128 := Rect.unit (s := S4000x128) ![0, 0] S4000x128.size inb_S4000x128_S4000x128_0_0
abbrev box1_5 : Rect S4000x1 := Rect.unit (s := S4000x1) ![0, 0] S4000x1.size inb_S4000x1_S4000x1_0_0
abbrev box1_6 : Rect S4000x128 := Rect.unit (s := S4000x128) ![0, 0] S4000x128.size inb_S4000x128_S4000x128_0_0
abbrev box1_7 : Rect S4000x128 := Rect.unit (s := S4000x128) ![0, 0] S4000x128.size inb_S4000x128_S4000x128_0_0
abbrev box1_8 : Rect S4000x128 := Rect.unit (s := S4000x128) ![0, 0] S4000x128.size inb_S4000x128_S4000x128_0_0
abbrev box1_9 : Rect S1x1x128 := Rect.unit (s := S1x1x128) ![0, 0, 0] S1x1x128.size inb_S1x1x128_S1x1x128_0_0_0
abbrev box1_10 : Rect S1x1x128 := Rect.unit (s := S1x1x128) ![0, 0, 0] S1x1x128.size inb_S1x1x128_S1x1x128_0_0_0

/-- What written operand 6's window holds after the body, as a function of the blocks read: one store over the whole box. -/
def res1_6 (x0 : Vec F S4000x128 .f32) (x1 : Vec F S128x128 .f32) (x2 : Vec F S4000x128 .bf16) (x3 : Vec F S4000x128 .bf16) (x4 : Vec F S4000x128 .bf16) (x5 : Vec F S4000x1 .f32) : Vec F S4000x128 .f32 :=
  View.canon [⟨box1_6, k1_pay5 (View.ld x0 box1_0) (View.ld x1 box1_1) (View.ld x2 box1_2) (View.ld x3 box1_3) (View.ld x5 box1_5)⟩]
/-- That one store reaches every entry of the window. -/
theorem res1_6_reaches (p : Vec F S4000x128 .f32) (y : S4000x128.Idx) :
    ∃ pc ∈ ([⟨box1_6, p⟩] : List (View.Piece (Elt F) S4000x128 .f32)), y ∈ pc.1.set :=
  View.cover_of_tiled [⟨box1_6, p⟩] S4000x128.size (by rfl) y

/-- What written operand 7's window holds after the body, as a function of the blocks read: one store over the whole box. -/
def res1_7 (x0 : Vec F S4000x128 .f32) (x1 : Vec F S128x128 .f32) (x2 : Vec F S4000x128 .bf16) (x3 : Vec F S4000x128 .bf16) (x4 : Vec F S4000x128 .bf16) (x5 : Vec F S4000x1 .f32) : Vec F S4000x128 .f32 :=
  View.canon [⟨box1_7, k1_pay3 (View.ld x0 box1_0) (View.ld x1 box1_1) (View.ld x2 box1_2) (View.ld x3 box1_3)⟩]
/-- That one store reaches every entry of the window. -/
theorem res1_7_reaches (p : Vec F S4000x128 .f32) (y : S4000x128.Idx) :
    ∃ pc ∈ ([⟨box1_7, p⟩] : List (View.Piece (Elt F) S4000x128 .f32)), y ∈ pc.1.set :=
  View.cover_of_tiled [⟨box1_7, p⟩] S4000x128.size (by rfl) y

/-- What written operand 8's window holds after the body, as a function of the blocks read: one store over the whole box. -/
def res1_8 (x0 : Vec F S4000x128 .f32) (x1 : Vec F S128x128 .f32) (x2 : Vec F S4000x128 .bf16) (x3 : Vec F S4000x128 .bf16) (x4 : Vec F S4000x128 .bf16) (x5 : Vec F S4000x1 .f32) : Vec F S4000x128 .f32 :=
  View.canon [⟨box1_8, k1_pay4 (View.ld x0 box1_0) (View.ld x1 box1_1) (View.ld x2 box1_2) (View.ld x3 box1_3) (View.ld x4 box1_4)⟩]
/-- That one store reaches every entry of the window. -/
theorem res1_8_reaches (p : Vec F S4000x128 .f32) (y : S4000x128.Idx) :
    ∃ pc ∈ ([⟨box1_8, p⟩] : List (View.Piece (Elt F) S4000x128 .f32)), y ∈ pc.1.set :=
  View.cover_of_tiled [⟨box1_8, p⟩] S4000x128.size (by rfl) y

/-- What written operand 9's window holds after the body, as a function of the blocks read: one store over the whole box. -/
def res1_9 (x0 : Vec F S4000x128 .f32) (x1 : Vec F S128x128 .f32) (x2 : Vec F S4000x128 .bf16) (x3 : Vec F S4000x128 .bf16) (x4 : Vec F S4000x128 .bf16) (x5 : Vec F S4000x1 .f32) : Vec F S1x1x128 .f32 :=
  View.canon [⟨box1_9, k1_pay6 (View.ld x0 box1_0) (View.ld x1 box1_1) (View.ld x2 box1_2) (View.ld x3 box1_3) (View.ld x5 box1_5)⟩]
/-- That one store reaches every entry of the window. -/
theorem res1_9_reaches (p : Vec F S1x1x128 .f32) (y : S1x1x128.Idx) :
    ∃ pc ∈ ([⟨box1_9, p⟩] : List (View.Piece (Elt F) S1x1x128 .f32)), y ∈ pc.1.set :=
  View.cover_of_tiled [⟨box1_9, p⟩] S1x1x128.size (by rfl) y

/-- What written operand 10's window holds after the body, as a function of the blocks read: one store over the whole box. -/
def res1_10 (x0 : Vec F S4000x128 .f32) (x1 : Vec F S128x128 .f32) (x2 : Vec F S4000x128 .bf16) (x3 : Vec F S4000x128 .bf16) (x4 : Vec F S4000x128 .bf16) (x5 : Vec F S4000x1 .f32) : Vec F S1x1x128 .f32 :=
  View.canon [⟨box1_10, k1_pay1 (k1_pay5 (View.ld x0 box1_0) (View.ld x1 box1_1) (View.ld x2 box1_2) (View.ld x3 box1_3) (View.ld x5 box1_5))⟩]
/-- That one store reaches every entry of the window. -/
theorem res1_10_reaches (p : Vec F S1x1x128 .f32) (y : S1x1x128.Idx) :
    ∃ pc ∈ ([⟨box1_10, p⟩] : List (View.Piece (Elt F) S1x1x128 .f32)), y ∈ pc.1.set :=
  View.cover_of_tiled [⟨box1_10, p⟩] S1x1x128.size (by rfl) y

set_option maxHeartbeats 4000000 in
/-- The body on whole buffers: started with the read blocks in the read windows and anything in the written ones, it
    ends with the read windows untouched and each written window at its function of the read blocks. -/
theorem body1 (c : Dev nD) (E : Set ℕ) (i : grid1.Coords) (a0 : Memref sig .tc .vmem S4000x128 .f32) (h0 : a0.IsWhole) (a1 : Memref sig .tc .vmem S128x128 .f32) (h1 : a1.IsWhole) (a2 : Memref sig .tc .vmem S4000x128 .bf16) (h2 : a2.IsWhole) (a3 : Memref sig .tc .vmem S4000x128 .bf16) (h3 : a3.IsWhole) (a4 : Memref sig .tc .vmem S4000x128 .bf16) (h4 : a4.IsWhole) (a5 : Memref sig .tc .vmem S4000x1 .f32) (h5 : a5.IsWhole) (a6 : Memref sig .tc .vmem S4000x128 .f32) (h6 : a6.IsWhole) (a7 : Memref sig .tc .vmem S4000x128 .f32) (h7 : a7.IsWhole) (a8 : Memref sig .tc .vmem S4000x128 .f32) (h8 : a8.IsWhole) (a9 : Memref sig .tc .vmem S1x1x128 .f32) (h9 : a9.IsWhole) (a10 : Memref sig .tc .vmem S1x1x128 .f32) (h10 : a10.IsWhole)
    (x0 : Vec F S4000x128 .f32) (x1 : Vec F S128x128 .f32) (x2 : Vec F S4000x128 .bf16) (x3 : Vec F S4000x128 .bf16) (x4 : Vec F S4000x128 .bf16) (x5 : Vec F S4000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (res1_6 x0 x1 x2 x3 x4 x5) ∗ owns (c : Thread nD τ) a7 fullShare (res1_7 x0 x1 x2 x3 x4 x5) ∗ owns (c : Thread nD τ) a8 fullShare (res1_8 x0 x1 x2 x3 x4 x5) ∗ owns (c : Thread nD τ) a9 fullShare (res1_9 x0 x1 x2 x3 x4 x5) ∗ owns (c : Thread nD τ) a10 fullShare (res1_10 x0 x1 x2 x3 x4 x5)) -∗ K ⟨⟩))
      ⊢ wp frame (wpE (defs₀ (F := F)) Variants.none c none) E (cc1__edge_gate_kernel i a0 h0 a1 h1 a2 h2 a3 h3 a4 h4 a5 h5 a6 h6 a7 h7 a8 h8 a9 h9 a10 h10) K := by
  simp only [cc1__edge_gate_kernel_eq_skeleton]; unfold cc1__edge_gate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (res1_6_reaches _)
  isplitl [H7]
  · iexists _; isplitr
    swap; · iexact H7
    ipureintro
    exact View.read_writes_eq_canon _ _ _ (res1_7_reaches _)
  isplitl [H8]
  · iexists _; isplitr
    swap; · iexact H8
    ipureintro
    exact View.read_writes_eq_canon _ _ _ (res1_8_reaches _)
  isplitl [H9]
  · iexists _; isplitr
    swap; · iexact H9
    ipureintro
    exact View.read_writes_eq_canon _ _ _ (res1_9_reaches _)
  iexists _; isplitr
  swap; · iexact H10
  ipureintro
  exact View.read_writes_eq_canon _ _ _ (res1_10_reaches _)

/-- The stage's bookkeeping on core `c`: the arrays are `V`'s; after point `t` each read window still holds its block
    and each written window holds its function of the read blocks; nothing else is kept and nothing is owed. -/
def book1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => res1_6 (blk1 V c 0 t) (blk1 V c 1 t) (blk1 V c 2 t) (blk1 V c 3 t) (blk1 V c 4 t) (blk1 V c 5 t)
    | ⟨7, _⟩ => res1_7 (blk1 V c 0 t) (blk1 V c 1 t) (blk1 V c 2 t) (blk1 V c 3 t) (blk1 V c 4 t) (blk1 V c 5 t)
    | ⟨8, _⟩ => res1_8 (blk1 V c 0 t) (blk1 V c 1 t) (blk1 V c 2 t) (blk1 V c 3 t) (blk1 V c 4 t) (blk1 V c 5 t)
    | ⟨9, _⟩ => res1_9 (blk1 V c 0 t) (blk1 V c 1 t) (blk1 V c 2 t) (blk1 V c 3 t) (blk1 V c 4 t) (blk1 V c 5 t)
    | ⟨10, _⟩ => res1_10 (blk1 V c 0 t) (blk1 V c 1 t) (blk1 V c 2 t) (blk1 V c 3 t) (blk1 V c 4 t) (blk1 V c 5 t)
  Φ _ := Pipeline.ΦA spec1 c
  q _ := fullShare
  owed _ := 0

theorem book1_A (c : Dev nD) (w : Fin cfg1.W) : (book1 V c).A w = V c (Pipeline.arrRef spec1 w) := by
  dsimp only [book1]
theorem book1_after0 (c : Dev nD) (t : Fin cfg1.N) : (book1 V c).after 0 t = blk1 V c 0 t := by dsimp only [book1]
theorem book1_after1 (c : Dev nD) (t : Fin cfg1.N) : (book1 V c).after 1 t = blk1 V c 1 t := by dsimp only [book1]
theorem book1_after2 (c : Dev nD) (t : Fin cfg1.N) : (book1 V c).after 2 t = blk1 V c 2 t := by dsimp only [book1]
theorem book1_after3 (c : Dev nD) (t : Fin cfg1.N) : (book1 V c).after 3 t = blk1 V c 3 t := by dsimp only [book1]
theorem book1_after4 (c : Dev nD) (t : Fin cfg1.N) : (book1 V c).after 4 t = blk1 V c 4 t := by dsimp only [book1]
theorem book1_after5 (c : Dev nD) (t : Fin cfg1.N) : (book1 V c).after 5 t = blk1 V c 5 t := by dsimp only [book1]
theorem book1_after6 (c : Dev nD) (t : Fin cfg1.N) : (book1 V c).after 6 t = res1_6 (blk1 V c 0 t) (blk1 V c 1 t) (blk1 V c 2 t) (blk1 V c 3 t) (blk1 V c 4 t) (blk1 V c 5 t) := by dsimp only [book1]
theorem book1_after7 (c : Dev nD) (t : Fin cfg1.N) : (book1 V c).after 7 t = res1_7 (blk1 V c 0 t) (blk1 V c 1 t) (blk1 V c 2 t) (blk1 V c 3 t) (blk1 V c 4 t) (blk1 V c 5 t) := by dsimp only [book1]
theorem book1_after8 (c : Dev nD) (t : Fin cfg1.N) : (book1 V c).after 8 t = res1_8 (blk1 V c 0 t) (blk1 V c 1 t) (blk1 V c 2 t) (blk1 V c 3 t) (blk1 V c 4 t) (blk1 V c 5 t) := by dsimp only [book1]
theorem book1_after9 (c : Dev nD) (t : Fin cfg1.N) : (book1 V c).after 9 t = res1_9 (blk1 V c 0 t) (blk1 V c 1 t) (blk1 V c 2 t) (blk1 V c 3 t) (blk1 V c 4 t) (blk1 V c 5 t) := by dsimp only [book1]
theorem book1_after10 (c : Dev nD) (t : Fin cfg1.N) : (book1 V c).after 10 t = res1_10 (blk1 V c 0 t) (blk1 V c 1 t) (blk1 V c 2 t) (blk1 V c 3 t) (blk1 V c 4 t) (blk1 V c 5 t) := by dsimp only [book1]
theorem book1_before0 (c : Dev nD) (t : Fin cfg1.N) (d) : (book1 V c).before 0 t d = blk1 V c 0 t :=
  in1_0_of V (book1 V c) (book1_A V c 0) (book1_after0 V c) t d
theorem book1_before1 (c : Dev nD) (t : Fin cfg1.N) (d) : (book1 V c).before 1 t d = blk1 V c 1 t :=
  in1_1_of V (book1 V c) (book1_A V c 1) (book1_after1 V c) t d
theorem book1_before2 (c : Dev nD) (t : Fin cfg1.N) (d) : (book1 V c).before 2 t d = blk1 V c 2 t :=
  in1_2_of V (book1 V c) (book1_A V c 2) (book1_after2 V c) t d
theorem book1_before3 (c : Dev nD) (t : Fin cfg1.N) (d) : (book1 V c).before 3 t d = blk1 V c 3 t :=
  in1_3_of V (book1 V c) (book1_A V c 3) (book1_after3 V c) t d
theorem book1_before4 (c : Dev nD) (t : Fin cfg1.N) (d) : (book1 V c).before 4 t d = blk1 V c 4 t :=
  in1_4_of V (book1 V c) (book1_A V c 4) (book1_after4 V c) t d
theorem book1_before5 (c : Dev nD) (t : Fin cfg1.N) (d) : (book1 V c).before 5 t d = blk1 V c 5 t :=
  in1_5_of V (book1 V c) (book1_A V c 5) (book1_after5 V c) t d

/-- What the body is handed at point `t`, window by window, -/
def given1 (c : Dev nD) (t : Fin cfg1.N) : sProp 𝕄 :=
  iprop((book1 V c).Φ t.castSucc ∗ (book1 V c).owesAt () t.castSucc
    ∗ (∃ d, owns (c : Thread nD τ) (st1_0 t) fullShare ((book1 V c).before 0 t d))
    ∗ (∃ d, owns (c : Thread nD τ) (st1_1 t) fullShare ((book1 V c).before 1 t d))
    ∗ (∃ d, owns (c : Thread nD τ) (st1_2 t) fullShare ((book1 V c).before 2 t d))
    ∗ (∃ d, owns (c : Thread nD τ) (st1_3 t) fullShare ((book1 V c).before 3 t d))
    ∗ (∃ d, owns (c : Thread nD τ) (st1_4 t) fullShare ((book1 V c).before 4 t d))
    ∗ (∃ d, owns (c : Thread nD τ) (st1_5 t) fullShare ((book1 V c).before 5 t d))
    ∗ (∃ d, owns (c : Thread nD τ) (st1_6 t) fullShare ((book1 V c).before 6 t d))
    ∗ (∃ d, owns (c : Thread nD τ) (st1_7 t) fullShare ((book1 V c).before 7 t d))
    ∗ (∃ d, owns (c : Thread nD τ) (st1_8 t) fullShare ((book1 V c).before 8 t d))
    ∗ (∃ d, owns (c : Thread nD τ) (st1_9 t) fullShare ((book1 V c).before 9 t d))
    ∗ (∃ d, owns (c : Thread nD τ) (st1_10 t) fullShare ((book1 V c).before 10 t d)))

/-- and what it hands back. -/
def left1 (c : Dev nD) (t : Fin cfg1.N) : sProp 𝕄 :=
  iprop((book1 V c).Φ t.succ ∗ (book1 V c).owesAt () t.succ
    ∗ owns (c : Thread nD τ) (st1_0 t) fullShare ((book1 V c).after 0 t)
    ∗ owns (c : Thread nD τ) (st1_1 t) fullShare ((book1 V c).after 1 t)
    ∗ owns (c : Thread nD τ) (st1_2 t) fullShare ((book1 V c).after 2 t)
    ∗ owns (c : Thread nD τ) (st1_3 t) fullShare ((book1 V c).after 3 t)
    ∗ owns (c : Thread nD τ) (st1_4 t) fullShare ((book1 V c).after 4 t)
    ∗ owns (c : Thread nD τ) (st1_5 t) fullShare ((book1 V c).after 5 t)
    ∗ owns (c : Thread nD τ) (st1_6 t) fullShare ((book1 V c).after 6 t)
    ∗ owns (c : Thread nD τ) (st1_7 t) fullShare ((book1 V c).after 7 t)
    ∗ owns (c : Thread nD τ) (st1_8 t) fullShare ((book1 V c).after 8 t)
    ∗ owns (c : Thread nD τ) (st1_9 t) fullShare ((book1 V c).after 9 t)
    ∗ owns (c : Thread nD τ) (st1_10 t) fullShare ((book1 V c).after 10 t))

theorem point1 (c : Dev nD) (t : Fin cfg1.N) :
    given1 V c t ⊢ wp frame (wpE (defs₀ (F := F)) Variants.none c none) Set.univ (bodyAt1 t) (fun _ => left1 V c t) := by
  unfold given1 left1 bodyAt1
  simp only [book1_before0, book1_before1, book1_before2, book1_before3, book1_before4, book1_before5]
  rw [show (book1 V c).Φ t.succ = (book1 V c).Φ t.castSucc from rfl,
    show (book1 V c).owesAt () t.succ = (book1 V c).owesAt () t.castSucc from rfl,
    book1_after0, book1_after1, book1_after2, book1_after3, book1_after4, book1_after5, book1_after6, book1_after7, book1_after8, book1_after9, book1_after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body1 c Set.univ _ _ _ _ _ _ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body does at every point what the bookkeeping says. -/
theorem duty1 (c : Dev nD) : BodyObligation (book1 (F := F) V c) (defs₀ (F := F)) Variants.none () Set.univ := fun t => by
  rw [bigSep_W1, bigSep_W1]
  exact point1 V c t

end Cert.Kernel.Stage

end
-- ==== Proof.Kernel.Stage2.lean ====
/-
  The node update stage, one grid point at a time. The grid has eight points; point t works on nodes
  5000·t … 5000·t + 4999. At every point the body reads a block of the first projection a, a block of the
  summed messages n and of the summed gates s, and a column of per-node scale factors, and writes
  (a + n / (s + 10⁻⁶)) times the factor, and, in two 1×1×128 rows, the column sums over the block's 5000
  rows of that output and of its square. Nothing is carried from one point to the next.

  Everything here is stated for an arbitrary reading of floats and for arbitrary contents `V` of the
  buffers at the moment the stage starts.
-/
import proofs.«102085_j69784628625690_2_alg».proof.Proof.Gen.Kernel.Launch
import proofs.«102085_j69784628625690_2_alg».proof.Proof.Gen.Kernel.Skeleton
import proofs.«102085_j69784628625690_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Read operand 0's window holds its block whenever the body starts — brought in at that point, or still there
    from an earlier point because the block did not move — for any bookkeeping of the stage that takes the array
    from `V` and says the body leaves the block alone. -/
theorem in2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Read operand 1's window holds its block whenever the body starts — brought in at that point, or still there
    from an earlier point because the block did not move — for any bookkeeping of the stage that takes the array
    from `V` and says the body leaves the block alone. -/
theorem in2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Read operand 2's window holds its block whenever the body starts — brought in at that point, or still there
    from an earlier point because the block did not move — for any bookkeeping of the stage that takes the array
    from `V` and says the body leaves the block alone. -/
theorem in2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Read operand 3's window holds its block whenever the body starts — brought in at that point, or still there
    from an earlier point because the block did not move — for any bookkeeping of the stage that takes the array
    from `V` and says the body leaves the block alone. -/
theorem in2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Each window is read or written as one whole box. -/
abbrev box2_0 : Rect S5000x128 := Rect.unit (s := S5000x128) ![0, 0] S5000x128.size inb_S5000x128_S5000x128_0_0
abbrev box2_1 : Rect S5000x128 := Rect.unit (s := S5000x128) ![0, 0] S5000x128.size inb_S5000x128_S5000x128_0_0
abbrev box2_2 : Rect S5000x128 := Rect.unit (s := S5000x128) ![0, 0] S5000x128.size inb_S5000x128_S5000x128_0_0
abbrev box2_3 : Rect S5000x1 := Rect.unit (s := S5000x1) ![0, 0] S5000x1.size inb_S5000x1_S5000x1_0_0
abbrev box2_4 : Rect S5000x128 := Rect.unit (s := S5000x128) ![0, 0] S5000x128.size inb_S5000x128_S5000x128_0_0
abbrev box2_5 : Rect S1x1x128 := Rect.unit (s := S1x1x128) ![0, 0, 0] S1x1x128.size inb_S1x1x128_S1x1x128_0_0_0
abbrev box2_6 : Rect S1x1x128 := Rect.unit (s := S1x1x128) ![0, 0, 0] S1x1x128.size inb_S1x1x128_S1x1x128_0_0_0

/-- What written operand 4's window holds after the body, as a function of the blocks read: one store over the whole box. -/
def res2_4 (x0 : Vec F S5000x128 .f32) (x1 : Vec F S5000x128 .f32) (x2 : Vec F S5000x128 .f32) (x3 : Vec F S5000x1 .f32) : Vec F S5000x128 .f32 :=
  View.canon [⟨box2_4, k2_pay1 (View.ld x1 box2_1) (View.ld x2 box2_2) (View.ld x0 box2_0) (View.ld x3 box2_3)⟩]
/-- That one store reaches every entry of the window. -/
theorem res2_4_reaches (p : Vec F S5000x128 .f32) (y : S5000x128.Idx) :
    ∃ pc ∈ ([⟨box2_4, p⟩] : List (View.Piece (Elt F) S5000x128 .f32)), y ∈ pc.1.set :=
  View.cover_of_tiled [⟨box2_4, p⟩] S5000x128.size (by rfl) y

/-- What written operand 5's window holds after the body, as a function of the blocks read: one store over the whole box. -/
def res2_5 (x0 : Vec F S5000x128 .f32) (x1 : Vec F S5000x128 .f32) (x2 : Vec F S5000x128 .f32) (x3 : Vec F S5000x1 .f32) : Vec F S1x1x128 .f32 :=
  View.canon [⟨box2_5, k2_pay2 (View.ld x1 box2_1) (View.ld x2 box2_2) (View.ld x0 box2_0) (View.ld x3 box2_3)⟩]
/-- That one store reaches every entry of the window. -/
theorem res2_5_reaches (p : Vec F S1x1x128 .f32) (y : S1x1x128.Idx) :
    ∃ pc ∈ ([⟨box2_5, p⟩] : List (View.Piece (Elt F) S1x1x128 .f32)), y ∈ pc.1.set :=
  View.cover_of_tiled [⟨box2_5, p⟩] S1x1x128.size (by rfl) y

/-- What written operand 6's window holds after the body, as a function of the blocks read: one store over the whole box. -/
def res2_6 (x0 : Vec F S5000x128 .f32) (x1 : Vec F S5000x128 .f32) (x2 : Vec F S5000x128 .f32) (x3 : Vec F S5000x1 .f32) : Vec F S1x1x128 .f32 :=
  View.canon [⟨box2_6, k2_pay3 (View.ld x1 box2_1) (View.ld x2 box2_2) (View.ld x0 box2_0) (View.ld x3 box2_3)⟩]
/-- That one store reaches every entry of the window. -/
theorem res2_6_reaches (p : Vec F S1x1x128 .f32) (y : S1x1x128.Idx) :
    ∃ pc ∈ ([⟨box2_6, p⟩] : List (View.Piece (Elt F) S1x1x128 .f32)), y ∈ pc.1.set :=
  View.cover_of_tiled [⟨box2_6, p⟩] S1x1x128.size (by rfl) y

set_option maxHeartbeats 4000000 in
/-- The body on whole buffers: started with the read blocks in the read windows and anything in the written ones, it
    ends with the read windows untouched and each written window at its function of the read blocks. -/
theorem body2 (c : Dev nD) (E : Set ℕ) (i : grid2.Coords) (a0 : Memref sig .tc .vmem S5000x128 .f32) (h0 : a0.IsWhole) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S5000x128 .f32) (h4 : a4.IsWhole) (a5 : Memref sig .tc .vmem S1x1x128 .f32) (h5 : a5.IsWhole) (a6 : Memref sig .tc .vmem S1x1x128 .f32) (h6 : a6.IsWhole)
    (x0 : Vec F S5000x128 .f32) (x1 : Vec F S5000x128 .f32) (x2 : Vec F S5000x128 .f32) (x3 : Vec F S5000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (res2_4 x0 x1 x2 x3) ∗ owns (c : Thread nD τ) a5 fullShare (res2_5 x0 x1 x2 x3) ∗ owns (c : Thread nD τ) a6 fullShare (res2_6 x0 x1 x2 x3)) -∗ K ⟨⟩))
      ⊢ wp frame (wpE (defs₀ (F := F)) Variants.none c none) E (cc2__node_post_kernel i a0 h0 a1 h1 a2 h2 a3 h3 a4 h4 a5 h5 a6 h6) K := by
  simp only [cc2__node_post_kernel_eq_skeleton]; unfold cc2__node_post_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (res2_4_reaches _)
  isplitl [H5]
  · iexists _; isplitr
    swap; · iexact H5
    ipureintro
    exact View.read_writes_eq_canon _ _ _ (res2_5_reaches _)
  iexists _; isplitr
  swap; · iexact H6
  ipureintro
  exact View.read_writes_eq_canon _ _ _ (res2_6_reaches _)

/-- The stage's bookkeeping on core `c`: the arrays are `V`'s; after point `t` each read window still holds its block
    and each written window holds its function of the read blocks; nothing else is kept and nothing is owed. -/
def book2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => res2_4 (blk2 V c 0 t) (blk2 V c 1 t) (blk2 V c 2 t) (blk2 V c 3 t)
    | ⟨5, _⟩ => res2_5 (blk2 V c 0 t) (blk2 V c 1 t) (blk2 V c 2 t) (blk2 V c 3 t)
    | ⟨6, _⟩ => res2_6 (blk2 V c 0 t) (blk2 V c 1 t) (blk2 V c 2 t) (blk2 V c 3 t)
  Φ _ := Pipeline.ΦA spec2 c
  q _ := fullShare
  owed _ := 0

theorem book2_A (c : Dev nD) (w : Fin cfg2.W) : (book2 V c).A w = V c (Pipeline.arrRef spec2 w) := by
  dsimp only [book2]
theorem book2_after0 (c : Dev nD) (t : Fin cfg2.N) : (book2 V c).after 0 t = blk2 V c 0 t := by dsimp only [book2]
theorem book2_after1 (c : Dev nD) (t : Fin cfg2.N) : (book2 V c).after 1 t = blk2 V c 1 t := by dsimp only [book2]
theorem book2_after2 (c : Dev nD) (t : Fin cfg2.N) : (book2 V c).after 2 t = blk2 V c 2 t := by dsimp only [book2]
theorem book2_after3 (c : Dev nD) (t : Fin cfg2.N) : (book2 V c).after 3 t = blk2 V c 3 t := by dsimp only [book2]
theorem book2_after4 (c : Dev nD) (t : Fin cfg2.N) : (book2 V c).after 4 t = res2_4 (blk2 V c 0 t) (blk2 V c 1 t) (blk2 V c 2 t) (blk2 V c 3 t) := by dsimp only [book2]
theorem book2_after5 (c : Dev nD) (t : Fin cfg2.N) : (book2 V c).after 5 t = res2_5 (blk2 V c 0 t) (blk2 V c 1 t) (blk2 V c 2 t) (blk2 V c 3 t) := by dsimp only [book2]
theorem book2_after6 (c : Dev nD) (t : Fin cfg2.N) : (book2 V c).after 6 t = res2_6 (blk2 V c 0 t) (blk2 V c 1 t) (blk2 V c 2 t) (blk2 V c 3 t) := by dsimp only [book2]
theorem book2_before0 (c : Dev nD) (t : Fin cfg2.N) (d) : (book2 V c).before 0 t d = blk2 V c 0 t :=
  in2_0_of V (book2 V c) (book2_A V c 0) (book2_after0 V c) t d
theorem book2_before1 (c : Dev nD) (t : Fin cfg2.N) (d) : (book2 V c).before 1 t d = blk2 V c 1 t :=
  in2_1_of V (book2 V c) (book2_A V c 1) (book2_after1 V c) t d
theorem book2_before2 (c : Dev nD) (t : Fin cfg2.N) (d) : (book2 V c).before 2 t d = blk2 V c 2 t :=
  in2_2_of V (book2 V c) (book2_A V c 2) (book2_after2 V c) t d
theorem book2_before3 (c : Dev nD) (t : Fin cfg2.N) (d) : (book2 V c).before 3 t d = blk2 V c 3 t :=
  in2_3_of V (book2 V c) (book2_A V c 3) (book2_after3 V c) t d

/-- What the body is handed at point `t`, window by window, -/
def given2 (c : Dev nD) (t : Fin cfg2.N) : sProp 𝕄 :=
  iprop((book2 V c).Φ t.castSucc ∗ (book2 V c).owesAt () t.castSucc
    ∗ (∃ d, owns (c : Thread nD τ) (st2_0 t) fullShare ((book2 V c).before 0 t d))
    ∗ (∃ d, owns (c : Thread nD τ) (st2_1 t) fullShare ((book2 V c).before 1 t d))
    ∗ (∃ d, owns (c : Thread nD τ) (st2_2 t) fullShare ((book2 V c).before 2 t d))
    ∗ (∃ d, owns (c : Thread nD τ) (st2_3 t) fullShare ((book2 V c).before 3 t d))
    ∗ (∃ d, owns (c : Thread nD τ) (st2_4 t) fullShare ((book2 V c).before 4 t d))
    ∗ (∃ d, owns (c : Thread nD τ) (st2_5 t) fullShare ((book2 V c).before 5 t d))
    ∗ (∃ d, owns (c : Thread nD τ) (st2_6 t) fullShare ((book2 V c).before 6 t d)))

/-- and what it hands back. -/
def left2 (c : Dev nD) (t : Fin cfg2.N) : sProp 𝕄 :=
  iprop((book2 V c).Φ t.succ ∗ (book2 V c).owesAt () t.succ
    ∗ owns (c : Thread nD τ) (st2_0 t) fullShare ((book2 V c).after 0 t)
    ∗ owns (c : Thread nD τ) (st2_1 t) fullShare ((book2 V c).after 1 t)
    ∗ owns (c : Thread nD τ) (st2_2 t) fullShare ((book2 V c).after 2 t)
    ∗ owns (c : Thread nD τ) (st2_3 t) fullShare ((book2 V c).after 3 t)
    ∗ owns (c : Thread nD τ) (st2_4 t) fullShare ((book2 V c).after 4 t)
    ∗ owns (c : Thread nD τ) (st2_5 t) fullShare ((book2 V c).after 5 t)
    ∗ owns (c : Thread nD τ) (st2_6 t) fullShare ((book2 V c).after 6 t))

theorem point2 (c : Dev nD) (t : Fin cfg2.N) :
    given2 V c t ⊢ wp frame (wpE (defs₀ (F := F)) Variants.none c none) Set.univ (bodyAt2 t) (fun _ => left2 V c t) := by
  unfold given2 left2 bodyAt2
  simp only [book2_before0, book2_before1, book2_before2, book2_before3]
  rw [show (book2 V c).Φ t.succ = (book2 V c).Φ t.castSucc from rfl,
    show (book2 V c).owesAt () t.succ = (book2 V c).owesAt () t.castSucc from rfl,
    book2_after0, book2_after1, book2_after2, book2_after3, book2_after4, book2_after5, book2_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body2 c Set.univ _ _ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body does at every point what the bookkeeping says. -/
theorem duty2 (c : Dev nD) : BodyObligation (book2 (F := F) V c) (defs₀ (F := F)) Variants.none () Set.univ := fun t => by
  rw [bigSep_W2, bigSep_W2]
  exact point2 V c t

end Cert.Kernel.Stage

end
-- ==== Proof.Kernel.Stage3.lean ====
/-
  The node normalisation stage, one grid point at a time. The grid has five points; point t works on
  nodes 8000·t … 8000·t + 7999. At every point the body reads a block x of updated node features and four
  rows of 128 numbers — the column means μ, the column variances v, a scale γ and a shift β — and writes
  max((x − μ)·(v + 10⁻⁵)^(−1/2)·γ + β, 0). Nothing is carried from one point to the next.

  Everything here is stated for an arbitrary reading of floats and for arbitrary contents `V` of the
  buffers at the moment the stage starts.
-/
import proofs.«102085_j69784628625690_2_alg».proof.Proof.Gen.Kernel.Launch
import proofs.«102085_j69784628625690_2_alg».proof.Proof.Gen.Kernel.Skeleton
import proofs.«102085_j69784628625690_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Read operand 0's window holds its block whenever the body starts — brought in at that point, or still there
    from an earlier point because the block did not move — for any bookkeeping of the stage that takes the array
    from `V` and says the body leaves the block alone. -/
theorem in3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Read operand 1's window holds its block whenever the body starts — brought in at that point, or still there
    from an earlier point because the block did not move — for any bookkeeping of the stage that takes the array
    from `V` and says the body leaves the block alone. -/
theorem in3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Read operand 2's window holds its block whenever the body starts — brought in at that point, or still there
    from an earlier point because the block did not move — for any bookkeeping of the stage that takes the array
    from `V` and says the body leaves the block alone. -/
theorem in3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- Read operand 3's window holds its block whenever the body starts — brought in at that point, or still there
    from an earlier point because the block did not move — for any bookkeeping of the stage that takes the array
    from `V` and says the body leaves the block alone. -/
theorem in3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- Read operand 4's window holds its block whenever the body starts — brought in at that point, or still there
    from an earlier point because the block did not move — for any bookkeeping of the stage that takes the array
    from `V` and says the body leaves the block alone. -/
theorem in3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- Each window is read or written as one whole box. -/
abbrev box3_0 : Rect S8000x128 := Rect.unit (s := S8000x128) ![0, 0] S8000x128.size inb_S8000x128_S8000x128_0_0
abbrev box3_1 : Rect S1x128 := Rect.unit (s := S1x128) ![0, 0] S1x128.size inb_S1x128_S1x128_0_0
abbrev box3_2 : Rect S1x128 := Rect.unit (s := S1x128) ![0, 0] S1x128.size inb_S1x128_S1x128_0_0
abbrev box3_3 : Rect S1x128 := Rect.unit (s := S1x128) ![0, 0] S1x128.size inb_S1x128_S1x128_0_0
abbrev box3_4 : Rect S1x128 := Rect.unit (s := S1x128) ![0, 0] S1x128.size inb_S1x128_S1x128_0_0
abbrev box3_5 : Rect S8000x128 := Rect.unit (s := S8000x128) ![0, 0] S8000x128.size inb_S8000x128_S8000x128_0_0

/-- What written operand 5's window holds after the body, as a function of the blocks read: one store over the whole box. -/
def res3_5 (x0 : Vec F S8000x128 .f32) (x1 : Vec F S1x128 .f32) (x2 : Vec F S1x128 .f32) (x3 : Vec F S1x128 .f32) (x4 : Vec F S1x128 .f32) : Vec F S8000x128 .f32 :=
  View.canon [⟨box3_5, k3_pay1 (View.ld x0 box3_0) (View.ld x2 box3_2) (View.ld x1 box3_1) (View.ld x3 box3_3) (View.ld x4 box3_4)⟩]
/-- That one store reaches every entry of the window. -/
theorem res3_5_reaches (p : Vec F S8000x128 .f32) (y : S8000x128.Idx) :
    ∃ pc ∈ ([⟨box3_5, p⟩] : List (View.Piece (Elt F) S8000x128 .f32)), y ∈ pc.1.set :=
  View.cover_of_tiled [⟨box3_5, p⟩] S8000x128.size (by rfl) y

set_option maxHeartbeats 4000000 in
/-- The body on whole buffers: started with the read blocks in the read windows and anything in the written ones, it
    ends with the read windows untouched and each written window at its function of the read blocks. -/
theorem body3 (c : Dev nD) (E : Set ℕ) (i : grid3.Coords) (a0 : Memref sig .tc .vmem S8000x128 .f32) (h0 : a0.IsWhole) (a1 : Memref sig .tc .vmem S1x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S8000x128 .f32) (h5 : a5.IsWhole)
    (x0 : Vec F S8000x128 .f32) (x1 : Vec F S1x128 .f32) (x2 : Vec F S1x128 .f32) (x3 : Vec F S1x128 .f32) (x4 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res3_5 x0 x1 x2 x3 x4)) -∗ K ⟨⟩))
      ⊢ wp frame (wpE (defs₀ (F := F)) Variants.none c none) E (cc3__apply_bn_kernel i a0 h0 a1 h1 a2 h2 a3 h3 a4 h4 a5 h5) K := by
  simp only [cc3__apply_bn_kernel_eq_skeleton]; unfold cc3__apply_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res3_5_reaches _)

/-- The stage's bookkeeping on core `c`: the arrays are `V`'s; after point `t` each read window still holds its block
    and each written window holds its function of the read blocks; nothing else is kept and nothing is owed. -/
def book3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => res3_5 (blk3 V c 0 t) (blk3 V c 1 t) (blk3 V c 2 t) (blk3 V c 3 t) (blk3 V c 4 t)
  Φ _ := Pipeline.ΦA spec3 c
  q _ := fullShare
  owed _ := 0

theorem book3_A (c : Dev nD) (w : Fin cfg3.W) : (book3 V c).A w = V c (Pipeline.arrRef spec3 w) := by
  dsimp only [book3]
theorem book3_after0 (c : Dev nD) (t : Fin cfg3.N) : (book3 V c).after 0 t = blk3 V c 0 t := by dsimp only [book3]
theorem book3_after1 (c : Dev nD) (t : Fin cfg3.N) : (book3 V c).after 1 t = blk3 V c 1 t := by dsimp only [book3]
theorem book3_after2 (c : Dev nD) (t : Fin cfg3.N) : (book3 V c).after 2 t = blk3 V c 2 t := by dsimp only [book3]
theorem book3_after3 (c : Dev nD) (t : Fin cfg3.N) : (book3 V c).after 3 t = blk3 V c 3 t := by dsimp only [book3]
theorem book3_after4 (c : Dev nD) (t : Fin cfg3.N) : (book3 V c).after 4 t = blk3 V c 4 t := by dsimp only [book3]
theorem book3_after5 (c : Dev nD) (t : Fin cfg3.N) : (book3 V c).after 5 t = res3_5 (blk3 V c 0 t) (blk3 V c 1 t) (blk3 V c 2 t) (blk3 V c 3 t) (blk3 V c 4 t) := by dsimp only [book3]
theorem book3_before0 (c : Dev nD) (t : Fin cfg3.N) (d) : (book3 V c).before 0 t d = blk3 V c 0 t :=
  in3_0_of V (book3 V c) (book3_A V c 0) (book3_after0 V c) t d
theorem book3_before1 (c : Dev nD) (t : Fin cfg3.N) (d) : (book3 V c).before 1 t d = blk3 V c 1 t :=
  in3_1_of V (book3 V c) (book3_A V c 1) (book3_after1 V c) t d
theorem book3_before2 (c : Dev nD) (t : Fin cfg3.N) (d) : (book3 V c).before 2 t d = blk3 V c 2 t :=
  in3_2_of V (book3 V c) (book3_A V c 2) (book3_after2 V c) t d
theorem book3_before3 (c : Dev nD) (t : Fin cfg3.N) (d) : (book3 V c).before 3 t d = blk3 V c 3 t :=
  in3_3_of V (book3 V c) (book3_A V c 3) (book3_after3 V c) t d
theorem book3_before4 (c : Dev nD) (t : Fin cfg3.N) (d) : (book3 V c).before 4 t d = blk3 V c 4 t :=
  in3_4_of V (book3 V c) (book3_A V c 4) (book3_after4 V c) t d

/-- What the body is handed at point `t`, window by window, -/
def given3 (c : Dev nD) (t : Fin cfg3.N) : sProp 𝕄 :=
  iprop((book3 V c).Φ t.castSucc ∗ (book3 V c).owesAt () t.castSucc
    ∗ (∃ d, owns (c : Thread nD τ) (st3_0 t) fullShare ((book3 V c).before 0 t d))
    ∗ (∃ d, owns (c : Thread nD τ) (st3_1 t) fullShare ((book3 V c).before 1 t d))
    ∗ (∃ d, owns (c : Thread nD τ) (st3_2 t) fullShare ((book3 V c).before 2 t d))
    ∗ (∃ d, owns (c : Thread nD τ) (st3_3 t) fullShare ((book3 V c).before 3 t d))
    ∗ (∃ d, owns (c : Thread nD τ) (st3_4 t) fullShare ((book3 V c).before 4 t d))
    ∗ (∃ d, owns (c : Thread nD τ) (st3_5 t) fullShare ((book3 V c).before 5 t d)))

/-- and what it hands back. -/
def left3 (c : Dev nD) (t : Fin cfg3.N) : sProp 𝕄 :=
  iprop((book3 V c).Φ t.succ ∗ (book3 V c).owesAt () t.succ
    ∗ owns (c : Thread nD τ) (st3_0 t) fullShare ((book3 V c).after 0 t)
    ∗ owns (c : Thread nD τ) (st3_1 t) fullShare ((book3 V c).after 1 t)
    ∗ owns (c : Thread nD τ) (st3_2 t) fullShare ((book3 V c).after 2 t)
    ∗ owns (c : Thread nD τ) (st3_3 t) fullShare ((book3 V c).after 3 t)
    ∗ owns (c : Thread nD τ) (st3_4 t) fullShare ((book3 V c).after 4 t)
    ∗ owns (c : Thread nD τ) (st3_5 t) fullShare ((book3 V c).after 5 t))

theorem point3 (c : Dev nD) (t : Fin cfg3.N) :
    given3 V c t ⊢ wp frame (wpE (defs₀ (F := F)) Variants.none c none) Set.univ (bodyAt3 t) (fun _ => left3 V c t) := by
  unfold given3 left3 bodyAt3
  simp only [book3_before0, book3_before1, book3_before2, book3_before3, book3_before4]
  rw [show (book3 V c).Φ t.succ = (book3 V c).Φ t.castSucc from rfl,
    show (book3 V c).owesAt () t.succ = (book3 V c).owesAt () t.castSucc from rfl,
    book3_after0, book3_after1, book3_after2, book3_after3, book3_after4, book3_after5]
  iintro ⟨HΦ, Ho, ⟨%d0, H0⟩, ⟨%d1, H1⟩, ⟨%d2, H2⟩, ⟨%d3, H3⟩, ⟨%d4, H4⟩, ⟨%d5, H5⟩⟩
  iapply (body3 c Set.univ _ _ _ _ _ _ _ _ _ _ _ _ _ (blk3 V c 0 t) (blk3 V c 1 t) (blk3 V c 2 t) (blk3 V c 3 t) (blk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body does at every point what the bookkeeping says. -/
theorem duty3 (c : Dev nD) : BodyObligation (book3 (F := F) V c) (defs₀ (F := F)) Variants.none () Set.univ := fun t => by
  rw [bigSep_W3, bigSep_W3]
  exact point3 V c t

end Cert.Kernel.Stage

end
-- ==== Proof.Kernel.Stage4.lean ====
/-
  The edge normalisation stage, one grid point at a time. The grid has eighty points; point t works on
  edges 8000·t … 8000·t + 7999. At every point the body reads a block x of gated edge features and four
  rows of 128 numbers — the column means μ, the column variances v, a scale γ and a shift β — and writes
  max((x − μ)·(v + 10⁻⁵)^(−1/2)·γ + β, 0). Nothing is carried from one point to the next.

  Everything here is stated for an arbitrary reading of floats and for arbitrary contents `V` of the
  buffers at the moment the stage starts.
-/
import proofs.«102085_j69784628625690_2_alg».proof.Proof.Gen.Kernel.Launch
import proofs.«102085_j69784628625690_2_alg».proof.Proof.Gen.Kernel.Skeleton
import proofs.«102085_j69784628625690_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Read operand 0's window holds its block whenever the body starts — brought in at that point, or still there
    from an earlier point because the block did not move — for any bookkeeping of the stage that takes the array
    from `V` and says the body leaves the block alone. -/
theorem in4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Read operand 1's window holds its block whenever the body starts — brought in at that point, or still there
    from an earlier point because the block did not move — for any bookkeeping of the stage that takes the array
    from `V` and says the body leaves the block alone. -/
theorem in4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Read operand 2's window holds its block whenever the body starts — brought in at that point, or still there
    from an earlier point because the block did not move — for any bookkeeping of the stage that takes the array
    from `V` and says the body leaves the block alone. -/
theorem in4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- Read operand 3's window holds its block whenever the body starts — brought in at that point, or still there
    from an earlier point because the block did not move — for any bookkeeping of the stage that takes the array
    from `V` and says the body leaves the block alone. -/
theorem in4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- Read operand 4's window holds its block whenever the body starts — brought in at that point, or still there
    from an earlier point because the block did not move — for any bookkeeping of the stage that takes the array
    from `V` and says the body leaves the block alone. -/
theorem in4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- Each window is read or written as one whole box. -/
abbrev box4_0 : Rect S8000x128 := Rect.unit (s := S8000x128) ![0, 0] S8000x128.size inb_S8000x128_S8000x128_0_0
abbrev box4_1 : Rect S1x128 := Rect.unit (s := S1x128) ![0, 0] S1x128.size inb_S1x128_S1x128_0_0
abbrev box4_2 : Rect S1x128 := Rect.unit (s := S1x128) ![0, 0] S1x128.size inb_S1x128_S1x128_0_0
abbrev box4_3 : Rect S1x128 := Rect.unit (s := S1x128) ![0, 0] S1x128.size inb_S1x128_S1x128_0_0
abbrev box4_4 : Rect S1x128 := Rect.unit (s := S1x128) ![0, 0] S1x128.size inb_S1x128_S1x128_0_0
abbrev box4_5 : Rect S8000x128 := Rect.unit (s := S8000x128) ![0, 0] S8000x128.size inb_S8000x128_S8000x128_0_0

/-- What written operand 5's window holds after the body, as a function of the blocks read: one store over the whole box. -/
def res4_5 (x0 : Vec F S8000x128 .f32) (x1 : Vec F S1x128 .f32) (x2 : Vec F S1x128 .f32) (x3 : Vec F S1x128 .f32) (x4 : Vec F S1x128 .f32) : Vec F S8000x128 .f32 :=
  View.canon [⟨box4_5, k4_pay1 (View.ld x0 box4_0) (View.ld x2 box4_2) (View.ld x1 box4_1) (View.ld x3 box4_3) (View.ld x4 box4_4)⟩]
/-- That one store reaches every entry of the window. -/
theorem res4_5_reaches (p : Vec F S8000x128 .f32) (y : S8000x128.Idx) :
    ∃ pc ∈ ([⟨box4_5, p⟩] : List (View.Piece (Elt F) S8000x128 .f32)), y ∈ pc.1.set :=
  View.cover_of_tiled [⟨box4_5, p⟩] S8000x128.size (by rfl) y

set_option maxHeartbeats 4000000 in
/-- The body on whole buffers: started with the read blocks in the read windows and anything in the written ones, it
    ends with the read windows untouched and each written window at its function of the read blocks. -/
theorem body4 (c : Dev nD) (E : Set ℕ) (i : grid4.Coords) (a0 : Memref sig .tc .vmem S8000x128 .f32) (h0 : a0.IsWhole) (a1 : Memref sig .tc .vmem S1x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S8000x128 .f32) (h5 : a5.IsWhole)
    (x0 : Vec F S8000x128 .f32) (x1 : Vec F S1x128 .f32) (x2 : Vec F S1x128 .f32) (x3 : Vec F S1x128 .f32) (x4 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res4_5 x0 x1 x2 x3 x4)) -∗ K ⟨⟩))
      ⊢ wp frame (wpE (defs₀ (F := F)) Variants.none c none) E (cc4__apply_bn_kernel i a0 h0 a1 h1 a2 h2 a3 h3 a4 h4 a5 h5) K := by
  simp only [cc4__apply_bn_kernel_eq_skeleton]; unfold cc4__apply_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res4_5_reaches _)

/-- The stage's bookkeeping on core `c`: the arrays are `V`'s; after point `t` each read window still holds its block
    and each written window holds its function of the read blocks; nothing else is kept and nothing is owed. -/
def book4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => res4_5 (blk4 V c 0 t) (blk4 V c 1 t) (blk4 V c 2 t) (blk4 V c 3 t) (blk4 V c 4 t)
  Φ _ := Pipeline.ΦA spec4 c
  q _ := fullShare
  owed _ := 0

theorem book4_A (c : Dev nD) (w : Fin cfg4.W) : (book4 V c).A w = V c (Pipeline.arrRef spec4 w) := by
  dsimp only [book4]
theorem book4_after0 (c : Dev nD) (t : Fin cfg4.N) : (book4 V c).after 0 t = blk4 V c 0 t := by dsimp only [book4]
theorem book4_after1 (c : Dev nD) (t : Fin cfg4.N) : (book4 V c).after 1 t = blk4 V c 1 t := by dsimp only [book4]
theorem book4_after2 (c : Dev nD) (t : Fin cfg4.N) : (book4 V c).after 2 t = blk4 V c 2 t := by dsimp only [book4]
theorem book4_after3 (c : Dev nD) (t : Fin cfg4.N) : (book4 V c).after 3 t = blk4 V c 3 t := by dsimp only [book4]
theorem book4_after4 (c : Dev nD) (t : Fin cfg4.N) : (book4 V c).after 4 t = blk4 V c 4 t := by dsimp only [book4]
theorem book4_after5 (c : Dev nD) (t : Fin cfg4.N) : (book4 V c).after 5 t = res4_5 (blk4 V c 0 t) (blk4 V c 1 t) (blk4 V c 2 t) (blk4 V c 3 t) (blk4 V c 4 t) := by dsimp only [book4]
theorem book4_before0 (c : Dev nD) (t : Fin cfg4.N) (d) : (book4 V c).before 0 t d = blk4 V c 0 t :=
  in4_0_of V (book4 V c) (book4_A V c 0) (book4_after0 V c) t d
theorem book4_before1 (c : Dev nD) (t : Fin cfg4.N) (d) : (book4 V c).before 1 t d = blk4 V c 1 t :=
  in4_1_of V (book4 V c) (book4_A V c 1) (book4_after1 V c) t d
theorem book4_before2 (c : Dev nD) (t : Fin cfg4.N) (d) : (book4 V c).before 2 t d = blk4 V c 2 t :=
  in4_2_of V (book4 V c) (book4_A V c 2) (book4_after2 V c) t d
theorem book4_before3 (c : Dev nD) (t : Fin cfg4.N) (d) : (book4 V c).before 3 t d = blk4 V c 3 t :=
  in4_3_of V (book4 V c) (book4_A V c 3) (book4_after3 V c) t d
theorem book4_before4 (c : Dev nD) (t : Fin cfg4.N) (d) : (book4 V c).before 4 t d = blk4 V c 4 t :=
  in4_4_of V (book4 V c) (book4_A V c 4) (book4_after4 V c) t d

/-- What the body is handed at point `t`, window by window, -/
def given4 (c : Dev nD) (t : Fin cfg4.N) : sProp 𝕄 :=
  iprop((book4 V c).Φ t.castSucc ∗ (book4 V c).owesAt () t.castSucc
    ∗ (∃ d, owns (c : Thread nD τ) (st4_0 t) fullShare ((book4 V c).before 0 t d))
    ∗ (∃ d, owns (c : Thread nD τ) (st4_1 t) fullShare ((book4 V c).before 1 t d))
    ∗ (∃ d, owns (c : Thread nD τ) (st4_2 t) fullShare ((book4 V c).before 2 t d))
    ∗ (∃ d, owns (c : Thread nD τ) (st4_3 t) fullShare ((book4 V c).before 3 t d))
    ∗ (∃ d, owns (c : Thread nD τ) (st4_4 t) fullShare ((book4 V c).before 4 t d))
    ∗ (∃ d, owns (c : Thread nD τ) (st4_5 t) fullShare ((book4 V c).before 5 t d)))

/-- and what it hands back. -/
def left4 (c : Dev nD) (t : Fin cfg4.N) : sProp 𝕄 :=
  iprop((book4 V c).Φ t.succ ∗ (book4 V c).owesAt () t.succ
    ∗ owns (c : Thread nD τ) (st4_0 t) fullShare ((book4 V c).after 0 t)
    ∗ owns (c : Thread nD τ) (st4_1 t) fullShare ((book4 V c).after 1 t)
    ∗ owns (c : Thread nD τ) (st4_2 t) fullShare ((book4 V c).after 2 t)
    ∗ owns (c : Thread nD τ) (st4_3 t) fullShare ((book4 V c).after 3 t)
    ∗ owns (c : Thread nD τ) (st4_4 t) fullShare ((book4 V c).after 4 t)
    ∗ owns (c : Thread nD τ) (st4_5 t) fullShare ((book4 V c).after 5 t))

theorem point4 (c : Dev nD) (t : Fin cfg4.N) :
    given4 V c t ⊢ wp frame (wpE (defs₀ (F := F)) Variants.none c none) Set.univ (bodyAt4 t) (fun _ => left4 V c t) := by
  unfold given4 left4 bodyAt4
  simp only [book4_before0, book4_before1, book4_before2, book4_before3, book4_before4]
  rw [show (book4 V c).Φ t.succ = (book4 V c).Φ t.castSucc from rfl,
    show (book4 V c).owesAt () t.succ = (book4 V c).owesAt () t.castSucc from rfl,
    book4_after0, book4_after1, book4_after2, book4_after3, book4_after4, book4_after5]
  iintro ⟨HΦ, Ho, ⟨%d0, H0⟩, ⟨%d1, H1⟩, ⟨%d2, H2⟩, ⟨%d3, H3⟩, ⟨%d4, H4⟩, ⟨%d5, H5⟩⟩
  iapply (body4 c Set.univ _ _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body does at every point what the bookkeeping says. -/
theorem duty4 (c : Dev nD) : BodyObligation (book4 (F := F) V c) (defs₀ (F := F)) Variants.none () Set.univ := fun t => by
  rw [bigSep_W4, bigSep_W4]
  exact point4 V c t

end Cert.Kernel.Stage

end
-- ==== Proof.Kernel.Pass.lean ====
/-
  The whole program, from launch to return, as nine steps on each core: the host operations before the node
  projection, the node projection stage, the host operations that gather the projections along the edges, the
  edge gate stage, the host operations that sum the gated messages into their destination nodes and add up the
  per-block column sums, the node update stage, the host operations that turn the summed column sums into column
  means and variances, and the two normalisation stages.

  `C0 … C9` name what every buffer outside the stages' own staging memory holds at the ten boundaries. A stretch
  of host operations takes `C j` to its operations applied in order; a stage takes `C j` to the same contents
  except at the arrays the stage writes, which end at what the stage's write-backs leave (the bookkeeping's
  `arrAt` after the last grid point). The statement proved, `pass`: every weakly fair execution of the program
  terminates without a fault, and the final memory holds `C9` at every such buffer. No argument array is written
  by any step, so `C9` at an argument is the launch memory (`C9_launch`).

  Stated for an arbitrary reading of floats.
-/
import proofs.«102085_j69784628625690_2_alg».proof.Proof.Kernel.Stage0
import proofs.«102085_j69784628625690_2_alg».proof.Proof.Kernel.Stage1
import proofs.«102085_j69784628625690_2_alg».proof.Proof.Kernel.Stage2
import proofs.«102085_j69784628625690_2_alg».proof.Proof.Kernel.Stage3
import proofs.«102085_j69784628625690_2_alg».proof.Proof.Kernel.Stage4
import proofs.«102085_j69784628625690_2_alg».proof.Proof.Gen.Kernel.Regions

set_option maxRecDepth 16384

noncomputable section

namespace Cert.Kernel.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents at the ten boundaries -/

/-- At launch. -/
abbrev C0 : Dev nD → Valuation τ sig (Elt F) := fun c b => m (c, b)
/-- After the first stretch of host operations: the node projection stage starts here. -/
abbrev C1 : Dev nD → Valuation τ sig (Elt F) := fun c => StableHlo.after hostOps0 (C0 m c)
abbrev E1 : (c : Dev nD) → (b : Ref sig .tc) → Buf (Elt F) ((c : Thread nD τ).loc b) := fun c b => C1 m c b
/-- After the node projection stage. -/
def C2 (c : Dev nD) : Valuation τ sig (Elt F) :=
  Pipeline.withArrays spec0 c (C1 m c) fun w => (book0 (E1 m) c).arrAt w cfg0.N
/-- After the gathers: the edge gate stage starts here. -/
abbrev C3 : Dev nD → Valuation τ sig (Elt F) := fun c => StableHlo.after hostOps1 (C2 m c)
abbrev E3 : (c : Dev nD) → (b : Ref sig .tc) → Buf (Elt F) ((c : Thread nD τ).loc b) := fun c b => C3 m c b
/-- After the edge gate stage. -/
def C4 (c : Dev nD) : Valuation τ sig (Elt F) :=
  Pipeline.withArrays spec1 c (C3 m c) fun w => (book1 (E3 m) c).arrAt w cfg1.N
/-- After the scatter-adds and the sums of the per-block column sums: the node update stage starts here. -/
abbrev C5 : Dev nD → Valuation τ sig (Elt F) := fun c => StableHlo.after hostOps2 (C4 m c)
abbrev E5 : (c : Dev nD) → (b : Ref sig .tc) → Buf (Elt F) ((c : Thread nD τ).loc b) := fun c b => C5 m c b
/-- After the node update stage. -/
def C6 (c : Dev nD) : Valuation τ sig (Elt F) :=
  Pipeline.withArrays spec2 c (C5 m c) fun w => (book2 (E5 m) c).arrAt w cfg2.N
/-- After the means and variances: the node normalisation stage starts here. -/
abbrev C7 : Dev nD → Valuation τ sig (Elt F) := fun c => StableHlo.after hostOps3 (C6 m c)
abbrev E7 : (c : Dev nD) → (b : Ref sig .tc) → Buf (Elt F) ((c : Thread nD τ).loc b) := fun c b => C7 m c b
/-- After the node normalisation stage: the edge normalisation stage starts here. -/
def C8 (c : Dev nD) : Valuation τ sig (Elt F) :=
  Pipeline.withArrays spec3 c (C7 m c) fun w => (book3 (E7 m) c).arrAt w cfg3.N
abbrev E8 : (c : Dev nD) → (b : Ref sig .tc) → Buf (Elt F) ((c : Thread nD τ).loc b) := fun c b => C8 m c b
/-- After the edge normalisation stage: the end. -/
def C9 (c : Dev nD) : Valuation τ sig (Elt F) :=
  Pipeline.withArrays spec4 c (C8 m c) fun w => (book4 (E8 m) c).arrAt w cfg4.N

/-! ### Stage 0: what it changes and what it keeps -/

theorem C2_arr (c : Dev nD) (w : Fin cfg0.W) :
    C2 m c (Proc.devRef .tc (Pipeline.arrRef spec0 w)) = (book0 (E1 m) c).arrAt w cfg0.N := by
  unfold C2; exact Pipeline.withArrays_arr spec0 launch0.win.arr_inj c _ _ w
theorem C2_of_ne (c : Dev nD) (b : Ref sig .tc) (hb : ∀ w, Pipeline.arrRef spec0 w ≠ b) :
    C2 m c (Proc.devRef .tc b) = C1 m c (Proc.devRef .tc b) := by
  unfold C2; exact Pipeline.withArrays_of_ne spec0 c _ _ b hb
abbrev E2x0 : (c : Dev nD) → (b : Ref sig .tc) → Buf (Elt F) ((c : Thread nD τ).loc b) := fun c b => C2 m c b
theorem put0 (c : Dev nD) (w : Fin cfg0.W) : (book0 (E1 m) c).arrAt w cfg0.N = E2x0 m c (Pipeline.arrRef spec0 w) :=
  (C2_arr m c w).symm
theorem rest0 (c : Dev nD) : ∀ b, b ∉ Finset.univ.image (Pipeline.arrRef spec0) → E2x0 m c b = E1 m c b :=
  fun b hb => C2_of_ne m c b fun w e => hb (Finset.mem_image.mpr ⟨w, Finset.mem_univ _, e⟩)
/-- A buffer that is not one of the arrays the stage writes comes out as it went in: either the stage does not touch
    it, or it only reads it. -/
theorem C2_kept (c : Dev nD) (b : Ref sig .tc) (hb : ∀ w, (cfg0.win w).isOut = true → Pipeline.arrRef spec0 w ≠ b) :
    C2 m c (Proc.devRef .tc b) = C1 m c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    exact (C2_arr m c w).trans (((book0 (E1 m) c).arrAt_in w hin _).trans (book0_A (E1 m) c w))
  · exact C2_of_ne m c b fun w e => h ⟨w, e⟩

/-! ### Stage 1: what it changes and what it keeps -/

theorem C4_arr (c : Dev nD) (w : Fin cfg1.W) :
    C4 m c (Proc.devRef .tc (Pipeline.arrRef spec1 w)) = (book1 (E3 m) c).arrAt w cfg1.N := by
  unfold C4; exact Pipeline.withArrays_arr spec1 launch1.win.arr_inj c _ _ w
theorem C4_of_ne (c : Dev nD) (b : Ref sig .tc) (hb : ∀ w, Pipeline.arrRef spec1 w ≠ b) :
    C4 m c (Proc.devRef .tc b) = C3 m c (Proc.devRef .tc b) := by
  unfold C4; exact Pipeline.withArrays_of_ne spec1 c _ _ b hb
abbrev E4x1 : (c : Dev nD) → (b : Ref sig .tc) → Buf (Elt F) ((c : Thread nD τ).loc b) := fun c b => C4 m c b
theorem put1 (c : Dev nD) (w : Fin cfg1.W) : (book1 (E3 m) c).arrAt w cfg1.N = E4x1 m c (Pipeline.arrRef spec1 w) :=
  (C4_arr m c w).symm
theorem rest1 (c : Dev nD) : ∀ b, b ∉ Finset.univ.image (Pipeline.arrRef spec1) → E4x1 m c b = E3 m c b :=
  fun b hb => C4_of_ne m c b fun w e => hb (Finset.mem_image.mpr ⟨w, Finset.mem_univ _, e⟩)
/-- A buffer that is not one of the arrays the stage writes comes out as it went in: either the stage does not touch
    it, or it only reads it. -/
theorem C4_kept (c : Dev nD) (b : Ref sig .tc) (hb : ∀ w, (cfg1.win w).isOut = true → Pipeline.arrRef spec1 w ≠ b) :
    C4 m c (Proc.devRef .tc b) = C3 m c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    exact (C4_arr m c w).trans (((book1 (E3 m) c).arrAt_in w hin _).trans (book1_A (E3 m) c w))
  · exact C4_of_ne m c b fun w e => h ⟨w, e⟩

/-! ### Stage 2: what it changes and what it keeps -/

theorem C6_arr (c : Dev nD) (w : Fin cfg2.W) :
    C6 m c (Proc.devRef .tc (Pipeline.arrRef spec2 w)) = (book2 (E5 m) c).arrAt w cfg2.N := by
  unfold C6; exact Pipeline.withArrays_arr spec2 launch2.win.arr_inj c _ _ w
theorem C6_of_ne (c : Dev nD) (b : Ref sig .tc) (hb : ∀ w, Pipeline.arrRef spec2 w ≠ b) :
    C6 m c (Proc.devRef .tc b) = C5 m c (Proc.devRef .tc b) := by
  unfold C6; exact Pipeline.withArrays_of_ne spec2 c _ _ b hb
abbrev E6x2 : (c : Dev nD) → (b : Ref sig .tc) → Buf (Elt F) ((c : Thread nD τ).loc b) := fun c b => C6 m c b
theorem put2 (c : Dev nD) (w : Fin cfg2.W) : (book2 (E5 m) c).arrAt w cfg2.N = E6x2 m c (Pipeline.arrRef spec2 w) :=
  (C6_arr m c w).symm
theorem rest2 (c : Dev nD) : ∀ b, b ∉ Finset.univ.image (Pipeline.arrRef spec2) → E6x2 m c b = E5 m c b :=
  fun b hb => C6_of_ne m c b fun w e => hb (Finset.mem_image.mpr ⟨w, Finset.mem_univ _, e⟩)
/-- A buffer that is not one of the arrays the stage writes comes out as it went in: either the stage does not touch
    it, or it only reads it. -/
theorem C6_kept (c : Dev nD) (b : Ref sig .tc) (hb : ∀ w, (cfg2.win w).isOut = true → Pipeline.arrRef spec2 w ≠ b) :
    C6 m c (Proc.devRef .tc b) = C5 m c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    exact (C6_arr m c w).trans (((book2 (E5 m) c).arrAt_in w hin _).trans (book2_A (E5 m) c w))
  · exact C6_of_ne m c b fun w e => h ⟨w, e⟩

/-! ### Stage 3: what it changes and what it keeps -/

theorem C8_arr (c : Dev nD) (w : Fin cfg3.W) :
    C8 m c (Proc.devRef .tc (Pipeline.arrRef spec3 w)) = (book3 (E7 m) c).arrAt w cfg3.N := by
  unfold C8; exact Pipeline.withArrays_arr spec3 launch3.win.arr_inj c _ _ w
theorem C8_of_ne (c : Dev nD) (b : Ref sig .tc) (hb : ∀ w, Pipeline.arrRef spec3 w ≠ b) :
    C8 m c (Proc.devRef .tc b) = C7 m c (Proc.devRef .tc b) := by
  unfold C8; exact Pipeline.withArrays_of_ne spec3 c _ _ b hb
abbrev E8x3 : (c : Dev nD) → (b : Ref sig .tc) → Buf (Elt F) ((c : Thread nD τ).loc b) := fun c b => C8 m c b
theorem put3 (c : Dev nD) (w : Fin cfg3.W) : (book3 (E7 m) c).arrAt w cfg3.N = E8x3 m c (Pipeline.arrRef spec3 w) :=
  (C8_arr m c w).symm
theorem rest3 (c : Dev nD) : ∀ b, b ∉ Finset.univ.image (Pipeline.arrRef spec3) → E8x3 m c b = E7 m c b :=
  fun b hb => C8_of_ne m c b fun w e => hb (Finset.mem_image.mpr ⟨w, Finset.mem_univ _, e⟩)
/-- A buffer that is not one of the arrays the stage writes comes out as it went in: either the stage does not touch
    it, or it only reads it. -/
theorem C8_kept (c : Dev nD) (b : Ref sig .tc) (hb : ∀ w, (cfg3.win w).isOut = true → Pipeline.arrRef spec3 w ≠ b) :
    C8 m c (Proc.devRef .tc b) = C7 m c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    exact (C8_arr m c w).trans (((book3 (E7 m) c).arrAt_in w hin _).trans (book3_A (E7 m) c w))
  · exact C8_of_ne m c b fun w e => h ⟨w, e⟩

/-! ### Stage 4: what it changes and what it keeps -/

theorem C9_arr (c : Dev nD) (w : Fin cfg4.W) :
    C9 m c (Proc.devRef .tc (Pipeline.arrRef spec4 w)) = (book4 (E8 m) c).arrAt w cfg4.N := by
  unfold C9; exact Pipeline.withArrays_arr spec4 launch4.win.arr_inj c _ _ w
theorem C9_of_ne (c : Dev nD) (b : Ref sig .tc) (hb : ∀ w, Pipeline.arrRef spec4 w ≠ b) :
    C9 m c (Proc.devRef .tc b) = C8 m c (Proc.devRef .tc b) := by
  unfold C9; exact Pipeline.withArrays_of_ne spec4 c _ _ b hb
abbrev E9x4 : (c : Dev nD) → (b : Ref sig .tc) → Buf (Elt F) ((c : Thread nD τ).loc b) := fun c b => C9 m c b
theorem put4 (c : Dev nD) (w : Fin cfg4.W) : (book4 (E8 m) c).arrAt w cfg4.N = E9x4 m c (Pipeline.arrRef spec4 w) :=
  (C9_arr m c w).symm
theorem rest4 (c : Dev nD) : ∀ b, b ∉ Finset.univ.image (Pipeline.arrRef spec4) → E9x4 m c b = E8 m c b :=
  fun b hb => C9_of_ne m c b fun w e => hb (Finset.mem_image.mpr ⟨w, Finset.mem_univ _, e⟩)
/-- A buffer that is not one of the arrays the stage writes comes out as it went in: either the stage does not touch
    it, or it only reads it. -/
theorem C9_kept (c : Dev nD) (b : Ref sig .tc) (hb : ∀ w, (cfg4.win w).isOut = true → Pipeline.arrRef spec4 w ≠ b) :
    C9 m c (Proc.devRef .tc b) = C8 m c (Proc.devRef .tc b) := by
  by_cases h : ∃ w, Pipeline.arrRef spec4 w = b
  · obtain ⟨w, rfl⟩ := h
    have hin : (cfg4.win w).isOut = false := by
      cases hio : (cfg4.win w).isOut
      · rfl
      · exact absurd rfl (hb w hio)
    exact (C9_arr m c w).trans (((book4 (E8 m) c).arrAt_in w hin _).trans (book4_A (E8 m) c w))
  · exact C9_of_ne m c b fun w e => h ⟨w, e⟩

/-- A buffer that no host operation writes and no stage writes ends at its launch contents. -/
theorem C9_launch (c : Dev nD) (b : Ref sig .tc)
    (h0 : b ∉ hostOps0_W) (h1 : b ∉ hostOps1_W) (h2 : b ∉ hostOps2_W) (h3 : b ∉ hostOps3_W)
    (g0 : ∀ w, (cfg0.win w).isOut = true → Pipeline.arrRef spec0 w ≠ b) (g1 : ∀ w, (cfg1.win w).isOut = true → Pipeline.arrRef spec1 w ≠ b)
    (g2 : ∀ w, (cfg2.win w).isOut = true → Pipeline.arrRef spec2 w ≠ b) (g3 : ∀ w, (cfg3.win w).isOut = true → Pipeline.arrRef spec3 w ≠ b)
    (g4 : ∀ w, (cfg4.win w).isOut = true → Pipeline.arrRef spec4 w ≠ b) :
    C9 m c (Proc.devRef .tc b) = m ((c : Thread nD τ).loc b) :=
  calc C9 m c (Proc.devRef .tc b)
    _ = C8 m c (Proc.devRef .tc b) := C9_kept m c b g4
    _ = C7 m c (Proc.devRef .tc b) := C8_kept m c b g3
    _ = C6 m c (Proc.devRef .tc b) := StableHlo.after_of_writes_sub hostOps3 _ hostOps3_writes h3
    _ = C5 m c (Proc.devRef .tc b) := C6_kept m c b g2
    _ = C4 m c (Proc.devRef .tc b) := StableHlo.after_of_writes_sub hostOps2 _ hostOps2_writes h2
    _ = C3 m c (Proc.devRef .tc b) := C4_kept m c b g1
    _ = C2 m c (Proc.devRef .tc b) := StableHlo.after_of_writes_sub hostOps1 _ hostOps1_writes h1
    _ = C1 m c (Proc.devRef .tc b) := C2_kept m c b g0
    _ = C0 m c (Proc.devRef .tc b) := StableHlo.after_of_writes_sub hostOps0 _ hostOps0_writes h0
    _ = m ((c : Thread nD τ).loc b) := rfl

/-! ## The stages' bookkeeping together, and what rides along -/

/-- No stage reads a table of indices. -/
abbrev noTables : (p : Fin 5) → (pcfgs (F := F) p).Adm := fun p => (cfgs p).toPCfg_adm
/-- Each stage's bookkeeping, at the contents it starts from. -/
def books : (p : Fin 5) → (c : Dev nD) → Dat τ (Elt F) Unit ℕ (UR sig nD τ) ℕ (Pipeline.pin (pcfgs (F := F)) noTables p) c
  | ⟨0, _⟩ => fun c => book0 (E1 m) c
  | ⟨1, _⟩ => fun c => book1 (E3 m) c
  | ⟨2, _⟩ => fun c => book2 (E5 m) c
  | ⟨3, _⟩ => fun c => book3 (E7 m) c
  | ⟨4, _⟩ => fun c => book4 (E8 m) c
abbrev 𝒱₀ : Variants := Variants.none
/-- No core waits on another. -/
abbrev Lv : GSem nD τ sig → Finset Unit := fun _ => ∅
abbrev lv : GSem nD τ sig → Unit → ℕ := fun _ _ => 0
/-- Beside the buffers every step carries the core's random-number register, in some state, and the record that the
    core owes nothing. -/
abbrev Rest (c : Dev nD) : sProp 𝕄 := iprop((∃ r, prngReg c r) ∗ ∃ W, owes (c : Thread nD τ) (0 : CellTallies nD τ sig Unit) W)
/-- A stretch of host operations as a step from the contents `W`. -/
abbrev hostStep (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without the record of debts. -/
abbrev Last (c : Dev nD) : sProp 𝕄 := iprop(StableHlo.held (c : Thread nD τ) (Pipeline.ucRefs τ sig) (C9 m c) ∗ ∃ r, prngReg c r)

/-! ## The stages as steps -/

set_option backward.isDefEq.respectTransparency.types false in
/-- Stage 0 as a step from `C1` to `C2`: its arrays are taken out of the held buffers and put back at what the
    write-backs leave; the random-number register goes in and comes out; nothing is owed. -/
def step0 : Pipeline.RegionSeg (pcfgs (F := F)) noTables (books m) () defs₀ 𝒱₀ Lv lv 0 where
  win := launch0.win.to₀
  block_pos := launch0.block_pos
  stage_whole := launch0.stage_whole
  K := PEmpty
  osem k := k.elim
  ho := Pipeline.OwnSemFacts.none _
  hbody c := (duty0 (E1 m) c).loose
  hwaits := Pipeline.hwaits_of_owed_zero _ _ _ _ Lv lv 0 fun _ _ => rfl
  pre c := iprop(StableHlo.held (c : Thread nD τ) (Pipeline.ucRefs τ sig) (C1 m c) ∗ Rest c)
  post c := iprop(StableHlo.held (c : Thread nD τ) (Pipeline.ucRefs τ sig) (C2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (books m) launch0.win launch0.arr_whole c
      ((books m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 0 c).Φ 0 = Pipeline.ΦA spec0 c from rfl]; unfold Pipeline.ΦA
    iintro ⟨Hp, -, Hr⟩
    isplitl [Hr]; · iexact Hr
    iexact Hp
  hout c := by
    rw [Pipeline.ownSems0_none, show (books m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (books m) ((books m 0 c).share_full fun _ => rfl)
      (E1 m c) (E2x0 m c) ((books m 0 c).arrAt · cfg0.N) (put0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a step from `C3` to `C4`: its arrays are taken out of the held buffers and put back at what the
    write-backs leave; the random-number register goes in and comes out; nothing is owed. -/
def step1 : Pipeline.RegionSeg (pcfgs (F := F)) noTables (books m) () defs₀ 𝒱₀ Lv lv 1 where
  win := launch1.win.to₀
  block_pos := launch1.block_pos
  stage_whole := launch1.stage_whole
  K := PEmpty
  osem k := k.elim
  ho := Pipeline.OwnSemFacts.none _
  hbody c := (duty1 (E3 m) c).loose
  hwaits := Pipeline.hwaits_of_owed_zero _ _ _ _ Lv lv 1 fun _ _ => rfl
  pre c := iprop(StableHlo.held (c : Thread nD τ) (Pipeline.ucRefs τ sig) (C3 m c) ∗ Rest c)
  post c := iprop(StableHlo.held (c : Thread nD τ) (Pipeline.ucRefs τ sig) (C4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) noTables (books m) launch1.win launch1.arr_whole c
      ((books m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 1 c).Φ 0 = Pipeline.ΦA spec1 c from rfl]; unfold Pipeline.ΦA
    iintro ⟨Hp, -, Hr⟩
    isplitl [Hr]; · iexact Hr
    iexact Hp
  hout c := by
    rw [Pipeline.ownSems0_none, show (books m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (books m) ((books m 1 c).share_full fun _ => rfl)
      (E3 m c) (E4x1 m c) ((books m 1 c).arrAt · cfg1.N) (put1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 as a step from `C5` to `C6`: its arrays are taken out of the held buffers and put back at what the
    write-backs leave; the random-number register goes in and comes out; nothing is owed. -/
def step2 : Pipeline.RegionSeg (pcfgs (F := F)) noTables (books m) () defs₀ 𝒱₀ Lv lv 2 where
  win := launch2.win.to₀
  block_pos := launch2.block_pos
  stage_whole := launch2.stage_whole
  K := PEmpty
  osem k := k.elim
  ho := Pipeline.OwnSemFacts.none _
  hbody c := (duty2 (E5 m) c).loose
  hwaits := Pipeline.hwaits_of_owed_zero _ _ _ _ Lv lv 2 fun _ _ => rfl
  pre c := iprop(StableHlo.held (c : Thread nD τ) (Pipeline.ucRefs τ sig) (C5 m c) ∗ Rest c)
  post c := iprop(StableHlo.held (c : Thread nD τ) (Pipeline.ucRefs τ sig) (C6 m c) ∗ Rest c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) noTables (books m) launch2.win launch2.arr_whole c
      ((books m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 2 c).Φ 0 = Pipeline.ΦA spec2 c from rfl]; unfold Pipeline.ΦA
    iintro ⟨Hp, -, Hr⟩
    isplitl [Hr]; · iexact Hr
    iexact Hp
  hout c := by
    rw [Pipeline.ownSems0_none, show (books m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (books m) ((books m 2 c).share_full fun _ => rfl)
      (E5 m c) (E6x2 m c) ((books m 2 c).arrAt · cfg2.N) (put2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3 as a step from `C7` to `C8`: its arrays are taken out of the held buffers and put back at what the
    write-backs leave; the random-number register goes in and comes out; nothing is owed. -/
def step3 : Pipeline.RegionSeg (pcfgs (F := F)) noTables (books m) () defs₀ 𝒱₀ Lv lv 3 where
  win := launch3.win.to₀
  block_pos := launch3.block_pos
  stage_whole := launch3.stage_whole
  K := PEmpty
  osem k := k.elim
  ho := Pipeline.OwnSemFacts.none _
  hbody c := (duty3 (E7 m) c).loose
  hwaits := Pipeline.hwaits_of_owed_zero _ _ _ _ Lv lv 3 fun _ _ => rfl
  pre c := iprop(StableHlo.held (c : Thread nD τ) (Pipeline.ucRefs τ sig) (C7 m c) ∗ Rest c)
  post c := iprop(StableHlo.held (c : Thread nD τ) (Pipeline.ucRefs τ sig) (C8 m c) ∗ Rest c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) noTables (books m) launch3.win launch3.arr_whole c
      ((books m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 3 c).Φ 0 = Pipeline.ΦA spec3 c from rfl]; unfold Pipeline.ΦA
    iintro ⟨Hp, -, Hr⟩
    isplitl [Hr]; · iexact Hr
    iexact Hp
  hout c := by
    rw [Pipeline.ownSems0_none, show (books m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (books m) ((books m 3 c).share_full fun _ => rfl)
      (E7 m c) (E8x3 m c) ((books m 3 c).arrAt · cfg3.N) (put3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 4 as a step from `C8` to `C9`: its arrays are taken out of the held buffers and put back at what the
    write-backs leave; the random-number register goes in and comes out; nothing is owed. -/
def step4 : Pipeline.RegionSeg (pcfgs (F := F)) noTables (books m) () defs₀ 𝒱₀ Lv lv 4 where
  win := launch4.win.to₀
  block_pos := launch4.block_pos
  stage_whole := launch4.stage_whole
  K := PEmpty
  osem k := k.elim
  ho := Pipeline.OwnSemFacts.none _
  hbody c := (duty4 (E8 m) c).loose
  hwaits := Pipeline.hwaits_of_owed_zero _ _ _ _ Lv lv 4 fun _ _ => rfl
  pre c := iprop(StableHlo.held (c : Thread nD τ) (Pipeline.ucRefs τ sig) (C8 m c) ∗ Rest c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E8 m c)
  hentry c := by
    rw [Pipeline.ownSems0_none]
    have hsplit := Pipeline.arrays_of_unscopedBufs (p := 4) (pcfgs (F := F)) noTables (books m) launch4.win launch4.arr_whole c
      ((books m 4 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 4 c).Φ 0 = Pipeline.ΦA spec4 c from rfl]; unfold Pipeline.ΦA
    iintro ⟨Hp, -, Hr⟩
    isplitl [Hr]; · iexact Hr
    iexact Hp
  hout c := by
    rw [Pipeline.ownSems0_none, show (books m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (books m) ((books m 4 c).share_full fun _ => rfl)
      (E8 m c) (E9x4 m c) ((books m 4 c).arrAt · cfg4.N) (put4 m c) (rest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its nine steps, and the launch -/

abbrev steps : List (Pipeline.Seg (pcfgs (F := F)) noTables (books m) () defs₀ 𝒱₀ Lv lv) :=
  [ .host (hostStep hostOps0 hostOps0_sub hostOps0_fresh (C0 m)),
    .region (step0 m),
    .host (hostStep hostOps1 hostOps1_sub hostOps1_fresh (C2 m)),
    .region (step1 m),
    .host (hostStep hostOps2 hostOps2_sub hostOps2_fresh (C4 m)),
    .region (step2 m),
    .host (hostStep hostOps3 hostOps3_sub hostOps3_fresh (C6 m)),
    .region (step3 m),
    .region (step4 m) ]

/-- The printed program is the run of these steps, in this order. -/
theorem main_steps (c : Dev nD) : main (F := F) c = Pipeline.Seg.run (steps m) := (main_chain c).trans (by chain_rfl)

set_option backward.isDefEq.respectTransparency.types false in
/-- Every weakly fair execution terminates, nothing faults, and the final memory holds `C9` at every buffer outside the
    stages' staging memory. -/
theorem pass (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = C9 m c b) :=
  Pipeline.θ_run_regions_kit (pcfgs (F := F)) noTables (books m) () cellOf_inj emb₁ defs₀ 𝒱₀ Lv lv m ρ main (steps m)
    (fun c Q => by rw [main_steps m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m c) ∗ Rest c)) (Tₙ := Last m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (C0 m c)
        from Pipeline.unscopedBufs_held c (C0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C9 m c b)
    (hfin := fun c s' => by
      iintro ⟨⟨Hh, -⟩, HSI⟩
      unfold StableHlo.held
      imodintro
      iapply (pointsTo_read_all (Pipeline.ucRefs τ sig) (fun b => (((c : Thread nD τ)).1, b)) (C9 m c) s')
      isplitl [Hh] <;> iassumption)
    (hQ := fun s h c => h c)

end Cert.Kernel.Stage

end
-- ==== Proof.Kernel.Ends.lean ====
/-
  The program runs to the end without a fault and leaves its fifteen argument arrays as launched: no host operation and no
  stage writes any of them.
-/
import proofs.«102085_j69784628625690_2_alg».proof.Proof.Kernel.Pass

set_option maxRecDepth 16384

noncomputable section

namespace Cert.Kernel.Stage

open Idealize.ShloMosaic Idealize.ShloMosaic.TcCoe Idealize.SL.Sem
open Cert.Kernel Cert.Kernel.Gen

variable {F : FTy → Type} [FloatOps F] (m : (ℓ : Loc nD τ sig) → Buf (Elt F) ℓ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (C9_launch m c main_arg0 (by decide) (by decide) (by decide) (by decide) (by decide) (by decide) (by decide) (by decide) (by decide)),
      (h c _ (mem_uc main_arg1 (by decide))).trans (C9_launch m c main_arg1 (by decide) (by decide) (by decide) (by decide) (by decide) (by decide) (by decide) (by decide) (by decide)),
      (h c _ (mem_uc main_arg2 (by decide))).trans (C9_launch m c main_arg2 (by decide) (by decide) (by decide) (by decide) (by decide) (by decide) (by decide) (by decide) (by decide)),
      (h c _ (mem_uc main_arg3 (by decide))).trans (C9_launch m c main_arg3 (by decide) (by decide) (by decide) (by decide) (by decide) (by decide) (by decide) (by decide) (by decide)),
      (h c _ (mem_uc main_arg4 (by decide))).trans (C9_launch m c main_arg4 (by decide) (by decide) (by decide) (by decide) (by decide) (by decide) (by decide) (by decide) (by decide)),
      (h c _ (mem_uc main_arg5 (by decide))).trans (C9_launch m c main_arg5 (by decide) (by decide) (by decide) (by decide) (by decide) (by decide) (by decide) (by decide) (by decide)),
      (h c _ (mem_uc main_arg6 (by decide))).trans (C9_launch m c main_arg6 (by decide) (by decide) (by decide) (by decide) (by decide) (by decide) (by decide) (by decide) (by decide)),
      (h c _ (mem_uc main_arg7 (by decide))).trans (C9_launch m c main_arg7 (by decide) (by decide) (by decide) (by decide) (by decide) (by decide) (by decide) (by decide) (by decide)),
      (h c _ (mem_uc main_arg8 (by decide))).trans (C9_launch m c main_arg8 (by decide) (by decide) (by decide) (by decide) (by decide) (by decide) (by decide) (by decide) (by decide)),
      (h c _ (mem_uc main_arg9 (by decide))).trans (C9_launch m c main_arg9 (by decide) (by decide) (by decide) (by decide) (by decide) (by decide) (by decide) (by decide) (by decide)),
      (h c _ (mem_uc main_arg10 (by decide))).trans (C9_launch m c main_arg10 (by decide) (by decide) (by decide) (by decide) (by decide) (by decide) (by decide) (by decide) (by decide)),
      (h c _ (mem_uc main_arg11 (by decide))).trans (C9_launch m c main_arg11 (by decide) (by decide) (by decide) (by decide) (by decide) (by decide) (by decide) (by decide) (by decide)),
      (h c _ (mem_uc main_arg12 (by decide))).trans (C9_launch m c main_arg12 (by decide) (by decide) (by decide) (by decide) (by decide) (by decide) (by decide) (by decide) (by decide)),
      (h c _ (mem_uc main_arg13 (by decide))).trans (C9_launch m c main_arg13 (by decide) (by decide) (by decide) (by decide) (by decide) (by decide) (by decide) (by decide) (by decide)),
      (h c _ (mem_uc main_arg14 (by decide))).trans (C9_launch m c main_arg14 (by decide) (by decide) (by decide) (by decide) (by decide) (by decide) (by decide) (by decide) (by decide))⟩)
    (pass m ρ)

end Cert.Kernel.Stage

end
-- ==== Proof.KernelIdeal.Stage0.lean ====
/-
  The node projection stage, one grid point at a time. The grid has twenty points; point t works on rows
  2000·t … 2000·t + 1999 of the node features. At every point the body reads a 2000×128 block of node
  features and the whole 128×512 matrix of the four projection weights laid side by side, and overwrites
  its 2000×512 output block with their matrix product. Nothing is carried from one point to the next, so
  what the output block holds after a point is a function of the two input blocks alone.

  Everything here is stated for an arbitrary reading of floats and for arbitrary contents `V` of the
  buffers at the moment the stage starts.
-/
import proofs.«102085_j69784628625690_2_alg».proof.Proof.Gen.KernelIdeal.Launch
import proofs.«102085_j69784628625690_2_alg».proof.Proof.Gen.KernelIdeal.Skeleton
import proofs.«102085_j69784628625690_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Read operand 0's window holds its block whenever the body starts — brought in at that point, or still there
    from an earlier point because the block did not move — for any bookkeeping of the stage that takes the array
    from `V` and says the body leaves the block alone. -/
theorem in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Read operand 1's window holds its block whenever the body starts — brought in at that point, or still there
    from an earlier point because the block did not move — for any bookkeeping of the stage that takes the array
    from `V` and says the body leaves the block alone. -/
theorem in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Each window is read or written as one whole box. -/
abbrev box0_0 : Rect S2000x128 := Rect.unit (s := S2000x128) ![0, 0] S2000x128.size inb_S2000x128_S2000x128_0_0
abbrev box0_1 : Rect S128x512 := Rect.unit (s := S128x512) ![0, 0] S128x512.size inb_S128x512_S128x512_0_0
abbrev box0_2 : Rect S2000x512 := Rect.unit (s := S2000x512) ![0, 0] S2000x512.size inb_S2000x512_S2000x512_0_0

/-- What written operand 2's window holds after the body, as a function of the blocks read: one store over the whole box. -/
def res0_2 (x0 : Vec F S2000x128 .f32) (x1 : Vec F S128x512 .f32) : Vec F S2000x512 .f32 :=
  View.canon [⟨box0_2, k0_pay1 (View.ld x0 box0_0) (View.ld x1 box0_1)⟩]
/-- That one store reaches every entry of the window. -/
theorem res0_2_reaches (p : Vec F S2000x512 .f32) (y : S2000x512.Idx) :
    ∃ pc ∈ ([⟨box0_2, p⟩] : List (View.Piece (Elt F) S2000x512 .f32)), y ∈ pc.1.set :=
  View.cover_of_tiled [⟨box0_2, p⟩] S2000x512.size (by rfl) y

set_option maxHeartbeats 4000000 in
/-- The body on whole buffers: started with the read blocks in the read windows and anything in the written ones, it
    ends with the read windows untouched and each written window at its function of the read blocks. -/
theorem body0 (c : Dev nD) (E : Set ℕ) (i : grid0.Coords) (a0 : Memref sig .tc .vmem S2000x128 .f32) (h0 : a0.IsWhole) (a1 : Memref sig .tc .vmem S128x512 .f32) (h1 : a1.IsWhole) (a2 : Memref sig .tc .vmem S2000x512 .f32) (h2 : a2.IsWhole)
    (x0 : Vec F S2000x128 .f32) (x1 : Vec F S128x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res0_2 x0 x1)) -∗ K ⟨⟩))
      ⊢ wp frame (wpE (defs₀ (F := F)) Variants.none c none) E (cc0__node_matmul_kernel i a0 h0 a1 h1 a2 h2) K := by
  simp only [cc0__node_matmul_kernel_eq_skeleton]; unfold cc0__node_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res0_2_reaches _)

/-- The stage's bookkeeping on core `c`: the arrays are `V`'s; after point `t` each read window still holds its block
    and each written window holds its function of the read blocks; nothing else is kept and nothing is owed. -/
def book0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0_2 (blk0 V c 0 t) (blk0 V c 1 t)
  Φ _ := Pipeline.ΦA spec0 c
  q _ := fullShare
  owed _ := 0

theorem book0_A (c : Dev nD) (w : Fin cfg0.W) : (book0 V c).A w = V c (Pipeline.arrRef spec0 w) := by
  dsimp only [book0]
theorem book0_after0 (c : Dev nD) (t : Fin cfg0.N) : (book0 V c).after 0 t = blk0 V c 0 t := by dsimp only [book0]
theorem book0_after1 (c : Dev nD) (t : Fin cfg0.N) : (book0 V c).after 1 t = blk0 V c 1 t := by dsimp only [book0]
theorem book0_after2 (c : Dev nD) (t : Fin cfg0.N) : (book0 V c).after 2 t = res0_2 (blk0 V c 0 t) (blk0 V c 1 t) := by dsimp only [book0]
theorem book0_before0 (c : Dev nD) (t : Fin cfg0.N) (d) : (book0 V c).before 0 t d = blk0 V c 0 t :=
  in0_0_of V (book0 V c) (book0_A V c 0) (book0_after0 V c) t d
theorem book0_before1 (c : Dev nD) (t : Fin cfg0.N) (d) : (book0 V c).before 1 t d = blk0 V c 1 t :=
  in0_1_of V (book0 V c) (book0_A V c 1) (book0_after1 V c) t d

/-- What the body is handed at point `t`, window by window, -/
def given0 (c : Dev nD) (t : Fin cfg0.N) : sProp 𝕄 :=
  iprop((book0 V c).Φ t.castSucc ∗ (book0 V c).owesAt () t.castSucc
    ∗ (∃ d, owns (c : Thread nD τ) (st0_0 t) fullShare ((book0 V c).before 0 t d))
    ∗ (∃ d, owns (c : Thread nD τ) (st0_1 t) fullShare ((book0 V c).before 1 t d))
    ∗ (∃ d, owns (c : Thread nD τ) (st0_2 t) fullShare ((book0 V c).before 2 t d)))

/-- and what it hands back. -/
def left0 (c : Dev nD) (t : Fin cfg0.N) : sProp 𝕄 :=
  iprop((book0 V c).Φ t.succ ∗ (book0 V c).owesAt () t.succ
    ∗ owns (c : Thread nD τ) (st0_0 t) fullShare ((book0 V c).after 0 t)
    ∗ owns (c : Thread nD τ) (st0_1 t) fullShare ((book0 V c).after 1 t)
    ∗ owns (c : Thread nD τ) (st0_2 t) fullShare ((book0 V c).after 2 t))

theorem point0 (c : Dev nD) (t : Fin cfg0.N) :
    given0 V c t ⊢ wp frame (wpE (defs₀ (F := F)) Variants.none c none) Set.univ (bodyAt0 t) (fun _ => left0 V c t) := by
  unfold given0 left0 bodyAt0
  simp only [book0_before0, book0_before1]
  rw [show (book0 V c).Φ t.succ = (book0 V c).Φ t.castSucc from rfl,
    show (book0 V c).owesAt () t.succ = (book0 V c).owesAt () t.castSucc from rfl,
    book0_after0, book0_after1, book0_after2]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body does at every point what the bookkeeping says. -/
theorem duty0 (c : Dev nD) : BodyObligation (book0 (F := F) V c) (defs₀ (F := F)) Variants.none () Set.univ := fun t => by
  rw [bigSep_W0, bigSep_W0]
  exact point0 V c t

end Cert.KernelIdeal.Stage

end
-- ==== Proof.KernelIdeal.Stage1.lean ====
/-
  The edge gate stage, one grid point at a time. The grid has 160 points; point t works on edges
  4000·t … 4000·t + 3999. At every point the body reads a block of edge features, the 128×128 edge weight
  matrix, the three blocks of node projections gathered along the edges (by source, by destination, by source),
  and a column of per-edge scale factors. It writes five blocks: the gated edge feature
  max(e·W + d + g, 0) scaled by the factor, the gate 1/(1+exp(−max(e·W + d + g, 0))), the gate times the
  third gathered block, and, in two 1×1×128 rows, the column sums over the block's 4000 rows of the first
  output and of its square. Nothing is carried from one point to the next.

  Everything here is stated for an arbitrary reading of floats and for arbitrary contents `V` of the
  buffers at the moment the stage starts.
-/
import proofs.«102085_j69784628625690_2_alg».proof.Proof.Gen.KernelIdeal.Launch
import proofs.«102085_j69784628625690_2_alg».proof.Proof.Gen.KernelIdeal.Skeleton
import proofs.«102085_j69784628625690_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Read operand 0's window holds its block whenever the body starts — brought in at that point, or still there
    from an earlier point because the block did not move — for any bookkeeping of the stage that takes the array
    from `V` and says the body leaves the block alone. -/
theorem in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Read operand 1's window holds its block whenever the body starts — brought in at that point, or still there
    from an earlier point because the block did not move — for any bookkeeping of the stage that takes the array
    from `V` and says the body leaves the block alone. -/
theorem in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Read operand 2's window holds its block whenever the body starts — brought in at that point, or still there
    from an earlier point because the block did not move — for any bookkeeping of the stage that takes the array
    from `V` and says the body leaves the block alone. -/
theorem in1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Read operand 3's window holds its block whenever the body starts — brought in at that point, or still there
    from an earlier point because the block did not move — for any bookkeeping of the stage that takes the array
    from `V` and says the body leaves the block alone. -/
theorem in1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Read operand 4's window holds its block whenever the body starts — brought in at that point, or still there
    from an earlier point because the block did not move — for any bookkeeping of the stage that takes the array
    from `V` and says the body leaves the block alone. -/
theorem in1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Read operand 5's window holds its block whenever the body starts — brought in at that point, or still there
    from an earlier point because the block did not move — for any bookkeeping of the stage that takes the array
    from `V` and says the body leaves the block alone. -/
theorem in1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Each window is read or written as one whole box. -/
abbrev box1_0 : Rect S4000x128 := Rect.unit (s := S4000x128) ![0, 0] S4000x128.size inb_S4000x128_S4000x128_0_0
abbrev box1_1 : Rect S128x128 := Rect.unit (s := S128x128) ![0, 0] S128x128.size inb_S128x128_S128x128_0_0
abbrev box1_2 : Rect S4000x128 := Rect.unit (s := S4000x128) ![0, 0] S4000x128.size inb_S4000x128_S4000x128_0_0
abbrev box1_3 : Rect S4000x128 := Rect.unit (s := S4000x128) ![0, 0] S4000x128.size inb_S4000x128_S4000x128_0_0
abbrev box1_4 : Rect S4000x128 := Rect.unit (s := S4000x128) ![0, 0] S4000x128.size inb_S4000x128_S4000x128_0_0
abbrev box1_5 : Rect S4000x1 := Rect.unit (s := S4000x1) ![0, 0] S4000x1.size inb_S4000x1_S4000x1_0_0
abbrev box1_6 : Rect S4000x128 := Rect.unit (s := S4000x128) ![0, 0] S4000x128.size inb_S4000x128_S4000x128_0_0
abbrev box1_7 : Rect S4000x128 := Rect.unit (s := S4000x128) ![0, 0] S4000x128.size inb_S4000x128_S4000x128_0_0
abbrev box1_8 : Rect S4000x128 := Rect.unit (s := S4000x128) ![0, 0] S4000x128.size inb_S4000x128_S4000x128_0_0
abbrev box1_9 : Rect S1x1x128 := Rect.unit (s := S1x1x128) ![0, 0, 0] S1x1x128.size inb_S1x1x128_S1x1x128_0_0_0
abbrev box1_10 : Rect S1x1x128 := Rect.unit (s := S1x1x128) ![0, 0, 0] S1x1x128.size inb_S1x1x128_S1x1x128_0_0_0

/-- What written operand 6's window holds after the body, as a function of the blocks read: one store over the whole box. -/
def res1_6 (x0 : Vec F S4000x128 .f32) (x1 : Vec F S128x128 .f32) (x2 : Vec F S4000x128 .bf16) (x3 : Vec F S4000x128 .bf16) (x4 : Vec F S4000x128 .bf16) (x5 : Vec F S4000x1 .f32) : Vec F S4000x128 .f32 :=
  View.canon [⟨box1_6, k1_pay5 (View.ld x0 box1_0) (View.ld x1 box1_1) (View.ld x2 box1_2) (View.ld x3 box1_3) (View.ld x5 box1_5)⟩]
/-- That one store reaches every entry of the window. -/
theorem res1_6_reaches (p : Vec F S4000x128 .f32) (y : S4000x128.Idx) :
    ∃ pc ∈ ([⟨box1_6, p⟩] : List (View.Piece (Elt F) S4000x128 .f32)), y ∈ pc.1.set :=
  View.cover_of_tiled [⟨box1_6, p⟩] S4000x128.size (by rfl) y

/-- What written operand 7's window holds after the body, as a function of the blocks read: one store over the whole box. -/
def res1_7 (x0 : Vec F S4000x128 .f32) (x1 : Vec F S128x128 .f32) (x2 : Vec F S4000x128 .bf16) (x3 : Vec F S4000x128 .bf16) (x4 : Vec F S4000x128 .bf16) (x5 : Vec F S4000x1 .f32) : Vec F S4000x128 .f32 :=
  View.canon [⟨box1_7, k1_pay3 (View.ld x0 box1_0) (View.ld x1 box1_1) (View.ld x2 box1_2) (View.ld x3 box1_3)⟩]
/-- That one store reaches every entry of the window. -/
theorem res1_7_reaches (p : Vec F S4000x128 .f32) (y : S4000x128.Idx) :
    ∃ pc ∈ ([⟨box1_7, p⟩] : List (View.Piece (Elt F) S4000x128 .f32)), y ∈ pc.1.set :=
  View.cover_of_tiled [⟨box1_7, p⟩] S4000x128.size (by rfl) y

/-- What written operand 8's window holds after the body, as a function of the blocks read: one store over the whole box. -/
def res1_8 (x0 : Vec F S4000x128 .f32) (x1 : Vec F S128x128 .f32) (x2 : Vec F S4000x128 .bf16) (x3 : Vec F S4000x128 .bf16) (x4 : Vec F S4000x128 .bf16) (x5 : Vec F S4000x1 .f32) : Vec F S4000x128 .f32 :=
  View.canon [⟨box1_8, k1_pay4 (View.ld x0 box1_0) (View.ld x1 box1_1) (View.ld x2 box1_2) (View.ld x3 box1_3) (View.ld x4 box1_4)⟩]
/-- That one store reaches every entry of the window. -/
theorem res1_8_reaches (p : Vec F S4000x128 .f32) (y : S4000x128.Idx) :
    ∃ pc ∈ ([⟨box1_8, p⟩] : List (View.Piece (Elt F) S4000x128 .f32)), y ∈ pc.1.set :=
  View.cover_of_tiled [⟨box1_8, p⟩] S4000x128.size (by rfl) y

/-- What written operand 9's window holds after the body, as a function of the blocks read: one store over the whole box. -/
def res1_9 (x0 : Vec F S4000x128 .f32) (x1 : Vec F S128x128 .f32) (x2 : Vec F S4000x128 .bf16) (x3 : Vec F S4000x128 .bf16) (x4 : Vec F S4000x128 .bf16) (x5 : Vec F S4000x1 .f32) : Vec F S1x1x128 .f32 :=
  View.canon [⟨box1_9, k1_pay6 (View.ld x0 box1_0) (View.ld x1 box1_1) (View.ld x2 box1_2) (View.ld x3 box1_3) (View.ld x5 box1_5)⟩]
/-- That one store reaches every entry of the window. -/
theorem res1_9_reaches (p : Vec F S1x1x128 .f32) (y : S1x1x128.Idx) :
    ∃ pc ∈ ([⟨box1_9, p⟩] : List (View.Piece (Elt F) S1x1x128 .f32)), y ∈ pc.1.set :=
  View.cover_of_tiled [⟨box1_9, p⟩] S1x1x128.size (by rfl) y

/-- What written operand 10's window holds after the body, as a function of the blocks read: one store over the whole box. -/
def res1_10 (x0 : Vec F S4000x128 .f32) (x1 : Vec F S128x128 .f32) (x2 : Vec F S4000x128 .bf16) (x3 : Vec F S4000x128 .bf16) (x4 : Vec F S4000x128 .bf16) (x5 : Vec F S4000x1 .f32) : Vec F S1x1x128 .f32 :=
  View.canon [⟨box1_10, k1_pay1 (k1_pay5 (View.ld x0 box1_0) (View.ld x1 box1_1) (View.ld x2 box1_2) (View.ld x3 box1_3) (View.ld x5 box1_5))⟩]
/-- That one store reaches every entry of the window. -/
theorem res1_10_reaches (p : Vec F S1x1x128 .f32) (y : S1x1x128.Idx) :
    ∃ pc ∈ ([⟨box1_10, p⟩] : List (View.Piece (Elt F) S1x1x128 .f32)), y ∈ pc.1.set :=
  View.cover_of_tiled [⟨box1_10, p⟩] S1x1x128.size (by rfl) y

set_option maxHeartbeats 4000000 in
/-- The body on whole buffers: started with the read blocks in the read windows and anything in the written ones, it
    ends with the read windows untouched and each written window at its function of the read blocks. -/
theorem body1 (c : Dev nD) (E : Set ℕ) (i : grid1.Coords) (a0 : Memref sig .tc .vmem S4000x128 .f32) (h0 : a0.IsWhole) (a1 : Memref sig .tc .vmem S128x128 .f32) (h1 : a1.IsWhole) (a2 : Memref sig .tc .vmem S4000x128 .bf16) (h2 : a2.IsWhole) (a3 : Memref sig .tc .vmem S4000x128 .bf16) (h3 : a3.IsWhole) (a4 : Memref sig .tc .vmem S4000x128 .bf16) (h4 : a4.IsWhole) (a5 : Memref sig .tc .vmem S4000x1 .f32) (h5 : a5.IsWhole) (a6 : Memref sig .tc .vmem S4000x128 .f32) (h6 : a6.IsWhole) (a7 : Memref sig .tc .vmem S4000x128 .f32) (h7 : a7.IsWhole) (a8 : Memref sig .tc .vmem S4000x128 .f32) (h8 : a8.IsWhole) (a9 : Memref sig .tc .vmem S1x1x128 .f32) (h9 : a9.IsWhole) (a10 : Memref sig .tc .vmem S1x1x128 .f32) (h10 : a10.IsWhole)
    (x0 : Vec F S4000x128 .f32) (x1 : Vec F S128x128 .f32) (x2 : Vec F S4000x128 .bf16) (x3 : Vec F S4000x128 .bf16) (x4 : Vec F S4000x128 .bf16) (x5 : Vec F S4000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (res1_6 x0 x1 x2 x3 x4 x5) ∗ owns (c : Thread nD τ) a7 fullShare (res1_7 x0 x1 x2 x3 x4 x5) ∗ owns (c : Thread nD τ) a8 fullShare (res1_8 x0 x1 x2 x3 x4 x5) ∗ owns (c : Thread nD τ) a9 fullShare (res1_9 x0 x1 x2 x3 x4 x5) ∗ owns (c : Thread nD τ) a10 fullShare (res1_10 x0 x1 x2 x3 x4 x5)) -∗ K ⟨⟩))
      ⊢ wp frame (wpE (defs₀ (F := F)) Variants.none c none) E (cc1__edge_gate_kernel i a0 h0 a1 h1 a2 h2 a3 h3 a4 h4 a5 h5 a6 h6 a7 h7 a8 h8 a9 h9 a10 h10) K := by
  simp only [cc1__edge_gate_kernel_eq_skeleton]; unfold cc1__edge_gate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (res1_6_reaches _)
  isplitl [H7]
  · iexists _; isplitr
    swap; · iexact H7
    ipureintro
    exact View.read_writes_eq_canon _ _ _ (res1_7_reaches _)
  isplitl [H8]
  · iexists _; isplitr
    swap; · iexact H8
    ipureintro
    exact View.read_writes_eq_canon _ _ _ (res1_8_reaches _)
  isplitl [H9]
  · iexists _; isplitr
    swap; · iexact H9
    ipureintro
    exact View.read_writes_eq_canon _ _ _ (res1_9_reaches _)
  iexists _; isplitr
  swap; · iexact H10
  ipureintro
  exact View.read_writes_eq_canon _ _ _ (res1_10_reaches _)

/-- The stage's bookkeeping on core `c`: the arrays are `V`'s; after point `t` each read window still holds its block
    and each written window holds its function of the read blocks; nothing else is kept and nothing is owed. -/
def book1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => res1_6 (blk1 V c 0 t) (blk1 V c 1 t) (blk1 V c 2 t) (blk1 V c 3 t) (blk1 V c 4 t) (blk1 V c 5 t)
    | ⟨7, _⟩ => res1_7 (blk1 V c 0 t) (blk1 V c 1 t) (blk1 V c 2 t) (blk1 V c 3 t) (blk1 V c 4 t) (blk1 V c 5 t)
    | ⟨8, _⟩ => res1_8 (blk1 V c 0 t) (blk1 V c 1 t) (blk1 V c 2 t) (blk1 V c 3 t) (blk1 V c 4 t) (blk1 V c 5 t)
    | ⟨9, _⟩ => res1_9 (blk1 V c 0 t) (blk1 V c 1 t) (blk1 V c 2 t) (blk1 V c 3 t) (blk1 V c 4 t) (blk1 V c 5 t)
    | ⟨10, _⟩ => res1_10 (blk1 V c 0 t) (blk1 V c 1 t) (blk1 V c 2 t) (blk1 V c 3 t) (blk1 V c 4 t) (blk1 V c 5 t)
  Φ _ := Pipeline.ΦA spec1 c
  q _ := fullShare
  owed _ := 0

theorem book1_A (c : Dev nD) (w : Fin cfg1.W) : (book1 V c).A w = V c (Pipeline.arrRef spec1 w) := by
  dsimp only [book1]
theorem book1_after0 (c : Dev nD) (t : Fin cfg1.N) : (book1 V c).after 0 t = blk1 V c 0 t := by dsimp only [book1]
theorem book1_after1 (c : Dev nD) (t : Fin cfg1.N) : (book1 V c).after 1 t = blk1 V c 1 t := by dsimp only [book1]
theorem book1_after2 (c : Dev nD) (t : Fin cfg1.N) : (book1 V c).after 2 t = blk1 V c 2 t := by dsimp only [book1]
theorem book1_after3 (c : Dev nD) (t : Fin cfg1.N) : (book1 V c).after 3 t = blk1 V c 3 t := by dsimp only [book1]
theorem book1_after4 (c : Dev nD) (t : Fin cfg1.N) : (book1 V c).after 4 t = blk1 V c 4 t := by dsimp only [book1]
theorem book1_after5 (c : Dev nD) (t : Fin cfg1.N) : (book1 V c).after 5 t = blk1 V c 5 t := by dsimp only [book1]
theorem book1_after6 (c : Dev nD) (t : Fin cfg1.N) : (book1 V c).after 6 t = res1_6 (blk1 V c 0 t) (blk1 V c 1 t) (blk1 V c 2 t) (blk1 V c 3 t) (blk1 V c 4 t) (blk1 V c 5 t) := by dsimp only [book1]
theorem book1_after7 (c : Dev nD) (t : Fin cfg1.N) : (book1 V c).after 7 t = res1_7 (blk1 V c 0 t) (blk1 V c 1 t) (blk1 V c 2 t) (blk1 V c 3 t) (blk1 V c 4 t) (blk1 V c 5 t) := by dsimp only [book1]
theorem book1_after8 (c : Dev nD) (t : Fin cfg1.N) : (book1 V c).after 8 t = res1_8 (blk1 V c 0 t) (blk1 V c 1 t) (blk1 V c 2 t) (blk1 V c 3 t) (blk1 V c 4 t) (blk1 V c 5 t) := by dsimp only [book1]
theorem book1_after9 (c : Dev nD) (t : Fin cfg1.N) : (book1 V c).after 9 t = res1_9 (blk1 V c 0 t) (blk1 V c 1 t) (blk1 V c 2 t) (blk1 V c 3 t) (blk1 V c 4 t) (blk1 V c 5 t) := by dsimp only [book1]
theorem book1_after10 (c : Dev nD) (t : Fin cfg1.N) : (book1 V c).after 10 t = res1_10 (blk1 V c 0 t) (blk1 V c 1 t) (blk1 V c 2 t) (blk1 V c 3 t) (blk1 V c 4 t) (blk1 V c 5 t) := by dsimp only [book1]
theorem book1_before0 (c : Dev nD) (t : Fin cfg1.N) (d) : (book1 V c).before 0 t d = blk1 V c 0 t :=
  in1_0_of V (book1 V c) (book1_A V c 0) (book1_after0 V c) t d
theorem book1_before1 (c : Dev nD) (t : Fin cfg1.N) (d) : (book1 V c).before 1 t d = blk1 V c 1 t :=
  in1_1_of V (book1 V c) (book1_A V c 1) (book1_after1 V c) t d
theorem book1_before2 (c : Dev nD) (t : Fin cfg1.N) (d) : (book1 V c).before 2 t d = blk1 V c 2 t :=
  in1_2_of V (book1 V c) (book1_A V c 2) (book1_after2 V c) t d
theorem book1_before3 (c : Dev nD) (t : Fin cfg1.N) (d) : (book1 V c).before 3 t d = blk1 V c 3 t :=
  in1_3_of V (book1 V c) (book1_A V c 3) (book1_after3 V c) t d
theorem book1_before4 (c : Dev nD) (t : Fin cfg1.N) (d) : (book1 V c).before 4 t d = blk1 V c 4 t :=
  in1_4_of V (book1 V c) (book1_A V c 4) (book1_after4 V c) t d
theorem book1_before5 (c : Dev nD) (t : Fin cfg1.N) (d) : (book1 V c).before 5 t d = blk1 V c 5 t :=
  in1_5_of V (book1 V c) (book1_A V c 5) (book1_after5 V c) t d

/-- What the body is handed at point `t`, window by window, -/
def given1 (c : Dev nD) (t : Fin cfg1.N) : sProp 𝕄 :=
  iprop((book1 V c).Φ t.castSucc ∗ (book1 V c).owesAt () t.castSucc
    ∗ (∃ d, owns (c : Thread nD τ) (st1_0 t) fullShare ((book1 V c).before 0 t d))
    ∗ (∃ d, owns (c : Thread nD τ) (st1_1 t) fullShare ((book1 V c).before 1 t d))
    ∗ (∃ d, owns (c : Thread nD τ) (st1_2 t) fullShare ((book1 V c).before 2 t d))
    ∗ (∃ d, owns (c : Thread nD τ) (st1_3 t) fullShare ((book1 V c).before 3 t d))
    ∗ (∃ d, owns (c : Thread nD τ) (st1_4 t) fullShare ((book1 V c).before 4 t d))
    ∗ (∃ d, owns (c : Thread nD τ) (st1_5 t) fullShare ((book1 V c).before 5 t d))
    ∗ (∃ d, owns (c : Thread nD τ) (st1_6 t) fullShare ((book1 V c).before 6 t d))
    ∗ (∃ d, owns (c : Thread nD τ) (st1_7 t) fullShare ((book1 V c).before 7 t d))
    ∗ (∃ d, owns (c : Thread nD τ) (st1_8 t) fullShare ((book1 V c).before 8 t d))
    ∗ (∃ d, owns (c : Thread nD τ) (st1_9 t) fullShare ((book1 V c).before 9 t d))
    ∗ (∃ d, owns (c : Thread nD τ) (st1_10 t) fullShare ((book1 V c).before 10 t d)))

/-- and what it hands back. -/
def left1 (c : Dev nD) (t : Fin cfg1.N) : sProp 𝕄 :=
  iprop((book1 V c).Φ t.succ ∗ (book1 V c).owesAt () t.succ
    ∗ owns (c : Thread nD τ) (st1_0 t) fullShare ((book1 V c).after 0 t)
    ∗ owns (c : Thread nD τ) (st1_1 t) fullShare ((book1 V c).after 1 t)
    ∗ owns (c : Thread nD τ) (st1_2 t) fullShare ((book1 V c).after 2 t)
    ∗ owns (c : Thread nD τ) (st1_3 t) fullShare ((book1 V c).after 3 t)
    ∗ owns (c : Thread nD τ) (st1_4 t) fullShare ((book1 V c).after 4 t)
    ∗ owns (c : Thread nD τ) (st1_5 t) fullShare ((book1 V c).after 5 t)
    ∗ owns (c : Thread nD τ) (st1_6 t) fullShare ((book1 V c).after 6 t)
    ∗ owns (c : Thread nD τ) (st1_7 t) fullShare ((book1 V c).after 7 t)
    ∗ owns (c : Thread nD τ) (st1_8 t) fullShare ((book1 V c).after 8 t)
    ∗ owns (c : Thread nD τ) (st1_9 t) fullShare ((book1 V c).after 9 t)
    ∗ owns (c : Thread nD τ) (st1_10 t) fullShare ((book1 V c).after 10 t))

theorem point1 (c : Dev nD) (t : Fin cfg1.N) :
    given1 V c t ⊢ wp frame (wpE (defs₀ (F := F)) Variants.none c none) Set.univ (bodyAt1 t) (fun _ => left1 V c t) := by
  unfold given1 left1 bodyAt1
  simp only [book1_before0, book1_before1, book1_before2, book1_before3, book1_before4, book1_before5]
  rw [show (book1 V c).Φ t.succ = (book1 V c).Φ t.castSucc from rfl,
    show (book1 V c).owesAt () t.succ = (book1 V c).owesAt () t.castSucc from rfl,
    book1_after0, book1_after1, book1_after2, book1_after3, book1_after4, book1_after5, book1_after6, book1_after7, book1_after8, book1_after9, book1_after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body1 c Set.univ _ _ _ _ _ _ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body does at every point what the bookkeeping says. -/
theorem duty1 (c : Dev nD) : BodyObligation (book1 (F := F) V c) (defs₀ (F := F)) Variants.none () Set.univ := fun t => by
  rw [bigSep_W1, bigSep_W1]
  exact point1 V c t

end Cert.KernelIdeal.Stage

end
-- ==== Proof.KernelIdeal.Stage2.lean ====
/-
  The node update stage, one grid point at a time. The grid has eight points; point t works on nodes
  5000·t … 5000·t + 4999. At every point the body reads a block of the first projection a, a block of the
  summed messages n and of the summed gates s, and a column of per-node scale factors, and writes
  (a + n / (s + 10⁻⁶)) times the factor, and, in two 1×1×128 rows, the column sums over the block's 5000
  rows of that output and of its square. Nothing is carried from one point to the next.

  Everything here is stated for an arbitrary reading of floats and for arbitrary contents `V` of the
  buffers at the moment the stage starts.
-/
import proofs.«102085_j69784628625690_2_alg».proof.Proof.Gen.KernelIdeal.Launch
import proofs.«102085_j69784628625690_2_alg».proof.Proof.Gen.KernelIdeal.Skeleton
import proofs.«102085_j69784628625690_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Read operand 0's window holds its block whenever the body starts — brought in at that point, or still there
    from an earlier point because the block did not move — for any bookkeeping of the stage that takes the array
    from `V` and says the body leaves the block alone. -/
theorem in2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Read operand 1's window holds its block whenever the body starts — brought in at that point, or still there
    from an earlier point because the block did not move — for any bookkeeping of the stage that takes the array
    from `V` and says the body leaves the block alone. -/
theorem in2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Read operand 2's window holds its block whenever the body starts — brought in at that point, or still there
    from an earlier point because the block did not move — for any bookkeeping of the stage that takes the array
    from `V` and says the body leaves the block alone. -/
theorem in2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Read operand 3's window holds its block whenever the body starts — brought in at that point, or still there
    from an earlier point because the block did not move — for any bookkeeping of the stage that takes the array
    from `V` and says the body leaves the block alone. -/
theorem in2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Each window is read or written as one whole box. -/
abbrev box2_0 : Rect S5000x128 := Rect.unit (s := S5000x128) ![0, 0] S5000x128.size inb_S5000x128_S5000x128_0_0
abbrev box2_1 : Rect S5000x128 := Rect.unit (s := S5000x128) ![0, 0] S5000x128.size inb_S5000x128_S5000x128_0_0
abbrev box2_2 : Rect S5000x128 := Rect.unit (s := S5000x128) ![0, 0] S5000x128.size inb_S5000x128_S5000x128_0_0
abbrev box2_3 : Rect S5000x1 := Rect.unit (s := S5000x1) ![0, 0] S5000x1.size inb_S5000x1_S5000x1_0_0
abbrev box2_4 : Rect S5000x128 := Rect.unit (s := S5000x128) ![0, 0] S5000x128.size inb_S5000x128_S5000x128_0_0
abbrev box2_5 : Rect S1x1x128 := Rect.unit (s := S1x1x128) ![0, 0, 0] S1x1x128.size inb_S1x1x128_S1x1x128_0_0_0
abbrev box2_6 : Rect S1x1x128 := Rect.unit (s := S1x1x128) ![0, 0, 0] S1x1x128.size inb_S1x1x128_S1x1x128_0_0_0

/-- What written operand 4's window holds after the body, as a function of the blocks read: one store over the whole box. -/
def res2_4 (x0 : Vec F S5000x128 .f32) (x1 : Vec F S5000x128 .f32) (x2 : Vec F S5000x128 .f32) (x3 : Vec F S5000x1 .f32) : Vec F S5000x128 .f32 :=
  View.canon [⟨box2_4, k2_pay1 (View.ld x1 box2_1) (View.ld x2 box2_2) (View.ld x0 box2_0) (View.ld x3 box2_3)⟩]
/-- That one store reaches every entry of the window. -/
theorem res2_4_reaches (p : Vec F S5000x128 .f32) (y : S5000x128.Idx) :
    ∃ pc ∈ ([⟨box2_4, p⟩] : List (View.Piece (Elt F) S5000x128 .f32)), y ∈ pc.1.set :=
  View.cover_of_tiled [⟨box2_4, p⟩] S5000x128.size (by rfl) y

/-- What written operand 5's window holds after the body, as a function of the blocks read: one store over the whole box. -/
def res2_5 (x0 : Vec F S5000x128 .f32) (x1 : Vec F S5000x128 .f32) (x2 : Vec F S5000x128 .f32) (x3 : Vec F S5000x1 .f32) : Vec F S1x1x128 .f32 :=
  View.canon [⟨box2_5, k2_pay2 (View.ld x1 box2_1) (View.ld x2 box2_2) (View.ld x0 box2_0) (View.ld x3 box2_3)⟩]
/-- That one store reaches every entry of the window. -/
theorem res2_5_reaches (p : Vec F S1x1x128 .f32) (y : S1x1x128.Idx) :
    ∃ pc ∈ ([⟨box2_5, p⟩] : List (View.Piece (Elt F) S1x1x128 .f32)), y ∈ pc.1.set :=
  View.cover_of_tiled [⟨box2_5, p⟩] S1x1x128.size (by rfl) y

/-- What written operand 6's window holds after the body, as a function of the blocks read: one store over the whole box. -/
def res2_6 (x0 : Vec F S5000x128 .f32) (x1 : Vec F S5000x128 .f32) (x2 : Vec F S5000x128 .f32) (x3 : Vec F S5000x1 .f32) : Vec F S1x1x128 .f32 :=
  View.canon [⟨box2_6, k2_pay3 (View.ld x1 box2_1) (View.ld x2 box2_2) (View.ld x0 box2_0) (View.ld x3 box2_3)⟩]
/-- That one store reaches every entry of the window. -/
theorem res2_6_reaches (p : Vec F S1x1x128 .f32) (y : S1x1x128.Idx) :
    ∃ pc ∈ ([⟨box2_6, p⟩] : List (View.Piece (Elt F) S1x1x128 .f32)), y ∈ pc.1.set :=
  View.cover_of_tiled [⟨box2_6, p⟩] S1x1x128.size (by rfl) y

set_option maxHeartbeats 4000000 in
/-- The body on whole buffers: started with the read blocks in the read windows and anything in the written ones, it
    ends with the read windows untouched and each written window at its function of the read blocks. -/
theorem body2 (c : Dev nD) (E : Set ℕ) (i : grid2.Coords) (a0 : Memref sig .tc .vmem S5000x128 .f32) (h0 : a0.IsWhole) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S5000x128 .f32) (h4 : a4.IsWhole) (a5 : Memref sig .tc .vmem S1x1x128 .f32) (h5 : a5.IsWhole) (a6 : Memref sig .tc .vmem S1x1x128 .f32) (h6 : a6.IsWhole)
    (x0 : Vec F S5000x128 .f32) (x1 : Vec F S5000x128 .f32) (x2 : Vec F S5000x128 .f32) (x3 : Vec F S5000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (res2_4 x0 x1 x2 x3) ∗ owns (c : Thread nD τ) a5 fullShare (res2_5 x0 x1 x2 x3) ∗ owns (c : Thread nD τ) a6 fullShare (res2_6 x0 x1 x2 x3)) -∗ K ⟨⟩))
      ⊢ wp frame (wpE (defs₀ (F := F)) Variants.none c none) E (cc2__node_post_kernel i a0 h0 a1 h1 a2 h2 a3 h3 a4 h4 a5 h5 a6 h6) K := by
  simp only [cc2__node_post_kernel_eq_skeleton]; unfold cc2__node_post_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (res2_4_reaches _)
  isplitl [H5]
  · iexists _; isplitr
    swap; · iexact H5
    ipureintro
    exact View.read_writes_eq_canon _ _ _ (res2_5_reaches _)
  iexists _; isplitr
  swap; · iexact H6
  ipureintro
  exact View.read_writes_eq_canon _ _ _ (res2_6_reaches _)

/-- The stage's bookkeeping on core `c`: the arrays are `V`'s; after point `t` each read window still holds its block
    and each written window holds its function of the read blocks; nothing else is kept and nothing is owed. -/
def book2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => res2_4 (blk2 V c 0 t) (blk2 V c 1 t) (blk2 V c 2 t) (blk2 V c 3 t)
    | ⟨5, _⟩ => res2_5 (blk2 V c 0 t) (blk2 V c 1 t) (blk2 V c 2 t) (blk2 V c 3 t)
    | ⟨6, _⟩ => res2_6 (blk2 V c 0 t) (blk2 V c 1 t) (blk2 V c 2 t) (blk2 V c 3 t)
  Φ _ := Pipeline.ΦA spec2 c
  q _ := fullShare
  owed _ := 0

theorem book2_A (c : Dev nD) (w : Fin cfg2.W) : (book2 V c).A w = V c (Pipeline.arrRef spec2 w) := by
  dsimp only [book2]
theorem book2_after0 (c : Dev nD) (t : Fin cfg2.N) : (book2 V c).after 0 t = blk2 V c 0 t := by dsimp only [book2]
theorem book2_after1 (c : Dev nD) (t : Fin cfg2.N) : (book2 V c).after 1 t = blk2 V c 1 t := by dsimp only [book2]
theorem book2_after2 (c : Dev nD) (t : Fin cfg2.N) : (book2 V c).after 2 t = blk2 V c 2 t := by dsimp only [book2]
theorem book2_after3 (c : Dev nD) (t : Fin cfg2.N) : (book2 V c).after 3 t = blk2 V c 3 t := by dsimp only [book2]
theorem book2_after4 (c : Dev nD) (t : Fin cfg2.N) : (book2 V c).after 4 t = res2_4 (blk2 V c 0 t) (blk2 V c 1 t) (blk2 V c 2 t) (blk2 V c 3 t) := by dsimp only [book2]
theorem book2_after5 (c : Dev nD) (t : Fin cfg2.N) : (book2 V c).after 5 t = res2_5 (blk2 V c 0 t) (blk2 V c 1 t) (blk2 V c 2 t) (blk2 V c 3 t) := by dsimp only [book2]
theorem book2_after6 (c : Dev nD) (t : Fin cfg2.N) : (book2 V c).after 6 t = res2_6 (blk2 V c 0 t) (blk2 V c 1 t) (blk2 V c 2 t) (blk2 V c 3 t) := by dsimp only [book2]
theorem book2_before0 (c : Dev nD) (t : Fin cfg2.N) (d) : (book2 V c).before 0 t d = blk2 V c 0 t :=
  in2_0_of V (book2 V c) (book2_A V c 0) (book2_after0 V c) t d
theorem book2_before1 (c : Dev nD) (t : Fin cfg2.N) (d) : (book2 V c).before 1 t d = blk2 V c 1 t :=
  in2_1_of V (book2 V c) (book2_A V c 1) (book2_after1 V c) t d
theorem book2_before2 (c : Dev nD) (t : Fin cfg2.N) (d) : (book2 V c).before 2 t d = blk2 V c 2 t :=
  in2_2_of V (book2 V c) (book2_A V c 2) (book2_after2 V c) t d
theorem book2_before3 (c : Dev nD) (t : Fin cfg2.N) (d) : (book2 V c).before 3 t d = blk2 V c 3 t :=
  in2_3_of V (book2 V c) (book2_A V c 3) (book2_after3 V c) t d

/-- What the body is handed at point `t`, window by window, -/
def given2 (c : Dev nD) (t : Fin cfg2.N) : sProp 𝕄 :=
  iprop((book2 V c).Φ t.castSucc ∗ (book2 V c).owesAt () t.castSucc
    ∗ (∃ d, owns (c : Thread nD τ) (st2_0 t) fullShare ((book2 V c).before 0 t d))
    ∗ (∃ d, owns (c : Thread nD τ) (st2_1 t) fullShare ((book2 V c).before 1 t d))
    ∗ (∃ d, owns (c : Thread nD τ) (st2_2 t) fullShare ((book2 V c).before 2 t d))
    ∗ (∃ d, owns (c : Thread nD τ) (st2_3 t) fullShare ((book2 V c).before 3 t d))
    ∗ (∃ d, owns (c : Thread nD τ) (st2_4 t) fullShare ((book2 V c).before 4 t d))
    ∗ (∃ d, owns (c : Thread nD τ) (st2_5 t) fullShare ((book2 V c).before 5 t d))
    ∗ (∃ d, owns (c : Thread nD τ) (st2_6 t) fullShare ((book2 V c).before 6 t d)))

/-- and what it hands back. -/
def left2 (c : Dev nD) (t : Fin cfg2.N) : sProp 𝕄 :=
  iprop((book2 V c).Φ t.succ ∗ (book2 V c).owesAt () t.succ
    ∗ owns (c : Thread nD τ) (st2_0 t) fullShare ((book2 V c).after 0 t)
    ∗ owns (c : Thread nD τ) (st2_1 t) fullShare ((book2 V c).after 1 t)
    ∗ owns (c : Thread nD τ) (st2_2 t) fullShare ((book2 V c).after 2 t)
    ∗ owns (c : Thread nD τ) (st2_3 t) fullShare ((book2 V c).after 3 t)
    ∗ owns (c : Thread nD τ) (st2_4 t) fullShare ((book2 V c).after 4 t)
    ∗ owns (c : Thread nD τ) (st2_5 t) fullShare ((book2 V c).after 5 t)
    ∗ owns (c : Thread nD τ) (st2_6 t) fullShare ((book2 V c).after 6 t))

theorem point2 (c : Dev nD) (t : Fin cfg2.N) :
    given2 V c t ⊢ wp frame (wpE (defs₀ (F := F)) Variants.none c none) Set.univ (bodyAt2 t) (fun _ => left2 V c t) := by
  unfold given2 left2 bodyAt2
  simp only [book2_before0, book2_before1, book2_before2, book2_before3]
  rw [show (book2 V c).Φ t.succ = (book2 V c).Φ t.castSucc from rfl,
    show (book2 V c).owesAt () t.succ = (book2 V c).owesAt () t.castSucc from rfl,
    book2_after0, book2_after1, book2_after2, book2_after3, book2_after4, book2_after5, book2_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body2 c Set.univ _ _ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body does at every point what the bookkeeping says. -/
theorem duty2 (c : Dev nD) : BodyObligation (book2 (F := F) V c) (defs₀ (F := F)) Variants.none () Set.univ := fun t => by
  rw [bigSep_W2, bigSep_W2]
  exact point2 V c t

end Cert.KernelIdeal.Stage

end
-- ==== Proof.KernelIdeal.Stage3.lean ====
/-
  The node normalisation stage, one grid point at a time. The grid has five points; point t works on
  nodes 8000·t … 8000·t + 7999. At every point the body reads a block x of updated node features and four
  rows of 128 numbers — the column means μ, the column variances v, a scale γ and a shift β — and writes
  max((x − μ)·(v + 10⁻⁵)^(−1/2)·γ + β, 0). Nothing is carried from one point to the next.

  Everything here is stated for an arbitrary reading of floats and for arbitrary contents `V` of the
  buffers at the moment the stage starts.
-/
import proofs.«102085_j69784628625690_2_alg».proof.Proof.Gen.KernelIdeal.Launch
import proofs.«102085_j69784628625690_2_alg».proof.Proof.Gen.KernelIdeal.Skeleton
import proofs.«102085_j69784628625690_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Read operand 0's window holds its block whenever the body starts — brought in at that point, or still there
    from an earlier point because the block did not move — for any bookkeeping of the stage that takes the array
    from `V` and says the body leaves the block alone. -/
theorem in3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Read operand 1's window holds its block whenever the body starts — brought in at that point, or still there
    from an earlier point because the block did not move — for any bookkeeping of the stage that takes the array
    from `V` and says the body leaves the block alone. -/
theorem in3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Read operand 2's window holds its block whenever the body starts — brought in at that point, or still there
    from an earlier point because the block did not move — for any bookkeeping of the stage that takes the array
    from `V` and says the body leaves the block alone. -/
theorem in3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- Read operand 3's window holds its block whenever the body starts — brought in at that point, or still there
    from an earlier point because the block did not move — for any bookkeeping of the stage that takes the array
    from `V` and says the body leaves the block alone. -/
theorem in3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- Read operand 4's window holds its block whenever the body starts — brought in at that point, or still there
    from an earlier point because the block did not move — for any bookkeeping of the stage that takes the array
    from `V` and says the body leaves the block alone. -/
theorem in3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- Each window is read or written as one whole box. -/
abbrev box3_0 : Rect S8000x128 := Rect.unit (s := S8000x128) ![0, 0] S8000x128.size inb_S8000x128_S8000x128_0_0
abbrev box3_1 : Rect S1x128 := Rect.unit (s := S1x128) ![0, 0] S1x128.size inb_S1x128_S1x128_0_0
abbrev box3_2 : Rect S1x128 := Rect.unit (s := S1x128) ![0, 0] S1x128.size inb_S1x128_S1x128_0_0
abbrev box3_3 : Rect S1x128 := Rect.unit (s := S1x128) ![0, 0] S1x128.size inb_S1x128_S1x128_0_0
abbrev box3_4 : Rect S1x128 := Rect.unit (s := S1x128) ![0, 0] S1x128.size inb_S1x128_S1x128_0_0
abbrev box3_5 : Rect S8000x128 := Rect.unit (s := S8000x128) ![0, 0] S8000x128.size inb_S8000x128_S8000x128_0_0

/-- What written operand 5's window holds after the body, as a function of the blocks read: one store over the whole box. -/
def res3_5 (x0 : Vec F S8000x128 .f32) (x1 : Vec F S1x128 .f32) (x2 : Vec F S1x128 .f32) (x3 : Vec F S1x128 .f32) (x4 : Vec F S1x128 .f32) : Vec F S8000x128 .f32 :=
  View.canon [⟨box3_5, k3_pay1 (View.ld x0 box3_0) (View.ld x2 box3_2) (View.ld x1 box3_1) (View.ld x3 box3_3) (View.ld x4 box3_4)⟩]
/-- That one store reaches every entry of the window. -/
theorem res3_5_reaches (p : Vec F S8000x128 .f32) (y : S8000x128.Idx) :
    ∃ pc ∈ ([⟨box3_5, p⟩] : List (View.Piece (Elt F) S8000x128 .f32)), y ∈ pc.1.set :=
  View.cover_of_tiled [⟨box3_5, p⟩] S8000x128.size (by rfl) y

set_option maxHeartbeats 4000000 in
/-- The body on whole buffers: started with the read blocks in the read windows and anything in the written ones, it
    ends with the read windows untouched and each written window at its function of the read blocks. -/
theorem body3 (c : Dev nD) (E : Set ℕ) (i : grid3.Coords) (a0 : Memref sig .tc .vmem S8000x128 .f32) (h0 : a0.IsWhole) (a1 : Memref sig .tc .vmem S1x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S8000x128 .f32) (h5 : a5.IsWhole)
    (x0 : Vec F S8000x128 .f32) (x1 : Vec F S1x128 .f32) (x2 : Vec F S1x128 .f32) (x3 : Vec F S1x128 .f32) (x4 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res3_5 x0 x1 x2 x3 x4)) -∗ K ⟨⟩))
      ⊢ wp frame (wpE (defs₀ (F := F)) Variants.none c none) E (cc3__apply_bn_kernel i a0 h0 a1 h1 a2 h2 a3 h3 a4 h4 a5 h5) K := by
  simp only [cc3__apply_bn_kernel_eq_skeleton]; unfold cc3__apply_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res3_5_reaches _)

/-- The stage's bookkeeping on core `c`: the arrays are `V`'s; after point `t` each read window still holds its block
    and each written window holds its function of the read blocks; nothing else is kept and nothing is owed. -/
def book3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => res3_5 (blk3 V c 0 t) (blk3 V c 1 t) (blk3 V c 2 t) (blk3 V c 3 t) (blk3 V c 4 t)
  Φ _ := Pipeline.ΦA spec3 c
  q _ := fullShare
  owed _ := 0

theorem book3_A (c : Dev nD) (w : Fin cfg3.W) : (book3 V c).A w = V c (Pipeline.arrRef spec3 w) := by
  dsimp only [book3]
theorem book3_after0 (c : Dev nD) (t : Fin cfg3.N) : (book3 V c).after 0 t = blk3 V c 0 t := by dsimp only [book3]
theorem book3_after1 (c : Dev nD) (t : Fin cfg3.N) : (book3 V c).after 1 t = blk3 V c 1 t := by dsimp only [book3]
theorem book3_after2 (c : Dev nD) (t : Fin cfg3.N) : (book3 V c).after 2 t = blk3 V c 2 t := by dsimp only [book3]
theorem book3_after3 (c : Dev nD) (t : Fin cfg3.N) : (book3 V c).after 3 t = blk3 V c 3 t := by dsimp only [book3]
theorem book3_after4 (c : Dev nD) (t : Fin cfg3.N) : (book3 V c).after 4 t = blk3 V c 4 t := by dsimp only [book3]
theorem book3_after5 (c : Dev nD) (t : Fin cfg3.N) : (book3 V c).after 5 t = res3_5 (blk3 V c 0 t) (blk3 V c 1 t) (blk3 V c 2 t) (blk3 V c 3 t) (blk3 V c 4 t) := by dsimp only [book3]
theorem book3_before0 (c : Dev nD) (t : Fin cfg3.N) (d) : (book3 V c).before 0 t d = blk3 V c 0 t :=
  in3_0_of V (book3 V c) (book3_A V c 0) (book3_after0 V c) t d
theorem book3_before1 (c : Dev nD) (t : Fin cfg3.N) (d) : (book3 V c).before 1 t d = blk3 V c 1 t :=
  in3_1_of V (book3 V c) (book3_A V c 1) (book3_after1 V c) t d
theorem book3_before2 (c : Dev nD) (t : Fin cfg3.N) (d) : (book3 V c).before 2 t d = blk3 V c 2 t :=
  in3_2_of V (book3 V c) (book3_A V c 2) (book3_after2 V c) t d
theorem book3_before3 (c : Dev nD) (t : Fin cfg3.N) (d) : (book3 V c).before 3 t d = blk3 V c 3 t :=
  in3_3_of V (book3 V c) (book3_A V c 3) (book3_after3 V c) t d
theorem book3_before4 (c : Dev nD) (t : Fin cfg3.N) (d) : (book3 V c).before 4 t d = blk3 V c 4 t :=
  in3_4_of V (book3 V c) (book3_A V c 4) (book3_after4 V c) t d

/-- What the body is handed at point `t`, window by window, -/
def given3 (c : Dev nD) (t : Fin cfg3.N) : sProp 𝕄 :=
  iprop((book3 V c).Φ t.castSucc ∗ (book3 V c).owesAt () t.castSucc
    ∗ (∃ d, owns (c : Thread nD τ) (st3_0 t) fullShare ((book3 V c).before 0 t d))
    ∗ (∃ d, owns (c : Thread nD τ) (st3_1 t) fullShare ((book3 V c).before 1 t d))
    ∗ (∃ d, owns (c : Thread nD τ) (st3_2 t) fullShare ((book3 V c).before 2 t d))
    ∗ (∃ d, owns (c : Thread nD τ) (st3_3 t) fullShare ((book3 V c).before 3 t d))
    ∗ (∃ d, owns (c : Thread nD τ) (st3_4 t) fullShare ((book3 V c).before 4 t d))
    ∗ (∃ d, owns (c : Thread nD τ) (st3_5 t) fullShare ((book3 V c).before 5 t d)))

/-- and what it hands back. -/
def left3 (c : Dev nD) (t : Fin cfg3.N) : sProp 𝕄 :=
  iprop((book3 V c).Φ t.succ ∗ (book3 V c).owesAt () t.succ
    ∗ owns (c : Thread nD τ) (st3_0 t) fullShare ((book3 V c).after 0 t)
    ∗ owns (c : Thread nD τ) (st3_1 t) fullShare ((book3 V c).after 1 t)
    ∗ owns (c : Thread nD τ) (st3_2 t) fullShare ((book3 V c).after 2 t)
    ∗ owns (c : Thread nD τ) (st3_3 t) fullShare ((book3 V c).after 3 t)
    ∗ owns (c : Thread nD τ) (st3_4 t) fullShare ((book3 V c).after 4 t)
    ∗ owns (c : Thread nD τ) (st3_5 t) fullShare ((book3 V c).after 5 t))

theorem point3 (c : Dev nD) (t : Fin cfg3.N) :
    given3 V c t ⊢ wp frame (wpE (defs₀ (F := F)) Variants.none c none) Set.univ (bodyAt3 t) (fun _ => left3 V c t) := by
  unfold given3 left3 bodyAt3
  simp only [book3_before0, book3_before1, book3_before2, book3_before3, book3_before4]
  rw [show (book3 V c).Φ t.succ = (book3 V c).Φ t.castSucc from rfl,
    show (book3 V c).owesAt () t.succ = (book3 V c).owesAt () t.castSucc from rfl,
    book3_after0, book3_after1, book3_after2, book3_after3, book3_after4, book3_after5]
  iintro ⟨HΦ, Ho, ⟨%d0, H0⟩, ⟨%d1, H1⟩, ⟨%d2, H2⟩, ⟨%d3, H3⟩, ⟨%d4, H4⟩, ⟨%d5, H5⟩⟩
  iapply (body3 c Set.univ _ _ _ _ _ _ _ _ _ _ _ _ _ (blk3 V c 0 t) (blk3 V c 1 t) (blk3 V c 2 t) (blk3 V c 3 t) (blk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body does at every point what the bookkeeping says. -/
theorem duty3 (c : Dev nD) : BodyObligation (book3 (F := F) V c) (defs₀ (F := F)) Variants.none () Set.univ := fun t => by
  rw [bigSep_W3, bigSep_W3]
  exact point3 V c t

end Cert.KernelIdeal.Stage

end
-- ==== Proof.KernelIdeal.Stage4.lean ====
/-
  The edge normalisation stage, one grid point at a time. The grid has eighty points; point t works on
  edges 8000·t … 8000·t + 7999. At every point the body reads a block x of gated edge features and four
  rows of 128 numbers — the column means μ, the column variances v, a scale γ and a shift β — and writes
  max((x − μ)·(v + 10⁻⁵)^(−1/2)·γ + β, 0). Nothing is carried from one point to the next.

  Everything here is stated for an arbitrary reading of floats and for arbitrary contents `V` of the
  buffers at the moment the stage starts.
-/
import proofs.«102085_j69784628625690_2_alg».proof.Proof.Gen.KernelIdeal.Launch
import proofs.«102085_j69784628625690_2_alg».proof.Proof.Gen.KernelIdeal.Skeleton
import proofs.«102085_j69784628625690_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The block of operand `w` that grid point `t` works on, cut out of the operand's array as the stage finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Read operand 0's window holds its block whenever the body starts — brought in at that point, or still there
    from an earlier point because the block did not move — for any bookkeeping of the stage that takes the array
    from `V` and says the body leaves the block alone. -/
theorem in4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Read operand 1's window holds its block whenever the body starts — brought in at that point, or still there
    from an earlier point because the block did not move — for any bookkeeping of the stage that takes the array
    from `V` and says the body leaves the block alone. -/
theorem in4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Read operand 2's window holds its block whenever the body starts — brought in at that point, or still there
    from an earlier point because the block did not move — for any bookkeeping of the stage that takes the array
    from `V` and says the body leaves the block alone. -/
theorem in4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- Read operand 3's window holds its block whenever the body starts — brought in at that point, or still there
    from an earlier point because the block did not move — for any bookkeeping of the stage that takes the array
    from `V` and says the body leaves the block alone. -/
theorem in4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- Read operand 4's window holds its block whenever the body starts — brought in at that point, or still there
    from an earlier point because the block did not move — for any bookkeeping of the stage that takes the array
    from `V` and says the body leaves the block alone. -/
theorem in4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- Each window is read or written as one whole box. -/
abbrev box4_0 : Rect S8000x128 := Rect.unit (s := S8000x128) ![0, 0] S8000x128.size inb_S8000x128_S8000x128_0_0
abbrev box4_1 : Rect S1x128 := Rect.unit (s := S1x128) ![0, 0] S1x128.size inb_S1x128_S1x128_0_0
abbrev box4_2 : Rect S1x128 := Rect.unit (s := S1x128) ![0, 0] S1x128.size inb_S1x128_S1x128_0_0
abbrev box4_3 : Rect S1x128 := Rect.unit (s := S1x128) ![0, 0] S1x128.size inb_S1x128_S1x128_0_0
abbrev box4_4 : Rect S1x128 := Rect.unit (s := S1x128) ![0, 0] S1x128.size inb_S1x128_S1x128_0_0
abbrev box4_5 : Rect S8000x128 := Rect.unit (s := S8000x128) ![0, 0] S8000x128.size inb_S8000x128_S8000x128_0_0

/-- What written operand 5's window holds after the body, as a function of the blocks read: one store over the whole box. -/
def res4_5 (x0 : Vec F S8000x128 .f32) (x1 : Vec F S1x128 .f32) (x2 : Vec F S1x128 .f32) (x3 : Vec F S1x128 .f32) (x4 : Vec F S1x128 .f32) : Vec F S8000x128 .f32 :=
  View.canon [⟨box4_5, k4_pay1 (View.ld x0 box4_0) (View.ld x2 box4_2) (View.ld x1 box4_1) (View.ld x3 box4_3) (View.ld x4 box4_4)⟩]
/-- That one store reaches every entry of the window. -/
theorem res4_5_reaches (p : Vec F S8000x128 .f32) (y : S8000x128.Idx) :
    ∃ pc ∈ ([⟨box4_5, p⟩] : List (View.Piece (Elt F) S8000x128 .f32)), y ∈ pc.1.set :=
  View.cover_of_tiled [⟨box4_5, p⟩] S8000x128.size (by rfl) y

set_option maxHeartbeats 4000000 in
/-- The body on whole buffers: started with the read blocks in the read windows and anything in the written ones, it
    ends with the read windows untouched and each written window at its function of the read blocks. -/
theorem body4 (c : Dev nD) (E : Set ℕ) (i : grid4.Coords) (a0 : Memref sig .tc .vmem S8000x128 .f32) (h0 : a0.IsWhole) (a1 : Memref sig .tc .vmem S1x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S8000x128 .f32) (h5 : a5.IsWhole)
    (x0 : Vec F S8000x128 .f32) (x1 : Vec F S1x128 .f32) (x2 : Vec F S1x128 .f32) (x3 : Vec F S1x128 .f32) (x4 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res4_5 x0 x1 x2 x3 x4)) -∗ K ⟨⟩))
      ⊢ wp frame (wpE (defs₀ (F := F)) Variants.none c none) E (cc4__apply_bn_kernel i a0 h0 a1 h1 a2 h2 a3 h3 a4 h4 a5 h5) K := by
  simp only [cc4__apply_bn_kernel_eq_skeleton]; unfold cc4__apply_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res4_5_reaches _)

/-- The stage's bookkeeping on core `c`: the arrays are `V`'s; after point `t` each read window still holds its block
    and each written window holds its function of the read blocks; nothing else is kept and nothing is owed. -/
def book4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => res4_5 (blk4 V c 0 t) (blk4 V c 1 t) (blk4 V c 2 t) (blk4 V c 3 t) (blk4 V c 4 t)
  Φ _ := Pipeline.ΦA spec4 c
  q _ := fullShare
  owed _ := 0

theorem book4_A (c : Dev nD) (w : Fin cfg4.W) : (book4 V c).A w = V c (Pipeline.arrRef spec4 w) := by
  dsimp only [book4]
theorem book4_after0 (c : Dev nD) (t : Fin cfg4.N) : (book4 V c).after 0 t = blk4 V c 0 t := by dsimp only [book4]
theorem book4_after1 (c : Dev nD) (t : Fin cfg4.N) : (book4 V c).after 1 t = blk4 V c 1 t := by dsimp only [book4]
theorem book4_after2 (c : Dev nD) (t : Fin cfg4.N) : (book4 V c).after 2 t = blk4 V c 2 t := by dsimp only [book4]
theorem book4_after3 (c : Dev nD) (t : Fin cfg4.N) : (book4 V c).after 3 t = blk4 V c 3 t := by dsimp only [book4]
theorem book4_after4 (c : Dev nD) (t : Fin cfg4.N) : (book4 V c).after 4 t = blk4 V c 4 t := by dsimp only [book4]
theorem book4_after5 (c : Dev nD) (t : Fin cfg4.N) : (book4 V c).after 5 t = res4_5 (blk4 V c 0 t) (blk4 V c 1 t) (blk4 V c 2 t) (blk4 V c 3 t) (blk4 V c 4 t) := by dsimp only [book4]
theorem book4_before0 (c : Dev nD) (t : Fin cfg4.N) (d) : (book4 V c).before 0 t d = blk4 V c 0 t :=
  in4_0_of V (book4 V c) (book4_A V c 0) (book4_after0 V c) t d
theorem book4_before1 (c : Dev nD) (t : Fin cfg4.N) (d) : (book4 V c).before 1 t d = blk4 V c 1 t :=
  in4_1_of V (book4 V c) (book4_A V c 1) (book4_after1 V c) t d
theorem book4_before2 (c : Dev nD) (t : Fin cfg4.N) (d) : (book4 V c).before 2 t d = blk4 V c 2 t :=
  in4_2_of V (book4 V c) (book4_A V c 2) (book4_after2 V c) t d
theorem book4_before3 (c : Dev nD) (t : Fin cfg4.N) (d) : (book4 V c).before 3 t d = blk4 V c 3 t :=
  in4_3_of V (book4 V c) (book4_A V c 3) (book4_after3 V c) t d
theorem book4_before4 (c : Dev nD) (t : Fin cfg4.N) (d) : (book4 V c).before 4 t d = blk4 V c 4 t :=
  in4_4_of V (book4 V c) (book4_A V c 4) (book4_after4 V c) t d

/-- What the body is handed at point `t`, window by window, -/
def given4 (c : Dev nD) (t : Fin cfg4.N) : sProp 𝕄 :=
  iprop((book4 V c).Φ t.castSucc ∗ (book4 V c).owesAt () t.castSucc
    ∗ (∃ d, owns (c : Thread nD τ) (st4_0 t) fullShare ((book4 V c).before 0 t d))
    ∗ (∃ d, owns (c : Thread nD τ) (st4_1 t) fullShare ((book4 V c).before 1 t d))
    ∗ (∃ d, owns (c : Thread nD τ) (st4_2 t) fullShare ((book4 V c).before 2 t d))
    ∗ (∃ d, owns (c : Thread nD τ) (st4_3 t) fullShare ((book4 V c).before 3 t d))
    ∗ (∃ d, owns (c : Thread nD τ) (st4_4 t) fullShare ((book4 V c).before 4 t d))
    ∗ (∃ d, owns (c : Thread nD τ) (st4_5 t) fullShare ((book4 V c).before 5 t d)))

/-- and what it hands back. -/
def left4 (c : Dev nD) (t : Fin cfg4.N) : sProp 𝕄 :=
  iprop((book4 V c).Φ t.succ ∗ (book4 V c).owesAt () t.succ
    ∗ owns (c : Thread nD τ) (st4_0 t) fullShare ((book4 V c).after 0 t)
    ∗ owns (c : Thread nD τ) (st4_1 t) fullShare ((book4 V c).after 1 t)
    ∗ owns (c : Thread nD τ) (st4_2 t) fullShare ((book4 V c).after 2 t)
    ∗ owns (c : Thread nD τ) (st4_3 t) fullShare ((book4 V c).after 3 t)
    ∗ owns (c : Thread nD τ) (st4_4 t) fullShare ((book4 V c).after 4 t)
    ∗ owns (c : Thread nD τ) (st4_5 t) fullShare ((book4 V c).after 5 t))

theorem point4 (c : Dev nD) (t : Fin cfg4.N) :
    given4 V c t ⊢ wp frame (wpE (defs₀ (F := F)) Variants.none c none) Set.univ (bodyAt4 t) (fun _ => left4 V c t) := by
  unfold given4 left4 bodyAt4
  simp only [book4_before0, book4_before1, book4_before2, book4_before3, book4_before4]
  rw [show (book4 V c).Φ t.succ = (book4 V c).Φ t.castSucc from rfl,
    show (book4 V c).owesAt () t.succ = (book4 V c).owesAt () t.castSucc from rfl,
    book4_after0, book4_after1, book4_after2, book4_after3, book4_after4, book4_after5]
  iintro ⟨HΦ, Ho, ⟨%d0, H0⟩, ⟨%d1, H1⟩, ⟨%d2, H2⟩, ⟨%d3, H3⟩, ⟨%d4, H4⟩, ⟨%d5, H5⟩⟩
  iapply (body4 c Set.univ _ _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body does at every point what the bookkeeping says. -/
theorem duty4 (c : Dev nD) : BodyObligation (book4 (F := F) V c) (defs₀ (F := F)) Variants.none () Set.univ := fun t => by
  rw [bigSep_W4, bigSep_W4]
  exact point4 V c t

end Cert.KernelIdeal.Stage

end
-- ==== Proof.KernelIdeal.Pass.lean ====
/-
  The whole program, from launch to return, as nine steps on each core: the host operations before the node
  projection, the node projection stage, the host operations that gather the projections along the edges, the
  edge gate stage, the host operations that sum the gated messages into their destination nodes and add up the
  per-block column sums, the node update stage, the host operations that turn the summed column sums into column
  means and variances, and the two normalisation stages.

  `C0 … C9` name what every buffer outside the stages' own staging memory holds at the ten boundaries. A stretch
  of host operations takes `C j` to its operations applied in order; a stage takes `C j` to the same contents
  except at the arrays the stage writes, which end at what the stage's write-backs leave (the bookkeeping's
  `arrAt` after the last grid point). The statement proved, `pass`: every weakly fair execution of the program
  terminates without a fault, and the final memory holds `C9` at every such buffer. No argument array is written
  by any step, so `C9` at an argument is the launch memory (`C9_launch`).

  Stated for an arbitrary reading of floats.
-/
import proofs.«102085_j69784628625690_2_alg».proof.Proof.KernelIdeal.Stage0
import proofs.«102085_j69784628625690_2_alg».proof.Proof.KernelIdeal.Stage1
import proofs.«102085_j69784628625690_2_alg».proof.Proof.KernelIdeal.Stage2
import proofs.«102085_j69784628625690_2_alg».proof.Proof.KernelIdeal.Stage3
import proofs.«102085_j69784628625690_2_alg».proof.Proof.KernelIdeal.Stage4
import proofs.«102085_j69784628625690_2_alg».proof.Proof.Gen.KernelIdeal.Regions

set_option maxRecDepth 16384

noncomputable section

namespace Cert.KernelIdeal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at the ten boundaries -/

/-- At launch. -/
abbrev C0 : Dev nD → Valuation τ sig (Elt F) := fun c b => m (c, b)
/-- After the first stretch of host operations: the node projection stage starts here. -/
abbrev C1 : Dev nD → Valuation τ sig (Elt F) := fun c => StableHlo.after hostOps0 (C0 m c)
abbrev E1 : (c : Dev nD) → (b : Ref sig .tc) → Buf (Elt F) ((c : Thread nD τ).loc b) := fun c b => C1 m c b
/-- After the node projection stage. -/
def C2 (c : Dev nD) : Valuation τ sig (Elt F) :=
  Pipeline.withArrays spec0 c (C1 m c) fun w => (book0 (E1 m) c).arrAt w cfg0.N
/-- After the gathers: the edge gate stage starts here. -/
abbrev C3 : Dev nD → Valuation τ sig (Elt F) := fun c => StableHlo.after hostOps1 (C2 m c)
abbrev E3 : (c : Dev nD) → (b : Ref sig .tc) → Buf (Elt F) ((c : Thread nD τ).loc b) := fun c b => C3 m c b
/-- After the edge gate stage. -/
def C4 (c : Dev nD) : Valuation τ sig (Elt F) :=
  Pipeline.withArrays spec1 c (C3 m c) fun w => (book1 (E3 m) c).arrAt w cfg1.N
/-- After the scatter-adds and the sums of the per-block column sums: the node update stage starts here. -/
abbrev C5 : Dev nD → Valuation τ sig (Elt F) := fun c => StableHlo.after hostOps2 (C4 m c)
abbrev E5 : (c : Dev nD) → (b : Ref sig .tc) → Buf (Elt F) ((c : Thread nD τ).loc b) := fun c b => C5 m c b
/-- After the node update stage. -/
def C6 (c : Dev nD) : Valuation τ sig (Elt F) :=
  Pipeline.withArrays spec2 c (C5 m c) fun w => (book2 (E5 m) c).arrAt w cfg2.N
/-- After the means and variances: the node normalisation stage starts here. -/
abbrev C7 : Dev nD → Valuation τ sig (Elt F) := fun c => StableHlo.after hostOps3 (C6 m c)
abbrev E7 : (c : Dev nD) → (b : Ref sig .tc) → Buf (Elt F) ((c : Thread nD τ).loc b) := fun c b => C7 m c b
/-- After the node normalisation stage: the edge normalisation stage starts here. -/
def C8 (c : Dev nD) : Valuation τ sig (Elt F) :=
  Pipeline.withArrays spec3 c (C7 m c) fun w => (book3 (E7 m) c).arrAt w cfg3.N
abbrev E8 : (c : Dev nD) → (b : Ref sig .tc) → Buf (Elt F) ((c : Thread nD τ).loc b) := fun c b => C8 m c b
/-- After the edge normalisation stage: the end. -/
def C9 (c : Dev nD) : Valuation τ sig (Elt F) :=
  Pipeline.withArrays spec4 c (C8 m c) fun w => (book4 (E8 m) c).arrAt w cfg4.N

/-! ### Stage 0: what it changes and what it keeps -/

theorem C2_arr (c : Dev nD) (w : Fin cfg0.W) :
    C2 m c (Proc.devRef .tc (Pipeline.arrRef spec0 w)) = (book0 (E1 m) c).arrAt w cfg0.N := by
  unfold C2; exact Pipeline.withArrays_arr spec0 launch0.win.arr_inj c _ _ w
theorem C2_of_ne (c : Dev nD) (b : Ref sig .tc) (hb : ∀ w, Pipeline.arrRef spec0 w ≠ b) :
    C2 m c (Proc.devRef .tc b) = C1 m c (Proc.devRef .tc b) := by
  unfold C2; exact Pipeline.withArrays_of_ne spec0 c _ _ b hb
abbrev E2x0 : (c : Dev nD) → (b : Ref sig .tc) → Buf (Elt F) ((c : Thread nD τ).loc b) := fun c b => C2 m c b
theorem put0 (c : Dev nD) (w : Fin cfg0.W) : (book0 (E1 m) c).arrAt w cfg0.N = E2x0 m c (Pipeline.arrRef spec0 w) :=
  (C2_arr m c w).symm
theorem rest0 (c : Dev nD) : ∀ b, b ∉ Finset.univ.image (Pipeline.arrRef spec0) → E2x0 m c b = E1 m c b :=
  fun b hb => C2_of_ne m c b fun w e => hb (Finset.mem_image.mpr ⟨w, Finset.mem_univ _, e⟩)
/-- A buffer that is not one of the arrays the stage writes comes out as it went in: either the stage does not touch
    it, or it only reads it. -/
theorem C2_kept (c : Dev nD) (b : Ref sig .tc) (hb : ∀ w, (cfg0.win w).isOut = true → Pipeline.arrRef spec0 w ≠ b) :
    C2 m c (Proc.devRef .tc b) = C1 m c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    exact (C2_arr m c w).trans (((book0 (E1 m) c).arrAt_in w hin _).trans (book0_A (E1 m) c w))
  · exact C2_of_ne m c b fun w e => h ⟨w, e⟩

/-! ### Stage 1: what it changes and what it keeps -/

theorem C4_arr (c : Dev nD) (w : Fin cfg1.W) :
    C4 m c (Proc.devRef .tc (Pipeline.arrRef spec1 w)) = (book1 (E3 m) c).arrAt w cfg1.N := by
  unfold C4; exact Pipeline.withArrays_arr spec1 launch1.win.arr_inj c _ _ w
theorem C4_of_ne (c : Dev nD) (b : Ref sig .tc) (hb : ∀ w, Pipeline.arrRef spec1 w ≠ b) :
    C4 m c (Proc.devRef .tc b) = C3 m c (Proc.devRef .tc b) := by
  unfold C4; exact Pipeline.withArrays_of_ne spec1 c _ _ b hb
abbrev E4x1 : (c : Dev nD) → (b : Ref sig .tc) → Buf (Elt F) ((c : Thread nD τ).loc b) := fun c b => C4 m c b
theorem put1 (c : Dev nD) (w : Fin cfg1.W) : (book1 (E3 m) c).arrAt w cfg1.N = E4x1 m c (Pipeline.arrRef spec1 w) :=
  (C4_arr m c w).symm
theorem rest1 (c : Dev nD) : ∀ b, b ∉ Finset.univ.image (Pipeline.arrRef spec1) → E4x1 m c b = E3 m c b :=
  fun b hb => C4_of_ne m c b fun w e => hb (Finset.mem_image.mpr ⟨w, Finset.mem_univ _, e⟩)
/-- A buffer that is not one of the arrays the stage writes comes out as it went in: either the stage does not touch
    it, or it only reads it. -/
theorem C4_kept (c : Dev nD) (b : Ref sig .tc) (hb : ∀ w, (cfg1.win w).isOut = true → Pipeline.arrRef spec1 w ≠ b) :
    C4 m c (Proc.devRef .tc b) = C3 m c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    exact (C4_arr m c w).trans (((book1 (E3 m) c).arrAt_in w hin _).trans (book1_A (E3 m) c w))
  · exact C4_of_ne m c b fun w e => h ⟨w, e⟩

/-! ### Stage 2: what it changes and what it keeps -/

theorem C6_arr (c : Dev nD) (w : Fin cfg2.W) :
    C6 m c (Proc.devRef .tc (Pipeline.arrRef spec2 w)) = (book2 (E5 m) c).arrAt w cfg2.N := by
  unfold C6; exact Pipeline.withArrays_arr spec2 launch2.win.arr_inj c _ _ w
theorem C6_of_ne (c : Dev nD) (b : Ref sig .tc) (hb : ∀ w, Pipeline.arrRef spec2 w ≠ b) :
    C6 m c (Proc.devRef .tc b) = C5 m c (Proc.devRef .tc b) := by
  unfold C6; exact Pipeline.withArrays_of_ne spec2 c _ _ b hb
abbrev E6x2 : (c : Dev nD) → (b : Ref sig .tc) → Buf (Elt F) ((c : Thread nD τ).loc b) := fun c b => C6 m c b
theorem put2 (c : Dev nD) (w : Fin cfg2.W) : (book2 (E5 m) c).arrAt w cfg2.N = E6x2 m c (Pipeline.arrRef spec2 w) :=
  (C6_arr m c w).symm
theorem rest2 (c : Dev nD) : ∀ b, b ∉ Finset.univ.image (Pipeline.arrRef spec2) → E6x2 m c b = E5 m c b :=
  fun b hb => C6_of_ne m c b fun w e => hb (Finset.mem_image.mpr ⟨w, Finset.mem_univ _, e⟩)
/-- A buffer that is not one of the arrays the stage writes comes out as it went in: either the stage does not touch
    it, or it only reads it. -/
theorem C6_kept (c : Dev nD) (b : Ref sig .tc) (hb : ∀ w, (cfg2.win w).isOut = true → Pipeline.arrRef spec2 w ≠ b) :
    C6 m c (Proc.devRef .tc b) = C5 m c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    exact (C6_arr m c w).trans (((book2 (E5 m) c).arrAt_in w hin _).trans (book2_A (E5 m) c w))
  · exact C6_of_ne m c b fun w e => h ⟨w, e⟩

/-! ### Stage 3: what it changes and what it keeps -/

theorem C8_arr (c : Dev nD) (w : Fin cfg3.W) :
    C8 m c (Proc.devRef .tc (Pipeline.arrRef spec3 w)) = (book3 (E7 m) c).arrAt w cfg3.N := by
  unfold C8; exact Pipeline.withArrays_arr spec3 launch3.win.arr_inj c _ _ w
theorem C8_of_ne (c : Dev nD) (b : Ref sig .tc) (hb : ∀ w, Pipeline.arrRef spec3 w ≠ b) :
    C8 m c (Proc.devRef .tc b) = C7 m c (Proc.devRef .tc b) := by
  unfold C8; exact Pipeline.withArrays_of_ne spec3 c _ _ b hb
abbrev E8x3 : (c : Dev nD) → (b : Ref sig .tc) → Buf (Elt F) ((c : Thread nD τ).loc b) := fun c b => C8 m c b
theorem put3 (c : Dev nD) (w : Fin cfg3.W) : (book3 (E7 m) c).arrAt w cfg3.N = E8x3 m c (Pipeline.arrRef spec3 w) :=
  (C8_arr m c w).symm
theorem rest3 (c : Dev nD) : ∀ b, b ∉ Finset.univ.image (Pipeline.arrRef spec3) → E8x3 m c b = E7 m c b :=
  fun b hb => C8_of_ne m c b fun w e => hb (Finset.mem_image.mpr ⟨w, Finset.mem_univ _, e⟩)
/-- A buffer that is not one of the arrays the stage writes comes out as it went in: either the stage does not touch
    it, or it only reads it. -/
theorem C8_kept (c : Dev nD) (b : Ref sig .tc) (hb : ∀ w, (cfg3.win w).isOut = true → Pipeline.arrRef spec3 w ≠ b) :
    C8 m c (Proc.devRef .tc b) = C7 m c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    exact (C8_arr m c w).trans (((book3 (E7 m) c).arrAt_in w hin _).trans (book3_A (E7 m) c w))
  · exact C8_of_ne m c b fun w e => h ⟨w, e⟩

/-! ### Stage 4: what it changes and what it keeps -/

theorem C9_arr (c : Dev nD) (w : Fin cfg4.W) :
    C9 m c (Proc.devRef .tc (Pipeline.arrRef spec4 w)) = (book4 (E8 m) c).arrAt w cfg4.N := by
  unfold C9; exact Pipeline.withArrays_arr spec4 launch4.win.arr_inj c _ _ w
theorem C9_of_ne (c : Dev nD) (b : Ref sig .tc) (hb : ∀ w, Pipeline.arrRef spec4 w ≠ b) :
    C9 m c (Proc.devRef .tc b) = C8 m c (Proc.devRef .tc b) := by
  unfold C9; exact Pipeline.withArrays_of_ne spec4 c _ _ b hb
abbrev E9x4 : (c : Dev nD) → (b : Ref sig .tc) → Buf (Elt F) ((c : Thread nD τ).loc b) := fun c b => C9 m c b
theorem put4 (c : Dev nD) (w : Fin cfg4.W) : (book4 (E8 m) c).arrAt w cfg4.N = E9x4 m c (Pipeline.arrRef spec4 w) :=
  (C9_arr m c w).symm
theorem rest4 (c : Dev nD) : ∀ b, b ∉ Finset.univ.image (Pipeline.arrRef spec4) → E9x4 m c b = E8 m c b :=
  fun b hb => C9_of_ne m c b fun w e => hb (Finset.mem_image.mpr ⟨w, Finset.mem_univ _, e⟩)
/-- A buffer that is not one of the arrays the stage writes comes out as it went in: either the stage does not touch
    it, or it only reads it. -/
theorem C9_kept (c : Dev nD) (b : Ref sig .tc) (hb : ∀ w, (cfg4.win w).isOut = true → Pipeline.arrRef spec4 w ≠ b) :
    C9 m c (Proc.devRef .tc b) = C8 m c (Proc.devRef .tc b) := by
  by_cases h : ∃ w, Pipeline.arrRef spec4 w = b
  · obtain ⟨w, rfl⟩ := h
    have hin : (cfg4.win w).isOut = false := by
      cases hio : (cfg4.win w).isOut
      · rfl
      · exact absurd rfl (hb w hio)
    exact (C9_arr m c w).trans (((book4 (E8 m) c).arrAt_in w hin _).trans (book4_A (E8 m) c w))
  · exact C9_of_ne m c b fun w e => h ⟨w, e⟩

/-- A buffer that no host operation writes and no stage writes ends at its launch contents. -/
theorem C9_launch (c : Dev nD) (b : Ref sig .tc)
    (h0 : b ∉ hostOps0_W) (h1 : b ∉ hostOps1_W) (h2 : b ∉ hostOps2_W) (h3 : b ∉ hostOps3_W)
    (g0 : ∀ w, (cfg0.win w).isOut = true → Pipeline.arrRef spec0 w ≠ b) (g1 : ∀ w, (cfg1.win w).isOut = true → Pipeline.arrRef spec1 w ≠ b)
    (g2 : ∀ w, (cfg2.win w).isOut = true → Pipeline.arrRef spec2 w ≠ b) (g3 : ∀ w, (cfg3.win w).isOut = true → Pipeline.arrRef spec3 w ≠ b)
    (g4 : ∀ w, (cfg4.win w).isOut = true → Pipeline.arrRef spec4 w ≠ b) :
    C9 m c (Proc.devRef .tc b) = m ((c : Thread nD τ).loc b) :=
  calc C9 m c (Proc.devRef .tc b)
    _ = C8 m c (Proc.devRef .tc b) := C9_kept m c b g4
    _ = C7 m c (Proc.devRef .tc b) := C8_kept m c b g3
    _ = C6 m c (Proc.devRef .tc b) := StableHlo.after_of_writes_sub hostOps3 _ hostOps3_writes h3
    _ = C5 m c (Proc.devRef .tc b) := C6_kept m c b g2
    _ = C4 m c (Proc.devRef .tc b) := StableHlo.after_of_writes_sub hostOps2 _ hostOps2_writes h2
    _ = C3 m c (Proc.devRef .tc b) := C4_kept m c b g1
    _ = C2 m c (Proc.devRef .tc b) := StableHlo.after_of_writes_sub hostOps1 _ hostOps1_writes h1
    _ = C1 m c (Proc.devRef .tc b) := C2_kept m c b g0
    _ = C0 m c (Proc.devRef .tc b) := StableHlo.after_of_writes_sub hostOps0 _ hostOps0_writes h0
    _ = m ((c : Thread nD τ).loc b) := rfl

/-! ## The stages' bookkeeping together, and what rides along -/

/-- No stage reads a table of indices. -/
abbrev noTables : (p : Fin 5) → (pcfgs (F := F) p).Adm := fun p => (cfgs p).toPCfg_adm
/-- Each stage's bookkeeping, at the contents it starts from. -/
def books : (p : Fin 5) → (c : Dev nD) → Dat τ (Elt F) Unit ℕ (UR sig nD τ) ℕ (Pipeline.pin (pcfgs (F := F)) noTables p) c
  | ⟨0, _⟩ => fun c => book0 (E1 m) c
  | ⟨1, _⟩ => fun c => book1 (E3 m) c
  | ⟨2, _⟩ => fun c => book2 (E5 m) c
  | ⟨3, _⟩ => fun c => book3 (E7 m) c
  | ⟨4, _⟩ => fun c => book4 (E8 m) c
abbrev 𝒱₀ : Variants := Variants.none
/-- No core waits on another. -/
abbrev Lv : GSem nD τ sig → Finset Unit := fun _ => ∅
abbrev lv : GSem nD τ sig → Unit → ℕ := fun _ _ => 0
/-- Beside the buffers every step carries the core's random-number register, in some state, and the record that the
    core owes nothing. -/
abbrev Rest (c : Dev nD) : sProp 𝕄 := iprop((∃ r, prngReg c r) ∗ ∃ W, owes (c : Thread nD τ) (0 : CellTallies nD τ sig Unit) W)
/-- A stretch of host operations as a step from the contents `W`. -/
abbrev hostStep (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without the record of debts. -/
abbrev Last (c : Dev nD) : sProp 𝕄 := iprop(StableHlo.held (c : Thread nD τ) (Pipeline.ucRefs τ sig) (C9 m c) ∗ ∃ r, prngReg c r)

/-! ## The stages as steps -/

set_option backward.isDefEq.respectTransparency.types false in
/-- Stage 0 as a step from `C1` to `C2`: its arrays are taken out of the held buffers and put back at what the
    write-backs leave; the random-number register goes in and comes out; nothing is owed. -/
def step0 : Pipeline.RegionSeg (pcfgs (F := F)) noTables (books m) () defs₀ 𝒱₀ Lv lv 0 where
  win := launch0.win.to₀
  block_pos := launch0.block_pos
  stage_whole := launch0.stage_whole
  K := PEmpty
  osem k := k.elim
  ho := Pipeline.OwnSemFacts.none _
  hbody c := (duty0 (E1 m) c).loose
  hwaits := Pipeline.hwaits_of_owed_zero _ _ _ _ Lv lv 0 fun _ _ => rfl
  pre c := iprop(StableHlo.held (c : Thread nD τ) (Pipeline.ucRefs τ sig) (C1 m c) ∗ Rest c)
  post c := iprop(StableHlo.held (c : Thread nD τ) (Pipeline.ucRefs τ sig) (C2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (books m) launch0.win launch0.arr_whole c
      ((books m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 0 c).Φ 0 = Pipeline.ΦA spec0 c from rfl]; unfold Pipeline.ΦA
    iintro ⟨Hp, -, Hr⟩
    isplitl [Hr]; · iexact Hr
    iexact Hp
  hout c := by
    rw [Pipeline.ownSems0_none, show (books m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (books m) ((books m 0 c).share_full fun _ => rfl)
      (E1 m c) (E2x0 m c) ((books m 0 c).arrAt · cfg0.N) (put0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a step from `C3` to `C4`: its arrays are taken out of the held buffers and put back at what the
    write-backs leave; the random-number register goes in and comes out; nothing is owed. -/
def step1 : Pipeline.RegionSeg (pcfgs (F := F)) noTables (books m) () defs₀ 𝒱₀ Lv lv 1 where
  win := launch1.win.to₀
  block_pos := launch1.block_pos
  stage_whole := launch1.stage_whole
  K := PEmpty
  osem k := k.elim
  ho := Pipeline.OwnSemFacts.none _
  hbody c := (duty1 (E3 m) c).loose
  hwaits := Pipeline.hwaits_of_owed_zero _ _ _ _ Lv lv 1 fun _ _ => rfl
  pre c := iprop(StableHlo.held (c : Thread nD τ) (Pipeline.ucRefs τ sig) (C3 m c) ∗ Rest c)
  post c := iprop(StableHlo.held (c : Thread nD τ) (Pipeline.ucRefs τ sig) (C4 m c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) noTables (books m) launch1.win launch1.arr_whole c
      ((books m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 1 c).Φ 0 = Pipeline.ΦA spec1 c from rfl]; unfold Pipeline.ΦA
    iintro ⟨Hp, -, Hr⟩
    isplitl [Hr]; · iexact Hr
    iexact Hp
  hout c := by
    rw [Pipeline.ownSems0_none, show (books m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (books m) ((books m 1 c).share_full fun _ => rfl)
      (E3 m c) (E4x1 m c) ((books m 1 c).arrAt · cfg1.N) (put1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 as a step from `C5` to `C6`: its arrays are taken out of the held buffers and put back at what the
    write-backs leave; the random-number register goes in and comes out; nothing is owed. -/
def step2 : Pipeline.RegionSeg (pcfgs (F := F)) noTables (books m) () defs₀ 𝒱₀ Lv lv 2 where
  win := launch2.win.to₀
  block_pos := launch2.block_pos
  stage_whole := launch2.stage_whole
  K := PEmpty
  osem k := k.elim
  ho := Pipeline.OwnSemFacts.none _
  hbody c := (duty2 (E5 m) c).loose
  hwaits := Pipeline.hwaits_of_owed_zero _ _ _ _ Lv lv 2 fun _ _ => rfl
  pre c := iprop(StableHlo.held (c : Thread nD τ) (Pipeline.ucRefs τ sig) (C5 m c) ∗ Rest c)
  post c := iprop(StableHlo.held (c : Thread nD τ) (Pipeline.ucRefs τ sig) (C6 m c) ∗ Rest c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) noTables (books m) launch2.win launch2.arr_whole c
      ((books m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 2 c).Φ 0 = Pipeline.ΦA spec2 c from rfl]; unfold Pipeline.ΦA
    iintro ⟨Hp, -, Hr⟩
    isplitl [Hr]; · iexact Hr
    iexact Hp
  hout c := by
    rw [Pipeline.ownSems0_none, show (books m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (books m) ((books m 2 c).share_full fun _ => rfl)
      (E5 m c) (E6x2 m c) ((books m 2 c).arrAt · cfg2.N) (put2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3 as a step from `C7` to `C8`: its arrays are taken out of the held buffers and put back at what the
    write-backs leave; the random-number register goes in and comes out; nothing is owed. -/
def step3 : Pipeline.RegionSeg (pcfgs (F := F)) noTables (books m) () defs₀ 𝒱₀ Lv lv 3 where
  win := launch3.win.to₀
  block_pos := launch3.block_pos
  stage_whole := launch3.stage_whole
  K := PEmpty
  osem k := k.elim
  ho := Pipeline.OwnSemFacts.none _
  hbody c := (duty3 (E7 m) c).loose
  hwaits := Pipeline.hwaits_of_owed_zero _ _ _ _ Lv lv 3 fun _ _ => rfl
  pre c := iprop(StableHlo.held (c : Thread nD τ) (Pipeline.ucRefs τ sig) (C7 m c) ∗ Rest c)
  post c := iprop(StableHlo.held (c : Thread nD τ) (Pipeline.ucRefs τ sig) (C8 m c) ∗ Rest c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) noTables (books m) launch3.win launch3.arr_whole c
      ((books m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 3 c).Φ 0 = Pipeline.ΦA spec3 c from rfl]; unfold Pipeline.ΦA
    iintro ⟨Hp, -, Hr⟩
    isplitl [Hr]; · iexact Hr
    iexact Hp
  hout c := by
    rw [Pipeline.ownSems0_none, show (books m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (books m) ((books m 3 c).share_full fun _ => rfl)
      (E7 m c) (E8x3 m c) ((books m 3 c).arrAt · cfg3.N) (put3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 4 as a step from `C8` to `C9`: its arrays are taken out of the held buffers and put back at what the
    write-backs leave; the random-number register goes in and comes out; nothing is owed. -/
def step4 : Pipeline.RegionSeg (pcfgs (F := F)) noTables (books m) () defs₀ 𝒱₀ Lv lv 4 where
  win := launch4.win.to₀
  block_pos := launch4.block_pos
  stage_whole := launch4.stage_whole
  K := PEmpty
  osem k := k.elim
  ho := Pipeline.OwnSemFacts.none _
  hbody c := (duty4 (E8 m) c).loose
  hwaits := Pipeline.hwaits_of_owed_zero _ _ _ _ Lv lv 4 fun _ _ => rfl
  pre c := iprop(StableHlo.held (c : Thread nD τ) (Pipeline.ucRefs τ sig) (C8 m c) ∗ Rest c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E8 m c)
  hentry c := by
    rw [Pipeline.ownSems0_none]
    have hsplit := Pipeline.arrays_of_unscopedBufs (p := 4) (pcfgs (F := F)) noTables (books m) launch4.win launch4.arr_whole c
      ((books m 4 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (books m 4 c).Φ 0 = Pipeline.ΦA spec4 c from rfl]; unfold Pipeline.ΦA
    iintro ⟨Hp, -, Hr⟩
    isplitl [Hr]; · iexact Hr
    iexact Hp
  hout c := by
    rw [Pipeline.ownSems0_none, show (books m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (books m) ((books m 4 c).share_full fun _ => rfl)
      (E8 m c) (E9x4 m c) ((books m 4 c).arrAt · cfg4.N) (put4 m c) (rest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its nine steps, and the launch -/

abbrev steps : List (Pipeline.Seg (pcfgs (F := F)) noTables (books m) () defs₀ 𝒱₀ Lv lv) :=
  [ .host (hostStep hostOps0 hostOps0_sub hostOps0_fresh (C0 m)),
    .region (step0 m),
    .host (hostStep hostOps1 hostOps1_sub hostOps1_fresh (C2 m)),
    .region (step1 m),
    .host (hostStep hostOps2 hostOps2_sub hostOps2_fresh (C4 m)),
    .region (step2 m),
    .host (hostStep hostOps3 hostOps3_sub hostOps3_fresh (C6 m)),
    .region (step3 m),
    .region (step4 m) ]

/-- The printed program is the run of these steps, in this order. -/
theorem main_steps (c : Dev nD) : main (F := F) c = Pipeline.Seg.run (steps m) := (main_chain c).trans (by chain_rfl)

set_option backward.isDefEq.respectTransparency.types false in
/-- Every weakly fair execution terminates, nothing faults, and the final memory holds `C9` at every buffer outside the
    stages' staging memory. -/
theorem pass (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = C9 m c b) :=
  Pipeline.θ_run_regions_kit (pcfgs (F := F)) noTables (books m) () cellOf_inj emb₁ defs₀ 𝒱₀ Lv lv m ρ main (steps m)
    (fun c Q => by rw [main_steps m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m c) ∗ Rest c)) (Tₙ := Last m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (C0 m c)
        from Pipeline.unscopedBufs_held c (C0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C9 m c b)
    (hfin := fun c s' => by
      iintro ⟨⟨Hh, -⟩, HSI⟩
      unfold StableHlo.held
      imodintro
      iapply (pointsTo_read_all (Pipeline.ucRefs τ sig) (fun b => (((c : Thread nD τ)).1, b)) (C9 m c) s')
      isplitl [Hh] <;> iassumption)
    (hQ := fun s h c => h c)

end Cert.KernelIdeal.Stage

end
-- ==== Proof.KernelIdeal.Ends.lean ====
/-
  The program runs to the end without a fault and leaves its fifteen argument arrays as launched: no host operation and no
  stage writes any of them.
-/
import proofs.«102085_j69784628625690_2_alg».proof.Proof.KernelIdeal.Pass

set_option maxRecDepth 16384

noncomputable section

namespace Cert.KernelIdeal.Stage

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (C9_launch m c main_arg0 (by decide) (by decide) (by decide) (by decide) (by decide) (by decide) (by decide) (by decide) (by decide)),
      (h c _ (mem_uc main_arg1 (by decide))).trans (C9_launch m c main_arg1 (by decide) (by decide) (by decide) (by decide) (by decide) (by decide) (by decide) (by decide) (by decide)),
      (h c _ (mem_uc main_arg2 (by decide))).trans (C9_launch m c main_arg2 (by decide) (by decide) (by decide) (by decide) (by decide) (by decide) (by decide) (by decide) (by decide)),
      (h c _ (mem_uc main_arg3 (by decide))).trans (C9_launch m c main_arg3 (by decide) (by decide) (by decide) (by decide) (by decide) (by decide) (by decide) (by decide) (by decide)),
      (h c _ (mem_uc main_arg4 (by decide))).trans (C9_launch m c main_arg4 (by decide) (by decide) (by decide) (by decide) (by decide) (by decide) (by decide) (by decide) (by decide)),
      (h c _ (mem_uc main_arg5 (by decide))).trans (C9_launch m c main_arg5 (by decide) (by decide) (by decide) (by decide) (by decide) (by decide) (by decide) (by decide) (by decide)),
      (h c _ (mem_uc main_arg6 (by decide))).trans (C9_launch m c main_arg6 (by decide) (by decide) (by decide) (by decide) (by decide) (by decide) (by decide) (by decide) (by decide)),
      (h c _ (mem_uc main_arg7 (by decide))).trans (C9_launch m c main_arg7 (by decide) (by decide) (by decide) (by decide) (by decide) (by decide) (by decide) (by decide) (by decide)),
      (h c _ (mem_uc main_arg8 (by decide))).trans (C9_launch m c main_arg8 (by decide) (by decide) (by decide) (by decide) (by decide) (by decide) (by decide) (by decide) (by decide)),
      (h c _ (mem_uc main_arg9 (by decide))).trans (C9_launch m c main_arg9 (by decide) (by decide) (by decide) (by decide) (by decide) (by decide) (by decide) (by decide) (by decide)),
      (h c _ (mem_uc main_arg10 (by decide))).trans (C9_launch m c main_arg10 (by decide) (by decide) (by decide) (by decide) (by decide) (by decide) (by decide) (by decide) (by decide)),
      (h c _ (mem_uc main_arg11 (by decide))).trans (C9_launch m c main_arg11 (by decide) (by decide) (by decide) (by decide) (by decide) (by decide) (by decide) (by decide) (by decide)),
      (h c _ (mem_uc main_arg12 (by decide))).trans (C9_launch m c main_arg12 (by decide) (by decide) (by decide) (by decide) (by decide) (by decide) (by decide) (by decide) (by decide)),
      (h c _ (mem_uc main_arg13 (by decide))).trans (C9_launch m c main_arg13 (by decide) (by decide) (by decide) (by decide) (by decide) (by decide) (by decide) (by decide) (by decide)),
      (h c _ (mem_uc main_arg14 (by decide))).trans (C9_launch m c main_arg14 (by decide) (by decide) (by decide) (by decide) (by decide) (by decide) (by decide) (by decide) (by decide))⟩)
    (pass m ρ)

end Cert.KernelIdeal.Stage

end
-- ==== Proof.Layout.lean ====
/-
  Three readings at an index that the stages' bodies share.
  * A column of numbers spread over the columns of a matrix reads, at (p, c), the column's entry p.
  * The sum of a matrix down its rows reads, at column q, the sum over p of the entries (p, q).
  * The product of an a×k matrix with a k×b matrix, started from the zero matrix, reads at (p, q) the sum over k of
    (p, k)·(k, q).
  All at the exact reading of floats.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Layout

open Idealize.ShloMosaic Idealize.ShloMosaic.ValueIdx

theorem spread_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sum_down_rows {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  exact Finset.sum_congr rfl fun k _ => congrArg src (funext fun d => Fin.ext (by
    match d with
    | ⟨0, _⟩ => rfl
    | ⟨1, _⟩ => rfl))

end Cert.Layout

end
-- ==== Proof.KernelIdeal.Out0.lean ====
/-
  What the node projection stage leaves in its output array, as a function of the arrays it starts from.
  Grid point t reads rows 2000·t … 2000·t + 1999 of the node features x and the whole 128×512 weight matrix w, and
  writes back the same rows of the 40000×512 product: entry (r, j) is the sum over k of x(r, k)·w(k, j). The twenty
  blocks tile the 40000 rows.
-/
import proofs.«102085_j69784628625690_2_alg».proof.Proof.KernelIdeal.Stage0
import proofs.«102085_j69784628625690_2_alg».proof.Proof.Layout
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.Stage
open Idealize.ShloMosaic Idealize.ShloMosaic.TcCoe Idealize.ShloMosaic.ValueIdx
open Idealize.ShloMosaic.Pipeline (Dat)
open Cert.KernelIdeal Cert.KernelIdeal.Gen Cert.Layout

variable (V : (c : Dev nD) → (b : Ref sig .tc) → Buf (Elt Ideal) ((c : Thread nD τ).loc b))
theorem lt0 (t : Fin cfg0.N) : t.val < 20 := lt_of_lt_of_eq t.isLt N_0
/-- Row `p` of point `t`'s block is row `2000·t + p` of the array. -/
def row0 (t : Fin cfg0.N) (p : Fin 2000) : Fin 40000 := ⟨2000 * t.val + p.val, by have := lt0 t; have := p.isLt; omega⟩
/-- The grid point as a block number. -/
def pt0 (t : Fin cfg0.N) : Fin 20 := ⟨t.val, lt0 t⟩
theorem zeros2_0 : (![0, 0] : Fin 2 → Nat) = fun _ => 0 := funext fun a => by fin_cases a <;> rfl
theorem zeros3_0 : (![0, 0, 0] : Fin 3 → Nat) = fun _ => 0 := funext fun a => by fin_cases a <;> rfl

theorem prod_at0_l0 (i : S2000x512.Idx) (q : dot_S2000x128_S128x512_S2000x512_1_0_0_1_n_n.contr.Idx) : (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem prod_at0_l1 (i : S2000x512.Idx) (q : dot_S2000x128_S128x512_S2000x512_1_0_0_1_n_n.contr.Idx) : (dot_S2000x128_S128x512_S2000x512_1_0_0_1_n_n.lhsIdx i q 1).val = (q ⟨0, by decide⟩).val :=
  dot_S2000x128_S128x512_S2000x512_1_0_0_1_n_n.lhsIdx_val_of_single rfl i q
theorem prod_at0_r0 (i : S2000x512.Idx) (q : dot_S2000x128_S128x512_S2000x512_1_0_0_1_n_n.contr.Idx) : (dot_S2000x128_S128x512_S2000x512_1_0_0_1_n_n.rhsIdx i q 0).val = (q ⟨0, by decide⟩).val :=
  dot_S2000x128_S128x512_S2000x512_1_0_0_1_n_n.rhsIdx_val_of_single rfl i q
theorem prod_at0_r1 (i : S2000x512.Idx) (q : dot_S2000x128_S128x512_S2000x512_1_0_0_1_n_n.contr.Idx) : (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl
/-- The block product, started from zero, at `(p, q)`: the sum over `k` of `(p, k)·(k, q)`. -/
theorem prod_at0 {φ₁ φ₂ : FTy} (l : FVec Ideal S2000x128 φ₁) (r : FVec Ideal S128x512 φ₂) (p : Fin 2000) (q : Fin 512) :
    matmul dot_S2000x128_S128x512_S2000x512_1_0_0_1_n_n none l r (constant S2000x512 .f32 0x00000000#32) (ix2 p q) = ∑ k : Fin 128, l (ix2 p k) * r (ix2 k q) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k := funext fun a => Fin.ext (by
    match a with
    | ⟨0, _⟩ => exact prod_at0_l0 _ _
    | ⟨1, _⟩ => exact (prod_at0_l1 _ _).trans hk)
  have er : dot_S2000x128_S128x512_S2000x512_1_0_0_1_n_n.rhsIdx (ix2 p q) ((contrEquiv1 dot_S2000x128_S128x512_S2000x512_1_0_0_1_n_n 128 rfl rfl).symm k) = ix2 k q := funext fun a => Fin.ext (by
    match a with
    | ⟨0, _⟩ => exact (prod_at0_r0 _ _).trans hk
    | ⟨1, _⟩ => exact prod_at0_r1 _ _)
  rw [el, er]

/-- The product of the node features with the weights, entry by entry. -/
def projected (x : S40000x128.Idx → Elt Ideal .f32) (w : S128x512.Idx → Elt Ideal .f32) : S40000x512.Idx → Elt Ideal .f32 :=
  fun i => ∑ k : Fin 128, x (ix2 ⟨(i 0).val, idx2_lt0 i⟩ k) * w (ix2 k ⟨(i 1).val, idx2_lt1 i⟩)

theorem proj_at (x : Vec Ideal S2000x128 .f32) (w : Vec Ideal S128x512 .f32) (p : Fin 2000) (q : Fin 512) :
    k0_pay1 x w (ix2 p q) = ∑ k : Fin 128, x (ix2 p k) * w (ix2 k q) := by
  unfold k0_pay1
  simp only [shapeCast_self]
  exact prod_at0 _ _ p q

theorem pos0_0 : ∀ t : Fin cfg0.N, win0_0.index t (0 : Fin 2) = t.val ∧ win0_0.index t (1 : Fin 2) = 0 :=
  (by decide +kernel : ∀ t : Fin grid0.N, _)
theorem pos0_1 : ∀ t : Fin cfg0.N, win0_1.index t (0 : Fin 2) = 0 ∧ win0_1.index t (1 : Fin 2) = 0 :=
  (by decide +kernel : ∀ t : Fin grid0.N, _)
theorem pos0_2 : ∀ t : Fin cfg0.N, win0_2.index t (0 : Fin 2) = t.val ∧ win0_2.index t (1 : Fin 2) = 0 :=
  (by decide +kernel : ∀ t : Fin grid0.N, _)
theorem at0_0 (c : Dev nD) (t : Fin cfg0.N) (p : Fin 2000) (q : Fin 128) :
    blk0 V c 0 t (ix2 p q) = V c main_arg0 (ix2 (row0 t p) q) := by
  obtain ⟨e0, e1⟩ := pos0_0 t
  show V c main_arg0 (((cfg0.win 0).blk t).view.emb (ix2 p q)) = V c main_arg0 (ix2 (row0 t p) q)
  refine congrArg (V c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * q.val = q.val; omega
theorem at0_1 (c : Dev nD) (t : Fin cfg0.N) (p : Fin 128) (q : Fin 512) :
    blk0 V c 1 t (ix2 p q) = V c main_v0 (ix2 p q) := by
  obtain ⟨e0, e1⟩ := pos0_1 t
  show V c main_v0 (((cfg0.win 1).blk t).view.emb (ix2 p q)) = V c main_v0 (ix2 p q)
  refine congrArg (V c main_v0) (funext fun a => Fin.ext ?_)
  match a with
  | ⟨0, _⟩ => show win0_1.index t (0 : Fin 2) * 128 + 1 * p.val = p.val; omega
  | ⟨1, _⟩ => show win0_1.index t (1 : Fin 2) * 512 + 1 * q.val = q.val; omega
theorem spot0_2 (t : Fin cfg0.N) (p : Fin 2000) (q : Fin 512) :
    ((cfg0.win 2).blk t).view.emb (ix2 p q) = ix2 (row0 t p) q := by
  obtain ⟨e0, e1⟩ := pos0_2 t
  refine funext fun a => Fin.ext ?_
  match a with
  | ⟨0, _⟩ => show win0_2.index t (0 : Fin 2) * 2000 + 1 * p.val = 2000 * t.val + p.val; omega
  | ⟨1, _⟩ => show win0_2.index t (1 : Fin 2) * 512 + 1 * q.val = q.val; omega

/-- What grid point `t` writes back is block `t` of the product. -/
theorem wrote0_2 (c : Dev nD) (t : Fin cfg0.N) :
    (book0 V c).flushed 2 t = ((cfg0.win 2).blk t).view.read (Elt Ideal) (projected (V c main_arg0) (V c main_v0)) := by
  show (cfg0.win 2).cut (grid0.coords t) ((book0 V c).after 2 t) = _
  rw [book0_after2]
  unfold res0_2
  rw [View.canon_unit_zero zeros2_0]
  simp only [View.ld_unit_zero (S := S2000x128) zeros2_0, View.ld_unit_zero (S := S128x512) zeros2_0]
  funext j
  obtain ⟨p, q, rfl⟩ : ∃ (p : Fin 2000) (q : Fin 512), j = ix2 p q := ⟨j 0, j 1, eq_ix2 j⟩
  refine (proj_at _ _ p q).trans ?_
  show _ = projected _ _ (((cfg0.win 2).blk t).view.emb (ix2 p q))
  rw [spot0_2]
  refine Finset.sum_congr rfl fun k _ => ?_
  rw [at0_0, at0_1]

theorem inside0_2 (t : Fin cfg0.N) (i : S40000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v1).slice (win0_2.rect t)).set ↔ _
  rw [View.set_slice_whole, Rect.mem_set_unit]
  exact Iff.rfl

theorem every0_2 (i : S40000x512.Idx) : ∃ t : Fin cfg0.N, (cfg0.win 2).flush t = true ∧ i ∈ ((cfg0.win 2).blk t).view.set := by
  have hi0 := idx2_lt0 i
  have hi1 := idx2_lt1 i
  have ht : (i 0).val / 2000 < cfg0.N := by rw [show cfg0.N = 20 from N_0]; omega
  obtain ⟨e0, e1⟩ := pos0_2 ⟨(i 0).val / 2000, ht⟩
  refine ⟨⟨(i 0).val / 2000, ht⟩, flush0_2 _, ?_⟩
  rw [inside0_2]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 512 ≤ (i 1).val ∧ (i 1).val < win0_2.index ⟨(i 0).val / 2000, ht⟩ (1 : Fin 2) * 512 + 512
    rw [e1]; omega

/-- After the last grid point the output array holds the product. -/
theorem out0_2 (c : Dev nD) : (book0 V c).arrAt 2 cfg0.N = projected (V c main_arg0) (V c main_v0) :=
  (book0 V c).arrAt_eq_of_cover 2 _ (fun t _ => wrote0_2 V c t) every0_2

end Cert.KernelIdeal.Stage
end
-- ==== Proof.KernelIdeal.Out1.lean ====
/-
  What the edge gate stage leaves in its five output arrays, as functions of the arrays it starts from.
  Grid point t reads rows 4000·t … 4000·t + 3999 of the edge features e, of the three gathered projections d, g, b
  and of the per-edge factors f, and the whole 128×128 weight matrix w. With
      u(r, j) = max(Σₖ e(r, k)·w(k, j) + d(r, j) + g(r, j), 0)
  it writes back the same rows of u·f, of the gate 1/(1 + exp(−u)) and of the gate times b, and row t of the two
  160×1×128 arrays of partial sums: the sums over the block's 4000 rows of u·f and of its square. The 160 blocks tile
  the 640000 rows.
-/
import proofs.«102085_j69784628625690_2_alg».proof.Proof.KernelIdeal.Stage1
import proofs.«102085_j69784628625690_2_alg».proof.Proof.Layout
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.Stage
open Idealize.ShloMosaic Idealize.ShloMosaic.TcCoe Idealize.ShloMosaic.ValueIdx
open Idealize.ShloMosaic.Pipeline (Dat)
open Cert.KernelIdeal Cert.KernelIdeal.Gen Cert.Layout

variable (V : (c : Dev nD) → (b : Ref sig .tc) → Buf (Elt Ideal) ((c : Thread nD τ).loc b))
theorem lt1 (t : Fin cfg1.N) : t.val < 160 := lt_of_lt_of_eq t.isLt N_1
/-- Row `p` of point `t`'s block is row `4000·t + p` of the array. -/
def row1 (t : Fin cfg1.N) (p : Fin 4000) : Fin 640000 := ⟨4000 * t.val + p.val, by have := lt1 t; have := p.isLt; omega⟩
/-- The grid point as a block number. -/
def pt1 (t : Fin cfg1.N) : Fin 160 := ⟨t.val, lt1 t⟩
theorem zeros2_1 : (![0, 0] : Fin 2 → Nat) = fun _ => 0 := funext fun a => by fin_cases a <;> rfl
theorem zeros3_1 : (![0, 0, 0] : Fin 3 → Nat) = fun _ => 0 := funext fun a => by fin_cases a <;> rfl

theorem prod_at1_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem prod_at1_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem prod_at1_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem prod_at1_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl
/-- The block product, started from zero, at `(p, q)`: the sum over `k` of `(p, k)·(k, q)`. -/
theorem prod_at1 {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q) = ∑ k : Fin 128, l (ix2 p k) * r (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact prod_at1_l0 _ _
    | ⟨1, _⟩ => exact (prod_at1_l1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (prod_at1_r0 _ _).trans hk
    | ⟨1, _⟩ => exact prod_at1_r1 _ _)
  rw [el, er]

/-- The clamped pre-activation `u`. -/
def pre1 (e : S640000x128.Idx → Elt Ideal .f32) (w : S128x128.Idx → Elt Ideal .f32) (d g : S640000x128.Idx → Elt Ideal .bf16) : S640000x128.Idx → EReal :=
  fun i => max ((∑ k : Fin 128, (e (ix2 ⟨(i 0).val, idx2_lt0 i⟩ k) : EReal) * (w (ix2 k ⟨(i 1).val, idx2_lt1 i⟩) : EReal)) + (d i : EReal) + (g i : EReal)) (Ideal.ofBits .f32 0x00000000#32 : EReal)
/-- The scaled edge feature `u·f`, the factor read in the entry's row. -/
def scaled1 (e : S640000x128.Idx → Elt Ideal .f32) (w : S128x128.Idx → Elt Ideal .f32) (d g : S640000x128.Idx → Elt Ideal .bf16) (f : S640000x1.Idx → Elt Ideal .f32) : S640000x128.Idx → Elt Ideal .f32 :=
  fun i => pre1 e w d g i * (f (ix2 ⟨(i 0).val, idx2_lt0 i⟩ (0 : Fin 1)) : EReal)
/-- The gate `1/(1 + exp(−u))`. -/
def gate1 (e : S640000x128.Idx → Elt Ideal .f32) (w : S128x128.Idx → Elt Ideal .f32) (d g : S640000x128.Idx → Elt Ideal .bf16) : S640000x128.Idx → Elt Ideal .f32 :=
  fun i => Ideal.logistic (pre1 e w d g i)
/-- The gated message: the gate times `b`. -/
def message1 (e : S640000x128.Idx → Elt Ideal .f32) (w : S128x128.Idx → Elt Ideal .f32) (d g b : S640000x128.Idx → Elt Ideal .bf16) : S640000x128.Idx → Elt Ideal .f32 :=
  fun i => gate1 e w d g i * (b i : EReal)
/-- Entry by entry, the square. -/
def squared1 (x : S640000x128.Idx → Elt Ideal .f32) : S640000x128.Idx → Elt Ideal .f32 := fun i => x i * x i
/-- The column sums of each of the 160 blocks of 4000 rows. -/
def blockSums1 (x : S640000x128.Idx → Elt Ideal .f32) : S160x1x128.Idx → Elt Ideal .f32 :=
  fun i => ∑ p : Fin 4000, x (ix2 ⟨4000 * (i 0).val + p.val, by have h : (i 0).val < 160 := (i 0).isLt; have := p.isLt; omega⟩ ⟨(i 2).val, (i 2).isLt⟩)

theorem pre_at (e : Vec Ideal S4000x128 .f32) (w : Vec Ideal S128x128 .f32) (d g : Vec Ideal S4000x128 .bf16) (p : Fin 4000) (q : Fin 128) :
    k1_pay2 e w d g (ix2 p q) = max ((∑ k : Fin 128, (e (ix2 p k) : EReal) * (w (ix2 k q) : EReal)) + (d (ix2 p q) : EReal) + (g (ix2 p q) : EReal)) (Ideal.ofBits .f32 0x00000000#32 : EReal) := by
  unfold k1_pay2
  simp only [shapeCast_self]
  rw [maximumf_apply, addf_apply, addf_apply, prod_at1]
  rfl
theorem gate_at (e : Vec Ideal S4000x128 .f32) (w : Vec Ideal S128x128 .f32) (d g : Vec Ideal S4000x128 .bf16) (p : Fin 4000) (q : Fin 128) :
    k1_pay3 e w d g (ix2 p q) = Ideal.logistic (k1_pay2 e w d g (ix2 p q)) := rfl
theorem msg_at (e : Vec Ideal S4000x128 .f32) (w : Vec Ideal S128x128 .f32) (d g b : Vec Ideal S4000x128 .bf16) (p : Fin 4000) (q : Fin 128) :
    k1_pay4 e w d g b (ix2 p q) = k1_pay3 e w d g (ix2 p q) * (b (ix2 p q) : EReal) := by
  unfold k1_pay4
  simp only [shapeCast_self]
  rfl
theorem scl_at (e : Vec Ideal S4000x128 .f32) (w : Vec Ideal S128x128 .f32) (d g : Vec Ideal S4000x128 .bf16) (f : Vec Ideal S4000x1 .f32) (p : Fin 4000) (q : Fin 128) :
    k1_pay5 e w d g f (ix2 p q) = k1_pay2 e w d g (ix2 p q) * (f (ix2 p (0 : Fin 1)) : EReal) := by
  unfold k1_pay5
  simp only [shapeCast_self]
  rw [mulf_apply, spread_column]
theorem sclsum_at (e : Vec Ideal S4000x128 .f32) (w : Vec Ideal S128x128 .f32) (d g : Vec Ideal S4000x128 .bf16) (f : Vec Ideal S4000x1 .f32) (q : Fin 128) :
    k1_pay6 e w d g f (ix3 (0 : Fin 1) (0 : Fin 1) q) = ∑ p : Fin 4000, k1_pay5 e w d g f (ix2 p q) := by
  unfold k1_pay6
  rw [shapeCast_ab_1ab_apply, shapeCast_a_1a_apply]
  exact sum_down_rows _ _ _ _ q
theorem sqsum_at (v : FVec Ideal S4000x128 .f32) (q : Fin 128) :
    k1_pay1 v (ix3 (0 : Fin 1) (0 : Fin 1) q) = ∑ p : Fin 4000, v (ix2 p q) * v (ix2 p q) := by
  unfold k1_pay1
  rw [shapeCast_ab_1ab_apply, shapeCast_a_1a_apply]
  exact sum_down_rows _ _ _ _ q

theorem pos1_0 : ∀ t : Fin cfg1.N, win1_0.index t (0 : Fin 2) = t.val ∧ win1_0.index t (1 : Fin 2) = 0 :=
  (by decide +kernel : ∀ t : Fin grid1.N, _)
theorem pos1_2 : ∀ t : Fin cfg1.N, win1_2.index t (0 : Fin 2) = t.val ∧ win1_2.index t (1 : Fin 2) = 0 :=
  (by decide +kernel : ∀ t : Fin grid1.N, _)
theorem pos1_3 : ∀ t : Fin cfg1.N, win1_3.index t (0 : Fin 2) = t.val ∧ win1_3.index t (1 : Fin 2) = 0 :=
  (by decide +kernel : ∀ t : Fin grid1.N, _)
theorem pos1_4 : ∀ t : Fin cfg1.N, win1_4.index t (0 : Fin 2) = t.val ∧ win1_4.index t (1 : Fin 2) = 0 :=
  (by decide +kernel : ∀ t : Fin grid1.N, _)
theorem pos1_5 : ∀ t : Fin cfg1.N, win1_5.index t (0 : Fin 2) = t.val ∧ win1_5.index t (1 : Fin 2) = 0 :=
  (by decide +kernel : ∀ t : Fin grid1.N, _)
theorem pos1_6 : ∀ t : Fin cfg1.N, win1_6.index t (0 : Fin 2) = t.val ∧ win1_6.index t (1 : Fin 2) = 0 :=
  (by decide +kernel : ∀ t : Fin grid1.N, _)
theorem pos1_7 : ∀ t : Fin cfg1.N, win1_7.index t (0 : Fin 2) = t.val ∧ win1_7.index t (1 : Fin 2) = 0 :=
  (by decide +kernel : ∀ t : Fin grid1.N, _)
theorem pos1_8 : ∀ t : Fin cfg1.N, win1_8.index t (0 : Fin 2) = t.val ∧ win1_8.index t (1 : Fin 2) = 0 :=
  (by decide +kernel : ∀ t : Fin grid1.N, _)
theorem pos1_1 : ∀ t : Fin cfg1.N, win1_1.index t (0 : Fin 2) = 0 ∧ win1_1.index t (1 : Fin 2) = 0 :=
  (by decide +kernel : ∀ t : Fin grid1.N, _)
theorem pos1_9 : ∀ t : Fin cfg1.N, win1_9.index t (0 : Fin 3) = t.val ∧ win1_9.index t (1 : Fin 3) = 0 ∧ win1_9.index t (2 : Fin 3) = 0 :=
  (by decide +kernel : ∀ t : Fin grid1.N, _)
theorem pos1_10 : ∀ t : Fin cfg1.N, win1_10.index t (0 : Fin 3) = t.val ∧ win1_10.index t (1 : Fin 3) = 0 ∧ win1_10.index t (2 : Fin 3) = 0 :=
  (by decide +kernel : ∀ t : Fin grid1.N, _)
theorem at1_0 (c : Dev nD) (t : Fin cfg1.N) (p : Fin 4000) (q : Fin 128) :
    blk1 V c 0 t (ix2 p q) = V c main_arg1 (ix2 (row1 t p) q) := by
  obtain ⟨e0, e1⟩ := pos1_0 t
  show V c main_arg1 (((cfg1.win 0).blk t).view.emb (ix2 p q)) = V c main_arg1 (ix2 (row1 t p) q)
  refine congrArg (V c main_arg1) (funext fun a => Fin.ext ?_)
  match a with
  | ⟨0, _⟩ => show win1_0.index t (0 : Fin 2) * 4000 + 1 * p.val = 4000 * t.val + p.val; omega
  | ⟨1, _⟩ => show win1_0.index t (1 : Fin 2) * 128 + 1 * q.val = q.val; omega
theorem at1_1 (c : Dev nD) (t : Fin cfg1.N) (p : Fin 128) (q : Fin 128) :
    blk1 V c 1 t (ix2 p q) = V c main_arg8 (ix2 p q) := by
  obtain ⟨e0, e1⟩ := pos1_1 t
  show V c main_arg8 (((cfg1.win 1).blk t).view.emb (ix2 p q)) = V c main_arg8 (ix2 p q)
  refine congrArg (V c main_arg8) (funext fun a => Fin.ext ?_)
  match a with
  | ⟨0, _⟩ => show win1_1.index t (0 : Fin 2) * 128 + 1 * p.val = p.val; omega
  | ⟨1, _⟩ => show win1_1.index t (1 : Fin 2) * 128 + 1 * q.val = q.val; omega
theorem at1_2 (c : Dev nD) (t : Fin cfg1.N) (p : Fin 4000) (q : Fin 128) :
    blk1 V c 2 t (ix2 p q) = V c main_v25 (ix2 (row1 t p) q) := by
  obtain ⟨e0, e1⟩ := pos1_2 t
  show V c main_v25 (((cfg1.win 2).blk t).view.emb (ix2 p q)) = V c main_v25 (ix2 (row1 t p) q)
  refine congrArg (V c main_v25) (funext fun a => Fin.ext ?_)
  match a with
  | ⟨0, _⟩ => show win1_2.index t (0 : Fin 2) * 4000 + 1 * p.val = 4000 * t.val + p.val; omega
  | ⟨1, _⟩ => show win1_2.index t (1 : Fin 2) * 128 + 1 * q.val = q.val; omega
theorem at1_3 (c : Dev nD) (t : Fin cfg1.N) (p : Fin 4000) (q : Fin 128) :
    blk1 V c 3 t (ix2 p q) = V c main_v23 (ix2 (row1 t p) q) := by
  obtain ⟨e0, e1⟩ := pos1_3 t
  show V c main_v23 (((cfg1.win 3).blk t).view.emb (ix2 p q)) = V c main_v23 (ix2 (row1 t p) q)
  refine congrArg (V c main_v23) (funext fun a => Fin.ext ?_)
  match a with
  | ⟨0, _⟩ => show win1_3.index t (0 : Fin 2) * 4000 + 1 * p.val = 4000 * t.val + p.val; omega
  | ⟨1, _⟩ => show win1_3.index t (1 : Fin 2) * 128 + 1 * q.val = q.val; omega
theorem at1_4 (c : Dev nD) (t : Fin cfg1.N) (p : Fin 4000) (q : Fin 128) :
    blk1 V c 4 t (ix2 p q) = V c main_v24 (ix2 (row1 t p) q) := by
  obtain ⟨e0, e1⟩ := pos1_4 t
  show V c main_v24 (((cfg1.win 4).blk t).view.emb (ix2 p q)) = V c main_v24 (ix2 (row1 t p) q)
  refine congrArg (V c main_v24) (funext fun a => Fin.ext ?_)
  match a with
  | ⟨0, _⟩ => show win1_4.index t (0 : Fin 2) * 4000 + 1 * p.val = 4000 * t.val + p.val; omega
  | ⟨1, _⟩ => show win1_4.index t (1 : Fin 2) * 128 + 1 * q.val = q.val; omega
theorem at1_5 (c : Dev nD) (t : Fin cfg1.N) (p : Fin 4000) (q : Fin 1) :
    blk1 V c 5 t (ix2 p q) = V c main_arg5 (ix2 (row1 t p) q) := by
  obtain ⟨e0, e1⟩ := pos1_5 t
  show V c main_arg5 (((cfg1.win 5).blk t).view.emb (ix2 p q)) = V c main_arg5 (ix2 (row1 t p) q)
  refine congrArg (V c main_arg5) (funext fun a => Fin.ext ?_)
  match a with
  | ⟨0, _⟩ => show win1_5.index t (0 : Fin 2) * 4000 + 1 * p.val = 4000 * t.val + p.val; omega
  | ⟨1, _⟩ => show win1_5.index t (1 : Fin 2) * 1 + 1 * q.val = q.val; omega
theorem spot1_6 (t : Fin cfg1.N) (p : Fin 4000) (q : Fin 128) :
    ((cfg1.win 6).blk t).view.emb (ix2 p q) = ix2 (row1 t p) q := by
  obtain ⟨e0, e1⟩ := pos1_6 t
  refine funext fun a => Fin.ext ?_
  match a with
  | ⟨0, _⟩ => show win1_6.index t (0 : Fin 2) * 4000 + 1 * p.val = 4000 * t.val + p.val; omega
  | ⟨1, _⟩ => show win1_6.index t (1 : Fin 2) * 128 + 1 * q.val = q.val; omega
theorem spot1_7 (t : Fin cfg1.N) (p : Fin 4000) (q : Fin 128) :
    ((cfg1.win 7).blk t).view.emb (ix2 p q) = ix2 (row1 t p) q := by
  obtain ⟨e0, e1⟩ := pos1_7 t
  refine funext fun a => Fin.ext ?_
  match a with
  | ⟨0, _⟩ => show win1_7.index t (0 : Fin 2) * 4000 + 1 * p.val = 4000 * t.val + p.val; omega
  | ⟨1, _⟩ => show win1_7.index t (1 : Fin 2) * 128 + 1 * q.val = q.val; omega
theorem spot1_8 (t : Fin cfg1.N) (p : Fin 4000) (q : Fin 128) :
    ((cfg1.win 8).blk t).view.emb (ix2 p q) = ix2 (row1 t p) q := by
  obtain ⟨e0, e1⟩ := pos1_8 t
  refine funext fun a => Fin.ext ?_
  match a with
  | ⟨0, _⟩ => show win1_8.index t (0 : Fin 2) * 4000 + 1 * p.val = 4000 * t.val + p.val; omega
  | ⟨1, _⟩ => show win1_8.index t (1 : Fin 2) * 128 + 1 * q.val = q.val; omega
theorem spot1_9 (t : Fin cfg1.N) (q : Fin 128) :
    ((cfg1.win 9).blk t).view.emb (ix3 (0 : Fin 1) (0 : Fin 1) q) = ix3 (pt1 t) (0 : Fin 1) q := by
  obtain ⟨e0, e1, e2⟩ := pos1_9 t
  refine funext fun a => Fin.ext ?_
  match a with
  | ⟨0, _⟩ => show win1_9.index t (0 : Fin 3) * 1 + 1 * 0 = t.val; omega
  | ⟨1, _⟩ => show win1_9.index t (1 : Fin 3) * 1 + 1 * 0 = 0; omega
  | ⟨2, _⟩ => show win1_9.index t (2 : Fin 3) * 128 + 1 * q.val = q.val; omega
theorem spot1_10 (t : Fin cfg1.N) (q : Fin 128) :
    ((cfg1.win 10).blk t).view.emb (ix3 (0 : Fin 1) (0 : Fin 1) q) = ix3 (pt1 t) (0 : Fin 1) q := by
  obtain ⟨e0, e1, e2⟩ := pos1_10 t
  refine funext fun a => Fin.ext ?_
  match a with
  | ⟨0, _⟩ => show win1_10.index t (0 : Fin 3) * 1 + 1 * 0 = t.val; omega
  | ⟨1, _⟩ => show win1_10.index t (1 : Fin 3) * 1 + 1 * 0 = 0; omega
  | ⟨2, _⟩ => show win1_10.index t (2 : Fin 3) * 128 + 1 * q.val = q.val; omega

/-- The body's pre-activation on point `t`'s blocks is `u` on the block's rows. -/
theorem pre_blk (c : Dev nD) (t : Fin cfg1.N) (p : Fin 4000) (q : Fin 128) :
    k1_pay2 (blk1 V c 0 t) (blk1 V c 1 t) (blk1 V c 2 t) (blk1 V c 3 t) (ix2 p q) = pre1 (V c main_arg1) (V c main_arg8) (V c main_v25) (V c main_v23) (ix2 (row1 t p) q) := by
  refine (pre_at _ _ _ _ p q).trans ?_
  rw [at1_2, at1_3]
  show max ((∑ k : Fin 128, _) + _ + _) _ = max ((∑ k : Fin 128, _) + _ + _) _
  refine congrArg (fun s => max (s + _ + _) _) (Finset.sum_congr rfl fun k _ => ?_)
  rw [at1_0, at1_1]
theorem scl_blk (c : Dev nD) (t : Fin cfg1.N) (p : Fin 4000) (q : Fin 128) :
    k1_pay5 (blk1 V c 0 t) (blk1 V c 1 t) (blk1 V c 2 t) (blk1 V c 3 t) (blk1 V c 5 t) (ix2 p q) = scaled1 (V c main_arg1) (V c main_arg8) (V c main_v25) (V c main_v23) (V c main_arg5) (ix2 (row1 t p) q) := by
  rw [scl_at, pre_blk, at1_5]
  try rfl
theorem gate_blk (c : Dev nD) (t : Fin cfg1.N) (p : Fin 4000) (q : Fin 128) :
    k1_pay3 (blk1 V c 0 t) (blk1 V c 1 t) (blk1 V c 2 t) (blk1 V c 3 t) (ix2 p q) = gate1 (V c main_arg1) (V c main_arg8) (V c main_v25) (V c main_v23) (ix2 (row1 t p) q) := by
  rw [gate_at, pre_blk]
  try rfl
theorem msg_blk (c : Dev nD) (t : Fin cfg1.N) (p : Fin 4000) (q : Fin 128) :
    k1_pay4 (blk1 V c 0 t) (blk1 V c 1 t) (blk1 V c 2 t) (blk1 V c 3 t) (blk1 V c 4 t) (ix2 p q) = message1 (V c main_arg1) (V c main_arg8) (V c main_v25) (V c main_v23) (V c main_v24) (ix2 (row1 t p) q) := by
  rw [msg_at, gate_blk, at1_4]
  try rfl

/-- What grid point `t` writes back of the scaled edge features is their block `t`; -/
theorem wrote1_6 (c : Dev nD) (t : Fin cfg1.N) :
    (book1 V c).flushed 6 t = ((cfg1.win 6).blk t).view.read (Elt Ideal) (scaled1 (V c main_arg1) (V c main_arg8) (V c main_v25) (V c main_v23) (V c main_arg5)) := by
  show (cfg1.win 6).cut (grid1.coords t) ((book1 V c).after 6 t) = _
  rw [book1_after6]
  unfold res1_6
  rw [View.canon_unit_zero zeros2_1]
  simp only [View.ld_unit_zero (S := S4000x128) zeros2_1, View.ld_unit_zero (S := S128x128) zeros2_1, View.ld_unit_zero (S := S4000x1) zeros2_1]
  funext j
  obtain ⟨p, q, rfl⟩ : ∃ (p : Fin 4000) (q : Fin 128), j = ix2 p q := ⟨j 0, j 1, eq_ix2 j⟩
  show _ = (scaled1 (V c main_arg1) (V c main_arg8) (V c main_v25) (V c main_v23) (V c main_arg5)) (((cfg1.win 6).blk t).view.emb (ix2 p q))
  rw [spot1_6]
  exact scl_blk V c t p q
/-- of the gate, its block `t`; -/
theorem wrote1_7 (c : Dev nD) (t : Fin cfg1.N) :
    (book1 V c).flushed 7 t = ((cfg1.win 7).blk t).view.read (Elt Ideal) (gate1 (V c main_arg1) (V c main_arg8) (V c main_v25) (V c main_v23)) := by
  show (cfg1.win 7).cut (grid1.coords t) ((book1 V c).after 7 t) = _
  rw [book1_after7]
  unfold res1_7
  rw [View.canon_unit_zero zeros2_1]
  simp only [View.ld_unit_zero (S := S4000x128) zeros2_1, View.ld_unit_zero (S := S128x128) zeros2_1, View.ld_unit_zero (S := S4000x1) zeros2_1]
  funext j
  obtain ⟨p, q, rfl⟩ : ∃ (p : Fin 4000) (q : Fin 128), j = ix2 p q := ⟨j 0, j 1, eq_ix2 j⟩
  show _ = (gate1 (V c main_arg1) (V c main_arg8) (V c main_v25) (V c main_v23)) (((cfg1.win 7).blk t).view.emb (ix2 p q))
  rw [spot1_7]
  exact gate_blk V c t p q
/-- of the gated message, its block `t`; -/
theorem wrote1_8 (c : Dev nD) (t : Fin cfg1.N) :
    (book1 V c).flushed 8 t = ((cfg1.win 8).blk t).view.read (Elt Ideal) (message1 (V c main_arg1) (V c main_arg8) (V c main_v25) (V c main_v23) (V c main_v24)) := by
  show (cfg1.win 8).cut (grid1.coords t) ((book1 V c).after 8 t) = _
  rw [book1_after8]
  unfold res1_8
  rw [View.canon_unit_zero zeros2_1]
  simp only [View.ld_unit_zero (S := S4000x128) zeros2_1, View.ld_unit_zero (S := S128x128) zeros2_1, View.ld_unit_zero (S := S4000x1) zeros2_1]
  funext j
  obtain ⟨p, q, rfl⟩ : ∃ (p : Fin 4000) (q : Fin 128), j = ix2 p q := ⟨j 0, j 1, eq_ix2 j⟩
  show _ = (message1 (V c main_arg1) (V c main_arg8) (V c main_v25) (V c main_v23) (V c main_v24)) (((cfg1.win 8).blk t).view.emb (ix2 p q))
  rw [spot1_8]
  exact msg_blk V c t p q

/-- of the partial sums, row `t` of the block sums of the scaled edge features; -/
theorem wrote1_9 (c : Dev nD) (t : Fin cfg1.N) :
    (book1 V c).flushed 9 t = ((cfg1.win 9).blk t).view.read (Elt Ideal) (blockSums1 (scaled1 (V c main_arg1) (V c main_arg8) (V c main_v25) (V c main_v23) (V c main_arg5))) := by
  show (cfg1.win 9).cut (grid1.coords t) ((book1 V c).after 9 t) = _
  rw [book1_after9]
  unfold res1_9
  rw [View.canon_unit_zero zeros3_1]
  simp only [View.ld_unit_zero (S := S4000x128) zeros2_1, View.ld_unit_zero (S := S128x128) zeros2_1, View.ld_unit_zero (S := S4000x1) zeros2_1]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (sclsum_at _ _ _ _ _ q).trans ?_
  show _ = blockSums1 _ (((cfg1.win 9).blk t).view.emb (ix3 (0 : Fin 1) (0 : Fin 1) q))
  rw [spot1_9]
  exact Finset.sum_congr rfl fun p _ => scl_blk V c t p q
/-- of the partial sums of squares, row `t` of the block sums of their squares. -/
theorem wrote1_10 (c : Dev nD) (t : Fin cfg1.N) :
    (book1 V c).flushed 10 t = ((cfg1.win 10).blk t).view.read (Elt Ideal) (blockSums1 (squared1 (scaled1 (V c main_arg1) (V c main_arg8) (V c main_v25) (V c main_v23) (V c main_arg5)))) := by
  show (cfg1.win 10).cut (grid1.coords t) ((book1 V c).after 10 t) = _
  rw [book1_after10]
  unfold res1_10
  rw [View.canon_unit_zero zeros3_1]
  simp only [View.ld_unit_zero (S := S4000x128) zeros2_1, View.ld_unit_zero (S := S128x128) zeros2_1, View.ld_unit_zero (S := S4000x1) zeros2_1]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (sqsum_at _ q).trans ?_
  show _ = blockSums1 _ (((cfg1.win 10).blk t).view.emb (ix3 (0 : Fin 1) (0 : Fin 1) q))
  rw [spot1_10]
  refine Finset.sum_congr rfl fun p _ => ?_
  rw [scl_blk]
  try rfl

theorem inside1_6 (t : Fin cfg1.N) (i : S640000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v26_0).slice (win1_6.rect t)).set ↔ _
  rw [View.set_slice_whole, Rect.mem_set_unit]
  exact Iff.rfl

theorem every1_6 (i : S640000x128.Idx) : ∃ t : Fin cfg1.N, (cfg1.win 6).flush t = true ∧ i ∈ ((cfg1.win 6).blk t).view.set := by
  have hi0 := idx2_lt0 i
  have hi1 := idx2_lt1 i
  have ht : (i 0).val / 4000 < cfg1.N := by rw [show cfg1.N = 160 from N_1]; omega
  obtain ⟨e0, e1⟩ := pos1_6 ⟨(i 0).val / 4000, ht⟩
  refine ⟨⟨(i 0).val / 4000, ht⟩, flush1_6 _, ?_⟩
  rw [inside1_6]
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, ht⟩ (1 : Fin 2) * 128 ≤ (i 1).val ∧ (i 1).val < win1_6.index ⟨(i 0).val / 4000, ht⟩ (1 : Fin 2) * 128 + 128
    rw [e1]; omega
theorem inside1_7 (t : Fin cfg1.N) (i : S640000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v26_1).slice (win1_7.rect t)).set ↔ _
  rw [View.set_slice_whole, Rect.mem_set_unit]
  exact Iff.rfl

theorem every1_7 (i : S640000x128.Idx) : ∃ t : Fin cfg1.N, (cfg1.win 7).flush t = true ∧ i ∈ ((cfg1.win 7).blk t).view.set := by
  have hi0 := idx2_lt0 i
  have hi1 := idx2_lt1 i
  have ht : (i 0).val / 4000 < cfg1.N := by rw [show cfg1.N = 160 from N_1]; omega
  obtain ⟨e0, e1⟩ := pos1_7 ⟨(i 0).val / 4000, ht⟩
  refine ⟨⟨(i 0).val / 4000, ht⟩, flush1_7 _, ?_⟩
  rw [inside1_7]
  intro a
  match a with
  | ⟨0, _⟩ =>
    show win1_7.index ⟨(i 0).val / 4000, ht⟩ (0 : Fin 2) * 4000 ≤ (i 0).val ∧ (i 0).val < win1_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, ht⟩ (1 : Fin 2) * 128 ≤ (i 1).val ∧ (i 1).val < win1_7.index ⟨(i 0).val / 4000, ht⟩ (1 : Fin 2) * 128 + 128
    rw [e1]; omega
theorem inside1_8 (t : Fin cfg1.N) (i : S640000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v26_2).slice (win1_8.rect t)).set ↔ _
  rw [View.set_slice_whole, Rect.mem_set_unit]
  exact Iff.rfl

theorem every1_8 (i : S640000x128.Idx) : ∃ t : Fin cfg1.N, (cfg1.win 8).flush t = true ∧ i ∈ ((cfg1.win 8).blk t).view.set := by
  have hi0 := idx2_lt0 i
  have hi1 := idx2_lt1 i
  have ht : (i 0).val / 4000 < cfg1.N := by rw [show cfg1.N = 160 from N_1]; omega
  obtain ⟨e0, e1⟩ := pos1_8 ⟨(i 0).val / 4000, ht⟩
  refine ⟨⟨(i 0).val / 4000, ht⟩, flush1_8 _, ?_⟩
  rw [inside1_8]
  intro a
  match a with
  | ⟨0, _⟩ =>
    show win1_8.index ⟨(i 0).val / 4000, ht⟩ (0 : Fin 2) * 4000 ≤ (i 0).val ∧ (i 0).val < win1_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_8.index ⟨(i 0).val / 4000, ht⟩ (1 : Fin 2) * 128 ≤ (i 1).val ∧ (i 1).val < win1_8.index ⟨(i 0).val / 4000, ht⟩ (1 : Fin 2) * 128 + 128
    rw [e1]; omega
theorem inside1_9 (t : Fin cfg1.N) (i : S160x1x128.Idx) :
    i ∈ ((cfg1.win 9).blk t).view.set ↔ ∀ a : Fin 3, win1_9.index t a * S1x1x128.size a ≤ (i a).val ∧ (i a).val < win1_9.index t a * S1x1x128.size a + S1x1x128.size a := by
  show i ∈ ((View.whole main_v26_3).slice (win1_9.rect t)).set ↔ _
  rw [View.set_slice_whole, Rect.mem_set_unit]
  exact Iff.rfl

theorem every1_9 (i : S160x1x128.Idx) : ∃ t : Fin cfg1.N, (cfg1.win 9).flush t = true ∧ i ∈ ((cfg1.win 9).blk t).view.set := by
  have hi0 : (i 0).val < 160 := (i 0).isLt
  have hi1 : (i 1).val < 1 := (i 1).isLt
  have hi2 : (i 2).val < 128 := (i 2).isLt
  have ht : (i 0).val < cfg1.N := by rw [show cfg1.N = 160 from N_1]; exact hi0
  obtain ⟨e0, e1, e2⟩ := pos1_9 ⟨(i 0).val, ht⟩
  refine ⟨⟨(i 0).val, ht⟩, flush1_9 _, ?_⟩
  rw [inside1_9]
  intro a
  match a with
  | ⟨0, _⟩ =>
    show win1_9.index ⟨(i 0).val, ht⟩ (0 : Fin 3) * 1 ≤ (i 0).val ∧ (i 0).val < win1_9.index ⟨(i 0).val, ht⟩ (0 : Fin 3) * 1 + 1
    rw [e0]; show (i 0).val * 1 ≤ (i 0).val ∧ (i 0).val < (i 0).val * 1 + 1; omega
  | ⟨1, _⟩ =>
    show win1_9.index ⟨(i 0).val, ht⟩ (1 : Fin 3) * 1 ≤ (i 1).val ∧ (i 1).val < win1_9.index ⟨(i 0).val, ht⟩ (1 : Fin 3) * 1 + 1
    rw [e1]; omega
  | ⟨2, _⟩ =>
    show win1_9.index ⟨(i 0).val, ht⟩ (2 : Fin 3) * 128 ≤ (i 2).val ∧ (i 2).val < win1_9.index ⟨(i 0).val, ht⟩ (2 : Fin 3) * 128 + 128
    rw [e2]; omega
theorem inside1_10 (t : Fin cfg1.N) (i : S160x1x128.Idx) :
    i ∈ ((cfg1.win 10).blk t).view.set ↔ ∀ a : Fin 3, win1_10.index t a * S1x1x128.size a ≤ (i a).val ∧ (i a).val < win1_10.index t a * S1x1x128.size a + S1x1x128.size a := by
  show i ∈ ((View.whole main_v26_4).slice (win1_10.rect t)).set ↔ _
  rw [View.set_slice_whole, Rect.mem_set_unit]
  exact Iff.rfl

theorem every1_10 (i : S160x1x128.Idx) : ∃ t : Fin cfg1.N, (cfg1.win 10).flush t = true ∧ i ∈ ((cfg1.win 10).blk t).view.set := by
  have hi0 : (i 0).val < 160 := (i 0).isLt
  have hi1 : (i 1).val < 1 := (i 1).isLt
  have hi2 : (i 2).val < 128 := (i 2).isLt
  have ht : (i 0).val < cfg1.N := by rw [show cfg1.N = 160 from N_1]; exact hi0
  obtain ⟨e0, e1, e2⟩ := pos1_10 ⟨(i 0).val, ht⟩
  refine ⟨⟨(i 0).val, ht⟩, flush1_10 _, ?_⟩
  rw [inside1_10]
  intro a
  match a with
  | ⟨0, _⟩ =>
    show win1_10.index ⟨(i 0).val, ht⟩ (0 : Fin 3) * 1 ≤ (i 0).val ∧ (i 0).val < win1_10.index ⟨(i 0).val, ht⟩ (0 : Fin 3) * 1 + 1
    rw [e0]; show (i 0).val * 1 ≤ (i 0).val ∧ (i 0).val < (i 0).val * 1 + 1; omega
  | ⟨1, _⟩ =>
    show win1_10.index ⟨(i 0).val, ht⟩ (1 : Fin 3) * 1 ≤ (i 1).val ∧ (i 1).val < win1_10.index ⟨(i 0).val, ht⟩ (1 : Fin 3) * 1 + 1
    rw [e1]; omega
  | ⟨2, _⟩ =>
    show win1_10.index ⟨(i 0).val, ht⟩ (2 : Fin 3) * 128 ≤ (i 2).val ∧ (i 2).val < win1_10.index ⟨(i 0).val, ht⟩ (2 : Fin 3) * 128 + 128
    rw [e2]; omega

/-- After the last grid point: the five arrays. -/
theorem out1_6 (c : Dev nD) : (book1 V c).arrAt 6 cfg1.N = scaled1 (V c main_arg1) (V c main_arg8) (V c main_v25) (V c main_v23) (V c main_arg5) :=
  (book1 V c).arrAt_eq_of_cover 6 _ (fun t _ => wrote1_6 V c t) every1_6
theorem out1_7 (c : Dev nD) : (book1 V c).arrAt 7 cfg1.N = gate1 (V c main_arg1) (V c main_arg8) (V c main_v25) (V c main_v23) :=
  (book1 V c).arrAt_eq_of_cover 7 _ (fun t _ => wrote1_7 V c t) every1_7
theorem out1_8 (c : Dev nD) : (book1 V c).arrAt 8 cfg1.N = message1 (V c main_arg1) (V c main_arg8) (V c main_v25) (V c main_v23) (V c main_v24) :=
  (book1 V c).arrAt_eq_of_cover 8 _ (fun t _ => wrote1_8 V c t) every1_8
theorem out1_9 (c : Dev nD) : (book1 V c).arrAt 9 cfg1.N = blockSums1 (scaled1 (V c main_arg1) (V c main_arg8) (V c main_v25) (V c main_v23) (V c main_arg5)) :=
  (book1 V c).arrAt_eq_of_cover 9 _ (fun t _ => wrote1_9 V c t) every1_9
theorem out1_10 (c : Dev nD) : (book1 V c).arrAt 10 cfg1.N = blockSums1 (squared1 (scaled1 (V c main_arg1) (V c main_arg8) (V c main_v25) (V c main_v23) (V c main_arg5))) :=
  (book1 V c).arrAt_eq_of_cover 10 _ (fun t _ => wrote1_10 V c t) every1_10

end Cert.KernelIdeal.Stage
end
-- ==== Proof.KernelIdeal.Out2.lean ====
/-
  What the node update stage leaves in its three output arrays, as functions of the arrays it starts from.
  Grid point t reads rows 5000·t … 5000·t + 4999 of the first projection a, of the summed messages n, of the summed
  gates s and of the per-node factors f, writes back the same rows of (a + n/(s + 10⁻⁶))·f, and writes row t of the
  two 8×1×128 arrays of partial sums: the sums over the block's 5000 rows of that output and of its square. The eight
  blocks tile the 40000 rows.
-/
import proofs.«102085_j69784628625690_2_alg».proof.Proof.KernelIdeal.Stage2
import proofs.«102085_j69784628625690_2_alg».proof.Proof.Layout
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.Stage
open Idealize.ShloMosaic Idealize.ShloMosaic.TcCoe Idealize.ShloMosaic.ValueIdx
open Idealize.ShloMosaic.Pipeline (Dat)
open Cert.KernelIdeal Cert.KernelIdeal.Gen Cert.Layout

variable (V : (c : Dev nD) → (b : Ref sig .tc) → Buf (Elt Ideal) ((c : Thread nD τ).loc b))
theorem lt2 (t : Fin cfg2.N) : t.val < 8 := lt_of_lt_of_eq t.isLt N_2
/-- Row `p` of point `t`'s block is row `5000·t + p` of the array. -/
def row2 (t : Fin cfg2.N) (p : Fin 5000) : Fin 40000 := ⟨5000 * t.val + p.val, by have := lt2 t; have := p.isLt; omega⟩
/-- The grid point as a block number. -/
def pt2 (t : Fin cfg2.N) : Fin 8 := ⟨t.val, lt2 t⟩
theorem zeros2_2 : (![0, 0] : Fin 2 → Nat) = fun _ => 0 := funext fun a => by fin_cases a <;> rfl
theorem zeros3_2 : (![0, 0, 0] : Fin 3 → Nat) = fun _ => 0 := funext fun a => by fin_cases a <;> rfl

/-- The updated node features: `(a + n/(s + 10⁻⁶))·f`, entry by entry, the factor read in the entry's row. -/
def updated (a n s : S40000x128.Idx → Elt Ideal .f32) (f : S40000x1.Idx → Elt Ideal .f32) : S40000x128.Idx → Elt Ideal .f32 :=
  fun i => (a i + Ideal.div (n i) (s i + Ideal.ofBits .f32 0x358637BD#32)) * f (ix2 ⟨(i 0).val, idx2_lt0 i⟩ (0 : Fin 1))

/-- Entry by entry, the square. -/
def squared2 (x : S40000x128.Idx → Elt Ideal .f32) : S40000x128.Idx → Elt Ideal .f32 := fun i => x i * x i

/-- The column sums of each of the eight blocks of 5000 rows. -/
def blockSums2 (x : S40000x128.Idx → Elt Ideal .f32) : S8x1x128.Idx → Elt Ideal .f32 :=
  fun i => ∑ p : Fin 5000, x (ix2 ⟨5000 * (i 0).val + p.val, by have h : (i 0).val < 8 := (i 0).isLt; have := p.isLt; omega⟩ ⟨(i 2).val, (i 2).isLt⟩)

theorem upd_at (n s a : Vec Ideal S5000x128 .f32) (f : Vec Ideal S5000x1 .f32) (p : Fin 5000) (q : Fin 128) :
    k2_pay1 n s a f (ix2 p q) = (a (ix2 p q) + Ideal.div (n (ix2 p q)) (s (ix2 p q) + Ideal.ofBits .f32 0x358637BD#32)) * f (ix2 p (0 : Fin 1)) := by
  unfold k2_pay1
  simp only [shapeCast_self]
  rw [mulf_apply, addf_apply, divf_apply, addf_apply, spread_column]
  rfl

theorem updsum_at (n s a : Vec Ideal S5000x128 .f32) (f : Vec Ideal S5000x1 .f32) (q : Fin 128) :
    k2_pay2 n s a f (ix3 (0 : Fin 1) (0 : Fin 1) q) = ∑ p : Fin 5000, k2_pay1 n s a f (ix2 p q) := by
  unfold k2_pay2
  rw [shapeCast_ab_1ab_apply, shapeCast_a_1a_apply]
  exact sum_down_rows _ _ _ _ q

theorem updsq_at (n s a : Vec Ideal S5000x128 .f32) (f : Vec Ideal S5000x1 .f32) (q : Fin 128) :
    k2_pay3 n s a f (ix3 (0 : Fin 1) (0 : Fin 1) q) = ∑ p : Fin 5000, k2_pay1 n s a f (ix2 p q) * k2_pay1 n s a f (ix2 p q) := by
  unfold k2_pay3
  rw [shapeCast_ab_1ab_apply, shapeCast_a_1a_apply]
  exact sum_down_rows _ _ _ _ q

theorem pos2_0 : ∀ t : Fin cfg2.N, win2_0.index t (0 : Fin 2) = t.val ∧ win2_0.index t (1 : Fin 2) = 0 :=
  (by decide +kernel : ∀ t : Fin grid2.N, _)
theorem pos2_1 : ∀ t : Fin cfg2.N, win2_1.index t (0 : Fin 2) = t.val ∧ win2_1.index t (1 : Fin 2) = 0 :=
  (by decide +kernel : ∀ t : Fin grid2.N, _)
theorem pos2_2 : ∀ t : Fin cfg2.N, win2_2.index t (0 : Fin 2) = t.val ∧ win2_2.index t (1 : Fin 2) = 0 :=
  (by decide +kernel : ∀ t : Fin grid2.N, _)
theorem pos2_3 : ∀ t : Fin cfg2.N, win2_3.index t (0 : Fin 2) = t.val ∧ win2_3.index t (1 : Fin 2) = 0 :=
  (by decide +kernel : ∀ t : Fin grid2.N, _)
theorem pos2_4 : ∀ t : Fin cfg2.N, win2_4.index t (0 : Fin 2) = t.val ∧ win2_4.index t (1 : Fin 2) = 0 :=
  (by decide +kernel : ∀ t : Fin grid2.N, _)
theorem pos2_5 : ∀ t : Fin cfg2.N, win2_5.index t (0 : Fin 3) = t.val ∧ win2_5.index t (1 : Fin 3) = 0 ∧ win2_5.index t (2 : Fin 3) = 0 :=
  (by decide +kernel : ∀ t : Fin grid2.N, _)
theorem pos2_6 : ∀ t : Fin cfg2.N, win2_6.index t (0 : Fin 3) = t.val ∧ win2_6.index t (1 : Fin 3) = 0 ∧ win2_6.index t (2 : Fin 3) = 0 :=
  (by decide +kernel : ∀ t : Fin grid2.N, _)

theorem at2_0 (c : Dev nD) (t : Fin cfg2.N) (p : Fin 5000) (q : Fin 128) :
    blk2 V c 0 t (ix2 p q) = V c main_v2 (ix2 (row2 t p) q) := by
  obtain ⟨e0, e1⟩ := pos2_0 t
  show V c main_v2 (((cfg2.win 0).blk t).view.emb (ix2 p q)) = V c main_v2 (ix2 (row2 t p) q)
  refine congrArg (V c main_v2) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * q.val = q.val; omega
theorem at2_1 (c : Dev nD) (t : Fin cfg2.N) (p : Fin 5000) (q : Fin 128) :
    blk2 V c 1 t (ix2 p q) = V c main_v33 (ix2 (row2 t p) q) := by
  obtain ⟨e0, e1⟩ := pos2_1 t
  show V c main_v33 (((cfg2.win 1).blk t).view.emb (ix2 p q)) = V c main_v33 (ix2 (row2 t p) q)
  refine congrArg (V c main_v33) (funext fun a => Fin.ext ?_)
  match a with
  | ⟨0, _⟩ => show win2_1.index t (0 : Fin 2) * 5000 + 1 * p.val = 5000 * t.val + p.val; omega
  | ⟨1, _⟩ => show win2_1.index t (1 : Fin 2) * 128 + 1 * q.val = q.val; omega
theorem at2_2 (c : Dev nD) (t : Fin cfg2.N) (p : Fin 5000) (q : Fin 128) :
    blk2 V c 2 t (ix2 p q) = V c main_v36 (ix2 (row2 t p) q) := by
  obtain ⟨e0, e1⟩ := pos2_2 t
  show V c main_v36 (((cfg2.win 2).blk t).view.emb (ix2 p q)) = V c main_v36 (ix2 (row2 t p) q)
  refine congrArg (V c main_v36) (funext fun a => Fin.ext ?_)
  match a with
  | ⟨0, _⟩ => show win2_2.index t (0 : Fin 2) * 5000 + 1 * p.val = 5000 * t.val + p.val; omega
  | ⟨1, _⟩ => show win2_2.index t (1 : Fin 2) * 128 + 1 * q.val = q.val; omega
theorem at2_3 (c : Dev nD) (t : Fin cfg2.N) (p : Fin 5000) (q : Fin 1) :
    blk2 V c 3 t (ix2 p q) = V c main_arg4 (ix2 (row2 t p) q) := by
  obtain ⟨e0, e1⟩ := pos2_3 t
  show V c main_arg4 (((cfg2.win 3).blk t).view.emb (ix2 p q)) = V c main_arg4 (ix2 (row2 t p) q)
  refine congrArg (V c main_arg4) (funext fun a => Fin.ext ?_)
  match a with
  | ⟨0, _⟩ => show win2_3.index t (0 : Fin 2) * 5000 + 1 * p.val = 5000 * t.val + p.val; omega
  | ⟨1, _⟩ => show win2_3.index t (1 : Fin 2) * 1 + 1 * q.val = q.val; omega
theorem spot2_4 (t : Fin cfg2.N) (p : Fin 5000) (q : Fin 128) :
    ((cfg2.win 4).blk t).view.emb (ix2 p q) = ix2 (row2 t p) q := by
  obtain ⟨e0, e1⟩ := pos2_4 t
  refine funext fun a => Fin.ext ?_
  match a with
  | ⟨0, _⟩ => show win2_4.index t (0 : Fin 2) * 5000 + 1 * p.val = 5000 * t.val + p.val; omega
  | ⟨1, _⟩ => show win2_4.index t (1 : Fin 2) * 128 + 1 * q.val = q.val; omega
theorem spot2_5 (t : Fin cfg2.N) (q : Fin 128) :
    ((cfg2.win 5).blk t).view.emb (ix3 (0 : Fin 1) (0 : Fin 1) q) = ix3 (pt2 t) (0 : Fin 1) q := by
  obtain ⟨e0, e1, e2⟩ := pos2_5 t
  refine funext fun a => Fin.ext ?_
  match a with
  | ⟨0, _⟩ => show win2_5.index t (0 : Fin 3) * 1 + 1 * 0 = t.val; omega
  | ⟨1, _⟩ => show win2_5.index t (1 : Fin 3) * 1 + 1 * 0 = 0; omega
  | ⟨2, _⟩ => show win2_5.index t (2 : Fin 3) * 128 + 1 * q.val = q.val; omega
theorem spot2_6 (t : Fin cfg2.N) (q : Fin 128) :
    ((cfg2.win 6).blk t).view.emb (ix3 (0 : Fin 1) (0 : Fin 1) q) = ix3 (pt2 t) (0 : Fin 1) q := by
  obtain ⟨e0, e1, e2⟩ := pos2_6 t
  refine funext fun a => Fin.ext ?_
  match a with
  | ⟨0, _⟩ => show win2_6.index t (0 : Fin 3) * 1 + 1 * 0 = t.val; omega
  | ⟨1, _⟩ => show win2_6.index t (1 : Fin 3) * 1 + 1 * 0 = 0; omega
  | ⟨2, _⟩ => show win2_6.index t (2 : Fin 3) * 128 + 1 * q.val = q.val; omega

/-- What grid point `t` writes back of the updated features is their block `t`. -/
theorem wrote2_4 (c : Dev nD) (t : Fin cfg2.N) :
    (book2 V c).flushed 4 t = ((cfg2.win 4).blk t).view.read (Elt Ideal) (updated (V c main_v2) (V c main_v33) (V c main_v36) (V c main_arg4)) := by
  show (cfg2.win 4).cut (grid2.coords t) ((book2 V c).after 4 t) = _
  rw [book2_after4]
  unfold res2_4
  rw [View.canon_unit_zero zeros2_2]
  simp only [View.ld_unit_zero (S := S5000x128) zeros2_2, View.ld_unit_zero (S := S5000x1) zeros2_2]
  funext j
  obtain ⟨p, q, rfl⟩ : ∃ (p : Fin 5000) (q : Fin 128), j = ix2 p q := ⟨j 0, j 1, eq_ix2 j⟩
  refine (upd_at _ _ _ _ p q).trans ?_
  rw [at2_0, at2_1, at2_2, at2_3]
  show _ = updated _ _ _ _ (((cfg2.win 4).blk t).view.emb (ix2 p q))
  rw [spot2_4]
  rfl

/-- What grid point `t` writes back of the partial sums is row `t` of the block sums of the updated features, -/
theorem wrote2_5 (c : Dev nD) (t : Fin cfg2.N) :
    (book2 V c).flushed 5 t = ((cfg2.win 5).blk t).view.read (Elt Ideal) (blockSums2 (updated (V c main_v2) (V c main_v33) (V c main_v36) (V c main_arg4))) := by
  show (cfg2.win 5).cut (grid2.coords t) ((book2 V c).after 5 t) = _
  rw [book2_after5]
  unfold res2_5
  rw [View.canon_unit_zero zeros3_2]
  simp only [View.ld_unit_zero (S := S5000x128) zeros2_2, View.ld_unit_zero (S := S5000x1) zeros2_2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (updsum_at _ _ _ _ q).trans ?_
  show _ = blockSums2 _ (((cfg2.win 5).blk t).view.emb (ix3 (0 : Fin 1) (0 : Fin 1) q))
  rw [spot2_5]
  refine Finset.sum_congr rfl fun p _ => ?_
  refine (upd_at _ _ _ _ p q).trans ?_
  rw [at2_0, at2_1, at2_2, at2_3]
  rfl

/-- and of the partial sums of squares, row `t` of the block sums of their squares. -/
theorem wrote2_6 (c : Dev nD) (t : Fin cfg2.N) :
    (book2 V c).flushed 6 t = ((cfg2.win 6).blk t).view.read (Elt Ideal) (blockSums2 (squared2 (updated (V c main_v2) (V c main_v33) (V c main_v36) (V c main_arg4)))) := by
  show (cfg2.win 6).cut (grid2.coords t) ((book2 V c).after 6 t) = _
  rw [book2_after6]
  unfold res2_6
  rw [View.canon_unit_zero zeros3_2]
  simp only [View.ld_unit_zero (S := S5000x128) zeros2_2, View.ld_unit_zero (S := S5000x1) zeros2_2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  refine (updsq_at _ _ _ _ q).trans ?_
  show _ = blockSums2 _ (((cfg2.win 6).blk t).view.emb (ix3 (0 : Fin 1) (0 : Fin 1) q))
  rw [spot2_6]
  refine Finset.sum_congr rfl fun p _ => ?_
  rw [upd_at, at2_0, at2_1, at2_2, at2_3]
  rfl

theorem inside2_4 (t : Fin cfg2.N) (i : S40000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v37_0).slice (win2_4.rect t)).set ↔ _
  rw [View.set_slice_whole, Rect.mem_set_unit]
  exact Iff.rfl

theorem every2_4 (i : S40000x128.Idx) : ∃ t : Fin cfg2.N, (cfg2.win 4).flush t = true ∧ i ∈ ((cfg2.win 4).blk t).view.set := by
  have hi0 := idx2_lt0 i
  have hi1 := idx2_lt1 i
  have ht : (i 0).val / 5000 < cfg2.N := by rw [show cfg2.N = 8 from N_2]; omega
  obtain ⟨e0, e1⟩ := pos2_4 ⟨(i 0).val / 5000, ht⟩
  refine ⟨⟨(i 0).val / 5000, ht⟩, flush2_4 _, ?_⟩
  rw [inside2_4]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 128 ≤ (i 1).val ∧ (i 1).val < win2_4.index ⟨(i 0).val / 5000, ht⟩ (1 : Fin 2) * 128 + 128
    rw [e1]; omega
theorem inside2_5 (t : Fin cfg2.N) (i : S8x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v37_1).slice (win2_5.rect t)).set ↔ _
  rw [View.set_slice_whole, Rect.mem_set_unit]
  exact Iff.rfl

theorem every2_5 (i : S8x1x128.Idx) : ∃ t : Fin cfg2.N, (cfg2.win 5).flush t = true ∧ i ∈ ((cfg2.win 5).blk t).view.set := by
  have hi0 : (i 0).val < 8 := (i 0).isLt
  have hi1 : (i 1).val < 1 := (i 1).isLt
  have hi2 : (i 2).val < 128 := (i 2).isLt
  have ht : (i 0).val < cfg2.N := by rw [show cfg2.N = 8 from N_2]; exact hi0
  obtain ⟨e0, e1, e2⟩ := pos2_5 ⟨(i 0).val, ht⟩
  refine ⟨⟨(i 0).val, ht⟩, flush2_5 _, ?_⟩
  rw [inside2_5]
  intro a
  match a with
  | ⟨0, _⟩ =>
    show win2_5.index ⟨(i 0).val, ht⟩ (0 : Fin 3) * 1 ≤ (i 0).val ∧ (i 0).val < win2_5.index ⟨(i 0).val, ht⟩ (0 : Fin 3) * 1 + 1
    rw [e0]; show (i 0).val * 1 ≤ (i 0).val ∧ (i 0).val < (i 0).val * 1 + 1; omega
  | ⟨1, _⟩ =>
    show win2_5.index ⟨(i 0).val, ht⟩ (1 : Fin 3) * 1 ≤ (i 1).val ∧ (i 1).val < win2_5.index ⟨(i 0).val, ht⟩ (1 : Fin 3) * 1 + 1
    rw [e1]; omega
  | ⟨2, _⟩ =>
    show win2_5.index ⟨(i 0).val, ht⟩ (2 : Fin 3) * 128 ≤ (i 2).val ∧ (i 2).val < win2_5.index ⟨(i 0).val, ht⟩ (2 : Fin 3) * 128 + 128
    rw [e2]; omega
theorem inside2_6 (t : Fin cfg2.N) (i : S8x1x128.Idx) :
    i ∈ ((cfg2.win 6).blk t).view.set ↔ ∀ a : Fin 3, win2_6.index t a * S1x1x128.size a ≤ (i a).val ∧ (i a).val < win2_6.index t a * S1x1x128.size a + S1x1x128.size a := by
  show i ∈ ((View.whole main_v37_2).slice (win2_6.rect t)).set ↔ _
  rw [View.set_slice_whole, Rect.mem_set_unit]
  exact Iff.rfl

theorem every2_6 (i : S8x1x128.Idx) : ∃ t : Fin cfg2.N, (cfg2.win 6).flush t = true ∧ i ∈ ((cfg2.win 6).blk t).view.set := by
  have hi0 : (i 0).val < 8 := (i 0).isLt
  have hi1 : (i 1).val < 1 := (i 1).isLt
  have hi2 : (i 2).val < 128 := (i 2).isLt
  have ht : (i 0).val < cfg2.N := by rw [show cfg2.N = 8 from N_2]; exact hi0
  obtain ⟨e0, e1, e2⟩ := pos2_6 ⟨(i 0).val, ht⟩
  refine ⟨⟨(i 0).val, ht⟩, flush2_6 _, ?_⟩
  rw [inside2_6]
  intro a
  match a with
  | ⟨0, _⟩ =>
    show win2_6.index ⟨(i 0).val, ht⟩ (0 : Fin 3) * 1 ≤ (i 0).val ∧ (i 0).val < win2_6.index ⟨(i 0).val, ht⟩ (0 : Fin 3) * 1 + 1
    rw [e0]; show (i 0).val * 1 ≤ (i 0).val ∧ (i 0).val < (i 0).val * 1 + 1; omega
  | ⟨1, _⟩ =>
    show win2_6.index ⟨(i 0).val, ht⟩ (1 : Fin 3) * 1 ≤ (i 1).val ∧ (i 1).val < win2_6.index ⟨(i 0).val, ht⟩ (1 : Fin 3) * 1 + 1
    rw [e1]; omega
  | ⟨2, _⟩ =>
    show win2_6.index ⟨(i 0).val, ht⟩ (2 : Fin 3) * 128 ≤ (i 2).val ∧ (i 2).val < win2_6.index ⟨(i 0).val, ht⟩ (2 : Fin 3) * 128 + 128
    rw [e2]; omega

/-- After the last grid point: the updated features, and the two arrays of block sums. -/
theorem out2_4 (c : Dev nD) :
    (book2 V c).arrAt 4 cfg2.N = updated (V c main_v2) (V c main_v33) (V c main_v36) (V c main_arg4) :=
  (book2 V c).arrAt_eq_of_cover 4 _ (fun t _ => wrote2_4 V c t) every2_4
theorem out2_5 (c : Dev nD) :
    (book2 V c).arrAt 5 cfg2.N = blockSums2 (updated (V c main_v2) (V c main_v33) (V c main_v36) (V c main_arg4)) :=
  (book2 V c).arrAt_eq_of_cover 5 _ (fun t _ => wrote2_5 V c t) every2_5
theorem out2_6 (c : Dev nD) :
    (book2 V c).arrAt 6 cfg2.N = blockSums2 (squared2 (updated (V c main_v2) (V c main_v33) (V c main_v36) (V c main_arg4))) :=
  (book2 V c).arrAt_eq_of_cover 6 _ (fun t _ => wrote2_6 V c t) every2_6

end Cert.KernelIdeal.Stage
end
-- ==== Proof.KernelIdeal.Out3.lean ====
/-
  What the node normalisation stage leaves in its output array, as one function of the arrays it starts from.
  Grid point t reads rows 8000·t … 8000·t + 7999 of the features and the four rows of statistics, and writes back
  rows 8000·t … 8000·t + 7999 of the output; the five blocks tile the 40000 rows, so after the last point every entry
  (r, j) of the output is max((x(r, j) − μ(j))·(v(j) + 10⁻⁵)^(−1/2)·γ(j) + β(j), 0).
-/
import proofs.«102085_j69784628625690_2_alg».proof.Proof.KernelIdeal.Stage3
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.Stage
open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Normalise and clamp, entry by entry: `max((x − μ)·(v + 10⁻⁵)^(−1/2)·γ + β, 0)`, the four statistics read in the
    entry's column. -/
def normed3 (x : S40000x128.Idx → Elt Ideal .f32) (μ v γ β : S1x128.Idx → Elt Ideal .f32) : S40000x128.Idx → Elt Ideal .f32 :=
  fun i => max ((x i - μ (ix2 (0 : Fin 1) ⟨(i 1).val, idx2_lt1 i⟩)) * Ideal.rsqrt (v (ix2 (0 : Fin 1) ⟨(i 1).val, idx2_lt1 i⟩) + Ideal.ofBits .f32 0x3727C5AC#32) * γ (ix2 (0 : Fin 1) ⟨(i 1).val, idx2_lt1 i⟩) + β (ix2 (0 : Fin 1) ⟨(i 1).val, idx2_lt1 i⟩)) (Ideal.ofBits .f32 0x00000000#32)

theorem zeros3 : (![0, 0] : Fin 2 → Nat) = fun _ => 0 := funext fun a => by fin_cases a <;> rfl

theorem pay3_at (x0 : Vec Ideal S8000x128 .f32) (xm xv xg xb : Vec Ideal S1x128 .f32) (p : Fin 8000) (q : Fin 128) :
    k3_pay1 x0 xv xm xg xb (ix2 p q)
      = max ((x0 (ix2 p q) - xm (ix2 (0 : Fin 1) q)) * Ideal.rsqrt (xv (ix2 (0 : Fin 1) q) + Ideal.ofBits .f32 0x3727C5AC#32) * xg (ix2 (0 : Fin 1) q) + xb (ix2 (0 : Fin 1) q)) (Ideal.ofBits .f32 0x00000000#32) := by
  unfold k3_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- Where each window's block sits at grid point `t`: the feature window and the output window on block row `t`, the
    four rows of statistics always on the one row there is. -/
theorem where3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt3 (t : Fin cfg3.N) : t.val < 5 := lt_of_lt_of_eq t.isLt N_3

/-- Row `p` of point `t`'s block is row `8000·t + p` of the array. -/
def row3 (t : Fin cfg3.N) (p : Fin 8000) : Fin 40000 := ⟨8000 * t.val + p.val, by have := lt3 t; have := p.isLt; omega⟩

theorem at3_0 (c : Dev nD) (t : Fin cfg3.N) (p : Fin 8000) (q : Fin 128) :
    blk3 V c 0 t (ix2 p q) = V c main_v37_0 (ix2 (row3 t p) q) := by
  obtain ⟨e0, e1, -⟩ := where3 t
  show V c main_v37_0 (((cfg3.win 0).blk t).view.emb (ix2 p q)) = V c main_v37_0 (ix2 (row3 t p) q)
  refine congrArg (V c main_v37_0) (funext fun a => Fin.ext ?_)
  match a with
  | ⟨0, _⟩ => show win3_0.index t (0 : Fin 2) * 8000 + 1 * p.val = 8000 * t.val + p.val; omega
  | ⟨1, _⟩ => show win3_0.index t (1 : Fin 2) * 128 + 1 * q.val = q.val; omega

theorem at3_1 (c : Dev nD) (t : Fin cfg3.N) (q : Fin 128) :
    blk3 V c 1 t (ix2 (0 : Fin 1) q) = V c main_v43 (ix2 (0 : Fin 1) q) := by
  obtain ⟨-, -, e0, e1, -⟩ := where3 t
  show V c main_v43 (((cfg3.win 1).blk t).view.emb (ix2 (0 : Fin 1) q)) = V c main_v43 (ix2 (0 : Fin 1) q)
  refine congrArg (V c main_v43) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

theorem at3_2 (c : Dev nD) (t : Fin cfg3.N) (q : Fin 128) :
    blk3 V c 2 t (ix2 (0 : Fin 1) q) = V c main_v49 (ix2 (0 : Fin 1) q) := by
  obtain ⟨-, -, -, -, e0, e1, -⟩ := where3 t
  show V c main_v49 (((cfg3.win 2).blk t).view.emb (ix2 (0 : Fin 1) q)) = V c main_v49 (ix2 (0 : Fin 1) q)
  refine congrArg (V c main_v49) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

theorem at3_3 (c : Dev nD) (t : Fin cfg3.N) (q : Fin 128) :
    blk3 V c 3 t (ix2 (0 : Fin 1) q) = V c main_v58 (ix2 (0 : Fin 1) q) := by
  obtain ⟨-, -, -, -, -, -, e0, e1, -⟩ := where3 t
  show V c main_v58 (((cfg3.win 3).blk t).view.emb (ix2 (0 : Fin 1) q)) = V c main_v58 (ix2 (0 : Fin 1) q)
  refine congrArg (V c main_v58) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

theorem at3_4 (c : Dev nD) (t : Fin cfg3.N) (q : Fin 128) :
    blk3 V c 4 t (ix2 (0 : Fin 1) q) = V c main_v59 (ix2 (0 : Fin 1) q) := by
  obtain ⟨-, -, -, -, -, -, -, -, e0, e1, -⟩ := where3 t
  show V c main_v59 (((cfg3.win 4).blk t).view.emb (ix2 (0 : Fin 1) q)) = V c main_v59 (ix2 (0 : Fin 1) q)
  refine congrArg (V c main_v59) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

theorem spot3 (t : Fin cfg3.N) (p : Fin 8000) (q : Fin 128) :
    ((cfg3.win 5).blk t).view.emb (ix2 p q) = ix2 (row3 t p) q := by
  obtain ⟨-, -, -, -, -, -, -, -, -, -, e0, e1⟩ := where3 t
  refine funext fun a => Fin.ext ?_
  match a with
  | ⟨0, _⟩ => show win3_5.index t (0 : Fin 2) * 8000 + 1 * p.val = 8000 * t.val + p.val; omega
  | ⟨1, _⟩ => show win3_5.index t (1 : Fin 2) * 128 + 1 * q.val = q.val; omega

/-- What grid point `t` writes back is block `t` of the normalised array. -/
theorem wrote3 (c : Dev nD) (t : Fin cfg3.N) :
    (book3 V c).flushed 5 t = ((cfg3.win 5).blk t).view.read (Elt Ideal) (normed3 (V c main_v37_0) (V c main_v43) (V c main_v49) (V c main_v58) (V c main_v59)) := by
  show (cfg3.win 5).cut (grid3.coords t) ((book3 V c).after 5 t) = _
  rw [book3_after5]
  unfold res3_5
  rw [View.canon_unit_zero zeros3]
  simp only [View.ld_unit_zero (S := S8000x128) zeros3, View.ld_unit_zero (S := S1x128) zeros3]
  funext j
  obtain ⟨p, q, rfl⟩ : ∃ (p : Fin 8000) (q : Fin 128), j = ix2 p q := ⟨j 0, j 1, eq_ix2 j⟩
  refine (pay3_at _ _ _ _ _ p q).trans ?_
  rw [at3_0, at3_1, at3_2, at3_3, at3_4]
  show _ = normed3 _ _ _ _ _ (((cfg3.win 5).blk t).view.emb (ix2 p q))
  rw [spot3]
  rfl

theorem inside3 (t : Fin cfg3.N) (i : S40000x128.Idx) :
    i ∈ ((cfg3.win 5).blk t).view.set ↔ ∀ a : Fin 2, win3_5.index t a * S8000x128.size a ≤ (i a).val ∧ (i a).val < win3_5.index t a * S8000x128.size a + S8000x128.size a := by
  show i ∈ ((View.whole main_v62).slice (win3_5.rect t)).set ↔ _
  rw [View.set_slice_whole, Rect.mem_set_unit]
  exact Iff.rfl

/-- Every entry of the array lies in the block of the point `(row / 8000)`. -/
theorem every3 (i : S40000x128.Idx) : ∃ t : Fin cfg3.N, (cfg3.win 5).flush t = true ∧ i ∈ ((cfg3.win 5).blk t).view.set := by
  have hi0 := idx2_lt0 i
  have hi1 := idx2_lt1 i
  have ht : (i 0).val / 8000 < cfg3.N := by rw [show cfg3.N = 5 from N_3]; omega
  obtain ⟨-, -, -, -, -, -, -, -, -, -, e0, e1⟩ := where3 ⟨(i 0).val / 8000, ht⟩
  refine ⟨⟨(i 0).val / 8000, ht⟩, flush3_5 _, ?_⟩
  rw [inside3]
  intro a
  match a with
  | ⟨0, _⟩ =>
    show win3_5.index ⟨(i 0).val / 8000, ht⟩ (0 : Fin 2) * 8000 ≤ (i 0).val ∧ (i 0).val < win3_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win3_5.index ⟨(i 0).val / 8000, ht⟩ (1 : Fin 2) * 128 ≤ (i 1).val ∧ (i 1).val < win3_5.index ⟨(i 0).val / 8000, ht⟩ (1 : Fin 2) * 128 + 128
    rw [e1]; omega

/-- After the last grid point the output array holds the normalised array. -/
theorem out3 (c : Dev nD) :
    (book3 V c).arrAt 5 cfg3.N = normed3 (V c main_v37_0) (V c main_v43) (V c main_v49) (V c main_v58) (V c main_v59) :=
  (book3 V c).arrAt_eq_of_cover 5 _ (fun t _ => wrote3 V c t) every3

end Cert.KernelIdeal.Stage
end
-- ==== Proof.KernelIdeal.Out4.lean ====
/-
  What the edge normalisation stage leaves in its output array, as one function of the arrays it starts from.
  Grid point t reads rows 8000·t … 8000·t + 7999 of the features and the four rows of statistics, and writes back
  rows 8000·t … 8000·t + 7999 of the output; the eighty blocks tile the 640000 rows, so after the last point every entry
  (r, j) of the output is max((x(r, j) − μ(j))·(v(j) + 10⁻⁵)^(−1/2)·γ(j) + β(j), 0).
-/
import proofs.«102085_j69784628625690_2_alg».proof.Proof.KernelIdeal.Stage4
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.Stage
open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Normalise and clamp, entry by entry: `max((x − μ)·(v + 10⁻⁵)^(−1/2)·γ + β, 0)`, the four statistics read in the
    entry's column. -/
def normed4 (x : S640000x128.Idx → Elt Ideal .f32) (μ v γ β : S1x128.Idx → Elt Ideal .f32) : S640000x128.Idx → Elt Ideal .f32 :=
  fun i => max ((x i - μ (ix2 (0 : Fin 1) ⟨(i 1).val, idx2_lt1 i⟩)) * Ideal.rsqrt (v (ix2 (0 : Fin 1) ⟨(i 1).val, idx2_lt1 i⟩) + Ideal.ofBits .f32 0x3727C5AC#32) * γ (ix2 (0 : Fin 1) ⟨(i 1).val, idx2_lt1 i⟩) + β (ix2 (0 : Fin 1) ⟨(i 1).val, idx2_lt1 i⟩)) (Ideal.ofBits .f32 0x00000000#32)

theorem zeros4 : (![0, 0] : Fin 2 → Nat) = fun _ => 0 := funext fun a => by fin_cases a <;> rfl

theorem pay4_at (x0 : Vec Ideal S8000x128 .f32) (xm xv xg xb : Vec Ideal S1x128 .f32) (p : Fin 8000) (q : Fin 128) :
    k4_pay1 x0 xv xm xg xb (ix2 p q)
      = max ((x0 (ix2 p q) - xm (ix2 (0 : Fin 1) q)) * Ideal.rsqrt (xv (ix2 (0 : Fin 1) q) + Ideal.ofBits .f32 0x3727C5AC#32) * xg (ix2 (0 : Fin 1) q) + xb (ix2 (0 : Fin 1) q)) (Ideal.ofBits .f32 0x00000000#32) := by
  unfold k4_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- Where each window's block sits at grid point `t`: the feature window and the output window on block row `t`, the
    four rows of statistics always on the one row there is. -/
theorem where4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem lt4 (t : Fin cfg4.N) : t.val < 80 := lt_of_lt_of_eq t.isLt N_4

/-- Row `p` of point `t`'s block is row `8000·t + p` of the array. -/
def row4 (t : Fin cfg4.N) (p : Fin 8000) : Fin 640000 := ⟨8000 * t.val + p.val, by have := lt4 t; have := p.isLt; omega⟩

theorem at4_0 (c : Dev nD) (t : Fin cfg4.N) (p : Fin 8000) (q : Fin 128) :
    blk4 V c 0 t (ix2 p q) = V c main_v26_0 (ix2 (row4 t p) q) := by
  obtain ⟨e0, e1, -⟩ := where4 t
  show V c main_v26_0 (((cfg4.win 0).blk t).view.emb (ix2 p q)) = V c main_v26_0 (ix2 (row4 t p) q)
  refine congrArg (V c main_v26_0) (funext fun a => Fin.ext ?_)
  match a with
  | ⟨0, _⟩ => show win4_0.index t (0 : Fin 2) * 8000 + 1 * p.val = 8000 * t.val + p.val; omega
  | ⟨1, _⟩ => show win4_0.index t (1 : Fin 2) * 128 + 1 * q.val = q.val; omega

theorem at4_1 (c : Dev nD) (t : Fin cfg4.N) (q : Fin 128) :
    blk4 V c 1 t (ix2 (0 : Fin 1) q) = V c main_v51 (ix2 (0 : Fin 1) q) := by
  obtain ⟨-, -, e0, e1, -⟩ := where4 t
  show V c main_v51 (((cfg4.win 1).blk t).view.emb (ix2 (0 : Fin 1) q)) = V c main_v51 (ix2 (0 : Fin 1) q)
  refine congrArg (V c main_v51) (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

theorem at4_2 (c : Dev nD) (t : Fin cfg4.N) (q : Fin 128) :
    blk4 V c 2 t (ix2 (0 : Fin 1) q) = V c main_v57 (ix2 (0 : Fin 1) q) := by
  obtain ⟨-, -, -, -, e0, e1, -⟩ := where4 t
  show V c main_v57 (((cfg4.win 2).blk t).view.emb (ix2 (0 : Fin 1) q)) = V c main_v57 (ix2 (0 : Fin 1) q)
  refine congrArg (V c main_v57) (funext fun a => Fin.ext ?_)
  match a with
  | ⟨0, _⟩ => show win4_2.index t (0 : Fin 2) * 1 + 1 * 0 = 0; omega
  | ⟨1, _⟩ => show win4_2.index t (1 : Fin 2) * 128 + 1 * q.val = q.val; omega

theorem at4_3 (c : Dev nD) (t : Fin cfg4.N) (q : Fin 128) :
    blk4 V c 3 t (ix2 (0 : Fin 1) q) = V c main_v60 (ix2 (0 : Fin 1) q) := by
  obtain ⟨-, -, -, -, -, -, e0, e1, -⟩ := where4 t
  show V c main_v60 (((cfg4.win 3).blk t).view.emb (ix2 (0 : Fin 1) q)) = V c main_v60 (ix2 (0 : Fin 1) q)
  refine congrArg (V c main_v60) (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

theorem at4_4 (c : Dev nD) (t : Fin cfg4.N) (q : Fin 128) :
    blk4 V c 4 t (ix2 (0 : Fin 1) q) = V c main_v61 (ix2 (0 : Fin 1) q) := by
  obtain ⟨-, -, -, -, -, -, -, -, e0, e1, -⟩ := where4 t
  show V c main_v61 (((cfg4.win 4).blk t).view.emb (ix2 (0 : Fin 1) q)) = V c main_v61 (ix2 (0 : Fin 1) q)
  refine congrArg (V c main_v61) (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

theorem spot4 (t : Fin cfg4.N) (p : Fin 8000) (q : Fin 128) :
    ((cfg4.win 5).blk t).view.emb (ix2 p q) = ix2 (row4 t p) q := by
  obtain ⟨-, -, -, -, -, -, -, -, -, -, e0, e1⟩ := where4 t
  refine funext fun a => Fin.ext ?_
  match a with
  | ⟨0, _⟩ => show win4_5.index t (0 : Fin 2) * 8000 + 1 * p.val = 8000 * t.val + p.val; omega
  | ⟨1, _⟩ => show win4_5.index t (1 : Fin 2) * 128 + 1 * q.val = q.val; omega

/-- What grid point `t` writes back is block `t` of the normalised array. -/
theorem wrote4 (c : Dev nD) (t : Fin cfg4.N) :
    (book4 V c).flushed 5 t = ((cfg4.win 5).blk t).view.read (Elt Ideal) (normed4 (V c main_v26_0) (V c main_v51) (V c main_v57) (V c main_v60) (V c main_v61)) := by
  show (cfg4.win 5).cut (grid4.coords t) ((book4 V c).after 5 t) = _
  rw [book4_after5]
  unfold res4_5
  rw [View.canon_unit_zero zeros4]
  simp only [View.ld_unit_zero (S := S8000x128) zeros4, View.ld_unit_zero (S := S1x128) zeros4]
  funext j
  obtain ⟨p, q, rfl⟩ : ∃ (p : Fin 8000) (q : Fin 128), j = ix2 p q := ⟨j 0, j 1, eq_ix2 j⟩
  refine (pay4_at _ _ _ _ _ p q).trans ?_
  rw [at4_0, at4_1, at4_2, at4_3, at4_4]
  show _ = normed4 _ _ _ _ _ (((cfg4.win 5).blk t).view.emb (ix2 p q))
  rw [spot4]
  rfl

theorem inside4 (t : Fin cfg4.N) (i : S640000x128.Idx) :
    i ∈ ((cfg4.win 5).blk t).view.set ↔ ∀ a : Fin 2, win4_5.index t a * S8000x128.size a ≤ (i a).val ∧ (i a).val < win4_5.index t a * S8000x128.size a + S8000x128.size a := by
  show i ∈ ((View.whole main_v63).slice (win4_5.rect t)).set ↔ _
  rw [View.set_slice_whole, Rect.mem_set_unit]
  exact Iff.rfl

/-- Every entry of the array lies in the block of the point `(row / 8000)`. -/
theorem every4 (i : S640000x128.Idx) : ∃ t : Fin cfg4.N, (cfg4.win 5).flush t = true ∧ i ∈ ((cfg4.win 5).blk t).view.set := by
  have hi0 := idx2_lt0 i
  have hi1 := idx2_lt1 i
  have ht : (i 0).val / 8000 < cfg4.N := by rw [show cfg4.N = 80 from N_4]; omega
  obtain ⟨-, -, -, -, -, -, -, -, -, -, e0, e1⟩ := where4 ⟨(i 0).val / 8000, ht⟩
  refine ⟨⟨(i 0).val / 8000, ht⟩, flush4_5 _, ?_⟩
  rw [inside4]
  intro a
  match a with
  | ⟨0, _⟩ =>
    show win4_5.index ⟨(i 0).val / 8000, ht⟩ (0 : Fin 2) * 8000 ≤ (i 0).val ∧ (i 0).val < win4_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win4_5.index ⟨(i 0).val / 8000, ht⟩ (1 : Fin 2) * 128 ≤ (i 1).val ∧ (i 1).val < win4_5.index ⟨(i 0).val / 8000, ht⟩ (1 : Fin 2) * 128 + 128
    rw [e1]; omega

/-- After the last grid point the output array holds the normalised array. -/
theorem out4 (c : Dev nD) :
    (book4 V c).arrAt 5 cfg4.N = normed4 (V c main_v26_0) (V c main_v51) (V c main_v57) (V c main_v60) (V c main_v61) :=
  (book4 V c).arrAt_eq_of_cover 5 _ (fun t _ => wrote4 V c t) every4

end Cert.KernelIdeal.Stage
end
-- ==== Proof.KernelIdeal.Model.lean ====
/-
  The kernel program's whole computation as one nest of functions of the fifteen argument arrays, at the exact reading of
  floats: the four node projections by one product with the weights laid side by side; their rows gathered at the edges'
  source and destination nodes; the edge gate; the messages and the gates summed into their destination nodes; the node
  update; the column means and variances of the updated node features and of the scaled edge features, the means from the
  sums of the per-block column sums and the variances as mean square minus squared mean, clamped below at zero; and the two
  normalisations.
-/
import proofs.«102085_j69784628625690_2_alg».proof.Proof.KernelIdeal.Out0
import proofs.«102085_j69784628625690_2_alg».proof.Proof.KernelIdeal.Out1
import proofs.«102085_j69784628625690_2_alg».proof.Proof.KernelIdeal.Out2
import proofs.«102085_j69784628625690_2_alg».proof.Proof.KernelIdeal.Out3
import proofs.«102085_j69784628625690_2_alg».proof.Proof.KernelIdeal.Out4

set_option maxRecDepth 16384

noncomputable section

namespace Cert.KernelIdeal.Stage

open Idealize.ShloMosaic Idealize.ShloMosaic.TcCoe Idealize.ShloMosaic.ValueIdx
open Cert.KernelIdeal Cert.KernelIdeal.Gen

/-- A list of node numbers as the gather reads it: a negative number counted from the end, the list as one column. -/
def rowIdx (a : (⟨S640000, .i32⟩ : BufTy).Contents (Elt Ideal)) : (⟨S640000x1, .i32⟩ : BufTy).Contents (Elt Ideal) :=
  broadcastInDim S640000x1 ![0] bcast_S640000_S640000x1_0 (select (cmpi .slt a (broadcastInDim S640000 ![] bcast_S_S640000 (constantI S_ 32 0#32))) (addi a (broadcastInDim S640000 ![] bcast_S_S640000 (constantI S_ 32 40000#32))) a)
/-- A list of node numbers as the scatter reads it: the list as one column. -/
def colIdx (a : (⟨S640000, .i32⟩ : BufTy).Contents (Elt Ideal)) : (⟨S640000x1, .i32⟩ : BufTy).Contents (Elt Ideal) :=
  broadcastInDim S640000x1 ![0] bcast_S640000_S640000x1_0 a
/-- The 40000×128 array of zeros the scatters add into. -/
def zerosN : FVec Ideal S40000x128 .f32 := broadcastInDim S40000x128 ![] bcast_S_S40000x128 (constant (F := Ideal) S_ .f32 0x00000000#32)
/-- A row of 128 copies of one float constant. -/
def splat1x128 (b : BitVec 32) : FVec Ideal S1x128 .f32 := broadcastInDim S1x128 ![] bcast_S_S1x128 (constant (F := Ideal) S_ .f32 b)
/-- The eight rows of per-block column sums added up, as one row. -/
def rowSum8 (y : (⟨S8x1x128, .f32⟩ : BufTy).Contents (Elt Ideal)) : FVec Ideal S1x128 .f32 :=
  shapeCast S1x128 (Host.reduceAdd (F := Ideal) y (constant (F := Ideal) S_ .f32 0x00000000#32) reducesTo_S8x1x128_S128_d0_1 h_S_) shapeCasts_S128_S1x128
/-- The 160 rows of per-block column sums added up, as one row. -/
def rowSum160 (y : (⟨S160x1x128, .f32⟩ : BufTy).Contents (Elt Ideal)) : FVec Ideal S1x128 .f32 :=
  shapeCast S1x128 (Host.reduceAdd (F := Ideal) y (constant (F := Ideal) S_ .f32 0x00000000#32) reducesTo_S160x1x128_S128_d0_1 h_S_) shapeCasts_S128_S1x128

/-- The four projection weight matrices side by side. -/
def kW (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S128x512 .f32 :=
  concatenate S128x512 1 [⟨S128x128, x6⟩, ⟨S128x128, x7⟩, ⟨S128x128, x9⟩, ⟨S128x128, x10⟩] concatenates_S128x128_S128x128_S128x128_S128x128_S128x512_d1

/-- All four node projections at once. -/
def kP (x0 : (⟨S40000x128, .f32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x512 .f32 :=
  projected x0 (kW x6 x7 x9 x10)

/-- Columns 0–127: the first projection. -/
def kA (x0 : (⟨S40000x128, .f32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x128 .f32 :=
  extractStridedSlice S40000x128 ![0, 0] (kP x0 x6 x7 x9 x10) slices_S40000x512_S40000x128_0_0

/-- Columns 128–255: the second. -/
def kB (x0 : (⟨S40000x128, .f32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x128 .f32 :=
  extractStridedSlice S40000x128 ![0, 128] (kP x0 x6 x7 x9 x10) slices_S40000x512_S40000x128_0_128

/-- Columns 256–383: the third. -/
def kD (x0 : (⟨S40000x128, .f32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x128 .f32 :=
  extractStridedSlice S40000x128 ![0, 256] (kP x0 x6 x7 x9 x10) slices_S40000x512_S40000x128_0_256

/-- Columns 384–511: the fourth. -/
def kE (x0 : (⟨S40000x128, .f32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x128 .f32 :=
  extractStridedSlice S40000x128 ![0, 384] (kP x0 x6 x7 x9 x10) slices_S40000x512_S40000x128_0_384

/-- The second and third projections side by side: the table gathered by source node. -/
def kTab (x0 : (⟨S40000x128, .f32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x256 .bf16 :=
  concatenate S40000x256 1 [⟨S40000x128, truncf (F := Ideal) .bf16 (kB x0 x6 x7 x9 x10) bitsLt_bf16_f32⟩, ⟨S40000x128, truncf (F := Ideal) .bf16 (kD x0 x6 x7 x9 x10) bitsLt_bf16_f32⟩] concatenates_S40000x128_S40000x128_S40000x256_d1

/-- That table's rows at the edges' source nodes. -/
def kG (x0 : (⟨S40000x128, .f32⟩ : BufTy).Contents (Elt Ideal)) (x2 : (⟨S640000, .i32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S640000x256 .bf16 :=
  Host.gather gather_S40000x256_S640000x1_S640000x256_1_0_n_n_0_1_1256 (kTab x0 x6 x7 x9 x10) (rowIdx x2)

/-- The second projection at the source nodes. -/
def kBs (x0 : (⟨S40000x128, .f32⟩ : BufTy).Contents (Elt Ideal)) (x2 : (⟨S640000, .i32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S640000x128 .bf16 :=
  extractStridedSlice S640000x128 ![0, 0] (kG x0 x2 x6 x7 x9 x10) slices_S640000x256_S640000x128_0_0

/-- The third projection at the source nodes. -/
def kDs (x0 : (⟨S40000x128, .f32⟩ : BufTy).Contents (Elt Ideal)) (x2 : (⟨S640000, .i32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S640000x128 .bf16 :=
  extractStridedSlice S640000x128 ![0, 128] (kG x0 x2 x6 x7 x9 x10) slices_S640000x256_S640000x128_0_128

/-- The fourth projection at the destination nodes. -/
def kEd (x0 : (⟨S40000x128, .f32⟩ : BufTy).Contents (Elt Ideal)) (x3 : (⟨S640000, .i32⟩ : BufTy).Contents (Elt Ideal)) (x6 : (⟨S128x128, .f32⟩ : BufTy).Contents (Elt Ideal)) (x7 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S640000x128 .bf16 :=
  Host.gather gather_S40000x128_S640000x1_S640000x128_1_0_n_n_0_1_1128 (truncf (F := Ideal) .bf16 (kE x0 x6 x7 x9 x10) bitsLt_bf16_f32) (rowIdx x3)

/-- The scaled edge features. -/
def kX (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x5 : (⟨S640000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S640000x128 .f32 :=
  scaled1 x1 x8 (kDs x0 x2 x6 x7 x9 x10) (kEd x0 x3 x6 x7 x9 x10) x5

/-- The gates. -/
def kS (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S640000x128 .f32 :=
  gate1 x1 x8 (kDs x0 x2 x6 x7 x9 x10) (kEd x0 x3 x6 x7 x9 x10)

/-- The gated messages. -/
def kM (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S640000x128 .f32 :=
  message1 x1 x8 (kDs x0 x2 x6 x7 x9 x10) (kEd x0 x3 x6 x7 x9 x10) (kBs x0 x2 x6 x7 x9 x10)

/-- The gated messages summed into their destination nodes. -/
def kNum (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x128 .f32 :=
  Host.scatterAdd (F := Ideal) scatter_S40000x128_S640000x1_S640000x128_1_0_0_1 zerosN (colIdx x3) (kM x0 x1 x2 x3 x6 x7 x8 x9 x10)

/-- The gates summed into their destination nodes. -/
def kDen (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x128 .f32 :=
  Host.scatterAdd (F := Ideal) scatter_S40000x128_S640000x1_S640000x128_1_0_0_1 zerosN (colIdx x3) (kS x0 x1 x2 x3 x6 x7 x8 x9 x10)

/-- The updated node features. -/
def kH (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S40000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S40000x128 .f32 :=
  updated (kA x0 x6 x7 x9 x10) (kNum x0 x1 x2 x3 x6 x7 x8 x9 x10) (kDen x0 x1 x2 x3 x6 x7 x8 x9 x10) x4

/-- Their column means. -/
def kMeanH (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S40000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S1x128 .f32 :=
  Host.divf (F := Ideal) (rowSum8 (blockSums2 (kH x0 x1 x2 x3 x4 x6 x7 x8 x9 x10))) (splat1x128 0x471C4000#32)

/-- Their column variances: mean square minus squared mean, clamped below at zero. -/
def kVarH (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S40000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S1x128 .f32 :=
  maximumf (F := Ideal) (subf (F := Ideal) (Host.divf (F := Ideal) (rowSum8 (blockSums2 (squared2 (kH x0 x1 x2 x3 x4 x6 x7 x8 x9 x10)))) (splat1x128 0x471C4000#32)) (mulf (F := Ideal) (kMeanH x0 x1 x2 x3 x4 x6 x7 x8 x9 x10) (kMeanH x0 x1 x2 x3 x4 x6 x7 x8 x9 x10))) (splat1x128 0x00000000#32)

/-- The scaled edge features' column means. -/
def kMeanE (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x5 : (⟨S640000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S1x128 .f32 :=
  Host.divf (F := Ideal) (rowSum160 (blockSums1 (kX x0 x1 x2 x3 x5 x6 x7 x8 x9 x10))) (splat1x128 0x491C4000#32)

/-- Their column variances. -/
def kVarE (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x5 : (⟨S640000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) : FVec Ideal S1x128 .f32 :=
  maximumf (F := Ideal) (subf (F := Ideal) (Host.divf (F := Ideal) (rowSum160 (blockSums1 (squared1 (kX x0 x1 x2 x3 x5 x6 x7 x8 x9 x10)))) (splat1x128 0x491C4000#32)) (mulf (F := Ideal) (kMeanE x0 x1 x2 x3 x5 x6 x7 x8 x9 x10) (kMeanE x0 x1 x2 x3 x5 x6 x7 x8 x9 x10))) (splat1x128 0x00000000#32)

/-- The first result: the normalised node features. -/
def kOutH (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S40000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) : FVec Ideal S40000x128 .f32 :=
  normed3 (kH x0 x1 x2 x3 x4 x6 x7 x8 x9 x10) (kMeanH x0 x1 x2 x3 x4 x6 x7 x8 x9 x10) (kVarH x0 x1 x2 x3 x4 x6 x7 x8 x9 x10) (shapeCast S1x128 x11 shapeCasts_S128_S1x128) (shapeCast S1x128 x12 shapeCasts_S128_S1x128)

/-- The second result: the normalised edge features. -/
def kOutE (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x5 : (⟨S640000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) (x13 : (⟨S128, .f32⟩ : BufTy).Contents (Elt Ideal)) (x14 : (⟨S128, .f32⟩ : BufTy).Contents (Elt Ideal)) : FVec Ideal S640000x128 .f32 :=
  normed4 (kX x0 x1 x2 x3 x5 x6 x7 x8 x9 x10) (kMeanE x0 x1 x2 x3 x5 x6 x7 x8 x9 x10) (kVarE x0 x1 x2 x3 x5 x6 x7 x8 x9 x10) (shapeCast S1x128 x13 shapeCasts_S128_S1x128) (shapeCast S1x128 x14 shapeCasts_S128_S1x128)

end Cert.KernelIdeal.Stage

end
-- ==== Proof.KernelIdeal.Flow.lean ====
/-
  The kernel program's two results are the model's. Walking the nine steps with the contents `C0 … C9`: after each
  stretch of host operations and after each stage, every buffer that a later step reads holds the corresponding named
  function of the fifteen argument arrays; at the end the two result buffers hold `kOutH` and `kOutE`.
-/
import proofs.«102085_j69784628625690_2_alg».proof.Proof.KernelIdeal.Pass
import proofs.«102085_j69784628625690_2_alg».proof.Proof.KernelIdeal.Model

set_option maxRecDepth 16384

noncomputable section

namespace Cert.KernelIdeal.Stage

open Idealize.ShloMosaic Idealize.ShloMosaic.TcCoe Idealize.ShloMosaic.ValueIdx
open Cert.KernelIdeal Cert.KernelIdeal.Gen

variable (m : (ℓ : Loc nD τ sig) → Buf (Elt Ideal) ℓ)

/-! The argument arrays on core `c`. -/
abbrev g0 (c : Dev nD) : (⟨S40000x128, .f32⟩ : BufTy).Contents (Elt Ideal) := m ((c : Thread nD τ).loc main_arg0)
abbrev g1 (c : Dev nD) : (⟨S640000x128, .f32⟩ : BufTy).Contents (Elt Ideal) := m ((c : Thread nD τ).loc main_arg1)
abbrev g2 (c : Dev nD) : (⟨S640000, .i32⟩ : BufTy).Contents (Elt Ideal) := m ((c : Thread nD τ).loc main_arg2)
abbrev g3 (c : Dev nD) : (⟨S640000, .i32⟩ : BufTy).Contents (Elt Ideal) := m ((c : Thread nD τ).loc main_arg3)
abbrev g4 (c : Dev nD) : (⟨S40000x1, .f32⟩ : BufTy).Contents (Elt Ideal) := m ((c : Thread nD τ).loc main_arg4)
abbrev g5 (c : Dev nD) : (⟨S640000x1, .f32⟩ : BufTy).Contents (Elt Ideal) := m ((c : Thread nD τ).loc main_arg5)
abbrev g6 (c : Dev nD) : (⟨S128x128, .f32⟩ : BufTy).Contents (Elt Ideal) := m ((c : Thread nD τ).loc main_arg6)
abbrev g7 (c : Dev nD) : (⟨S128x128, .f32⟩ : BufTy).Contents (Elt Ideal) := m ((c : Thread nD τ).loc main_arg7)
abbrev g8 (c : Dev nD) : (⟨S128x128, .f32⟩ : BufTy).Contents (Elt Ideal) := m ((c : Thread nD τ).loc main_arg8)
abbrev g9 (c : Dev nD) : (⟨S128x128, .f32⟩ : BufTy).Contents (Elt Ideal) := m ((c : Thread nD τ).loc main_arg9)
abbrev g10 (c : Dev nD) : (⟨S128x128, .f32⟩ : BufTy).Contents (Elt Ideal) := m ((c : Thread nD τ).loc main_arg10)
abbrev g11 (c : Dev nD) : (⟨S128, .f32⟩ : BufTy).Contents (Elt Ideal) := m ((c : Thread nD τ).loc main_arg11)
abbrev g12 (c : Dev nD) : (⟨S128, .f32⟩ : BufTy).Contents (Elt Ideal) := m ((c : Thread nD τ).loc main_arg12)
abbrev g13 (c : Dev nD) : (⟨S128, .f32⟩ : BufTy).Contents (Elt Ideal) := m ((c : Thread nD τ).loc main_arg13)
abbrev g14 (c : Dev nD) : (⟨S128, .f32⟩ : BufTy).Contents (Elt Ideal) := m ((c : Thread nD τ).loc main_arg14)

/-! ## Before and after the node projection stage -/
theorem C1_arg0 (c : Dev nD) : C1 m c (Proc.devRef .tc main_arg0) = (g0 m c) :=
  ((StableHlo.after_of_writes_sub hostOps0 _ hostOps0_writes (by decide) : C1 m c (Proc.devRef .tc main_arg0) = C0 m c (Proc.devRef .tc main_arg0))).trans <|
    rfl
theorem C1_v0 (c : Dev nD) : C1 m c (Proc.devRef .tc main_v0) = (kW (g6 m c) (g7 m c) (g9 m c) (g10 m c)) := by
  show StableHlo.after hostOps0 (C0 m c) (Proc.devRef .tc main_v0) = _
  after_results

  try rfl

theorem C2_v1 (c : Dev nD) : C2 m c (Proc.devRef .tc main_v1) = (kP (g0 m c) (g6 m c) (g7 m c) (g9 m c) (g10 m c)) := by
  refine (C2_arr m c 2).trans ((out0_2 (E1 m) c).trans ?_)
  show projected (C1 m c (Proc.devRef .tc main_arg0)) (C1 m c (Proc.devRef .tc main_v0)) = _
  rw [C1_arg0, C1_v0]
  try rfl
theorem C2_arg2 (c : Dev nD) : C2 m c (Proc.devRef .tc main_arg2) = (g2 m c) :=
  ((C2_kept m c main_arg2 (by decide) : C2 m c (Proc.devRef .tc main_arg2) = C1 m c (Proc.devRef .tc main_arg2))).trans <|
    ((StableHlo.after_of_writes_sub hostOps0 _ hostOps0_writes (by decide) : C1 m c (Proc.devRef .tc main_arg2) = C0 m c (Proc.devRef .tc main_arg2))).trans <|
    rfl
theorem C2_arg3 (c : Dev nD) : C2 m c (Proc.devRef .tc main_arg3) = (g3 m c) :=
  ((C2_kept m c main_arg3 (by decide) : C2 m c (Proc.devRef .tc main_arg3) = C1 m c (Proc.devRef .tc main_arg3))).trans <|
    ((StableHlo.after_of_writes_sub hostOps0 _ hostOps0_writes (by decide) : C1 m c (Proc.devRef .tc main_arg3) = C0 m c (Proc.devRef .tc main_arg3))).trans <|
    rfl

/-! ## The gathers, and the edge gate stage -/
set_option maxHeartbeats 40000000 in
theorem C3_v2 (c : Dev nD) : C3 m c (Proc.devRef .tc main_v2) = (kA (g0 m c) (g6 m c) (g7 m c) (g9 m c) (g10 m c)) := by
  show StableHlo.after hostOps1 (C2 m c) (Proc.devRef .tc main_v2) = _
  after_results
  rw [C2_v1]
  try rfl
set_option maxHeartbeats 40000000 in
theorem C3_v25 (c : Dev nD) : C3 m c (Proc.devRef .tc main_v25) = (kDs (g0 m c) (g2 m c) (g6 m c) (g7 m c) (g9 m c) (g10 m c)) := by
  show StableHlo.after hostOps1 (C2 m c) (Proc.devRef .tc main_v25) = _
  after_results
  rw [C2_v1, C2_arg2]
  try rfl
set_option maxHeartbeats 40000000 in
theorem C3_v23 (c : Dev nD) : C3 m c (Proc.devRef .tc main_v23) = (kEd (g0 m c) (g3 m c) (g6 m c) (g7 m c) (g9 m c) (g10 m c)) := by
  show StableHlo.after hostOps1 (C2 m c) (Proc.devRef .tc main_v23) = _
  after_results
  rw [C2_v1, C2_arg3]
  try rfl
set_option maxHeartbeats 40000000 in
theorem C3_v24 (c : Dev nD) : C3 m c (Proc.devRef .tc main_v24) = (kBs (g0 m c) (g2 m c) (g6 m c) (g7 m c) (g9 m c) (g10 m c)) := by
  show StableHlo.after hostOps1 (C2 m c) (Proc.devRef .tc main_v24) = _
  after_results
  rw [C2_v1, C2_arg2]
  try rfl
theorem C3_arg1 (c : Dev nD) : C3 m c (Proc.devRef .tc main_arg1) = (g1 m c) :=
  ((StableHlo.after_of_writes_sub hostOps1 _ hostOps1_writes (by decide) : C3 m c (Proc.devRef .tc main_arg1) = C2 m c (Proc.devRef .tc main_arg1))).trans <|
    ((C2_kept m c main_arg1 (by decide) : C2 m c (Proc.devRef .tc main_arg1) = C1 m c (Proc.devRef .tc main_arg1))).trans <|
    ((StableHlo.after_of_writes_sub hostOps0 _ hostOps0_writes (by decide) : C1 m c (Proc.devRef .tc main_arg1) = C0 m c (Proc.devRef .tc main_arg1))).trans <|
    rfl
theorem C3_arg8 (c : Dev nD) : C3 m c (Proc.devRef .tc main_arg8) = (g8 m c) :=
  ((StableHlo.after_of_writes_sub hostOps1 _ hostOps1_writes (by decide) : C3 m c (Proc.devRef .tc main_arg8) = C2 m c (Proc.devRef .tc main_arg8))).trans <|
    ((C2_kept m c main_arg8 (by decide) : C2 m c (Proc.devRef .tc main_arg8) = C1 m c (Proc.devRef .tc main_arg8))).trans <|
    ((StableHlo.after_of_writes_sub hostOps0 _ hostOps0_writes (by decide) : C1 m c (Proc.devRef .tc main_arg8) = C0 m c (Proc.devRef .tc main_arg8))).trans <|
    rfl
theorem C3_arg5 (c : Dev nD) : C3 m c (Proc.devRef .tc main_arg5) = (g5 m c) :=
  ((StableHlo.after_of_writes_sub hostOps1 _ hostOps1_writes (by decide) : C3 m c (Proc.devRef .tc main_arg5) = C2 m c (Proc.devRef .tc main_arg5))).trans <|
    ((C2_kept m c main_arg5 (by decide) : C2 m c (Proc.devRef .tc main_arg5) = C1 m c (Proc.devRef .tc main_arg5))).trans <|
    ((StableHlo.after_of_writes_sub hostOps0 _ hostOps0_writes (by decide) : C1 m c (Proc.devRef .tc main_arg5) = C0 m c (Proc.devRef .tc main_arg5))).trans <|
    rfl

theorem C4_w6 (c : Dev nD) : C4 m c (Proc.devRef .tc (Pipeline.arrRef spec1 6)) = (kX (g0 m c) (g1 m c) (g2 m c) (g3 m c) (g5 m c) (g6 m c) (g7 m c) (g8 m c) (g9 m c) (g10 m c)) := by
  refine (C4_arr m c 6).trans ((out1_6 (E3 m) c).trans ?_)
  show scaled1 (C3 m c (Proc.devRef .tc main_arg1)) (C3 m c (Proc.devRef .tc main_arg8)) (C3 m c (Proc.devRef .tc main_v25)) (C3 m c (Proc.devRef .tc main_v23)) (C3 m c (Proc.devRef .tc main_arg5)) = _
  rw [C3_arg1, C3_arg8, C3_v25, C3_v23, C3_arg5]
  try rfl
theorem C4_w7 (c : Dev nD) : C4 m c (Proc.devRef .tc (Pipeline.arrRef spec1 7)) = (kS (g0 m c) (g1 m c) (g2 m c) (g3 m c) (g6 m c) (g7 m c) (g8 m c) (g9 m c) (g10 m c)) := by
  refine (C4_arr m c 7).trans ((out1_7 (E3 m) c).trans ?_)
  show gate1 (C3 m c (Proc.devRef .tc main_arg1)) (C3 m c (Proc.devRef .tc main_arg8)) (C3 m c (Proc.devRef .tc main_v25)) (C3 m c (Proc.devRef .tc main_v23)) = _
  rw [C3_arg1, C3_arg8, C3_v25, C3_v23]
  try rfl
theorem C4_w8 (c : Dev nD) : C4 m c (Proc.devRef .tc (Pipeline.arrRef spec1 8)) = (kM (g0 m c) (g1 m c) (g2 m c) (g3 m c) (g6 m c) (g7 m c) (g8 m c) (g9 m c) (g10 m c)) := by
  refine (C4_arr m c 8).trans ((out1_8 (E3 m) c).trans ?_)
  show message1 (C3 m c (Proc.devRef .tc main_arg1)) (C3 m c (Proc.devRef .tc main_arg8)) (C3 m c (Proc.devRef .tc main_v25)) (C3 m c (Proc.devRef .tc main_v23)) (C3 m c (Proc.devRef .tc main_v24)) = _
  rw [C3_arg1, C3_arg8, C3_v25, C3_v23, C3_v24]
  try rfl
theorem C4_w9 (c : Dev nD) : C4 m c (Proc.devRef .tc (Pipeline.arrRef spec1 9)) = blockSums1 (kX (g0 m c) (g1 m c) (g2 m c) (g3 m c) (g5 m c) (g6 m c) (g7 m c) (g8 m c) (g9 m c) (g10 m c)) := by
  refine (C4_arr m c 9).trans ((out1_9 (E3 m) c).trans ?_)
  show blockSums1 (scaled1 (C3 m c (Proc.devRef .tc main_arg1)) (C3 m c (Proc.devRef .tc main_arg8)) (C3 m c (Proc.devRef .tc main_v25)) (C3 m c (Proc.devRef .tc main_v23)) (C3 m c (Proc.devRef .tc main_arg5))) = _
  rw [C3_arg1, C3_arg8, C3_v25, C3_v23, C3_arg5]
  try rfl
theorem C4_w10 (c : Dev nD) : C4 m c (Proc.devRef .tc (Pipeline.arrRef spec1 10)) = blockSums1 (squared1 (kX (g0 m c) (g1 m c) (g2 m c) (g3 m c) (g5 m c) (g6 m c) (g7 m c) (g8 m c) (g9 m c) (g10 m c))) := by
  refine (C4_arr m c 10).trans ((out1_10 (E3 m) c).trans ?_)
  show blockSums1 (squared1 (scaled1 (C3 m c (Proc.devRef .tc main_arg1)) (C3 m c (Proc.devRef .tc main_arg8)) (C3 m c (Proc.devRef .tc main_v25)) (C3 m c (Proc.devRef .tc main_v23)) (C3 m c (Proc.devRef .tc main_arg5)))) = _
  rw [C3_arg1, C3_arg8, C3_v25, C3_v23, C3_arg5]
  try rfl

/-! ## The scatter-adds and the summed partial sums, and the node update stage -/
theorem C4_arg3 (c : Dev nD) : C4 m c (Proc.devRef .tc main_arg3) = (g3 m c) :=
  ((C4_kept m c main_arg3 (by decide) : C4 m c (Proc.devRef .tc main_arg3) = C3 m c (Proc.devRef .tc main_arg3))).trans <|
    ((StableHlo.after_of_writes_sub hostOps1 _ hostOps1_writes (by decide) : C3 m c (Proc.devRef .tc main_arg3) = C2 m c (Proc.devRef .tc main_arg3))).trans <|
    ((C2_kept m c main_arg3 (by decide) : C2 m c (Proc.devRef .tc main_arg3) = C1 m c (Proc.devRef .tc main_arg3))).trans <|
    ((StableHlo.after_of_writes_sub hostOps0 _ hostOps0_writes (by decide) : C1 m c (Proc.devRef .tc main_arg3) = C0 m c (Proc.devRef .tc main_arg3))).trans <|
    rfl
theorem C5_arg4 (c : Dev nD) : C5 m c (Proc.devRef .tc main_arg4) = (g4 m c) :=
  ((StableHlo.after_of_writes_sub hostOps2 _ hostOps2_writes (by decide) : C5 m c (Proc.devRef .tc main_arg4) = C4 m c (Proc.devRef .tc main_arg4))).trans <|
    ((C4_kept m c main_arg4 (by decide) : C4 m c (Proc.devRef .tc main_arg4) = C3 m c (Proc.devRef .tc main_arg4))).trans <|
    ((StableHlo.after_of_writes_sub hostOps1 _ hostOps1_writes (by decide) : C3 m c (Proc.devRef .tc main_arg4) = C2 m c (Proc.devRef .tc main_arg4))).trans <|
    ((C2_kept m c main_arg4 (by decide) : C2 m c (Proc.devRef .tc main_arg4) = C1 m c (Proc.devRef .tc main_arg4))).trans <|
    ((StableHlo.after_of_writes_sub hostOps0 _ hostOps0_writes (by decide) : C1 m c (Proc.devRef .tc main_arg4) = C0 m c (Proc.devRef .tc main_arg4))).trans <|
    rfl
theorem C5_v33 (c : Dev nD) : C5 m c (Proc.devRef .tc main_v33) = (kNum (g0 m c) (g1 m c) (g2 m c) (g3 m c) (g6 m c) (g7 m c) (g8 m c) (g9 m c) (g10 m c)) := by
  show StableHlo.after hostOps2 (C4 m c) (Proc.devRef .tc main_v33) = _
  after_results
  rw [C4_w8, C4_arg3]
  try rfl
theorem C5_v36 (c : Dev nD) : C5 m c (Proc.devRef .tc main_v36) = (kDen (g0 m c) (g1 m c) (g2 m c) (g3 m c) (g6 m c) (g7 m c) (g8 m c) (g9 m c) (g10 m c)) := by
  show StableHlo.after hostOps2 (C4 m c) (Proc.devRef .tc main_v36) = _
  after_results
  rw [C4_w7, C4_arg3]
  try rfl
theorem C5_v28 (c : Dev nD) : C5 m c (Proc.devRef .tc main_v28) = rowSum160 (blockSums1 (kX (g0 m c) (g1 m c) (g2 m c) (g3 m c) (g5 m c) (g6 m c) (g7 m c) (g8 m c) (g9 m c) (g10 m c))) := by
  show StableHlo.after hostOps2 (C4 m c) (Proc.devRef .tc main_v28) = _
  after_results
  rw [C4_w9]
  try rfl
theorem C5_v30 (c : Dev nD) : C5 m c (Proc.devRef .tc main_v30) = rowSum160 (blockSums1 (squared1 (kX (g0 m c) (g1 m c) (g2 m c) (g3 m c) (g5 m c) (g6 m c) (g7 m c) (g8 m c) (g9 m c) (g10 m c)))) := by
  show StableHlo.after hostOps2 (C4 m c) (Proc.devRef .tc main_v30) = _
  after_results
  rw [C4_w10]
  try rfl
theorem C5_v2 (c : Dev nD) : C5 m c (Proc.devRef .tc main_v2) = (kA (g0 m c) (g6 m c) (g7 m c) (g9 m c) (g10 m c)) :=
  ((StableHlo.after_of_writes_sub hostOps2 _ hostOps2_writes (by decide) : C5 m c (Proc.devRef .tc main_v2) = C4 m c (Proc.devRef .tc main_v2))).trans <|
    ((C4_kept m c main_v2 (by decide) : C4 m c (Proc.devRef .tc main_v2) = C3 m c (Proc.devRef .tc main_v2))).trans <|
    C3_v2 m c

theorem C6_w4 (c : Dev nD) : C6 m c (Proc.devRef .tc (Pipeline.arrRef spec2 4)) = (kH (g0 m c) (g1 m c) (g2 m c) (g3 m c) (g4 m c) (g6 m c) (g7 m c) (g8 m c) (g9 m c) (g10 m c)) := by
  refine (C6_arr m c 4).trans ((out2_4 (E5 m) c).trans ?_)
  show updated (C5 m c (Proc.devRef .tc main_v2)) (C5 m c (Proc.devRef .tc main_v33)) (C5 m c (Proc.devRef .tc main_v36)) (C5 m c (Proc.devRef .tc main_arg4)) = _
  rw [C5_v2, C5_v33, C5_v36, C5_arg4]
  try rfl
theorem C6_w5 (c : Dev nD) : C6 m c (Proc.devRef .tc (Pipeline.arrRef spec2 5)) = blockSums2 (kH (g0 m c) (g1 m c) (g2 m c) (g3 m c) (g4 m c) (g6 m c) (g7 m c) (g8 m c) (g9 m c) (g10 m c)) := by
  refine (C6_arr m c 5).trans ((out2_5 (E5 m) c).trans ?_)
  show blockSums2 (updated (C5 m c (Proc.devRef .tc main_v2)) (C5 m c (Proc.devRef .tc main_v33)) (C5 m c (Proc.devRef .tc main_v36)) (C5 m c (Proc.devRef .tc main_arg4))) = _
  rw [C5_v2, C5_v33, C5_v36, C5_arg4]
  try rfl
theorem C6_w6 (c : Dev nD) : C6 m c (Proc.devRef .tc (Pipeline.arrRef spec2 6)) = blockSums2 (squared2 (kH (g0 m c) (g1 m c) (g2 m c) (g3 m c) (g4 m c) (g6 m c) (g7 m c) (g8 m c) (g9 m c) (g10 m c))) := by
  refine (C6_arr m c 6).trans ((out2_6 (E5 m) c).trans ?_)
  show blockSums2 (squared2 (updated (C5 m c (Proc.devRef .tc main_v2)) (C5 m c (Proc.devRef .tc main_v33)) (C5 m c (Proc.devRef .tc main_v36)) (C5 m c (Proc.devRef .tc main_arg4)))) = _
  rw [C5_v2, C5_v33, C5_v36, C5_arg4]
  try rfl

/-! ## The means and variances, and the two normalisation stages -/
theorem C6_v28 (c : Dev nD) : C6 m c (Proc.devRef .tc main_v28) = rowSum160 (blockSums1 (kX (g0 m c) (g1 m c) (g2 m c) (g3 m c) (g5 m c) (g6 m c) (g7 m c) (g8 m c) (g9 m c) (g10 m c))) :=
  ((C6_kept m c main_v28 (by decide) : C6 m c (Proc.devRef .tc main_v28) = C5 m c (Proc.devRef .tc main_v28))).trans <|
    C5_v28 m c
theorem C6_v30 (c : Dev nD) : C6 m c (Proc.devRef .tc main_v30) = rowSum160 (blockSums1 (squared1 (kX (g0 m c) (g1 m c) (g2 m c) (g3 m c) (g5 m c) (g6 m c) (g7 m c) (g8 m c) (g9 m c) (g10 m c)))) :=
  ((C6_kept m c main_v30 (by decide) : C6 m c (Proc.devRef .tc main_v30) = C5 m c (Proc.devRef .tc main_v30))).trans <|
    C5_v30 m c
theorem C6_arg11 (c : Dev nD) : C6 m c (Proc.devRef .tc main_arg11) = (g11 m c) :=
  ((C6_kept m c main_arg11 (by decide) : C6 m c (Proc.devRef .tc main_arg11) = C5 m c (Proc.devRef .tc main_arg11))).trans <|
    ((StableHlo.after_of_writes_sub hostOps2 _ hostOps2_writes (by decide) : C5 m c (Proc.devRef .tc main_arg11) = C4 m c (Proc.devRef .tc main_arg11))).trans <|
    ((C4_kept m c main_arg11 (by decide) : C4 m c (Proc.devRef .tc main_arg11) = C3 m c (Proc.devRef .tc main_arg11))).trans <|
    ((StableHlo.after_of_writes_sub hostOps1 _ hostOps1_writes (by decide) : C3 m c (Proc.devRef .tc main_arg11) = C2 m c (Proc.devRef .tc main_arg11))).trans <|
    ((C2_kept m c main_arg11 (by decide) : C2 m c (Proc.devRef .tc main_arg11) = C1 m c (Proc.devRef .tc main_arg11))).trans <|
    ((StableHlo.after_of_writes_sub hostOps0 _ hostOps0_writes (by decide) : C1 m c (Proc.devRef .tc main_arg11) = C0 m c (Proc.devRef .tc main_arg11))).trans <|
    rfl
theorem C6_arg12 (c : Dev nD) : C6 m c (Proc.devRef .tc main_arg12) = (g12 m c) :=
  ((C6_kept m c main_arg12 (by decide) : C6 m c (Proc.devRef .tc main_arg12) = C5 m c (Proc.devRef .tc main_arg12))).trans <|
    ((StableHlo.after_of_writes_sub hostOps2 _ hostOps2_writes (by decide) : C5 m c (Proc.devRef .tc main_arg12) = C4 m c (Proc.devRef .tc main_arg12))).trans <|
    ((C4_kept m c main_arg12 (by decide) : C4 m c (Proc.devRef .tc main_arg12) = C3 m c (Proc.devRef .tc main_arg12))).trans <|
    ((StableHlo.after_of_writes_sub hostOps1 _ hostOps1_writes (by decide) : C3 m c (Proc.devRef .tc main_arg12) = C2 m c (Proc.devRef .tc main_arg12))).trans <|
    ((C2_kept m c main_arg12 (by decide) : C2 m c (Proc.devRef .tc main_arg12) = C1 m c (Proc.devRef .tc main_arg12))).trans <|
    ((StableHlo.after_of_writes_sub hostOps0 _ hostOps0_writes (by decide) : C1 m c (Proc.devRef .tc main_arg12) = C0 m c (Proc.devRef .tc main_arg12))).trans <|
    rfl
theorem C6_arg13 (c : Dev nD) : C6 m c (Proc.devRef .tc main_arg13) = (g13 m c) :=
  ((C6_kept m c main_arg13 (by decide) : C6 m c (Proc.devRef .tc main_arg13) = C5 m c (Proc.devRef .tc main_arg13))).trans <|
    ((StableHlo.after_of_writes_sub hostOps2 _ hostOps2_writes (by decide) : C5 m c (Proc.devRef .tc main_arg13) = C4 m c (Proc.devRef .tc main_arg13))).trans <|
    ((C4_kept m c main_arg13 (by decide) : C4 m c (Proc.devRef .tc main_arg13) = C3 m c (Proc.devRef .tc main_arg13))).trans <|
    ((StableHlo.after_of_writes_sub hostOps1 _ hostOps1_writes (by decide) : C3 m c (Proc.devRef .tc main_arg13) = C2 m c (Proc.devRef .tc main_arg13))).trans <|
    ((C2_kept m c main_arg13 (by decide) : C2 m c (Proc.devRef .tc main_arg13) = C1 m c (Proc.devRef .tc main_arg13))).trans <|
    ((StableHlo.after_of_writes_sub hostOps0 _ hostOps0_writes (by decide) : C1 m c (Proc.devRef .tc main_arg13) = C0 m c (Proc.devRef .tc main_arg13))).trans <|
    rfl
theorem C6_arg14 (c : Dev nD) : C6 m c (Proc.devRef .tc main_arg14) = (g14 m c) :=
  ((C6_kept m c main_arg14 (by decide) : C6 m c (Proc.devRef .tc main_arg14) = C5 m c (Proc.devRef .tc main_arg14))).trans <|
    ((StableHlo.after_of_writes_sub hostOps2 _ hostOps2_writes (by decide) : C5 m c (Proc.devRef .tc main_arg14) = C4 m c (Proc.devRef .tc main_arg14))).trans <|
    ((C4_kept m c main_arg14 (by decide) : C4 m c (Proc.devRef .tc main_arg14) = C3 m c (Proc.devRef .tc main_arg14))).trans <|
    ((StableHlo.after_of_writes_sub hostOps1 _ hostOps1_writes (by decide) : C3 m c (Proc.devRef .tc main_arg14) = C2 m c (Proc.devRef .tc main_arg14))).trans <|
    ((C2_kept m c main_arg14 (by decide) : C2 m c (Proc.devRef .tc main_arg14) = C1 m c (Proc.devRef .tc main_arg14))).trans <|
    ((StableHlo.after_of_writes_sub hostOps0 _ hostOps0_writes (by decide) : C1 m c (Proc.devRef .tc main_arg14) = C0 m c (Proc.devRef .tc main_arg14))).trans <|
    rfl
set_option maxHeartbeats 40000000 in
theorem C7_v43 (c : Dev nD) : C7 m c (Proc.devRef .tc main_v43) = (kMeanH (g0 m c) (g1 m c) (g2 m c) (g3 m c) (g4 m c) (g6 m c) (g7 m c) (g8 m c) (g9 m c) (g10 m c)) := by
  show StableHlo.after hostOps3 (C6 m c) (Proc.devRef .tc main_v43) = _
  after_results
  rw [C6_w5]
  try rfl
set_option maxHeartbeats 40000000 in
theorem C7_v49 (c : Dev nD) : C7 m c (Proc.devRef .tc main_v49) = (kVarH (g0 m c) (g1 m c) (g2 m c) (g3 m c) (g4 m c) (g6 m c) (g7 m c) (g8 m c) (g9 m c) (g10 m c)) := by
  show StableHlo.after hostOps3 (C6 m c) (Proc.devRef .tc main_v49) = _
  after_results
  rw [C6_w6, C6_w5]
  try rfl
set_option maxHeartbeats 40000000 in
theorem C7_v51 (c : Dev nD) : C7 m c (Proc.devRef .tc main_v51) = (kMeanE (g0 m c) (g1 m c) (g2 m c) (g3 m c) (g5 m c) (g6 m c) (g7 m c) (g8 m c) (g9 m c) (g10 m c)) := by
  show StableHlo.after hostOps3 (C6 m c) (Proc.devRef .tc main_v51) = _
  after_results
  rw [C6_v28]
  try rfl
set_option maxHeartbeats 40000000 in
theorem C7_v57 (c : Dev nD) : C7 m c (Proc.devRef .tc main_v57) = (kVarE (g0 m c) (g1 m c) (g2 m c) (g3 m c) (g5 m c) (g6 m c) (g7 m c) (g8 m c) (g9 m c) (g10 m c)) := by
  show StableHlo.after hostOps3 (C6 m c) (Proc.devRef .tc main_v57) = _
  after_results
  rw [C6_v30, C6_v28]
  try rfl
set_option maxHeartbeats 40000000 in
theorem C7_v58 (c : Dev nD) : C7 m c (Proc.devRef .tc main_v58) = shapeCast S1x128 (g11 m c) shapeCasts_S128_S1x128 := by
  show StableHlo.after hostOps3 (C6 m c) (Proc.devRef .tc main_v58) = _
  after_results
  rw [C6_arg11]
  try rfl
set_option maxHeartbeats 40000000 in
theorem C7_v59 (c : Dev nD) : C7 m c (Proc.devRef .tc main_v59) = shapeCast S1x128 (g12 m c) shapeCasts_S128_S1x128 := by
  show StableHlo.after hostOps3 (C6 m c) (Proc.devRef .tc main_v59) = _
  after_results
  rw [C6_arg12]
  try rfl
set_option maxHeartbeats 40000000 in
theorem C7_v60 (c : Dev nD) : C7 m c (Proc.devRef .tc main_v60) = shapeCast S1x128 (g13 m c) shapeCasts_S128_S1x128 := by
  show StableHlo.after hostOps3 (C6 m c) (Proc.devRef .tc main_v60) = _
  after_results
  rw [C6_arg13]
  try rfl
set_option maxHeartbeats 40000000 in
theorem C7_v61 (c : Dev nD) : C7 m c (Proc.devRef .tc main_v61) = shapeCast S1x128 (g14 m c) shapeCasts_S128_S1x128 := by
  show StableHlo.after hostOps3 (C6 m c) (Proc.devRef .tc main_v61) = _
  after_results
  rw [C6_arg14]
  try rfl
theorem C7_v37_0 (c : Dev nD) : C7 m c (Proc.devRef .tc main_v37_0) = (kH (g0 m c) (g1 m c) (g2 m c) (g3 m c) (g4 m c) (g6 m c) (g7 m c) (g8 m c) (g9 m c) (g10 m c)) :=
  ((StableHlo.after_of_writes_sub hostOps3 _ hostOps3_writes (by decide) : C7 m c (Proc.devRef .tc main_v37_0) = C6 m c (Proc.devRef .tc main_v37_0))).trans <|
    C6_w4 m c
theorem C7_v26_0 (c : Dev nD) : C7 m c (Proc.devRef .tc main_v26_0) = (kX (g0 m c) (g1 m c) (g2 m c) (g3 m c) (g5 m c) (g6 m c) (g7 m c) (g8 m c) (g9 m c) (g10 m c)) :=
  ((StableHlo.after_of_writes_sub hostOps3 _ hostOps3_writes (by decide) : C7 m c (Proc.devRef .tc main_v26_0) = C6 m c (Proc.devRef .tc main_v26_0))).trans <|
    ((C6_kept m c main_v26_0 (by decide) : C6 m c (Proc.devRef .tc main_v26_0) = C5 m c (Proc.devRef .tc main_v26_0))).trans <|
    ((StableHlo.after_of_writes_sub hostOps2 _ hostOps2_writes (by decide) : C5 m c (Proc.devRef .tc main_v26_0) = C4 m c (Proc.devRef .tc main_v26_0))).trans <|
    C4_w6 m c

/-- The first result buffer after the node normalisation stage. -/
theorem C8_v62 (c : Dev nD) : C8 m c (Proc.devRef .tc main_v62) = (kOutH (g0 m c) (g1 m c) (g2 m c) (g3 m c) (g4 m c) (g6 m c) (g7 m c) (g8 m c) (g9 m c) (g10 m c) (g11 m c) (g12 m c)) := by
  refine (C8_arr m c 5).trans ((out3 (E7 m) c).trans ?_)
  show normed3 (C7 m c (Proc.devRef .tc main_v37_0)) (C7 m c (Proc.devRef .tc main_v43)) (C7 m c (Proc.devRef .tc main_v49)) (C7 m c (Proc.devRef .tc main_v58)) (C7 m c (Proc.devRef .tc main_v59)) = _
  rw [C7_v37_0, C7_v43, C7_v49, C7_v58, C7_v59]
  try rfl
theorem C8_v26_0 (c : Dev nD) : C8 m c (Proc.devRef .tc main_v26_0) = (kX (g0 m c) (g1 m c) (g2 m c) (g3 m c) (g5 m c) (g6 m c) (g7 m c) (g8 m c) (g9 m c) (g10 m c)) :=
  ((C8_kept m c main_v26_0 (by decide) : C8 m c (Proc.devRef .tc main_v26_0) = C7 m c (Proc.devRef .tc main_v26_0))).trans <|
    C7_v26_0 m c
theorem C8_v51 (c : Dev nD) : C8 m c (Proc.devRef .tc main_v51) = (kMeanE (g0 m c) (g1 m c) (g2 m c) (g3 m c) (g5 m c) (g6 m c) (g7 m c) (g8 m c) (g9 m c) (g10 m c)) :=
  ((C8_kept m c main_v51 (by decide) : C8 m c (Proc.devRef .tc main_v51) = C7 m c (Proc.devRef .tc main_v51))).trans <|
    C7_v51 m c
theorem C8_v57 (c : Dev nD) : C8 m c (Proc.devRef .tc main_v57) = (kVarE (g0 m c) (g1 m c) (g2 m c) (g3 m c) (g5 m c) (g6 m c) (g7 m c) (g8 m c) (g9 m c) (g10 m c)) :=
  ((C8_kept m c main_v57 (by decide) : C8 m c (Proc.devRef .tc main_v57) = C7 m c (Proc.devRef .tc main_v57))).trans <|
    C7_v57 m c
theorem C8_v60 (c : Dev nD) : C8 m c (Proc.devRef .tc main_v60) = shapeCast S1x128 (g13 m c) shapeCasts_S128_S1x128 :=
  ((C8_kept m c main_v60 (by decide) : C8 m c (Proc.devRef .tc main_v60) = C7 m c (Proc.devRef .tc main_v60))).trans <|
    C7_v60 m c
theorem C8_v61 (c : Dev nD) : C8 m c (Proc.devRef .tc main_v61) = shapeCast S1x128 (g14 m c) shapeCasts_S128_S1x128 :=
  ((C8_kept m c main_v61 (by decide) : C8 m c (Proc.devRef .tc main_v61) = C7 m c (Proc.devRef .tc main_v61))).trans <|
    C7_v61 m c

/-- The two result buffers at the end. -/
theorem C9_v63 (c : Dev nD) : C9 m c (Proc.devRef .tc main_v63) = (kOutE (g0 m c) (g1 m c) (g2 m c) (g3 m c) (g5 m c) (g6 m c) (g7 m c) (g8 m c) (g9 m c) (g10 m c) (g13 m c) (g14 m c)) := by
  refine (C9_arr m c 5).trans ((out4 (E8 m) c).trans ?_)
  show normed4 (C8 m c (Proc.devRef .tc main_v26_0)) (C8 m c (Proc.devRef .tc main_v51)) (C8 m c (Proc.devRef .tc main_v57)) (C8 m c (Proc.devRef .tc main_v60)) (C8 m c (Proc.devRef .tc main_v61)) = _
  rw [C8_v26_0, C8_v51, C8_v57, C8_v60, C8_v61]
  try rfl
theorem C9_v62 (c : Dev nD) : C9 m c (Proc.devRef .tc main_v62) = (kOutH (g0 m c) (g1 m c) (g2 m c) (g3 m c) (g4 m c) (g6 m c) (g7 m c) (g8 m c) (g9 m c) (g10 m c) (g11 m c) (g12 m c)) :=
  ((C9_kept m c main_v62 (by decide) : C9 m c (Proc.devRef .tc main_v62) = C8 m c (Proc.devRef .tc main_v62))).trans (C8_v62 m c)

end Cert.KernelIdeal.Stage

end
-- ==== Proof.KernelIdeal.Result.lean ====
/-
  The idealized kernel program's run with its two results named: it terminates without a fault, the first result buffer
  holds the model's normalised node features of the launch contents of the arguments, the second its normalised edge
  features, and the arguments are as launched.
-/
import proofs.«102085_j69784628625690_2_alg».proof.Proof.KernelIdeal.Flow

set_option maxRecDepth 16384

noncomputable section

namespace Cert.KernelIdeal.Stage

open Idealize.ShloMosaic Idealize.ShloMosaic.TcCoe Idealize.SL.Sem
open Cert.KernelIdeal Cert.KernelIdeal.Gen

variable (m : (ℓ : Loc nD τ sig) → Buf (Elt Ideal) ℓ)

theorem results (ρ : Dev nD → PrngReg) : θ_run defs (onTc (τ := τ) (main (F := Ideal))) ⟨m, fun _ => 0, ρ⟩ (fun r => ∀ c : Dev nD,
      r.2.mem ((c.tc : Thread nD τ).loc main_v62) = (kOutH (g0 m c) (g1 m c) (g2 m c) (g3 m c) (g4 m c) (g6 m c) (g7 m c) (g8 m c) (g9 m c) (g10 m c) (g11 m c) (g12 m c))
      ∧ r.2.mem ((c.tc : Thread nD τ).loc main_v63) = (kOutE (g0 m c) (g1 m c) (g2 m c) (g3 m c) (g5 m c) (g6 m c) (g7 m c) (g8 m c) (g9 m c) (g10 m c) (g13 m c) (g14 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v62 (by decide))).trans (C9_v62 m c),
      (h c _ (mem_uc main_v63 (by decide))).trans (C9_v63 m c),
      (h c _ (mem_uc main_arg0 (by decide))).trans (C9_launch m c main_arg0 (by decide) (by decide) (by decide) (by decide) (by decide) (by decide) (by decide) (by decide) (by decide)),
      (h c _ (mem_uc main_arg1 (by decide))).trans (C9_launch m c main_arg1 (by decide) (by decide) (by decide) (by decide) (by decide) (by decide) (by decide) (by decide) (by decide)),
      (h c _ (mem_uc main_arg2 (by decide))).trans (C9_launch m c main_arg2 (by decide) (by decide) (by decide) (by decide) (by decide) (by decide) (by decide) (by decide) (by decide)),
      (h c _ (mem_uc main_arg3 (by decide))).trans (C9_launch m c main_arg3 (by decide) (by decide) (by decide) (by decide) (by decide) (by decide) (by decide) (by decide) (by decide)),
      (h c _ (mem_uc main_arg4 (by decide))).trans (C9_launch m c main_arg4 (by decide) (by decide) (by decide) (by decide) (by decide) (by decide) (by decide) (by decide) (by decide)),
      (h c _ (mem_uc main_arg5 (by decide))).trans (C9_launch m c main_arg5 (by decide) (by decide) (by decide) (by decide) (by decide) (by decide) (by decide) (by decide) (by decide)),
      (h c _ (mem_uc main_arg6 (by decide))).trans (C9_launch m c main_arg6 (by decide) (by decide) (by decide) (by decide) (by decide) (by decide) (by decide) (by decide) (by decide)),
      (h c _ (mem_uc main_arg7 (by decide))).trans (C9_launch m c main_arg7 (by decide) (by decide) (by decide) (by decide) (by decide) (by decide) (by decide) (by decide) (by decide)),
      (h c _ (mem_uc main_arg8 (by decide))).trans (C9_launch m c main_arg8 (by decide) (by decide) (by decide) (by decide) (by decide) (by decide) (by decide) (by decide) (by decide)),
      (h c _ (mem_uc main_arg9 (by decide))).trans (C9_launch m c main_arg9 (by decide) (by decide) (by decide) (by decide) (by decide) (by decide) (by decide) (by decide) (by decide)),
      (h c _ (mem_uc main_arg10 (by decide))).trans (C9_launch m c main_arg10 (by decide) (by decide) (by decide) (by decide) (by decide) (by decide) (by decide) (by decide) (by decide)),
      (h c _ (mem_uc main_arg11 (by decide))).trans (C9_launch m c main_arg11 (by decide) (by decide) (by decide) (by decide) (by decide) (by decide) (by decide) (by decide) (by decide)),
      (h c _ (mem_uc main_arg12 (by decide))).trans (C9_launch m c main_arg12 (by decide) (by decide) (by decide) (by decide) (by decide) (by decide) (by decide) (by decide) (by decide)),
      (h c _ (mem_uc main_arg13 (by decide))).trans (C9_launch m c main_arg13 (by decide) (by decide) (by decide) (by decide) (by decide) (by decide) (by decide) (by decide) (by decide)),
      (h c _ (mem_uc main_arg14 (by decide))).trans (C9_launch m c main_arg14 (by decide) (by decide) (by decide) (by decide) (by decide) (by decide) (by decide) (by decide) (by decide))⟩)
    (pass m ρ)

end Cert.KernelIdeal.Stage

end
-- ==== Proof.KernelIdeal.Gather.lean ====
/-
  Which entry of the table a row gather reads. For the result entry (r, c) the row is the r-th node number, read as a
  signed integer and clamped into 0 … 39999, and the column is c — for the 256-column table and for the 128-column one.
-/
import proofs.«102085_j69784628625690_2_alg».proof.Proof.Gen.KernelIdeal
import Idealize.ShloMosaic.Lib.ValueIdx
import Idealize.ShloMosaic.PureOps.Ideal.Laws

set_option maxRecDepth 16384

noncomputable section

namespace Cert.KernelIdeal.Gathered

open Idealize.ShloMosaic Idealize.ShloMosaic.ValueIdx Cert.KernelIdeal Cert.KernelIdeal.Gen

theorem wide_col (idx : IVec S640000x1 32) (r : Fin 640000) (c : Fin 256) : (gather_S40000x256_S640000x1_S640000x256_1_0_n_n_0_1_1256.operandIdx (ix2 r c) idx 1).val = c.val := by
  show gather_S40000x256_S640000x1_S640000x256_1_0_n_n_0_1_1256.start (ix2 r c) idx 1 + gather_S40000x256_S640000x1_S640000x256_1_0_n_n_0_1_1256.batchCoord (ix2 r c) 1 + gather_S40000x256_S640000x1_S640000x256_1_0_n_n_0_1_1256.offCoord (ix2 r c) 1 = _
  rw [GatherDims.batchCoord_eq_zero _ _ _ List.not_mem_nil]
  unfold GatherDims.start
  rw [dif_neg (by decide)]
  unfold GatherDims.offCoord
  rw [dif_pos (by decide)]
  simp only [Nat.zero_add]
  have hax : ∀ a : Fin S640000x256.rank, a = 1 → ((ix2 r c : S640000x256.Idx) a).val = c.val := by
    intro a h; subst h; rfl
  exact hax _ (by decide)
theorem wide_row (idx : IVec S640000x1 32) (r : Fin 640000) (c : Fin 256) :
    (gather_S40000x256_S640000x1_S640000x256_1_0_n_n_0_1_1256.operandIdx (ix2 r c) idx 0).val = min (idx (ix2 r (0 : Fin 1))).toInt.toNat 39999 := by
  show gather_S40000x256_S640000x1_S640000x256_1_0_n_n_0_1_1256.start (ix2 r c) idx 0 + gather_S40000x256_S640000x1_S640000x256_1_0_n_n_0_1_1256.batchCoord (ix2 r c) 0 + gather_S40000x256_S640000x1_S640000x256_1_0_n_n_0_1_1256.offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S40000x256.rank) ∈ gather_S40000x256_S640000x1_S640000x256_1_0_n_n_0_1_1256.startIndexMap from List.mem_singleton.mpr rfl)]
  have hsi : gather_S40000x256_S640000x1_S640000x256_1_0_n_n_0_1_1256.siIdx (ix2 r c) ⟨List.idxOf (0 : Fin S40000x256.rank) gather_S40000x256_S640000x1_S640000x256_1_0_n_n_0_1_1256.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

theorem narrow_col (idx : IVec S640000x1 32) (r : Fin 640000) (c : Fin 128) : (gather_S40000x128_S640000x1_S640000x128_1_0_n_n_0_1_1128.operandIdx (ix2 r c) idx 1).val = c.val := by
  show gather_S40000x128_S640000x1_S640000x128_1_0_n_n_0_1_1128.start (ix2 r c) idx 1 + gather_S40000x128_S640000x1_S640000x128_1_0_n_n_0_1_1128.batchCoord (ix2 r c) 1 + gather_S40000x128_S640000x1_S640000x128_1_0_n_n_0_1_1128.offCoord (ix2 r c) 1 = _
  rw [GatherDims.batchCoord_eq_zero _ _ _ List.not_mem_nil]
  unfold GatherDims.start
  rw [dif_neg (by decide)]
  unfold GatherDims.offCoord
  rw [dif_pos (by decide)]
  simp only [Nat.zero_add]
  have hax : ∀ a : Fin S640000x128.rank, a = 1 → ((ix2 r c : S640000x128.Idx) a).val = c.val := by
    intro a h; subst h; rfl
  exact hax _ (by decide)
theorem narrow_row (idx : IVec S640000x1 32) (r : Fin 640000) (c : Fin 128) :
    (gather_S40000x128_S640000x1_S640000x128_1_0_n_n_0_1_1128.operandIdx (ix2 r c) idx 0).val = min (idx (ix2 r (0 : Fin 1))).toInt.toNat 39999 := by
  show gather_S40000x128_S640000x1_S640000x128_1_0_n_n_0_1_1128.start (ix2 r c) idx 0 + gather_S40000x128_S640000x1_S640000x128_1_0_n_n_0_1_1128.batchCoord (ix2 r c) 0 + gather_S40000x128_S640000x1_S640000x128_1_0_n_n_0_1_1128.offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S40000x128.rank) ∈ gather_S40000x128_S640000x1_S640000x128_1_0_n_n_0_1_1128.startIndexMap from List.mem_singleton.mpr rfl)]
  have hsi : gather_S40000x128_S640000x1_S640000x128_1_0_n_n_0_1_1128.siIdx (ix2 r c) ⟨List.idxOf (0 : Fin S40000x128.rank) gather_S40000x128_S640000x1_S640000x128_1_0_n_n_0_1_1128.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.KernelIdeal.Gathered

end
-- ==== Proof.RefGather.lean ====
/-
  Which entry of the table the reference's row gathers read. For the result entry (r, c) the row is the r-th node number,
  read as a signed integer and clamped into 0 … 39999, and the column is c.
-/
import proofs.«102085_j69784628625690_2_alg».proof.Proof.Gen.ReferenceIdeal
import Idealize.ShloMosaic.Lib.ValueIdx
import Idealize.ShloMosaic.PureOps.Ideal.Laws

set_option maxRecDepth 16384

noncomputable section

namespace Cert.ReferenceIdeal.Gathered

open Idealize.ShloMosaic Idealize.ShloMosaic.ValueIdx Cert.ReferenceIdeal Cert.ReferenceIdeal.Gen

theorem narrow_col (idx : IVec S640000x1 32) (r : Fin 640000) (c : Fin 128) : (gather_S40000x128_S640000x1_S640000x128_1_0_n_n_0_1_1128.operandIdx (ix2 r c) idx 1).val = c.val := by
  show gather_S40000x128_S640000x1_S640000x128_1_0_n_n_0_1_1128.start (ix2 r c) idx 1 + gather_S40000x128_S640000x1_S640000x128_1_0_n_n_0_1_1128.batchCoord (ix2 r c) 1 + gather_S40000x128_S640000x1_S640000x128_1_0_n_n_0_1_1128.offCoord (ix2 r c) 1 = _
  rw [GatherDims.batchCoord_eq_zero _ _ _ List.not_mem_nil]
  unfold GatherDims.start
  rw [dif_neg (by decide)]
  unfold GatherDims.offCoord
  rw [dif_pos (by decide)]
  simp only [Nat.zero_add]
  have hax : ∀ a : Fin S640000x128.rank, a = 1 → ((ix2 r c : S640000x128.Idx) a).val = c.val := by
    intro a h; subst h; rfl
  exact hax _ (by decide)
theorem narrow_row (idx : IVec S640000x1 32) (r : Fin 640000) (c : Fin 128) :
    (gather_S40000x128_S640000x1_S640000x128_1_0_n_n_0_1_1128.operandIdx (ix2 r c) idx 0).val = min (idx (ix2 r (0 : Fin 1))).toInt.toNat 39999 := by
  show gather_S40000x128_S640000x1_S640000x128_1_0_n_n_0_1_1128.start (ix2 r c) idx 0 + gather_S40000x128_S640000x1_S640000x128_1_0_n_n_0_1_1128.batchCoord (ix2 r c) 0 + gather_S40000x128_S640000x1_S640000x128_1_0_n_n_0_1_1128.offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S40000x128.rank) ∈ gather_S40000x128_S640000x1_S640000x128_1_0_n_n_0_1_1128.startIndexMap from List.mem_singleton.mpr rfl)]
  have hsi : gather_S40000x128_S640000x1_S640000x128_1_0_n_n_0_1_1128.siIdx (ix2 r c) ⟨List.idxOf (0 : Fin S40000x128.rank) gather_S40000x128_S640000x1_S640000x128_1_0_n_n_0_1_1128.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.ReferenceIdeal.Gathered

end
-- ==== Proof.Sums.lean ====
/-
  Arithmetic on the extended reals that the comparison of the two programs rests on.

  * `IsNum x`: the extended real `x` is an ordinary real number. Sums, differences, products, maxima, finite sums,
    exponentials, quotients by a nonzero real, the logistic function and the reciprocal square root of a positive real
    of ordinary reals are ordinary reals.
  * A sum over the rows of an array is the sum, over its blocks of consecutive rows, of the blocks' sums.
  * Two ways to the variance. For reals x₁ … xₙ with mean μ = (Σ xₖ)/n,
        (Σ (xₖ − μ)²)/n = (Σ xₖ²)/n − μ²,
    and the left side is not negative, so clamping the right side below at 0 changes nothing. The identity uses
    distributivity and cancellation, which fail at the infinities: it is stated for ordinary reals only.
  * The bit patterns of the few float constants whose exact values matter: 0, 1, 40000, 640000, and 10⁻⁶ rounded to
    single precision, a positive real.
-/
import Idealize.ShloMosaic.PureOps.Ideal.Laws

noncomputable section

namespace Cert.Num

open Idealize.ShloMosaic

/-- An extended real that is an ordinary real. -/
def IsNum (x : EReal) : Prop := ∃ r : ℝ, x = (r : EReal)

namespace IsNum

theorem coe (r : ℝ) : IsNum (r : EReal) := ⟨r, rfl⟩
theorem zero : IsNum (0 : EReal) := ⟨0, EReal.coe_zero.symm⟩
theorem one : IsNum (1 : EReal) := ⟨1, EReal.coe_one.symm⟩
theorem add {x y : EReal} (hx : IsNum x) (hy : IsNum y) : IsNum (x + y) := by
  obtain ⟨a, rfl⟩ := hx; obtain ⟨b, rfl⟩ := hy; exact ⟨a + b, (EReal.coe_add a b).symm⟩
theorem neg {x : EReal} (hx : IsNum x) : IsNum (-x) := by
  obtain ⟨a, rfl⟩ := hx; exact ⟨-a, (EReal.coe_neg a).symm⟩
theorem sub {x y : EReal} (hx : IsNum x) (hy : IsNum y) : IsNum (x - y) := by
  obtain ⟨a, rfl⟩ := hx; obtain ⟨b, rfl⟩ := hy; exact ⟨a - b, (EReal.coe_sub a b).symm⟩
theorem mul {x y : EReal} (hx : IsNum x) (hy : IsNum y) : IsNum (x * y) := by
  obtain ⟨a, rfl⟩ := hx; obtain ⟨b, rfl⟩ := hy; exact ⟨a * b, (EReal.coe_mul a b).symm⟩
theorem max {x y : EReal} (hx : IsNum x) (hy : IsNum y) : IsNum (Max.max x y) := by
  obtain ⟨a, rfl⟩ := hx; obtain ⟨b, rfl⟩ := hy; exact ⟨Max.max a b, EReal.coe_strictMono.monotone.map_max⟩
theorem sum {ι : Type*} (s : Finset ι) (f : ι → EReal) (h : ∀ i ∈ s, IsNum (f i)) : IsNum (∑ i ∈ s, f i) :=
  Finset.sum_induction f IsNum (fun _ _ => add) zero h
theorem exp {x : EReal} (hx : IsNum x) : IsNum (Ideal.exp x) := by
  obtain ⟨a, rfl⟩ := hx; exact ⟨Real.exp a, rfl⟩
theorem div {x : EReal} (hx : IsNum x) {b : ℝ} (hb : b ≠ 0) : IsNum (Ideal.div x (b : EReal)) := by
  rw [Ideal.div_coe hb]; exact mul hx (coe _)
theorem logistic {x : EReal} (hx : IsNum x) : IsNum (Ideal.logistic x) := by
  obtain ⟨a, rfl⟩ := hx; rw [Ideal.logistic_coe]; exact coe _
theorem rsqrt {r : ℝ} (hr : 0 < r) : IsNum (Ideal.rsqrt (r : EReal)) := by
  rw [Ideal.rsqrt_coe, if_neg (not_lt.mpr hr.le), if_neg hr.ne']; exact coe _

end IsNum

/-- An extended real that is a real number that is not negative. -/
def IsNonneg (x : EReal) : Prop := ∃ r : ℝ, 0 ≤ r ∧ x = (r : EReal)

theorem IsNonneg.isNum {x : EReal} (h : IsNonneg x) : IsNum x := by obtain ⟨r, -, e⟩ := h; exact ⟨r, e⟩
theorem IsNonneg.zero : IsNonneg (0 : EReal) := ⟨0, le_refl _, EReal.coe_zero.symm⟩
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem IsNonneg.sum {ι : Type*} (s : Finset ι) (f : ι → EReal) (h : ∀ i ∈ s, IsNonneg (f i)) : IsNonneg (∑ i ∈ s, f i) :=
  Finset.sum_induction f IsNonneg (fun _ _ => IsNonneg.add) IsNonneg.zero h

/-- The sum of ordinary reals, taken in the extended reals, is the ordinary sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over `a·b` rows is the sum over `a` blocks of the sums over the `b` rows of each block. -/
theorem sum_by_blocks {M : Type*} [AddCommMonoid M] (n a b : ℕ) (h : n = a * b) (f : ℕ → M) :
    ∑ r : Fin n, f r.val = ∑ t : Fin a, ∑ y : Fin b, f (b * t.val + y.val) := by
  subst h
  rw [← Equiv.sum_comp finProdFinEquiv (fun r : Fin (a * b) => f r.val), Fintype.sum_prod_type]
  refine Finset.sum_congr rfl fun t _ => Finset.sum_congr rfl fun y _ => ?_
  rw [finProdFinEquiv_apply_val, Nat.add_comm]

/-- The variance of reals computed as the mean square minus the squared mean, clamped below at zero, is the mean squared
    deviation from the mean. -/
theorem variance_two_ways {n : ℕ} (hn : 0 < n) (x : Fin n → ℝ) :
    Max.max (Ideal.div (∑ k, ((x k : ℝ) : EReal) * ((x k : ℝ) : EReal)) ((n : ℝ) : EReal)
        - Ideal.div (∑ k, ((x k : ℝ) : EReal)) ((n : ℝ) : EReal) * Ideal.div (∑ k, ((x k : ℝ) : EReal)) ((n : ℝ) : EReal)) 0
      = Ideal.div (∑ k, (((x k : ℝ) : EReal) - Ideal.div (∑ k', ((x k' : ℝ) : EReal)) ((n : ℝ) : EReal))
          * (((x k : ℝ) : EReal) - Ideal.div (∑ k', ((x k' : ℝ) : EReal)) ((n : ℝ) : EReal))) ((n : ℝ) : EReal) := by
  have hn' : (n : ℝ) ≠ 0 := by exact_mod_cast hn.ne'
  have hpos : (0 : ℝ) < n := by exact_mod_cast hn
  simp only [← EReal.coe_mul, coe_sum, Ideal.div_coe hn', ← EReal.coe_sub]
  rw [← EReal.coe_zero, ← EReal.coe_strictMono.monotone.map_max]
  refine congrArg _ ?_
  set S : ℝ := ∑ k, x k with hS
  set μ : ℝ := S * (1 / (n : ℝ)) with hμ
  have hdev : ∑ k, (x k - μ) * (x k - μ) = (∑ k, x k * x k) - (n : ℝ) * μ * μ := by
    have h1 : ∀ k, (x k - μ) * (x k - μ) = x k * x k - 2 * μ * x k + μ * μ := fun k => by ring
    rw [Finset.sum_congr rfl fun k _ => h1 k, Finset.sum_add_distrib, Finset.sum_sub_distrib, ← Finset.mul_sum,
      Finset.sum_const, Finset.card_univ, Fintype.card_fin, nsmul_eq_mul, ← hS]
    have : S = (n : ℝ) * μ := by rw [hμ]; field_simp
    rw [this]; ring
  rw [hdev]
  have hnonneg : 0 ≤ ((∑ k, x k * x k) - (n : ℝ) * μ * μ) * (1 / (n : ℝ)) := by
    rw [← hdev]
    exact mul_nonneg (Finset.sum_nonneg fun k _ => mul_self_nonneg _) (by positivity)
  have heq : (∑ k, x k * x k) * (1 / (n : ℝ)) - μ * μ = ((∑ k, x k * x k) - (n : ℝ) * μ * μ) * (1 / (n : ℝ)) := by
    field_simp
  rw [heq]
  exact max_eq_left hnonneg

/-! ## The float constants whose values matter -/

theorem bits_zero : Ideal.ofBits .f32 0x00000000#32 = 0 := by
  simp [Ideal.ofBits, Ideal.ieee]
theorem bits_one : Ideal.ofBits .f32 0x3F800000#32 = 1 := by
  simp [Ideal.ofBits, Ideal.ieee, -EReal.coe_mul]; norm_num
theorem bits_40000 : Ideal.ofBits .f32 0x471C4000#32 = ((40000 : ℝ) : EReal) := by
  simp [Ideal.ofBits, Ideal.ieee, -EReal.coe_mul]; norm_num
theorem bits_640000 : Ideal.ofBits .f32 0x491C4000#32 = ((640000 : ℝ) : EReal) := by
  simp [Ideal.ofBits, Ideal.ieee, -EReal.coe_mul]; norm_num
/-- Single precision's 10⁻⁶ is a positive real. -/
theorem bits_small : ∃ r : ℝ, 0 < r ∧ Ideal.ofBits .f32 0x358637BD#32 = (r : EReal) := by
  refine ⟨_, ?_, by simp [Ideal.ofBits, Ideal.ieee, -EReal.coe_mul]; rfl⟩
  positivity

end Cert.Num

end
-- ==== Proof.Match1.lean ====
/-
  The kernel program's intermediate arrays are the reference's, one after the other.
  * The four node projections: a column slice of the product with the four weight matrices laid side by side is the product
    with that one matrix (entry (r, j) of either is Σₖ x(r, k)·w(k, j)).
  * The gathered rows: the kernel gathers rows of the second and third projections laid side by side and then cuts the
    two halves apart; the reference gathers each projection by itself; both read row (node number of edge r, clamped) and
    the same column.
-/
import proofs.«102085_j69784628625690_2_alg».proof.Proof.KernelIdeal.Model
import proofs.«102085_j69784628625690_2_alg».proof.Proof.KernelIdeal.Gather
import proofs.«102085_j69784628625690_2_alg».proof.Proof.RefGather
import proofs.«102085_j69784628625690_2_alg».proof.Proof.Gen.ReferenceIdeal.Read
import proofs.«102085_j69784628625690_2_alg».proof.Proof.Sums
import Idealize.ShloMosaic.Lib.IdealHost

set_option maxRecDepth 16384

noncomputable section

namespace Cert.Match

open Idealize.ShloMosaic Idealize.ShloMosaic.TcCoe Idealize.ShloMosaic.ValueIdx
open Cert.KernelIdeal Cert.KernelIdeal.Gen Cert.KernelIdeal.Stage Cert.ReferenceIdeal.Read Cert.Num

variable (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S40000x1, .f32⟩ : BufTy).Contents (Elt Ideal)) (x5 : (⟨S640000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal))

/-- Columns 0–127 of the fused projection are the reference's own product with that weight matrix. -/
theorem kA_eq : kA x0 x6 x7 x9 x10 = val_main_v0 (F := Ideal) x0 x6 := by
  funext i
  obtain ⟨r, j, rfl⟩ : ∃ (r : Fin 40000) (j : Fin 128), i = ix2 r j := ⟨i 0, i 1, eq_ix2 i⟩
  rw [val_main_v0_apply]
  unfold kA
  rw [slice2_axis1_apply 0 _ _ r j ⟨0 + j.val, by have := j.isLt; omega⟩ rfl]
  unfold kP projected
  refine Finset.sum_congr rfl fun q _ => ?_
  have hW : kW x6 x7 x9 x10 (ix2 q ⟨0 + j.val, by have := j.isLt; omega⟩) = x6 (ix2 q j) := by
    unfold kW
    refine concatenate_apply_piece (t := S128x512) 1 [⟨S128x128, x6⟩, ⟨S128x128, x7⟩, ⟨S128x128, x9⟩, ⟨S128x128, x10⟩] _ (ix2 q (⟨0 + j.val, by have := j.isLt; omega⟩ : Fin 512) : S128x512.Idx) 0 (show (0 : ℕ) < 4 from by decide) S128x128 x6 rfl rfl 0 rfl (ix2 q j) (fun b hb => ?_) rfl
    match b with
    | ⟨0, _⟩ => rfl
    | ⟨1, _⟩ => exact absurd rfl hb
  show x0 (ix2 r q) * kW x6 x7 x9 x10 (ix2 q ⟨0 + j.val, _⟩) = _
  rw [hW]
  have e1 : lidx_main_v0 (ix2 r j) q = ix2 r q := funext fun a => Fin.ext (by
    match a with
    | ⟨0, _⟩ => rfl
    | ⟨1, _⟩ => rfl)
  have e2 : ridx_main_v0 (ix2 r j) q = ix2 q j := funext fun a => Fin.ext (by
    match a with
    | ⟨0, _⟩ => rfl
    | ⟨1, _⟩ => rfl)
  rw [e1, e2]

/-- Columns 128–255 of the fused projection are the reference's own product with that weight matrix. -/
theorem kB_eq : kB x0 x6 x7 x9 x10 = val_main_v1 (F := Ideal) x0 x7 := by
  funext i
  obtain ⟨r, j, rfl⟩ : ∃ (r : Fin 40000) (j : Fin 128), i = ix2 r j := ⟨i 0, i 1, eq_ix2 i⟩
  rw [val_main_v1_apply]
  unfold kB
  rw [slice2_axis1_apply 128 _ _ r j ⟨128 + j.val, by have := j.isLt; omega⟩ rfl]
  unfold kP projected
  refine Finset.sum_congr rfl fun q _ => ?_
  have hW : kW x6 x7 x9 x10 (ix2 q ⟨128 + j.val, by have := j.isLt; omega⟩) = x7 (ix2 q j) := by
    unfold kW
    refine concatenate_apply_piece (t := S128x512) 1 [⟨S128x128, x6⟩, ⟨S128x128, x7⟩, ⟨S128x128, x9⟩, ⟨S128x128, x10⟩] _ (ix2 q (⟨128 + j.val, by have := j.isLt; omega⟩ : Fin 512) : S128x512.Idx) 1 (show (1 : ℕ) < 4 from by decide) S128x128 x7 rfl rfl 128 rfl (ix2 q j) (fun b hb => ?_) rfl
    match b with
    | ⟨0, _⟩ => rfl
    | ⟨1, _⟩ => exact absurd rfl hb
  show x0 (ix2 r q) * kW x6 x7 x9 x10 (ix2 q ⟨128 + j.val, _⟩) = _
  rw [hW]
  have e1 : lidx_main_v1 (ix2 r j) q = ix2 r q := funext fun a => Fin.ext (by
    match a with
    | ⟨0, _⟩ => rfl
    | ⟨1, _⟩ => rfl)
  have e2 : ridx_main_v1 (ix2 r j) q = ix2 q j := funext fun a => Fin.ext (by
    match a with
    | ⟨0, _⟩ => rfl
    | ⟨1, _⟩ => rfl)
  rw [e1, e2]

/-- Columns 256–383 of the fused projection are the reference's own product with that weight matrix. -/
theorem kD_eq : kD x0 x6 x7 x9 x10 = val_main_v2 (F := Ideal) x0 x9 := by
  funext i
  obtain ⟨r, j, rfl⟩ : ∃ (r : Fin 40000) (j : Fin 128), i = ix2 r j := ⟨i 0, i 1, eq_ix2 i⟩
  rw [val_main_v2_apply]
  unfold kD
  rw [slice2_axis1_apply 256 _ _ r j ⟨256 + j.val, by have := j.isLt; omega⟩ rfl]
  unfold kP projected
  refine Finset.sum_congr rfl fun q _ => ?_
  have hW : kW x6 x7 x9 x10 (ix2 q ⟨256 + j.val, by have := j.isLt; omega⟩) = x9 (ix2 q j) := by
    unfold kW
    refine concatenate_apply_piece (t := S128x512) 1 [⟨S128x128, x6⟩, ⟨S128x128, x7⟩, ⟨S128x128, x9⟩, ⟨S128x128, x10⟩] _ (ix2 q (⟨256 + j.val, by have := j.isLt; omega⟩ : Fin 512) : S128x512.Idx) 2 (show (2 : ℕ) < 4 from by decide) S128x128 x9 rfl rfl 256 rfl (ix2 q j) (fun b hb => ?_) rfl
    match b with
    | ⟨0, _⟩ => rfl
    | ⟨1, _⟩ => exact absurd rfl hb
  show x0 (ix2 r q) * kW x6 x7 x9 x10 (ix2 q ⟨256 + j.val, _⟩) = _
  rw [hW]
  have e1 : lidx_main_v2 (ix2 r j) q = ix2 r q := funext fun a => Fin.ext (by
    match a with
    | ⟨0, _⟩ => rfl
    | ⟨1, _⟩ => rfl)
  have e2 : ridx_main_v2 (ix2 r j) q = ix2 q j := funext fun a => Fin.ext (by
    match a with
    | ⟨0, _⟩ => rfl
    | ⟨1, _⟩ => rfl)
  rw [e1, e2]

/-- Columns 384–511 of the fused projection are the reference's own product with that weight matrix. -/
theorem kE_eq : kE x0 x6 x7 x9 x10 = val_main_v3 (F := Ideal) x0 x10 := by
  funext i
  obtain ⟨r, j, rfl⟩ : ∃ (r : Fin 40000) (j : Fin 128), i = ix2 r j := ⟨i 0, i 1, eq_ix2 i⟩
  rw [val_main_v3_apply]
  unfold kE
  rw [slice2_axis1_apply 384 _ _ r j ⟨384 + j.val, by have := j.isLt; omega⟩ rfl]
  unfold kP projected
  refine Finset.sum_congr rfl fun q _ => ?_
  have hW : kW x6 x7 x9 x10 (ix2 q ⟨384 + j.val, by have := j.isLt; omega⟩) = x10 (ix2 q j) := by
    unfold kW
    refine concatenate_apply_piece (t := S128x512) 1 [⟨S128x128, x6⟩, ⟨S128x128, x7⟩, ⟨S128x128, x9⟩, ⟨S128x128, x10⟩] _ (ix2 q (⟨384 + j.val, by have := j.isLt; omega⟩ : Fin 512) : S128x512.Idx) 3 (show (3 : ℕ) < 4 from by decide) S128x128 x10 rfl rfl 384 rfl (ix2 q j) (fun b hb => ?_) rfl
    match b with
    | ⟨0, _⟩ => rfl
    | ⟨1, _⟩ => exact absurd rfl hb
  show x0 (ix2 r q) * kW x6 x7 x9 x10 (ix2 q ⟨384 + j.val, _⟩) = _
  rw [hW]
  have e1 : lidx_main_v3 (ix2 r j) q = ix2 r q := funext fun a => Fin.ext (by
    match a with
    | ⟨0, _⟩ => rfl
    | ⟨1, _⟩ => rfl)
  have e2 : ridx_main_v3 (ix2 r j) q = ix2 q j := funext fun a => Fin.ext (by
    match a with
    | ⟨0, _⟩ => rfl
    | ⟨1, _⟩ => rfl)
  rw [e1, e2]

/-- The reference's list of source (or destination) node numbers, as the gather reads it, is the kernel's. -/
theorem rows_src : val_main_v10 (F := Ideal) x2 = rowIdx x2 := rfl
theorem rows_dst : val_main_v18 (F := Ideal) x3 = rowIdx x3 := rfl
theorem rows_src' : val_main_v33 (F := Ideal) x2 = rowIdx x2 := rfl

/-- The node the r-th edge's gather lands on. -/
def landing (a : (⟨S640000, .i32⟩ : BufTy).Contents (Elt Ideal)) (r : Fin 640000) : Fin 40000 :=
  ⟨min ((rowIdx a) (ix2 r (0 : Fin 1))).toInt.toNat 39999, by omega⟩

/-- The third projection at the source nodes: gathered as the right half of the side-by-side table, it is the reference's
    gather of that projection alone. -/
theorem kDs_eq : kDs x0 x2 x6 x7 x9 x10 = val_main_v11 (F := Ideal) x0 x2 x9 := by
  funext i
  obtain ⟨r, j, rfl⟩ : ∃ (r : Fin 640000) (j : Fin 128), i = ix2 r j := ⟨i 0, i 1, eq_ix2 i⟩
  unfold kDs
  rw [slice2_axis1_apply 128 _ _ r j ⟨128 + j.val, by have := j.isLt; omega⟩ rfl]
  unfold kG Host.gather
  have hL : gather_S40000x256_S640000x1_S640000x256_1_0_n_n_0_1_1256.operandIdx (ix2 r (⟨128 + j.val, by have := j.isLt; omega⟩ : Fin 256)) (rowIdx x2)
      = ix2 (landing x2 r) (⟨128 + j.val, by have := j.isLt; omega⟩ : Fin 256) := funext fun a => Fin.ext (by
    match a with
    | ⟨0, _⟩ => exact Cert.KernelIdeal.Gathered.wide_row _ _ _
    | ⟨1, _⟩ => exact Cert.KernelIdeal.Gathered.wide_col _ _ _)
  rw [hL]
  have hT : kTab x0 x6 x7 x9 x10 (ix2 (landing x2 r) (⟨128 + j.val, by have := j.isLt; omega⟩ : Fin 256)) = kD x0 x6 x7 x9 x10 (ix2 (landing x2 r) j) := by
    unfold kTab
    refine concatenate_pair_apply_right (t := S40000x256) (s₁ := S40000x128) (s₂ := S40000x128) 1 _ _ _ _ rfl rfl (ix2 (landing x2 r) j) (fun b hb => ?_) (Nat.add_comm _ _)
    match b with
    | ⟨0, _⟩ => rfl
    | ⟨1, _⟩ => exact absurd rfl hb
  rw [hT, kD_eq]
  unfold val_main_v11 Host.gather
  have hR : Cert.ReferenceIdeal.gather_S40000x128_S640000x1_S640000x128_1_0_n_n_0_1_1128.operandIdx (ix2 r j) (val_main_v10 (F := Ideal) x2)
      = ix2 (landing x2 r) j := funext fun a => Fin.ext (by
    match a with
    | ⟨0, _⟩ => exact Cert.ReferenceIdeal.Gathered.narrow_row _ _ _
    | ⟨1, _⟩ => exact Cert.ReferenceIdeal.Gathered.narrow_col _ _ _)
  rw [hR]

/-- The second projection at the source nodes: the left half of the same table. -/
theorem kBs_eq : kBs x0 x2 x6 x7 x9 x10 = val_main_v34 (F := Ideal) x0 x2 x7 := by
  funext i
  obtain ⟨r, j, rfl⟩ : ∃ (r : Fin 640000) (j : Fin 128), i = ix2 r j := ⟨i 0, i 1, eq_ix2 i⟩
  unfold kBs
  rw [slice2_axis1_apply 0 _ _ r j ⟨0 + j.val, by have := j.isLt; omega⟩ rfl]
  unfold kG Host.gather
  have hL : gather_S40000x256_S640000x1_S640000x256_1_0_n_n_0_1_1256.operandIdx (ix2 r (⟨0 + j.val, by have := j.isLt; omega⟩ : Fin 256)) (rowIdx x2)
      = ix2 (landing x2 r) (⟨0 + j.val, by have := j.isLt; omega⟩ : Fin 256) := funext fun a => Fin.ext (by
    match a with
    | ⟨0, _⟩ => exact Cert.KernelIdeal.Gathered.wide_row _ _ _
    | ⟨1, _⟩ => exact Cert.KernelIdeal.Gathered.wide_col _ _ _)
  rw [hL]
  have hT : kTab x0 x6 x7 x9 x10 (ix2 (landing x2 r) (⟨0 + j.val, by have := j.isLt; omega⟩ : Fin 256)) = kB x0 x6 x7 x9 x10 (ix2 (landing x2 r) j) := by
    unfold kTab
    refine concatenate_pair_apply_left (t := S40000x256) (s₁ := S40000x128) (s₂ := S40000x128) 1 _ _ _ _ rfl (ix2 (landing x2 r) j) (fun b => ?_)
    match b with
    | ⟨0, _⟩ => rfl
    | ⟨1, _⟩ => exact (Nat.zero_add _).symm
  rw [hT, kB_eq]
  unfold val_main_v34 Host.gather
  have hR : Cert.ReferenceIdeal.gather_S40000x128_S640000x1_S640000x128_1_0_n_n_0_1_1128.operandIdx (ix2 r j) (val_main_v33 (F := Ideal) x2)
      = ix2 (landing x2 r) j := funext fun a => Fin.ext (by
    match a with
    | ⟨0, _⟩ => exact Cert.ReferenceIdeal.Gathered.narrow_row _ _ _
    | ⟨1, _⟩ => exact Cert.ReferenceIdeal.Gathered.narrow_col _ _ _)
  rw [hR]

/-- The fourth projection at the destination nodes. -/
theorem kEd_eq : kEd x0 x3 x6 x7 x9 x10 = val_main_v19 (F := Ideal) x0 x3 x10 := by
  funext i
  obtain ⟨r, j, rfl⟩ : ∃ (r : Fin 640000) (j : Fin 128), i = ix2 r j := ⟨i 0, i 1, eq_ix2 i⟩
  unfold kEd Host.gather
  have hL : gather_S40000x128_S640000x1_S640000x128_1_0_n_n_0_1_1128.operandIdx (ix2 r j) (rowIdx x3)
      = ix2 (landing x3 r) j := funext fun a => Fin.ext (by
    match a with
    | ⟨0, _⟩ => exact Cert.KernelIdeal.Gathered.narrow_row _ _ _
    | ⟨1, _⟩ => exact Cert.KernelIdeal.Gathered.narrow_col _ _ _)
  rw [hL]
  show kE x0 x6 x7 x9 x10 (ix2 (landing x3 r) j) = _
  rw [kE_eq]
  unfold val_main_v19 Host.gather
  have hR : Cert.ReferenceIdeal.gather_S40000x128_S640000x1_S640000x128_1_0_n_n_0_1_1128.operandIdx (ix2 r j) (val_main_v18 (F := Ideal) x3)
      = ix2 (landing x3 r) j := funext fun a => Fin.ext (by
    match a with
    | ⟨0, _⟩ => exact Cert.ReferenceIdeal.Gathered.narrow_row _ _ _
    | ⟨1, _⟩ => exact Cert.ReferenceIdeal.Gathered.narrow_col _ _ _)
  rw [hR]

end Cert.Match

end
-- ==== Proof.Match2.lean ====
/-
  The edge gate's outputs, the two sums into destination nodes and the node update are the reference's.
  With u(r, j) = max(Σₖ e(r, k)·w(k, j) + d(r, j) + g(r, j), 0): the scaled edge feature u·f, the gate 1/(1 + exp(−u)) —
  which the kernel computes by one logistic operation and the reference by negation, exponential, sum and quotient, one
  function of u —, the gated message, the scatter-adds of equal arrays at equal node numbers, and (a + n/(s + 10⁻⁶))·f.
-/
import proofs.«102085_j69784628625690_2_alg».proof.Proof.Match1
import Idealize.ShloMosaic.Lib.IdealHost

set_option maxRecDepth 16384

noncomputable section

namespace Cert.Match

open Idealize.ShloMosaic Idealize.ShloMosaic.TcCoe Idealize.ShloMosaic.ValueIdx
open Cert.KernelIdeal Cert.KernelIdeal.Gen Cert.KernelIdeal.Stage Cert.ReferenceIdeal.Read Cert.Num

variable (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S40000x1, .f32⟩ : BufTy).Contents (Elt Ideal)) (x5 : (⟨S640000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal))

/-- The clamped pre-activation, entry by entry. -/
theorem pre_ref (r : Fin 640000) (j : Fin 128) :
    pre1 x1 x8 (val_main_v11 (F := Ideal) x0 x2 x9) (val_main_v19 (F := Ideal) x0 x3 x10) (ix2 r j) = val_main_v21 (F := Ideal) x0 x1 x2 x3 x8 x9 x10 (ix2 r j) := by
  rw [val_main_v21_apply, val_main_v20_apply, val_main_v12_apply, val_main_v4_apply, val_main_call0_v0_apply, val_main_call0_cst_apply]
  have e1 : ∀ k : Fin 128, lidx_main_v4 (ix2 r j) k = ix2 r k := fun k => funext fun a => Fin.ext (by
    match a with
    | ⟨0, _⟩ => rfl
    | ⟨1, _⟩ => rfl)
  have e2 : ∀ k : Fin 128, ridx_main_v4 (ix2 r j) k = ix2 k j := fun k => funext fun a => Fin.ext (by
    match a with
    | ⟨0, _⟩ => rfl
    | ⟨1, _⟩ => rfl)
  simp only [e1, e2]
  rfl

/-- The scaled edge features are the reference's. -/
theorem scaled_ref : scaled1 x1 x8 (val_main_v11 (F := Ideal) x0 x2 x9) (val_main_v19 (F := Ideal) x0 x3 x10) x5 = val_main_v49 (F := Ideal) x0 x1 x2 x3 x5 x8 x9 x10 := by
  funext i
  obtain ⟨r, j, rfl⟩ : ∃ (r : Fin 640000) (j : Fin 128), i = ix2 r j := ⟨i 0, i 1, eq_ix2 i⟩
  rw [val_main_v49_apply, val_main_v48_apply, ← pre_ref]
  have e1 : idx_main_v48 (ix2 r j) = ix2 r (0 : Fin 1) := funext fun a => Fin.ext (by
    match a with
    | ⟨0, _⟩ => rfl
    | ⟨1, _⟩ => rfl)
  rw [e1]
  rfl

/-- The gate is the reference's: `1/(1 + exp(−u))` on both sides. -/
theorem gate_ref : gate1 x1 x8 (val_main_v11 (F := Ideal) x0 x2 x9) (val_main_v19 (F := Ideal) x0 x3 x10) = val_main_v27 (F := Ideal) x0 x1 x2 x3 x8 x9 x10 := by
  funext i
  obtain ⟨r, j, rfl⟩ : ∃ (r : Fin 640000) (j : Fin 128), i = ix2 r j := ⟨i 0, i 1, eq_ix2 i⟩
  rw [val_main_v27_apply, val_main_v26_apply, val_main_cst_3_apply, val_main_v25_apply, val_main_v24_apply, val_main_cst_apply,
    val_main_v23_apply, val_main_v22_apply, ← pre_ref]
  show Ideal.logistic _ = Ideal.div (Ideal.ofBits .f32 0x3F800000#32) (Ideal.ofBits .f32 0x3F800000#32 + Ideal.exp (-_))
  rw [bits_one]
  rfl

/-- The gated message is the reference's. -/
theorem message_ref : message1 x1 x8 (val_main_v11 (F := Ideal) x0 x2 x9) (val_main_v19 (F := Ideal) x0 x3 x10) (val_main_v34 (F := Ideal) x0 x2 x7) = val_main_v35 (F := Ideal) x0 x1 x2 x3 x7 x8 x9 x10 := by
  funext i
  rw [val_main_v35_apply, ← gate_ref]
  rfl

theorem kX_eq : kX x0 x1 x2 x3 x5 x6 x7 x8 x9 x10 = val_main_v49 (F := Ideal) x0 x1 x2 x3 x5 x8 x9 x10 := by
  unfold kX
  rw [kDs_eq, kEd_eq]
  exact scaled_ref ..
theorem kS_eq : kS x0 x1 x2 x3 x6 x7 x8 x9 x10 = val_main_v27 (F := Ideal) x0 x1 x2 x3 x8 x9 x10 := by
  unfold kS
  rw [kDs_eq, kEd_eq]
  exact gate_ref ..
theorem kM_eq : kM x0 x1 x2 x3 x6 x7 x8 x9 x10 = val_main_v35 (F := Ideal) x0 x1 x2 x3 x7 x8 x9 x10 := by
  unfold kM
  rw [kDs_eq, kEd_eq, kBs_eq]
  exact message_ref ..
/-- Equal messages summed at equal node numbers. -/
theorem kNum_eq : kNum x0 x1 x2 x3 x6 x7 x8 x9 x10 = val_main_v38 (F := Ideal) x0 x1 x2 x3 x7 x8 x9 x10 := by
  unfold kNum
  rw [kM_eq]
  rfl
theorem kDen_eq : kDen x0 x1 x2 x3 x6 x7 x8 x9 x10 = val_main_v41 (F := Ideal) x0 x1 x2 x3 x8 x9 x10 := by
  unfold kDen
  rw [kS_eq]
  rfl

/-- The updated node features are the reference's. -/
theorem updated_ref : updated (val_main_v0 (F := Ideal) x0 x6) (val_main_v38 (F := Ideal) x0 x1 x2 x3 x7 x8 x9 x10) (val_main_v41 (F := Ideal) x0 x1 x2 x3 x8 x9 x10) x4
    = val_main_v47 (F := Ideal) x0 x1 x2 x3 x4 x6 x7 x8 x9 x10 := by
  funext i
  obtain ⟨r, j, rfl⟩ : ∃ (r : Fin 40000) (j : Fin 128), i = ix2 r j := ⟨i 0, i 1, eq_ix2 i⟩
  rw [val_main_v47_apply, val_main_v46_apply, val_main_v45_apply, val_main_v44_apply, val_main_v43_apply, val_main_v42_apply, val_main_cst_8_apply]
  have e1 : idx_main_v46 (ix2 r j) = ix2 r (0 : Fin 1) := funext fun a => Fin.ext (by
    match a with
    | ⟨0, _⟩ => rfl
    | ⟨1, _⟩ => rfl)
  rw [e1]
  rfl

theorem kH_eq : kH x0 x1 x2 x3 x4 x6 x7 x8 x9 x10 = val_main_v47 (F := Ideal) x0 x1 x2 x3 x4 x6 x7 x8 x9 x10 := by
  unfold kH
  rw [kA_eq, kNum_eq, kDen_eq]
  exact updated_ref ..

end Cert.Match

end
-- ==== Proof.KernelIdeal.Totals.lean ====
/-
  The model's small helpers read at an index: the sum of the rows of per-block column sums (a sum over two axes, the
  second of size one) reads at column q as the starting value plus the sum over the blocks; a row of copies of one
  constant reads that constant.
-/
import proofs.«102085_j69784628625690_2_alg».proof.Proof.KernelIdeal.Model
import Idealize.ShloMosaic.Lib.IdealHost

set_option maxRecDepth 16384

noncomputable section

namespace Cert.KernelIdeal.Stage

open Idealize.ShloMosaic Idealize.ShloMosaic.TcCoe Idealize.ShloMosaic.ValueIdx
open Cert.KernelIdeal Cert.KernelIdeal.Gen

/-- Added up over its first two axes, a 8×1×128 array reads, at column q, the starting value plus the sum over t of (t, 0, q). -/
theorem sum8 (y : FVec Ideal S8x1x128 .f32) (init : EReal) (q : Fin 128) :
    Ideal.hostReduceAdd reducesTo_S8x1x128_S128_d0_1 y init (ix1 q) = init + ∑ t : Fin 8, y (ix3 t (0 : Fin 1) q) := by
  unfold Ideal.hostReduceAdd
  refine congrArg (init + ·) ?_
  refine Finset.sum_bij' (fun i _ => (⟨(i 0).val, (i 0).isLt⟩ : Fin 8)) (fun t _ => ix3 t (0 : Fin 1) q) (fun _ _ => Finset.mem_univ _) ?_ ?_ (fun _ _ => rfl) ?_
  · intro t _
    rw [Finset.mem_filter]
    refine ⟨Finset.mem_univ _, ?_⟩
    funext b
    match b with
    | ⟨0, _⟩ => rfl
  · intro i hi
    rw [Finset.mem_filter] at hi
    have h2 : (i 2).val = q.val := congrArg (fun f : S128.Idx => (f 0).val) hi.2
    funext b
    refine Fin.ext ?_
    match b with
    | ⟨0, _⟩ => rfl
    | ⟨1, _⟩ => show (0 : ℕ) = (i 1).val; have : (i 1).val < 1 := (i 1).isLt; omega
    | ⟨2, _⟩ => exact h2.symm
  · intro i hi
    rw [Finset.mem_filter] at hi
    have h2 : (i 2).val = q.val := congrArg (fun f : S128.Idx => (f 0).val) hi.2
    refine congrArg y (funext fun b => Fin.ext ?_)
    match b with
    | ⟨0, _⟩ => rfl
    | ⟨1, _⟩ => show (i 1).val = 0; have : (i 1).val < 1 := (i 1).isLt; omega
    | ⟨2, _⟩ => exact h2

/-- The 8 rows of per-block column sums added up, read at column q. -/
theorem rowSum8_at (y : FVec Ideal S8x1x128 .f32) (q : Fin 128) :
    rowSum8 y (ix2 (0 : Fin 1) q) = Ideal.ofBits .f32 0x00000000#32 + ∑ t : Fin 8, y (ix3 t (0 : Fin 1) q) := by
  unfold rowSum8
  rw [shapeCast_a_1a_apply, hostReduceAdd_apply]
  exact sum8 y _ q

/-- Added up over its first two axes, a 160×1×128 array reads, at column q, the starting value plus the sum over t of (t, 0, q). -/
theorem sum160 (y : FVec Ideal S160x1x128 .f32) (init : EReal) (q : Fin 128) :
    Ideal.hostReduceAdd reducesTo_S160x1x128_S128_d0_1 y init (ix1 q) = init + ∑ t : Fin 160, y (ix3 t (0 : Fin 1) q) := by
  unfold Ideal.hostReduceAdd
  refine congrArg (init + ·) ?_
  refine Finset.sum_bij' (fun i _ => (⟨(i 0).val, (i 0).isLt⟩ : Fin 160)) (fun t _ => ix3 t (0 : Fin 1) q) (fun _ _ => Finset.mem_univ _) ?_ ?_ (fun _ _ => rfl) ?_
  · intro t _
    rw [Finset.mem_filter]
    refine ⟨Finset.mem_univ _, ?_⟩
    funext b
    match b with
    | ⟨0, _⟩ => rfl
  · intro i hi
    rw [Finset.mem_filter] at hi
    have h2 : (i 2).val = q.val := congrArg (fun f : S128.Idx => (f 0).val) hi.2
    funext b
    refine Fin.ext ?_
    match b with
    | ⟨0, _⟩ => rfl
    | ⟨1, _⟩ => show (0 : ℕ) = (i 1).val; have : (i 1).val < 1 := (i 1).isLt; omega
    | ⟨2, _⟩ => exact h2.symm
  · intro i hi
    rw [Finset.mem_filter] at hi
    have h2 : (i 2).val = q.val := congrArg (fun f : S128.Idx => (f 0).val) hi.2
    refine congrArg y (funext fun b => Fin.ext ?_)
    match b with
    | ⟨0, _⟩ => rfl
    | ⟨1, _⟩ => show (i 1).val = 0; have : (i 1).val < 1 := (i 1).isLt; omega
    | ⟨2, _⟩ => exact h2

/-- The 160 rows of per-block column sums added up, read at column q. -/
theorem rowSum160_at (y : FVec Ideal S160x1x128 .f32) (q : Fin 128) :
    rowSum160 y (ix2 (0 : Fin 1) q) = Ideal.ofBits .f32 0x00000000#32 + ∑ t : Fin 160, y (ix3 t (0 : Fin 1) q) := by
  unfold rowSum160
  rw [shapeCast_a_1a_apply, hostReduceAdd_apply]
  exact sum160 y _ q

theorem splat_at (b : BitVec 32) (i : S1x128.Idx) : splat1x128 b i = Ideal.ofBits .f32 b := by
  unfold splat1x128
  rw [broadcastInDim_scalar_apply]
  rfl

end Cert.KernelIdeal.Stage

end
-- ==== Proof.Stats.lean ====
/-
  Column statistics computed block by block. For an array of n = a·b rows taken as a blocks of b consecutive rows: the sum
  of the blocks' column sums is the column sum, so the mean computed from the blocks' sums is the mean; and, when the
  entries are ordinary reals, the variance computed from the blocks' sums of squares as mean square minus squared mean,
  clamped below at zero, is the mean squared deviation from the mean.
-/
import proofs.«102085_j69784628625690_2_alg».proof.Proof.Sums

noncomputable section

namespace Cert.Num

open Idealize.ShloMosaic

theorem sum_rows_blocks {M : Type*} [AddCommMonoid M] (n a b : ℕ) (h : n = a * b) (X : Fin n → M)
    (hb : ∀ (t : Fin a) (p : Fin b), b * t.val + p.val < n) :
    ∑ r : Fin n, X r = ∑ t : Fin a, ∑ p : Fin b, X ⟨b * t.val + p.val, hb t p⟩ := by
  subst h
  rw [← Equiv.sum_comp finProdFinEquiv X, Fintype.sum_prod_type]
  refine Finset.sum_congr rfl fun t _ => Finset.sum_congr rfl fun p _ => congrArg X (Fin.ext ?_)
  rw [finProdFinEquiv_apply_val, Nat.add_comm]

theorem col_mean (n a b : ℕ) (h : n = a * b) (Xc : Fin n → EReal)
    (hb : ∀ (t : Fin a) (p : Fin b), b * t.val + p.val < n) (z N : EReal) :
    Ideal.div (z + ∑ t : Fin a, ∑ p : Fin b, Xc ⟨b * t.val + p.val, hb t p⟩) N = Ideal.div (z + ∑ k, Xc k) N := by
  rw [← sum_rows_blocks n a b h Xc hb]

theorem col_var (n a b : ℕ) (h : n = a * b) (hn : 0 < n) (Xc : Fin n → EReal) (hX : ∀ k, IsNum (Xc k))
    (hb : ∀ (t : Fin a) (p : Fin b), b * t.val + p.val < n) :
    Max.max (Ideal.div (0 + ∑ t : Fin a, ∑ p : Fin b, Xc ⟨b * t.val + p.val, hb t p⟩ * Xc ⟨b * t.val + p.val, hb t p⟩) ((n : ℝ) : EReal)
        - Ideal.div (0 + ∑ t : Fin a, ∑ p : Fin b, Xc ⟨b * t.val + p.val, hb t p⟩) ((n : ℝ) : EReal)
          * Ideal.div (0 + ∑ t : Fin a, ∑ p : Fin b, Xc ⟨b * t.val + p.val, hb t p⟩) ((n : ℝ) : EReal)) 0
      = Ideal.div (0 + ∑ k, (Xc k - Ideal.div (0 + ∑ k', Xc k') ((n : ℝ) : EReal)) * (Xc k - Ideal.div (0 + ∑ k', Xc k') ((n : ℝ) : EReal)))
          ((n : ℝ) : EReal) := by
  rw [← sum_rows_blocks n a b h (fun k => Xc k * Xc k) hb, ← sum_rows_blocks n a b h Xc hb]
  simp only [zero_add]
  choose x hx using hX
  obtain rfl : Xc = fun k => ((x k : ℝ) : EReal) := funext hx
  exact variance_two_ways hn x

end Cert.Num

end
-- ==== Proof.RefNum.lean ====
/-
  The reference's two pre-normalisation arrays consist of ordinary reals when the float inputs do.

  Walking the reference's operations: a matrix product of real matrices is real; a gather only moves entries; sums,
  maxima and products of reals are real; the gate 1/(1 + exp(−u)) of a real u is a POSITIVE real; a scatter-add onto
  zeros gives, at each entry, a finite sum of the scattered entries — real when they are, and not negative when they are
  positive; so the summed gates plus 10⁻⁶ are positive reals, the quotient by them is real, and the updated node
  features (a + n/(s + 10⁻⁶))·f and the scaled edge features max(·, 0)·f are real.
-/
import proofs.«102085_j69784628625690_2_alg».proof.Proof.Gen.ReferenceIdeal.Read
import proofs.«102085_j69784628625690_2_alg».proof.Proof.Sums

noncomputable section

namespace Cert.ReferenceIdeal.Real

open Cert.ReferenceIdeal Cert.ReferenceIdeal.Gen Cert.ReferenceIdeal.Read Idealize.ShloMosaic Idealize.ShloMosaic.TcCoe Cert.Num

variable (x0 : (⟨S40000x128, .f32⟩ : BufTy).Contents (Elt Ideal)) (x1 : (⟨S640000x128, .f32⟩ : BufTy).Contents (Elt Ideal))
  (x2 x3 : (⟨S640000, .i32⟩ : BufTy).Contents (Elt Ideal))
  (x4 : (⟨S40000x1, .f32⟩ : BufTy).Contents (Elt Ideal)) (x5 : (⟨S640000x1, .f32⟩ : BufTy).Contents (Elt Ideal))
  (x6 x7 x8 x9 x10 : (⟨S128x128, .f32⟩ : BufTy).Contents (Elt Ideal))
  (h0 : ∀ i, IsNum (x0 i)) (h1 : ∀ i, IsNum (x1 i)) (h4 : ∀ i, IsNum (x4 i)) (h5 : ∀ i, IsNum (x5 i))
  (h6 : ∀ i, IsNum (x6 i)) (h7 : ∀ i, IsNum (x7 i)) (h8 : ∀ i, IsNum (x8 i)) (h9 : ∀ i, IsNum (x9 i)) (h10 : ∀ i, IsNum (x10 i))

include h0 h6 in
theorem num_v0 (i) : IsNum (val_main_v0 (F := Ideal) x0 x6 i) := by
  rw [val_main_v0_apply]; exact IsNum.sum _ _ fun k _ => (h0 _).mul (h6 _)
include h0 h7 in
theorem num_v1 (i) : IsNum (val_main_v1 (F := Ideal) x0 x7 i) := by
  rw [val_main_v1_apply]; exact IsNum.sum _ _ fun k _ => (h0 _).mul (h7 _)
include h0 h9 in
theorem num_v2 (i) : IsNum (val_main_v2 (F := Ideal) x0 x9 i) := by
  rw [val_main_v2_apply]; exact IsNum.sum _ _ fun k _ => (h0 _).mul (h9 _)
include h0 h10 in
theorem num_v3 (i) : IsNum (val_main_v3 (F := Ideal) x0 x10 i) := by
  rw [val_main_v3_apply]; exact IsNum.sum _ _ fun k _ => (h0 _).mul (h10 _)
include h1 h8 in
theorem num_v4 (i) : IsNum (val_main_v4 (F := Ideal) x1 x8 i) := by
  rw [val_main_v4_apply]; exact IsNum.sum _ _ fun k _ => (h1 _).mul (h8 _)
include h0 h9 in
theorem num_v11 (i) : IsNum (val_main_v11 (F := Ideal) x0 x2 x9 i) := by
  unfold val_main_v11 Host.gather; exact num_v2 x0 x9 h0 h9 _
include h0 h10 in
theorem num_v19 (i) : IsNum (val_main_v19 (F := Ideal) x0 x3 x10 i) := by
  unfold val_main_v19 Host.gather; exact num_v3 x0 x10 h0 h10 _
include h0 h7 in
theorem num_v34 (i) : IsNum (val_main_v34 (F := Ideal) x0 x2 x7 i) := by
  unfold val_main_v34 Host.gather; exact num_v1 x0 x7 h0 h7 _

include h0 h1 h8 h9 h10 in
theorem num_v21 (i) : IsNum (val_main_v21 (F := Ideal) x0 x1 x2 x3 x8 x9 x10 i) := by
  rw [val_main_v21_apply, val_main_v20_apply, val_main_v12_apply]
  have hz : val_main_call0_v0 (F := Ideal) i = 0 := by
    rw [val_main_call0_v0_apply, val_main_call0_cst_apply]; exact bits_zero
  rw [hz]
  exact (((num_v4 x1 x8 h1 h8 i).add (num_v11 x0 x2 x9 h0 h9 i)).add (num_v19 x0 x3 x10 h0 h10 i)).max IsNum.zero

include h0 h1 h8 h9 h10 in
/-- The gate is a positive real. -/
theorem pos_v27 (i) : ∃ r : ℝ, 0 < r ∧ val_main_v27 (F := Ideal) x0 x1 x2 x3 x8 x9 x10 i = (r : EReal) := by
  obtain ⟨r, hr⟩ := num_v21 x0 x1 x2 x3 x8 x9 x10 h0 h1 h8 h9 h10 i
  have h26 : val_main_v26 (F := Ideal) i = 1 := by
    rw [val_main_v26_apply, val_main_cst_3_apply]; exact bits_one
  have h24 : val_main_v24 (F := Ideal) i = 1 := by
    rw [val_main_v24_apply, val_main_cst_apply]; exact bits_one
  have h25 : val_main_v25 (F := Ideal) x0 x1 x2 x3 x8 x9 x10 i = ((1 + Real.exp (-r) : ℝ) : EReal) := by
    rw [val_main_v25_apply, val_main_v23_apply, val_main_v22_apply, hr, h24]
    show (1 : EReal) + Ideal.exp (-(r : EReal)) = _
    rw [← EReal.coe_neg, Ideal.exp_coe, ← EReal.coe_one, ← EReal.coe_add]
  have hpos : (0 : ℝ) < 1 + Real.exp (-r) := by positivity
  refine ⟨1 / (1 + Real.exp (-r)), by positivity, ?_⟩
  rw [val_main_v27_apply, h26, h25]
  show Ideal.div 1 _ = _
  rw [Ideal.div_coe hpos.ne', one_mul]

include h0 h1 h7 h8 h9 h10 in
theorem num_v35 (i) : IsNum (val_main_v35 (F := Ideal) x0 x1 x2 x3 x7 x8 x9 x10 i) := by
  rw [val_main_v35_apply]
  obtain ⟨r, -, hr⟩ := pos_v27 x0 x1 x2 x3 x8 x9 x10 h0 h1 h8 h9 h10 i
  rw [hr]
  exact (IsNum.coe r).mul (num_v34 x0 x2 x7 h0 h7 i)

include h0 h1 h7 h8 h9 h10 in
/-- The summed messages are real. -/
theorem num_v38 (i) : IsNum (val_main_v38 (F := Ideal) x0 x1 x2 x3 x7 x8 x9 x10 i) := by
  have hz : val_main_v36 (F := Ideal) i = 0 := by
    rw [val_main_v36_apply, val_main_cst_6_apply]; exact bits_zero
  unfold val_main_v38 Host.scatterAdd
  show IsNum (val_main_v36 (F := Ideal) i + ∑ j ∈ _, val_main_v35 (F := Ideal) x0 x1 x2 x3 x7 x8 x9 x10 j)
  rw [hz]
  exact IsNum.zero.add (IsNum.sum _ _ fun j _ => num_v35 x0 x1 x2 x3 x7 x8 x9 x10 h0 h1 h7 h8 h9 h10 j)

include h0 h1 h8 h9 h10 in
/-- The summed gates are real and not negative. -/
theorem nonneg_v41 (i) : IsNonneg (val_main_v41 (F := Ideal) x0 x1 x2 x3 x8 x9 x10 i) := by
  have hz : val_main_v39 (F := Ideal) i = 0 := by
    rw [val_main_v39_apply, val_main_cst_7_apply]; exact bits_zero
  unfold val_main_v41 Host.scatterAdd
  show IsNonneg (val_main_v39 (F := Ideal) i + ∑ j ∈ _, val_main_v27 (F := Ideal) x0 x1 x2 x3 x8 x9 x10 j)
  rw [hz]
  refine IsNonneg.zero.add (IsNonneg.sum _ _ fun j _ => ?_)
  obtain ⟨r, hr, e⟩ := pos_v27 x0 x1 x2 x3 x8 x9 x10 h0 h1 h8 h9 h10 j
  exact ⟨r, hr.le, e⟩

include h0 h1 h6 h7 h8 h9 h10 in
theorem num_v45 (i) : IsNum (val_main_v45 (F := Ideal) x0 x1 x2 x3 x6 x7 x8 x9 x10 i) := by
  rw [val_main_v45_apply, val_main_v44_apply, val_main_v43_apply]
  obtain ⟨s, hs, es⟩ := nonneg_v41 x0 x1 x2 x3 x8 x9 x10 h0 h1 h8 h9 h10 i
  obtain ⟨e, he, ee⟩ := bits_small
  have h42 : val_main_v42 (F := Ideal) i = (e : EReal) := by
    rw [val_main_v42_apply, val_main_cst_8_apply]; exact ee
  rw [es, h42]
  show IsNum (val_main_v0 (F := Ideal) x0 x6 i + Ideal.div (val_main_v38 (F := Ideal) x0 x1 x2 x3 x7 x8 x9 x10 i) ((s : EReal) + (e : EReal)))
  rw [← EReal.coe_add]
  exact (num_v0 x0 x6 h0 h6 i).add ((num_v38 x0 x1 x2 x3 x7 x8 x9 x10 h0 h1 h7 h8 h9 h10 i).div (by positivity))

include h0 h1 h4 h6 h7 h8 h9 h10 in
/-- The updated node features are real. -/
theorem num_v47 (i) : IsNum (val_main_v47 (F := Ideal) x0 x1 x2 x3 x4 x6 x7 x8 x9 x10 i) := by
  rw [val_main_v47_apply, val_main_v46_apply]
  exact (num_v45 x0 x1 x2 x3 x6 x7 x8 x9 x10 h0 h1 h6 h7 h8 h9 h10 i).mul (h4 _)

include h0 h1 h5 h8 h9 h10 in
/-- The scaled edge features are real. -/
theorem num_v49 (i) : IsNum (val_main_v49 (F := Ideal) x0 x1 x2 x3 x5 x8 x9 x10 i) := by
  rw [val_main_v49_apply, val_main_v48_apply]
  exact (num_v21 x0 x1 x2 x3 x8 x9 x10 h0 h1 h8 h9 h10 i).mul (h5 _)

end Cert.ReferenceIdeal.Real

end
-- ==== Proof.Match3.lean ====
/-
  The column statistics and the two results.
  On each side the mean is (0 + column sum)/n; the kernel's column sum is the sum of its blocks' column sums. The kernel's
  variance is max((0 + Σ x²)/n − mean², 0) with Σ x² again summed block by block; the reference's is (0 + Σ (x − mean)²)/n.
  The entries being ordinary reals, these agree. The normalised results then agree entry by entry:
  max((x − mean)·(variance + 10⁻⁵)^(−1/2)·γ + β, 0) on both sides.
-/
import proofs.«102085_j69784628625690_2_alg».proof.Proof.Match2
import proofs.«102085_j69784628625690_2_alg».proof.Proof.KernelIdeal.Totals
import proofs.«102085_j69784628625690_2_alg».proof.Proof.Stats
import proofs.«102085_j69784628625690_2_alg».proof.Proof.RefNum
import Idealize.ShloMosaic.Lib.IdealHost

set_option maxRecDepth 16384

noncomputable section

namespace Cert.Match

open Idealize.ShloMosaic Idealize.ShloMosaic.TcCoe Idealize.ShloMosaic.ValueIdx
open Cert.KernelIdeal Cert.KernelIdeal.Gen Cert.KernelIdeal.Stage Cert.ReferenceIdeal.Read Cert.Num

variable (x0 : (⟨S40000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S40000x1, .f32⟩ : BufTy).Contents (Elt Ideal)) (x5 : (⟨S640000x1, .f32⟩ : BufTy).Contents (Elt Ideal)) (x6 : (⟨S128x128, .f32⟩ : BufTy).Contents (Elt Ideal)) (x7 : (⟨S128x128, .f32⟩ : BufTy).Contents (Elt Ideal)) (x8 : (⟨S128x128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal))

variable (h0 : ∀ i, IsNum (x0 i)) (h1 : ∀ i, IsNum (x1 i)) (h4 : ∀ i, IsNum (x4 i)) (h5 : ∀ i, IsNum (x5 i))
  (h6 : ∀ i, IsNum (x6 i)) (h7 : ∀ i, IsNum (x7 i)) (h8 : ∀ i, IsNum (x8 i)) (h9 : ∀ i, IsNum (x9 i)) (h10 : ∀ i, IsNum (x10 i))

/-! ## The node side -/

/-- The mean the kernel takes from the blocks' sums, spelt out. -/
theorem kMeanH_form (j : Fin 128) : kMeanH x0 x1 x2 x3 x4 x6 x7 x8 x9 x10 (ix2 (0 : Fin 1) j)
    = Ideal.div (Ideal.ofBits .f32 0x00000000#32 + ∑ t : Fin 8, ∑ p : Fin 5000, (val_main_v47 (F := Ideal) x0 x1 x2 x3 x4 x6 x7 x8 x9 x10) (ix2 ⟨5000 * t.val + p.val, by have := t.isLt; have := p.isLt; omega⟩ j)) (Ideal.ofBits .f32 0x471C4000#32) := by
  unfold kMeanH
  rw [kH_eq, hostDivf_apply, rowSum8_at, splat_at]
  rfl

/-- The reference's mean, spelt out. -/
theorem v53_form (j : Fin 128) : val_main_v53 (F := Ideal) x0 x1 x2 x3 x4 x6 x7 x8 x9 x10 (ix2 (0 : Fin 1) j)
    = Ideal.div (Ideal.ofBits .f32 0x00000000#32 + ∑ k : Fin 40000, (val_main_v47 (F := Ideal) x0 x1 x2 x3 x4 x6 x7 x8 x9 x10) (ix2 k j)) (Ideal.ofBits .f32 0x471C4000#32) := by
  rw [val_main_v53_apply, val_main_v51_apply, val_main_v52_apply, val_main_cst_10_apply, val_main_v50_apply, val_main_cst_9_apply]
  have e : ∀ k : Fin 40000, idx_main_v50 (idx_main_v51 (ix2 (0 : Fin 1) j)) k = ix2 k j := fun k => funext fun a => Fin.ext (by
    match a with
    | ⟨0, _⟩ => rfl
    | ⟨1, _⟩ => rfl)
  simp only [e]
  rfl

/-- The column means agree: the blocks' sums add up to the column sums. -/
theorem kMeanH_at (j : Fin 128) : kMeanH x0 x1 x2 x3 x4 x6 x7 x8 x9 x10 (ix2 (0 : Fin 1) j) = val_main_v53 (F := Ideal) x0 x1 x2 x3 x4 x6 x7 x8 x9 x10 (ix2 (0 : Fin 1) j) := by
  rw [kMeanH_form, v53_form]
  exact col_mean 40000 8 5000 rfl (fun k => (val_main_v47 (F := Ideal) x0 x1 x2 x3 x4 x6 x7 x8 x9 x10) (ix2 k j)) (fun t p => by have := t.isLt; have := p.isLt; omega) _ _

include h0 h1 h4 h6 h7 h8 h9 h10 in
/-- The column variances agree: mean square minus squared mean, clamped at zero, is the mean squared deviation — the
    entries being ordinary reals. -/
theorem kVarH_at (j : Fin 128) : kVarH x0 x1 x2 x3 x4 x6 x7 x8 x9 x10 (ix2 (0 : Fin 1) j) = val_main_v60 (F := Ideal) x0 x1 x2 x3 x4 x6 x7 x8 x9 x10 (ix2 (0 : Fin 1) j) := by
  have hk : kVarH x0 x1 x2 x3 x4 x6 x7 x8 x9 x10 (ix2 (0 : Fin 1) j)
      = Max.max (Ideal.div (Ideal.ofBits .f32 0x00000000#32 + ∑ t : Fin 8, ∑ p : Fin 5000, (val_main_v47 (F := Ideal) x0 x1 x2 x3 x4 x6 x7 x8 x9 x10) (ix2 ⟨5000 * t.val + p.val, by have := t.isLt; have := p.isLt; omega⟩ j) * (val_main_v47 (F := Ideal) x0 x1 x2 x3 x4 x6 x7 x8 x9 x10) (ix2 ⟨5000 * t.val + p.val, by have := t.isLt; have := p.isLt; omega⟩ j)) (Ideal.ofBits .f32 0x471C4000#32)
          - kMeanH x0 x1 x2 x3 x4 x6 x7 x8 x9 x10 (ix2 (0 : Fin 1) j) * kMeanH x0 x1 x2 x3 x4 x6 x7 x8 x9 x10 (ix2 (0 : Fin 1) j)) (Ideal.ofBits .f32 0x00000000#32) := by
    unfold kVarH
    rw [kH_eq, maximumf_apply, subf_apply, mulf_apply, hostDivf_apply, rowSum8_at, splat_at, splat_at]
    rfl
  have hr : val_main_v60 (F := Ideal) x0 x1 x2 x3 x4 x6 x7 x8 x9 x10 (ix2 (0 : Fin 1) j)
      = Ideal.div (Ideal.ofBits .f32 0x00000000#32 + ∑ k : Fin 40000, ((val_main_v47 (F := Ideal) x0 x1 x2 x3 x4 x6 x7 x8 x9 x10) (ix2 k j) - val_main_v53 (F := Ideal) x0 x1 x2 x3 x4 x6 x7 x8 x9 x10 (ix2 (0 : Fin 1) j)) * ((val_main_v47 (F := Ideal) x0 x1 x2 x3 x4 x6 x7 x8 x9 x10) (ix2 k j) - val_main_v53 (F := Ideal) x0 x1 x2 x3 x4 x6 x7 x8 x9 x10 (ix2 (0 : Fin 1) j))) (Ideal.ofBits .f32 0x471C4000#32) := by
    rw [val_main_v60_apply, val_main_v58_apply, val_main_v59_apply, val_main_cst_12_apply, val_main_v57_apply, val_main_cst_11_apply]
    have e : ∀ k : Fin 40000, idx_main_v57 (idx_main_v58 (ix2 (0 : Fin 1) j)) k = ix2 k j := fun k => funext fun a => Fin.ext (by
      match a with
      | ⟨0, _⟩ => rfl
      | ⟨1, _⟩ => rfl)
    have e2 : ∀ k : Fin 40000, idx_main_v54 (ix2 k j : Cert.ReferenceIdeal.S40000x128.Idx) = ix2 (0 : Fin 1) j := fun k => funext fun a => Fin.ext (by
      match a with
      | ⟨0, _⟩ => rfl
      | ⟨1, _⟩ => rfl)
    simp only [e, val_main_v56_apply, val_main_v55_apply, val_main_v54_apply, e2]
    rfl
  rw [hk, hr, kMeanH_form, v53_form, bits_zero, bits_40000]
  exact col_var 40000 8 5000 rfl (by decide) (fun k => (val_main_v47 (F := Ideal) x0 x1 x2 x3 x4 x6 x7 x8 x9 x10) (ix2 k j)) (fun k => Cert.ReferenceIdeal.Real.num_v47 x0 x1 x2 x3 x4 x6 x7 x8 x9 x10 h0 h1 h4 h6 h7 h8 h9 h10 (ix2 k j)) (fun t p => by have := t.isLt; have := p.isLt; omega)

include h0 h1 h4 h6 h7 h8 h9 h10 in
/-- The node result is the reference's. -/
theorem kOutH_eq : kOutH x0 x1 x2 x3 x4 x6 x7 x8 x9 x10 x11 x12 = val_main_v98 (F := Ideal) x0 x1 x2 x3 x4 x6 x7 x8 x9 x10 x11 x12 := by
  funext i
  obtain ⟨r, j, rfl⟩ : ∃ (r : Fin 40000) (j : Fin 128), i = ix2 r j := ⟨i 0, i 1, eq_ix2 i⟩
  unfold kOutH
  rw [kH_eq]
  show Max.max (((val_main_v47 (F := Ideal) x0 x1 x2 x3 x4 x6 x7 x8 x9 x10) (ix2 r j) - kMeanH x0 x1 x2 x3 x4 x6 x7 x8 x9 x10 (ix2 (0 : Fin 1) j)) * Ideal.rsqrt (kVarH x0 x1 x2 x3 x4 x6 x7 x8 x9 x10 (ix2 (0 : Fin 1) j) + Ideal.ofBits .f32 0x3727C5AC#32)
      * shapeCast S1x128 x11 shapeCasts_S128_S1x128 (ix2 (0 : Fin 1) j) + shapeCast S1x128 x12 shapeCasts_S128_S1x128 (ix2 (0 : Fin 1) j)) (Ideal.ofBits .f32 0x00000000#32) = _
  rw [kMeanH_at, kVarH_at x0 x1 x2 x3 x4 x6 x7 x8 x9 x10 h0 h1 h4 h6 h7 h8 h9 h10, shapeCast_a_1a_apply, shapeCast_a_1a_apply]
  rw [val_main_v98_apply, val_main_v73_apply, val_main_v70_apply, val_main_v67_apply, val_main_v62_apply, val_main_v61_apply,
    val_main_v66_apply, val_main_v65_apply, val_main_v64_apply, val_main_v63_apply, val_main_cst_13_apply,
    val_main_v69_apply, val_main_v68_apply, val_main_v72_apply, val_main_v71_apply, val_main_call1_v0_apply, val_main_call1_cst_apply]
  have e1 : idx_main_v61 (ix2 r j : Cert.ReferenceIdeal.S40000x128.Idx) = ix2 (0 : Fin 1) j := funext fun a => Fin.ext (by
    match a with
    | ⟨0, _⟩ => rfl
    | ⟨1, _⟩ => rfl)
  have e2 : idx_main_v66 (ix2 r j : Cert.ReferenceIdeal.S40000x128.Idx) = ix2 (0 : Fin 1) j := funext fun a => Fin.ext (by
    match a with
    | ⟨0, _⟩ => rfl
    | ⟨1, _⟩ => rfl)
  have e3 : idx_main_v68 (idx_main_v69 (ix2 r j : Cert.ReferenceIdeal.S40000x128.Idx)) = ix1 j := funext fun a => Fin.ext (by
    match a with
    | ⟨0, _⟩ => rfl)
  have e4 : idx_main_v71 (idx_main_v72 (ix2 r j : Cert.ReferenceIdeal.S40000x128.Idx)) = ix1 j := funext fun a => Fin.ext (by
    match a with
    | ⟨0, _⟩ => rfl)
  rw [e1, e2, e3, e4]
  rfl

/-! ## The edge side -/

/-- The mean the kernel takes from the blocks' sums, spelt out. -/
theorem kMeanE_form (j : Fin 128) : kMeanE x0 x1 x2 x3 x5 x6 x7 x8 x9 x10 (ix2 (0 : Fin 1) j)
    = Ideal.div (Ideal.ofBits .f32 0x00000000#32 + ∑ t : Fin 160, ∑ p : Fin 4000, (val_main_v49 (F := Ideal) x0 x1 x2 x3 x5 x8 x9 x10) (ix2 ⟨4000 * t.val + p.val, by have := t.isLt; have := p.isLt; omega⟩ j)) (Ideal.ofBits .f32 0x491C4000#32) := by
  unfold kMeanE
  rw [kX_eq, hostDivf_apply, rowSum160_at, splat_at]
  rfl

/-- The reference's mean, spelt out. -/
theorem v77_form (j : Fin 128) : val_main_v77 (F := Ideal) x0 x1 x2 x3 x5 x8 x9 x10 (ix2 (0 : Fin 1) j)
    = Ideal.div (Ideal.ofBits .f32 0x00000000#32 + ∑ k : Fin 640000, (val_main_v49 (F := Ideal) x0 x1 x2 x3 x5 x8 x9 x10) (ix2 k j)) (Ideal.ofBits .f32 0x491C4000#32) := by
  rw [val_main_v77_apply, val_main_v75_apply, val_main_v76_apply, val_main_cst_15_apply, val_main_v74_apply, val_main_cst_14_apply]
  have e : ∀ k : Fin 640000, idx_main_v74 (idx_main_v75 (ix2 (0 : Fin 1) j)) k = ix2 k j := fun k => funext fun a => Fin.ext (by
    match a with
    | ⟨0, _⟩ => rfl
    | ⟨1, _⟩ => rfl)
  simp only [e]
  rfl

/-- The column means agree: the blocks' sums add up to the column sums. -/
theorem kMeanE_at (j : Fin 128) : kMeanE x0 x1 x2 x3 x5 x6 x7 x8 x9 x10 (ix2 (0 : Fin 1) j) = val_main_v77 (F := Ideal) x0 x1 x2 x3 x5 x8 x9 x10 (ix2 (0 : Fin 1) j) := by
  rw [kMeanE_form, v77_form]
  exact col_mean 640000 160 4000 rfl (fun k => (val_main_v49 (F := Ideal) x0 x1 x2 x3 x5 x8 x9 x10) (ix2 k j)) (fun t p => by have := t.isLt; have := p.isLt; omega) _ _

include h0 h1 h5 h8 h9 h10 in
/-- The column variances agree: mean square minus squared mean, clamped at zero, is the mean squared deviation — the
    entries being ordinary reals. -/
theorem kVarE_at (j : Fin 128) : kVarE x0 x1 x2 x3 x5 x6 x7 x8 x9 x10 (ix2 (0 : Fin 1) j) = val_main_v84 (F := Ideal) x0 x1 x2 x3 x5 x8 x9 x10 (ix2 (0 : Fin 1) j) := by
  have hk : kVarE x0 x1 x2 x3 x5 x6 x7 x8 x9 x10 (ix2 (0 : Fin 1) j)
      = Max.max (Ideal.div (Ideal.ofBits .f32 0x00000000#32 + ∑ t : Fin 160, ∑ p : Fin 4000, (val_main_v49 (F := Ideal) x0 x1 x2 x3 x5 x8 x9 x10) (ix2 ⟨4000 * t.val + p.val, by have := t.isLt; have := p.isLt; omega⟩ j) * (val_main_v49 (F := Ideal) x0 x1 x2 x3 x5 x8 x9 x10) (ix2 ⟨4000 * t.val + p.val, by have := t.isLt; have := p.isLt; omega⟩ j)) (Ideal.ofBits .f32 0x491C4000#32)
          - kMeanE x0 x1 x2 x3 x5 x6 x7 x8 x9 x10 (ix2 (0 : Fin 1) j) * kMeanE x0 x1 x2 x3 x5 x6 x7 x8 x9 x10 (ix2 (0 : Fin 1) j)) (Ideal.ofBits .f32 0x00000000#32) := by
    unfold kVarE
    rw [kX_eq, maximumf_apply, subf_apply, mulf_apply, hostDivf_apply, rowSum160_at, splat_at, splat_at]
    rfl
  have hr : val_main_v84 (F := Ideal) x0 x1 x2 x3 x5 x8 x9 x10 (ix2 (0 : Fin 1) j)
      = Ideal.div (Ideal.ofBits .f32 0x00000000#32 + ∑ k : Fin 640000, ((val_main_v49 (F := Ideal) x0 x1 x2 x3 x5 x8 x9 x10) (ix2 k j) - val_main_v77 (F := Ideal) x0 x1 x2 x3 x5 x8 x9 x10 (ix2 (0 : Fin 1) j)) * ((val_main_v49 (F := Ideal) x0 x1 x2 x3 x5 x8 x9 x10) (ix2 k j) - val_main_v77 (F := Ideal) x0 x1 x2 x3 x5 x8 x9 x10 (ix2 (0 : Fin 1) j))) (Ideal.ofBits .f32 0x491C4000#32) := by
    rw [val_main_v84_apply, val_main_v82_apply, val_main_v83_apply, val_main_cst_17_apply, val_main_v81_apply, val_main_cst_16_apply]
    have e : ∀ k : Fin 640000, idx_main_v81 (idx_main_v82 (ix2 (0 : Fin 1) j)) k = ix2 k j := fun k => funext fun a => Fin.ext (by
      match a with
      | ⟨0, _⟩ => rfl
      | ⟨1, _⟩ => rfl)
    have e2 : ∀ k : Fin 640000, idx_main_v78 (ix2 k j : Cert.ReferenceIdeal.S640000x128.Idx) = ix2 (0 : Fin 1) j := fun k => funext fun a => Fin.ext (by
      match a with
      | ⟨0, _⟩ => rfl
      | ⟨1, _⟩ => rfl)
    simp only [e, val_main_v80_apply, val_main_v79_apply, val_main_v78_apply, e2]
    rfl
  rw [hk, hr, kMeanE_form, v77_form, bits_zero, bits_640000]
  exact col_var 640000 160 4000 rfl (by decide) (fun k => (val_main_v49 (F := Ideal) x0 x1 x2 x3 x5 x8 x9 x10) (ix2 k j)) (fun k => Cert.ReferenceIdeal.Real.num_v49 x0 x1 x2 x3 x5 x8 x9 x10 h0 h1 h5 h8 h9 h10 (ix2 k j)) (fun t p => by have := t.isLt; have := p.isLt; omega)

include h0 h1 h5 h8 h9 h10 in
/-- The edge result is the reference's. -/
theorem kOutE_eq : kOutE x0 x1 x2 x3 x5 x6 x7 x8 x9 x10 x13 x14 = val_main_v99 (F := Ideal) x0 x1 x2 x3 x5 x8 x9 x10 x13 x14 := by
  funext i
  obtain ⟨r, j, rfl⟩ : ∃ (r : Fin 640000) (j : Fin 128), i = ix2 r j := ⟨i 0, i 1, eq_ix2 i⟩
  unfold kOutE
  rw [kX_eq]
  show Max.max (((val_main_v49 (F := Ideal) x0 x1 x2 x3 x5 x8 x9 x10) (ix2 r j) - kMeanE x0 x1 x2 x3 x5 x6 x7 x8 x9 x10 (ix2 (0 : Fin 1) j)) * Ideal.rsqrt (kVarE x0 x1 x2 x3 x5 x6 x7 x8 x9 x10 (ix2 (0 : Fin 1) j) + Ideal.ofBits .f32 0x3727C5AC#32)
      * shapeCast S1x128 x13 shapeCasts_S128_S1x128 (ix2 (0 : Fin 1) j) + shapeCast S1x128 x14 shapeCasts_S128_S1x128 (ix2 (0 : Fin 1) j)) (Ideal.ofBits .f32 0x00000000#32) = _
  rw [kMeanE_at, kVarE_at x0 x1 x2 x3 x5 x6 x7 x8 x9 x10 h0 h1 h5 h8 h9 h10, shapeCast_a_1a_apply, shapeCast_a_1a_apply]
  rw [val_main_v99_apply, val_main_v97_apply, val_main_v94_apply, val_main_v91_apply, val_main_v86_apply, val_main_v85_apply,
    val_main_v90_apply, val_main_v89_apply, val_main_v88_apply, val_main_v87_apply, val_main_cst_18_apply,
    val_main_v93_apply, val_main_v92_apply, val_main_v96_apply, val_main_v95_apply, val_main_call2_v0_apply, val_main_call2_cst_apply]
  have e1 : idx_main_v85 (ix2 r j : Cert.ReferenceIdeal.S640000x128.Idx) = ix2 (0 : Fin 1) j := funext fun a => Fin.ext (by
    match a with
    | ⟨0, _⟩ => rfl
    | ⟨1, _⟩ => rfl)
  have e2 : idx_main_v90 (ix2 r j : Cert.ReferenceIdeal.S640000x128.Idx) = ix2 (0 : Fin 1) j := funext fun a => Fin.ext (by
    match a with
    | ⟨0, _⟩ => rfl
    | ⟨1, _⟩ => rfl)
  have e3 : idx_main_v92 (idx_main_v93 (ix2 r j : Cert.ReferenceIdeal.S640000x128.Idx)) = ix1 j := funext fun a => Fin.ext (by
    match a with
    | ⟨0, _⟩ => rfl)
  have e4 : idx_main_v95 (idx_main_v96 (ix2 r j : Cert.ReferenceIdeal.S640000x128.Idx)) = ix1 j := funext fun a => Fin.ext (by
    match a with
    | ⟨0, _⟩ => rfl)
  rw [e1, e2, e3, e4]
  rfl

end Cert.Match

end
-- ==== Proof.Finite.lean ====
/-
  The precondition, decoded. It says: for each float input, every entry's absolute value is below +∞. An extended real
  whose absolute value max(x, −x) is below +∞ is neither infinity, so it is an ordinary real. The predicate is the
  conjunction, one input after the other, of "all entries pass"; it being all ones gives each conjunct, and each
  conjunct gives the fact at every entry.
-/
import proofs.«102085_j69784628625690_2_alg».proof.Pre_finite_inputs
import proofs.«102085_j69784628625690_2_alg».proof.Proof.Gen.Pre_finite_inputs
import proofs.«102085_j69784628625690_2_alg».proof.Proof.Sums
import Idealize.ShloMosaic.Lib.ReduceAll
import Idealize.ShloMosaic.Lib.Affine
import Idealize.ShloMosaic.Lib.ValueIdx

set_option maxRecDepth 16384

noncomputable section

namespace Cert.Pre_finite_inputs.Decode

open Idealize.ShloMosaic Idealize.ShloMosaic.ValueIdx Cert.Pre_finite_inputs Cert.Pre_finite_inputs.Gen Cert.Num

instance : Subsingleton S_.Idx := ⟨fun a b => funext fun d => d.elim0⟩

theorem bits_inf : Ideal.ofBits .f32 0x7F800000#32 = ⊤ := by
  simp [Ideal.ofBits, Ideal.ieee]

/-- An extended real whose absolute value is below +∞ is an ordinary real. -/
theorem num_of_lt (x : EReal) (h : Ideal.cmp .olt (max x (-x)) (Ideal.ofBits .f32 0x7F800000#32) = 1#1) : IsNum x := by
  rw [bits_inf] at h
  have hlt : max x (-x) < ⊤ := by
    unfold Ideal.cmp at h
    by_contra hn
    simp [hn] at h
  induction x using EReal.rec with
  | bot => simp at hlt
  | coe r => exact ⟨r, rfl⟩
  | top => simp at hlt

/-- "All entries pass" gives the fact at every entry. -/
theorem num_of_all {s : Shape} {axes : List (Fin s.rank)} (x : FVec Ideal s .f32) (hb : (S_ : Shape).BroadcastsInDim s ![])
    (h' : s.ReducesTo axes S_)
    (e : Host.reduce IntOp.andi (cmpf .olt (Host.absf x) (broadcastInDim s ![] hb (constant (F := Ideal) S_ .f32 0x7F800000#32))) (constantI S_ 1 1#1) h' h_S_ ix0 = 1#1)
    (i : s.Idx) : IsNum (x i) := by
  have hi := Host.reduce_andi_all _ _ h' h_S_ ix0 e i
  exact num_of_lt (x i) hi

theorem decode (a0 : FVec Ideal S40000x128 .f32) (a1 : FVec Ideal S640000x128 .f32) (a4 : FVec Ideal S40000x1 .f32) (a5 : FVec Ideal S640000x1 .f32) (a6 : FVec Ideal S128x128 .f32) (a7 : FVec Ideal S128x128 .f32) (a8 : FVec Ideal S128x128 .f32) (a9 : FVec Ideal S128x128 .f32) (a10 : FVec Ideal S128x128 .f32) (a11 : FVec Ideal S128 .f32) (a12 : FVec Ideal S128 .f32) (a13 : FVec Ideal S128 .f32) (a14 : FVec Ideal S128 .f32) (a2 a3 : IVec S640000 32)
    (h : fn (F := Ideal) a0 a1 a2 a3 a4 a5 a6 a7 a8 a9 a10 a11 a12 a13 a14 = fun _ => 1#1) :
    (∀ i, IsNum (a0 i)) ∧ (∀ i, IsNum (a1 i)) ∧ (∀ i, IsNum (a4 i)) ∧ (∀ i, IsNum (a5 i)) ∧ (∀ i, IsNum (a6 i)) ∧ (∀ i, IsNum (a7 i)) ∧ (∀ i, IsNum (a8 i)) ∧ (∀ i, IsNum (a9 i)) ∧ (∀ i, IsNum (a10 i)) ∧ (∀ i, IsNum (a11 i)) ∧ (∀ i, IsNum (a12 i)) ∧ (∀ i, IsNum (a13 i)) ∧ (∀ i, IsNum (a14 i)) := by
  have h0 := congrFun h ix0
  dsimp only [fn, fn_part1, fn_part2, fn_part3] at h0
  obtain ⟨h0, e14⟩ := IntOp.andi_eq_one.mp h0
  obtain ⟨h0, e13⟩ := IntOp.andi_eq_one.mp h0
  obtain ⟨h0, e12⟩ := IntOp.andi_eq_one.mp h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨e0, e1⟩ := IntOp.andi_eq_one.mp h0
  exact ⟨num_of_all a0 _ _ e0, num_of_all a1 _ _ e1, num_of_all a4 _ _ e4, num_of_all a5 _ _ e5, num_of_all a6 _ _ e6, num_of_all a7 _ _ e7, num_of_all a8 _ _ e8, num_of_all a9 _ _ e9, num_of_all a10 _ _ e10, num_of_all a11 _ _ e11, num_of_all a12 _ _ e12, num_of_all a13 _ _ e13, num_of_all a14 _ _ e14⟩

end Cert.Pre_finite_inputs.Decode

end
-- ==== Proof.lean ====
/-
  The certificate: the kernel program and its reference compute the same two arrays on finite inputs, at the exact reading
  of floats.

  The kernel program: four node projections as one product with the weights laid side by side (stage 0); the projections'
  rows gathered at the edges' source and destination nodes; the edge gate (stage 1), which also leaves per-block column
  sums of its scaled edge features and of their squares; the gated messages and the gates summed into their destination
  nodes; the node update (stage 2), with per-block column sums again; column means and variances from those sums, the
  variance as mean square minus squared mean, clamped below at zero; and the normalisation of the node features (stage 3)
  and of the edge features (stage 4). The reference does the same with one product per weight matrix, one gather per
  projection, whole-column sums, and the variance as the mean squared deviation from the mean.

  Each program runs to the end without a fault and leaves its arguments alone (the three frame claims). Nothing was
  rewritten when the kernel was idealized (`preserves` is `True`). The two idealized programs' results are equal entry
  by entry: the intermediate arrays agree one after the other, the block sums regroup the column sums, and — the entries
  being ordinary reals because the inputs are — the two ways to the variance agree.
-/
import proofs.«102085_j69784628625690_2_alg».proof.Defs
import proofs.«102085_j69784628625690_2_alg».proof.Proof.Gen.Kernel
import proofs.«102085_j69784628625690_2_alg».proof.Proof.Gen.KernelIdeal
import proofs.«102085_j69784628625690_2_alg».proof.Proof.Gen.ReferenceIdeal
import proofs.«102085_j69784628625690_2_alg».proof.Proof.Gen.Pre_finite_inputs
import proofs.«102085_j69784628625690_2_alg».proof.Proof.Gen.ReferenceIdeal.Run
import proofs.«102085_j69784628625690_2_alg».proof.Proof.Gen.ReferenceIdeal.Read
import proofs.«102085_j69784628625690_2_alg».proof.Proof.Kernel.Ends
import proofs.«102085_j69784628625690_2_alg».proof.Proof.KernelIdeal.Ends
import proofs.«102085_j69784628625690_2_alg».proof.Proof.KernelIdeal.Result
import proofs.«102085_j69784628625690_2_alg».proof.Proof.Match3
import proofs.«102085_j69784628625690_2_alg».proof.Proof.Finite

set_option maxRecDepth 16384

noncomputable section

namespace Cert.Proof

open Idealize.ShloMosaic Idealize.ShloMosaic.TcCoe Idealize.SL.Sem

theorem frame_p : Cert.frame_Kernel := fun m ρ _ => Cert.Kernel.Stage.frame m ρ
theorem frame_pi : Cert.frame_KernelIdeal := fun m ρ _ => Cert.KernelIdeal.Stage.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the model's two arrays: the kernel program by its walk, the reference because its own
    stage functions are the model's, given that the inputs are ordinary reals. -/
theorem algebraic : Cert.algebraic_KernelIdeal_ReferenceIdeal := by
  intro m ρ m' ρ' hpre hagree
  refine ⟨fun c => (Cert.KernelIdeal.Stage.kOutH (Cert.KernelIdeal.Stage.g0 m c) (Cert.KernelIdeal.Stage.g1 m c) (Cert.KernelIdeal.Stage.g2 m c) (Cert.KernelIdeal.Stage.g3 m c) (Cert.KernelIdeal.Stage.g4 m c) (Cert.KernelIdeal.Stage.g6 m c) (Cert.KernelIdeal.Stage.g7 m c) (Cert.KernelIdeal.Stage.g8 m c) (Cert.KernelIdeal.Stage.g9 m c) (Cert.KernelIdeal.Stage.g10 m c) (Cert.KernelIdeal.Stage.g11 m c) (Cert.KernelIdeal.Stage.g12 m c)), fun c => (Cert.KernelIdeal.Stage.kOutE (Cert.KernelIdeal.Stage.g0 m c) (Cert.KernelIdeal.Stage.g1 m c) (Cert.KernelIdeal.Stage.g2 m c) (Cert.KernelIdeal.Stage.g3 m c) (Cert.KernelIdeal.Stage.g5 m c) (Cert.KernelIdeal.Stage.g6 m c) (Cert.KernelIdeal.Stage.g7 m c) (Cert.KernelIdeal.Stage.g8 m c) (Cert.KernelIdeal.Stage.g9 m c) (Cert.KernelIdeal.Stage.g10 m c) (Cert.KernelIdeal.Stage.g13 m c) (Cert.KernelIdeal.Stage.g14 m c)), Cert.KernelIdeal.Stage.results m ρ, ?_⟩
  refine (θ_run Cert.ReferenceIdeal.defs _ _).mono (fun r h c => ?_) (Cert.ReferenceIdeal.Value.run (F := Ideal) m' ρ')
  obtain ⟨hf0, hf1, hf4, hf5, hf6, hf7, hf8, hf9, hf10, -, -, -, -⟩ := Cert.Pre_finite_inputs.Decode.decode _ _ _ _ _ _ _ _ _ _ _ _ _ _ _ (hpre c)
  obtain ⟨e0, e1, e2, e3, e4, e5, e6, e7, e8, e9, e10, e11, e12, e13, e14⟩ := hagree c
  refine ⟨(h c).1.trans ?_, (h c).2.1.trans ?_, (h c).2.2⟩
  · rw [Cert.ReferenceIdeal.Read.val_main_v98_eq, e0, e1, e2, e3, e4, e6, e7, e8, e9, e10, e11, e12]
    exact (Cert.Match.kOutH_eq (Cert.KernelIdeal.Stage.g0 m c) (Cert.KernelIdeal.Stage.g1 m c) (Cert.KernelIdeal.Stage.g2 m c) (Cert.KernelIdeal.Stage.g3 m c) (Cert.KernelIdeal.Stage.g4 m c) (Cert.KernelIdeal.Stage.g6 m c) (Cert.KernelIdeal.Stage.g7 m c) (Cert.KernelIdeal.Stage.g8 m c) (Cert.KernelIdeal.Stage.g9 m c) (Cert.KernelIdeal.Stage.g10 m c) (Cert.KernelIdeal.Stage.g11 m c) (Cert.KernelIdeal.Stage.g12 m c) hf0 hf1 hf4 hf6 hf7 hf8 hf9 hf10).symm
  · rw [Cert.ReferenceIdeal.Read.val_main_v99_eq, e0, e1, e2, e3, e5, e8, e9, e10, e13, e14]
    exact (Cert.Match.kOutE_eq (Cert.KernelIdeal.Stage.g0 m c) (Cert.KernelIdeal.Stage.g1 m c) (Cert.KernelIdeal.Stage.g2 m c) (Cert.KernelIdeal.Stage.g3 m c) (Cert.KernelIdeal.Stage.g5 m c) (Cert.KernelIdeal.Stage.g6 m c) (Cert.KernelIdeal.Stage.g7 m c) (Cert.KernelIdeal.Stage.g8 m c) (Cert.KernelIdeal.Stage.g9 m c) (Cert.KernelIdeal.Stage.g10 m c) (Cert.KernelIdeal.Stage.g13 m c) (Cert.KernelIdeal.Stage.g14 m c) hf0 hf1 hf5 hf8 hf9 hf10).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
